-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg16 : FVec F S128 .f32) (main_arg17 : FVec F S128 .f32) (main_arg18 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg13 : FVec F S128x64 .f32) (main_arg14 : FVec F S128x64 .f32) (main_arg15 : FVec F S128 .f32) (main_arg16 : FVec F S128 .f32) (main_arg17 : FVec F S128 .f32) (main_arg18 : FVec F S128 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_v63 main_v67

def fn_part2 {F : FTy → Type} [FloatOps F] (main_arg9 : FVec F S128x128 .f32) (main_arg10 : FVec F S128x128 .f32) (main_arg11 : FVec F S128x64 .f32) (main_arg12 : FVec F S64 .f32) (main_arg13 : FVec F S128x64 .f32) (main_arg14 : FVec F S128x64 .f32) (main_arg15 : FVec F S128 .f32) (main_arg16 : FVec F S128 .f32) (main_arg17 : FVec F S128 .f32) (main_arg18 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_v48 main_v49 main_v50

def fn_part1 {F : FTy → Type} [FloatOps F] (main_arg6 : FVec F S128x128 .f32) (main_arg7 : FVec F S128x128 .f32) (main_arg8 : FVec F S128 .f32) (main_arg9 : FVec F S128x128 .f32) (main_arg10 : FVec F S128x128 .f32) (main_arg11 : FVec F S128x64 .f32) (main_arg12 : FVec F S64 .f32) (main_arg13 : FVec F S128x64 .f32) (main_arg14 : FVec F S128x64 .f32) (main_arg15 : FVec F S128 .f32) (main_arg16 : FVec F S128 .f32) (main_arg17 : FVec F S128 .f32) (main_arg18 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128x128 .f32) (main_arg7 : FVec F S128x128 .f32) (main_arg8 : FVec F S128 .f32) (main_arg9 : FVec F S128x128 .f32) (main_arg10 : FVec F S128x128 .f32) (main_arg11 : FVec F S128x64 .f32) (main_arg12 : FVec F S64 .f32) (main_arg13 : FVec F S128x64 .f32) (main_arg14 : FVec F S128x64 .f32) (main_arg15 : FVec F S128 .f32) (main_arg16 : FVec F S128 .f32) (main_arg17 : FVec F S128 .f32) (main_arg18 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 112
  | .vmem => 55
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128x64, .f32⟩
  | .hbm, ⟨12, _⟩ => ⟨S64, .f32⟩
  | .hbm, ⟨13, _⟩ => ⟨S128x64, .f32⟩
  | .hbm, ⟨14, _⟩ => ⟨S128x64, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S128x128, .f32⟩
  | .hbm, ⟨33, _⟩ => ⟨S128x128, .f32⟩
  | .hbm, ⟨34, _⟩ => ⟨S128x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S1x128, .f32⟩
  | .hbm, ⟨53, _⟩ => ⟨S1x128, .f32⟩
  | .hbm, ⟨54, _⟩ => ⟨S_, .f32⟩
  | .hbm, ⟨55, _⟩ => ⟨S1x128, .f32⟩
  | .hbm, ⟨56, _⟩ => ⟨S1x128, .f32⟩
  | .hbm, ⟨57, _⟩ => ⟨S_, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S1x128, .f32⟩
  | .hbm, ⟨83, _⟩ => ⟨S1x128, .f32⟩
  | .hbm, ⟨84, _⟩ => ⟨S_, .f32⟩
  | .hbm, ⟨85, _⟩ => ⟨S1x128, .f32⟩
  | .hbm, ⟨86, _⟩ => ⟨S1x128, .f32⟩
  | .hbm, ⟨87, _⟩ => ⟨S_, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S50000x128, .f32⟩
  | .hbm, ⟨95, _⟩ => ⟨S_, .i32⟩
  | .hbm, ⟨96, _⟩ => ⟨S800000, .i32⟩
  | .hbm, ⟨97, _⟩ => ⟨S800000, .i1⟩
  | .hbm, ⟨98, _⟩ => ⟨S_, .i32⟩
  | .hbm, ⟨99, _⟩ => ⟨S800000, .i32⟩
  | .hbm, ⟨100, _⟩ => ⟨S800000, .i32⟩
  | .hbm, ⟨101, _⟩ => ⟨S800000, .i32⟩
  | .hbm, ⟨102, _⟩ => ⟨S800000x1, .i32⟩
  | .hbm, ⟨103, _⟩ => ⟨S800000x128, .f32⟩
  | .hbm, ⟨104, _⟩ => ⟨S_, .f32⟩
  | .hbm, ⟨105, _⟩ => ⟨S50000x128, .f32⟩
  | .hbm, ⟨106, _⟩ => ⟨S800000x1, .i32⟩
  | .hbm, ⟨107, _⟩ => ⟨S50000x128, .f32⟩
  | .hbm, ⟨108, _⟩ => ⟨S50000x128, .f32⟩
  | .hbm, ⟨109, _⟩ => ⟨S50000x128, .f32⟩
  | .hbm, ⟨110, _⟩ => ⟨S1x64, .f32⟩
  | .hbm, ⟨111, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S128x128, .f32⟩
  | .local _ .vmem, ⟨28, _⟩ => ⟨S128x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S128x64, .f32⟩
  | .local _ .vmem, ⟨51, _⟩ => ⟨S128x64, .f32⟩
  | .local _ .vmem, ⟨52, _⟩ => ⟨S1x64, .f32⟩
  | .local _ .vmem, ⟨53, _⟩ => ⟨S2000x64, .f32⟩
  | .local _ .vmem, ⟨54, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_cst_0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst_1 : Ref sig .tc := ⟨.hbm, 25, rfl⟩
abbrev main_v4 : Ref sig .tc := ⟨.hbm, 26, rfl⟩
abbrev main_v5 : Ref sig .tc := ⟨.hbm, 27, rfl⟩
abbrev main_cst_2 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25_0 : Ref sig .tc := ⟨.hbm, 51, rfl⟩
abbrev main_v25_1 : Ref sig .tc := ⟨.hbm, 52, rfl⟩
abbrev main_v25_2 : Ref sig .tc := ⟨.hbm, 53, rfl⟩
abbrev main_cst_5 : Ref sig .tc := ⟨.hbm, 54, rfl⟩
abbrev main_v26 : Ref sig .tc := ⟨.hbm, 55, rfl⟩
abbrev main_v27 : Ref sig .tc := ⟨.hbm, 56, rfl⟩
abbrev main_cst_6 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_7 : Ref sig .tc := ⟨.hbm, 65, rfl⟩
abbrev main_v35 : Ref sig .tc := ⟨.hbm, 66, rfl⟩
abbrev main_v36 : Ref sig .tc := ⟨.hbm, 67, rfl⟩
abbrev main_c_8 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_9 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48_0 : Ref sig .tc := ⟨.hbm, 81, rfl⟩
abbrev main_v48_1 : Ref sig .tc := ⟨.hbm, 82, rfl⟩
abbrev main_v48_2 : Ref sig .tc := ⟨.hbm, 83, rfl⟩
abbrev main_cst_10 : Ref sig .tc := ⟨.hbm, 84, rfl⟩
abbrev main_v49 : Ref sig .tc := ⟨.hbm, 85, rfl⟩
abbrev main_v50 : Ref sig .tc := ⟨.hbm, 86, rfl⟩
abbrev main_cst_11 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_c_12 : Ref sig .tc := ⟨.hbm, 95, rfl⟩
abbrev main_v58 : Ref sig .tc := ⟨.hbm, 96, rfl⟩
abbrev main_v59 : Ref sig .tc := ⟨.hbm, 97, rfl⟩
abbrev main_c_13 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_14 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg7_0 : Ref sig .tc := ⟨.vmem, 33, rfl⟩
abbrev cc2_scratch0 : Ref sig .tc := ⟨.vmem, 34, rfl⟩
abbrev cc2_scratch1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg6_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg3_0 : Ref sig .tc := ⟨.vmem, 51, rfl⟩
abbrev cc4_stg4_0 : Ref sig .tc := ⟨.vmem, 52, rfl⟩
abbrev cc4_stg5_0 : Ref sig .tc := ⟨.vmem, 53, rfl⟩
abbrev cc4_stg5_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc2_sem6_0 : DmaSem sig := 30
abbrev cc2_sem7_0 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem6_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem3_0 : DmaSem sig := 47
abbrev cc4_sem4_0 : DmaSem sig := 48
abbrev cc4_sem5_0 : DmaSem sig := 49
abbrev cc4_sem5_1 : DmaSem sig := 50

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v36 : BitVec 1 := Scalar.cmpi .eq arg0 c24_i32
  let v37 : BitVec 32 := Scalar.extui v36
  let c0_i32_23 : BitVec 32 := 0#32
  let v38 : BitVec 1 := Scalar.cmpi .ne v37 c0_i32_23
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v37 : BitVec 1 := Scalar.cmpi .eq arg0 c24_i32
  let v38 : BitVec 32 := Scalar.extui v37
  let c0_i32_23 : BitVec 32 := 0#32
  let v39 : BitVec 1 := Scalar.cmpi .ne v38 c0_i32_23
  v39

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x64.size a ≤ S50000x64.size a
  hwx4_5 : ∀ i : grid4.Coords, EltTy.bits .f32 = 32 ∨ (Rect.block (s := S50000x64) S2000x64.size (cc4_transform_5 i) (hinb4_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v23) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v25_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v25_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48_0) S2000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v48_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v48_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v48_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v57) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v69) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v11) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v70) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v71) S2000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 186
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128, .f32⟩
  | 5 => ⟨S128x128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128x64, .f32⟩
  | 12 => ⟨S64, .f32⟩
  | 13 => ⟨S128x64, .f32⟩
  | 14 => ⟨S128x64, .f32⟩
  | 15 => ⟨S128, .f32⟩
  | 16 => ⟨S128, .f32⟩
  | 17 => ⟨S128, .f32⟩
  | 18 => ⟨S128, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S_, .f32⟩
  | 33 => ⟨S800000, .f32⟩
  | 34 => ⟨S_, .f32⟩
  | 35 => ⟨S50000, .f32⟩
  | 36 => ⟨S800000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S50000x128, .f32⟩
  | 49 => ⟨S50000x128, .f32⟩
  | 50 => ⟨S50000x128, .f32⟩
  | 51 => ⟨S50000x128, .f32⟩
  | 52 => ⟨S_, .f32⟩
  | 53 => ⟨S128, .f32⟩
  | 54 => ⟨S_, .f32⟩
  | 55 => ⟨S128, .f32⟩
  | 56 => ⟨S128, .f32⟩
  | 57 => ⟨S1x128, .f32⟩
  | 58 => ⟨S50000x128, .f32⟩
  | 59 => ⟨S50000x128, .f32⟩
  | 60 => ⟨S50000x128, .f32⟩
  | 61 => ⟨S_, .f32⟩
  | 62 => ⟨S128, .f32⟩
  | 63 => ⟨S_, .f32⟩
  | 64 => ⟨S128, .f32⟩
  | 65 => ⟨S128, .f32⟩
  | 66 => ⟨S1x128, .f32⟩
  | 67 => ⟨S50000x128, .f32⟩
  | 68 => ⟨S50000x128, .f32⟩
  | 69 => ⟨S_, .f32⟩
  | 70 => ⟨S128, .f32⟩
  | 71 => ⟨S128, .f32⟩
  | 72 => ⟨S128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S_, .f32⟩
  | 100 => ⟨S800000, .f32⟩
  | 101 => ⟨S_, .f32⟩
  | 102 => ⟨S50000, .f32⟩
  | 103 => ⟨S800000x1, .i32⟩
  | 104 => ⟨S50000, .f32⟩
  | 105 => ⟨S_, .f32⟩
  | 106 => ⟨S50000, .f32⟩
  | 107 => ⟨S50000, .f32⟩
  | 108 => ⟨S50000x1, .f32⟩
  | 109 => ⟨S50000x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S50000x128, .f32⟩
  | 116 => ⟨S50000x128, .f32⟩
  | 117 => ⟨S50000x128, .f32⟩
  | 118 => ⟨S50000x128, .f32⟩
  | 119 => ⟨S_, .f32⟩
  | 120 => ⟨S128, .f32⟩
  | 121 => ⟨S_, .f32⟩
  | 122 => ⟨S128, .f32⟩
  | 123 => ⟨S128, .f32⟩
  | 124 => ⟨S1x128, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S1x128, .f32⟩
  | 6 => ⟨S50000x128, .f32⟩
  | 7 => ⟨S50000x128, .f32⟩
  | 8 => ⟨S_, .f32⟩
  | 9 => ⟨S128, .f32⟩
  | 10 => ⟨S128, .f32⟩
  | 11 => ⟨S128, .f32⟩
  | 12 => ⟨S1x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S_, .f32⟩
  | 35 => ⟨S50000x128, .f32⟩
  | 36 => ⟨S800000x1, .i32⟩
  | 37 => ⟨S50000x128, .f32⟩
  | 38 => ⟨S_, .f32⟩
  | 39 => ⟨S800000, .f32⟩
  | 40 => ⟨S_, .f32⟩
  | 41 => ⟨S50000, .f32⟩
  | 42 => ⟨S800000x1, .i32⟩
  | 43 => ⟨S50000, .f32⟩
  | 44 => ⟨S_, .f32⟩
  | 45 => ⟨S50000, .f32⟩
  | 46 => ⟨S50000, .f32⟩
  | 47 => ⟨S50000x1, .f32⟩
  | 48 => ⟨S50000x128, .f32⟩
  | 49 => ⟨S50000x128, .f32⟩
  | 50 => ⟨S50000x64, .f32⟩
  | 51 => ⟨S1x64, .f32⟩
  | 52 => ⟨S50000x64, .f32⟩
  | 53 => ⟨S50000x64, .f32⟩
  | 54 => ⟨S50000x64, .f32⟩
  | 55 => ⟨S50000x64, .f32⟩
  | 56 => ⟨S50000x64, .f32⟩
  | 57 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_4 : Ref sig .tc := ⟨.hbm, 52, rfl⟩
abbrev main_v27 : Ref sig .tc := ⟨.hbm, 53, rfl⟩
abbrev main_cst_5 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_6 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_8 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call0_cst : Ref sig .tc := ⟨.hbm, 83, rfl⟩
abbrev main_call0_v0 : Ref sig .tc := ⟨.hbm, 84, rfl⟩
abbrev main_v53 : Ref sig .tc := ⟨.hbm, 85, rfl⟩
abbrev main_c_9 : Ref sig .tc := ⟨.hbm, 86, rfl⟩
abbrev main_v54 : Ref sig .tc := ⟨.hbm, 87, rfl⟩
abbrev main_v55 : Ref sig .tc := ⟨.hbm, 88, rfl⟩
abbrev main_c_10 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_11 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_12 : Ref sig .tc := ⟨.hbm, 99, rfl⟩
abbrev main_v64 : Ref sig .tc := ⟨.hbm, 100, rfl⟩
abbrev main_cst_13 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_14 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_15 : Ref sig .tc := ⟨.hbm, 119, rfl⟩
abbrev main_v81 : Ref sig .tc := ⟨.hbm, 120, rfl⟩
abbrev main_cst_16 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_17 : Ref sig .tc := ⟨.hbm, 128, rfl⟩
abbrev main_v88 : Ref sig .tc := ⟨.hbm, 129, rfl⟩
abbrev main_cst_18 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_19 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_call1_cst : Ref sig .tc := ⟨.hbm, 150, rfl⟩
abbrev main_call1_v0 : Ref sig .tc := ⟨.hbm, 151, rfl⟩
abbrev main_v107 : Ref sig .tc := ⟨.hbm, 152, rfl⟩
abbrev main_c_20 : Ref sig .tc := ⟨.hbm, 153, rfl⟩
abbrev main_v108 : Ref sig .tc := ⟨.hbm, 154, rfl⟩
abbrev main_v109 : Ref sig .tc := ⟨.hbm, 155, rfl⟩
abbrev main_c_21 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_22 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_23 : Ref sig .tc := ⟨.hbm, 166, rfl⟩
abbrev main_v118 : Ref sig .tc := ⟨.hbm, 167, rfl⟩
abbrev main_cst_24 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_25 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.K.Assemble.lean ====
/- The whole run of the kernel program, put together from its five kernel regions.

   The program is five stretches of host operations, each followed by one kernel region.  For each region we
   assume (as a record) proof data for its pipeline at ANY contents of the tensor core's buffers when the region
   is entered, the body obligation for those data, full shares, nothing owed, and the two entailments that tie
   the data's invariant at the first and at the last grid point to the plain invariant "the scoped buffers no
   window stages, and the generator register".  From the five records we define the buffers' contents at every
   boundary between two items as a fold from the launch memory, run the ten items in order, and read the final
   memory off the last fold: every unscoped buffer ends at the last fold's contents.  Two corollaries: each of
   the nineteen argument arrays ends as launched, and the result array ends at what the last region's pipeline
   leaves in its output window's array. -/
import proofs.«126844_j8246337208554_1_alg».proof.Proof.Gen.Kernel.Launch
import proofs.«126844_j8246337208554_1_alg».proof.Proof.Gen.Kernel.Regions
import Idealize.ShloMosaic.Lib.Pipeline.RegionsLoop
import Idealize.ShloMosaic.Lib.Pipeline.FrameSuffix
import Idealize.ShloMosaic.Lib.Pipeline.Frame
import Idealize.ShloMosaic.Lib.Pipeline.Kit
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen (hostOps0 hostOps1 hostOps2 hostOps3 hostOps4
  hostOps0_sub hostOps1_sub hostOps2_sub hostOps3_sub hostOps4_sub
  hostOps0_fresh hostOps1_fresh hostOps2_fresh hostOps3_fresh hostOps4_fresh
  hostOps0_W hostOps1_W hostOps2_W hostOps3_W hostOps4_W
  hostOps0_writes hostOps1_writes hostOps2_writes hostOps3_writes hostOps4_writes
  launch0 launch1 launch2 launch3 launch4 cellOf_inj main_chain)

variable {F : FTy → Type} [FloatOps F]

/-- The tensor core's buffer contents on every device, read at its own references: what a region's proof data
    are stated at. -/
abbrev Vals (F : FTy → Type) : Type := (c : Dev nD) → (b : Ref sig .tc) → Buf (Elt F) ((c : Thread nD τ).loc b)

/-! ## What is assumed of each region -/

/-- Region 0: proof data for its pipeline at any entry contents `V`, reading their arrays off `V`; the body
    obligation; every share full; nothing owed; and the data's invariant entered from, and giving back, the
    plain invariant of the scoped rest and the generator register. -/
structure Region0 (F : FTy → Type) [FloatOps F] where
  dat : Vals F → (c : Dev nD) → Dat τ (Elt F) Unit ℕ (UR sig nD τ) ℕ cfg0 c
  A_eq : ∀ (V : Vals F) (c : Dev nD) (w : Fin cfg0.W), (dat V c).A w = V c (Pipeline.arrRef spec0 w)
  body : ∀ (V : Vals F) (c : Dev nD), BodyObligation (dat V c) (defs₀ (F := F)) Variants.none () Set.univ
  hq : ∀ (V : Vals F) (c : Dev nD) (w : Fin cfg0.W), (dat V c).q w = fullShare
  ho : ∀ (V : Vals F) (c : Dev nD) (t : Fin (cfg0.N + 1)), (dat V c).owed t = 0
  hrec : ∀ (V : Vals F) (c : Dev nD), (dat V c).recorded 0 = Set.univ
  hin : ∀ (V : Vals F) (c : Dev nD), (Pipeline.ΦA spec0 c : sProp (MT nD τ sig Unit (Elt F) ℕ (UR sig nD τ) ℕ)) ⊢ (dat V c).Φ 0
  hout : ∀ (V : Vals F) (c : Dev nD), (dat V c).Φ (Fin.last cfg0.N) ⊢ (Pipeline.ΦA spec0 c : sProp (MT nD τ sig Unit (Elt F) ℕ (UR sig nD τ) ℕ))

/-- Region 1: proof data for its pipeline at any entry contents `V`, reading their arrays off `V`; the body
    obligation; every share full; nothing owed; and the data's invariant entered from, and giving back, the
    plain invariant of the scoped rest and the generator register. -/
structure Region1 (F : FTy → Type) [FloatOps F] where
  dat : Vals F → (c : Dev nD) → Dat τ (Elt F) Unit ℕ (UR sig nD τ) ℕ cfg1 c
  A_eq : ∀ (V : Vals F) (c : Dev nD) (w : Fin cfg1.W), (dat V c).A w = V c (Pipeline.arrRef spec1 w)
  body : ∀ (V : Vals F) (c : Dev nD), BodyObligation (dat V c) (defs₀ (F := F)) Variants.none () Set.univ
  hq : ∀ (V : Vals F) (c : Dev nD) (w : Fin cfg1.W), (dat V c).q w = fullShare
  ho : ∀ (V : Vals F) (c : Dev nD) (t : Fin (cfg1.N + 1)), (dat V c).owed t = 0
  hrec : ∀ (V : Vals F) (c : Dev nD), (dat V c).recorded 0 = Set.univ
  hin : ∀ (V : Vals F) (c : Dev nD), (Pipeline.ΦA spec1 c : sProp (MT nD τ sig Unit (Elt F) ℕ (UR sig nD τ) ℕ)) ⊢ (dat V c).Φ 0
  hout : ∀ (V : Vals F) (c : Dev nD), (dat V c).Φ (Fin.last cfg1.N) ⊢ (Pipeline.ΦA spec1 c : sProp (MT nD τ sig Unit (Elt F) ℕ (UR sig nD τ) ℕ))

/-- Region 2: proof data for its pipeline at any entry contents `V`, reading their arrays off `V`; the body
    obligation; every share full; nothing owed; and the data's invariant entered from, and giving back, the
    plain invariant of the scoped rest and the generator register. -/
structure Region2 (F : FTy → Type) [FloatOps F] where
  dat : Vals F → (c : Dev nD) → Dat τ (Elt F) Unit ℕ (UR sig nD τ) ℕ cfg2 c
  A_eq : ∀ (V : Vals F) (c : Dev nD) (w : Fin cfg2.W), (dat V c).A w = V c (Pipeline.arrRef spec2 w)
  body : ∀ (V : Vals F) (c : Dev nD), BodyObligation (dat V c) (defs₀ (F := F)) Variants.none () Set.univ
  hq : ∀ (V : Vals F) (c : Dev nD) (w : Fin cfg2.W), (dat V c).q w = fullShare
  ho : ∀ (V : Vals F) (c : Dev nD) (t : Fin (cfg2.N + 1)), (dat V c).owed t = 0
  hrec : ∀ (V : Vals F) (c : Dev nD), (dat V c).recorded 0 = Set.univ
  hin : ∀ (V : Vals F) (c : Dev nD), (Pipeline.ΦA spec2 c : sProp (MT nD τ sig Unit (Elt F) ℕ (UR sig nD τ) ℕ)) ⊢ (dat V c).Φ 0
  hout : ∀ (V : Vals F) (c : Dev nD), (dat V c).Φ (Fin.last cfg2.N) ⊢ (Pipeline.ΦA spec2 c : sProp (MT nD τ sig Unit (Elt F) ℕ (UR sig nD τ) ℕ))

/-- Region 3: proof data for its pipeline at any entry contents `V`, reading their arrays off `V`; the body
    obligation; every share full; nothing owed; and the data's invariant entered from, and giving back, the
    plain invariant of the scoped rest and the generator register. -/
structure Region3 (F : FTy → Type) [FloatOps F] where
  dat : Vals F → (c : Dev nD) → Dat τ (Elt F) Unit ℕ (UR sig nD τ) ℕ cfg3 c
  A_eq : ∀ (V : Vals F) (c : Dev nD) (w : Fin cfg3.W), (dat V c).A w = V c (Pipeline.arrRef spec3 w)
  body : ∀ (V : Vals F) (c : Dev nD), BodyObligation (dat V c) (defs₀ (F := F)) Variants.none () Set.univ
  hq : ∀ (V : Vals F) (c : Dev nD) (w : Fin cfg3.W), (dat V c).q w = fullShare
  ho : ∀ (V : Vals F) (c : Dev nD) (t : Fin (cfg3.N + 1)), (dat V c).owed t = 0
  hrec : ∀ (V : Vals F) (c : Dev nD), (dat V c).recorded 0 = Set.univ
  hin : ∀ (V : Vals F) (c : Dev nD), (Pipeline.ΦA spec3 c : sProp (MT nD τ sig Unit (Elt F) ℕ (UR sig nD τ) ℕ)) ⊢ (dat V c).Φ 0
  hout : ∀ (V : Vals F) (c : Dev nD), (dat V c).Φ (Fin.last cfg3.N) ⊢ (Pipeline.ΦA spec3 c : sProp (MT nD τ sig Unit (Elt F) ℕ (UR sig nD τ) ℕ))

/-- Region 4: proof data for its pipeline at any entry contents `V`, reading their arrays off `V`; the body
    obligation; every share full; nothing owed; and the data's invariant entered from, and giving back, the
    plain invariant of the scoped rest and the generator register. -/
structure Region4 (F : FTy → Type) [FloatOps F] where
  dat : Vals F → (c : Dev nD) → Dat τ (Elt F) Unit ℕ (UR sig nD τ) ℕ cfg4 c
  A_eq : ∀ (V : Vals F) (c : Dev nD) (w : Fin cfg4.W), (dat V c).A w = V c (Pipeline.arrRef spec4 w)
  body : ∀ (V : Vals F) (c : Dev nD), BodyObligation (dat V c) (defs₀ (F := F)) Variants.none () Set.univ
  hq : ∀ (V : Vals F) (c : Dev nD) (w : Fin cfg4.W), (dat V c).q w = fullShare
  ho : ∀ (V : Vals F) (c : Dev nD) (t : Fin (cfg4.N + 1)), (dat V c).owed t = 0
  hrec : ∀ (V : Vals F) (c : Dev nD), (dat V c).recorded 0 = Set.univ
  hin : ∀ (V : Vals F) (c : Dev nD), (Pipeline.ΦA spec4 c : sProp (MT nD τ sig Unit (Elt F) ℕ (UR sig nD τ) ℕ)) ⊢ (dat V c).Φ 0
  hout : ∀ (V : Vals F) (c : Dev nD), (dat V c).Φ (Fin.last cfg4.N) ⊢ (Pipeline.ΦA spec4 c : sProp (MT nD τ sig Unit (Elt F) ℕ (UR sig nD τ) ℕ))

local notation "𝕄" => MT nD τ sig Unit (Elt F) ℕ (UR sig nD τ) ℕ

/-! ## The buffers' contents at every boundary between two items: a fold from the launch memory -/

section Run

variable (D0 : Region0 F) (D1 : Region1 F) (D2 : Region2 F) (D3 : Region3 F) (D4 : Region4 F)
variable (m : (ℓ : Loc nD τ sig) → Buf (Elt F) ℓ)

/-- Device `c`'s buffers at launch. -/
abbrev W0 : Dev nD → Valuation τ sig (Elt F) := fun c b => m (c, b)

/-- After the host stretch `hostOps0`: what region 0 is entered with. -/
abbrev W1 : Dev nD → Valuation τ sig (Elt F) := fun c => StableHlo.after hostOps0 (W0 m c)
/-- The same, read at the tensor core's own references. -/
abbrev V1 : Vals F := fun c b => W1 m c b
/-- After region 0: its windows' arrays at what its pipeline leaves in them, every other buffer as it was. -/
def W2 (c : Dev nD) : Valuation τ sig (Elt F) :=
  Pipeline.withArrays spec0 c (W1 m c) fun w => (D0.dat (V1 m) c).arrAt w cfg0.N
theorem W2_arr (c : Dev nD) (w : Fin cfg0.W) :
    W2 D0 m c (Proc.devRef .tc (Pipeline.arrRef spec0 w)) = (D0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 D0 m c (Proc.devRef .tc b) = W1 m c (Proc.devRef .tc b) := by
  unfold W2; exact Pipeline.withArrays_of_ne spec0 c _ _ b hb
/-- The same, read at the tensor core's own references. -/
abbrev V2 : Vals F := fun c b => W2 D0 m c b
theorem hF0 (c : Dev nD) (w : Fin cfg0.W) :
    (D0.dat (V1 m) c).arrAt w cfg0.N = V2 D0 m c (Pipeline.arrRef spec0 w) :=
  (W2_arr D0 m c w).symm
theorem hrest0 (c : Dev nD) : ∀ b, b ∉ Finset.univ.image (Pipeline.arrRef spec0) → V2 D0 m c b = V1 m c b :=
  fun b hb => W2_of_ne D0 m c b fun w e => hb (Finset.mem_image.mpr ⟨w, Finset.mem_univ _, e⟩)

/-- A host stretch leaves a buffer it does not write as it was. -/
theorem W1_keep (c : Dev nD) (r : Ref sig .tc) (h : r ∉ hostOps0_W) :
    W1 m c (Proc.devRef .tc r) = W0 m c (Proc.devRef .tc r) :=
  StableHlo.after_of_writes_sub hostOps0 _ hostOps0_writes h
/-- Region 0 leaves every buffer but its outputs' arrays as it was: a buffer that is no window's array is not
    touched, and an input window's array is only read. -/
theorem W2_keep (c : Dev nD) (r : Ref sig .tc) (h : r ∉ ([main_v25_0, main_v25_1, main_v25_2] : List (Ref sig .tc))) :
    W2 D0 m c (Proc.devRef .tc r) = W1 m c (Proc.devRef .tc r) := by
  by_cases hr : ∃ w, Pipeline.arrRef spec0 w = r
  · obtain ⟨w, rfl⟩ := hr
    have hin : (cfg0.win w).isOut = false :=
      (by decide : ∀ w : Fin 8, Pipeline.arrRef spec0 w ∉ ([main_v25_0, main_v25_1, main_v25_2] : List (Ref sig .tc)) → (cfg0.win w).isOut = false) w h
    exact (W2_arr D0 m c w).trans (((D0.dat (V1 m) c).arrAt_in w hin _).trans (D0.A_eq (V1 m) c w))
  · exact W2_of_ne D0 m c r fun w e => hr ⟨w, e⟩

/-- After the host stretch `hostOps1`: what region 1 is entered with. -/
abbrev W3 : Dev nD → Valuation τ sig (Elt F) := fun c => StableHlo.after hostOps1 (W2 D0 m c)
/-- The same, read at the tensor core's own references. -/
abbrev V3 : Vals F := fun c b => W3 D0 m c b
/-- After region 1: its windows' arrays at what its pipeline leaves in them, every other buffer as it was. -/
def W4 (c : Dev nD) : Valuation τ sig (Elt F) :=
  Pipeline.withArrays spec1 c (W3 D0 m c) fun w => (D1.dat (V3 D0 m) c).arrAt w cfg1.N
theorem W4_arr (c : Dev nD) (w : Fin cfg1.W) :
    W4 D0 D1 m c (Proc.devRef .tc (Pipeline.arrRef spec1 w)) = (D1.dat (V3 D0 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 D0 D1 m c (Proc.devRef .tc b) = W3 D0 m c (Proc.devRef .tc b) := by
  unfold W4; exact Pipeline.withArrays_of_ne spec1 c _ _ b hb
/-- The same, read at the tensor core's own references. -/
abbrev V4 : Vals F := fun c b => W4 D0 D1 m c b
theorem hF1 (c : Dev nD) (w : Fin cfg1.W) :
    (D1.dat (V3 D0 m) c).arrAt w cfg1.N = V4 D0 D1 m c (Pipeline.arrRef spec1 w) :=
  (W4_arr D0 D1 m c w).symm
theorem hrest1 (c : Dev nD) : ∀ b, b ∉ Finset.univ.image (Pipeline.arrRef spec1) → V4 D0 D1 m c b = V3 D0 m c b :=
  fun b hb => W4_of_ne D0 D1 m c b fun w e => hb (Finset.mem_image.mpr ⟨w, Finset.mem_univ _, e⟩)

/-- A host stretch leaves a buffer it does not write as it was. -/
theorem W3_keep (c : Dev nD) (r : Ref sig .tc) (h : r ∉ hostOps1_W) :
    W3 D0 m c (Proc.devRef .tc r) = W2 D0 m c (Proc.devRef .tc r) :=
  StableHlo.after_of_writes_sub hostOps1 _ hostOps1_writes h
/-- Region 1 leaves every buffer but its outputs' arrays as it was: a buffer that is no window's array is not
    touched, and an input window's array is only read. -/
theorem W4_keep (c : Dev nD) (r : Ref sig .tc) (h : r ∉ ([main_v34] : List (Ref sig .tc))) :
    W4 D0 D1 m c (Proc.devRef .tc r) = W3 D0 m c (Proc.devRef .tc r) := by
  by_cases hr : ∃ w, Pipeline.arrRef spec1 w = r
  · obtain ⟨w, rfl⟩ := hr
    have hin : (cfg1.win w).isOut = false :=
      (by decide : ∀ w : Fin 7, Pipeline.arrRef spec1 w ∉ ([main_v34] : List (Ref sig .tc)) → (cfg1.win w).isOut = false) w h
    exact (W4_arr D0 D1 m c w).trans (((D1.dat (V3 D0 m) c).arrAt_in w hin _).trans (D1.A_eq (V3 D0 m) c w))
  · exact W4_of_ne D0 D1 m c r fun w e => hr ⟨w, e⟩

/-- After the host stretch `hostOps2`: what region 2 is entered with. -/
abbrev W5 : Dev nD → Valuation τ sig (Elt F) := fun c => StableHlo.after hostOps2 (W4 D0 D1 m c)
/-- The same, read at the tensor core's own references. -/
abbrev V5 : Vals F := fun c b => W5 D0 D1 m c b
/-- After region 2: its windows' arrays at what its pipeline leaves in them, every other buffer as it was. -/
def W6 (c : Dev nD) : Valuation τ sig (Elt F) :=
  Pipeline.withArrays spec2 c (W5 D0 D1 m c) fun w => (D2.dat (V5 D0 D1 m) c).arrAt w cfg2.N
theorem W6_arr (c : Dev nD) (w : Fin cfg2.W) :
    W6 D0 D1 D2 m c (Proc.devRef .tc (Pipeline.arrRef spec2 w)) = (D2.dat (V5 D0 D1 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 D0 D1 D2 m c (Proc.devRef .tc b) = W5 D0 D1 m c (Proc.devRef .tc b) := by
  unfold W6; exact Pipeline.withArrays_of_ne spec2 c _ _ b hb
/-- The same, read at the tensor core's own references. -/
abbrev V6 : Vals F := fun c b => W6 D0 D1 D2 m c b
theorem hF2 (c : Dev nD) (w : Fin cfg2.W) :
    (D2.dat (V5 D0 D1 m) c).arrAt w cfg2.N = V6 D0 D1 D2 m c (Pipeline.arrRef spec2 w) :=
  (W6_arr D0 D1 D2 m c w).symm
theorem hrest2 (c : Dev nD) : ∀ b, b ∉ Finset.univ.image (Pipeline.arrRef spec2) → V6 D0 D1 D2 m c b = V5 D0 D1 m c b :=
  fun b hb => W6_of_ne D0 D1 D2 m c b fun w e => hb (Finset.mem_image.mpr ⟨w, Finset.mem_univ _, e⟩)

/-- A host stretch leaves a buffer it does not write as it was. -/
theorem W5_keep (c : Dev nD) (r : Ref sig .tc) (h : r ∉ hostOps2_W) :
    W5 D0 D1 m c (Proc.devRef .tc r) = W4 D0 D1 m c (Proc.devRef .tc r) :=
  StableHlo.after_of_writes_sub hostOps2 _ hostOps2_writes h
/-- Region 2 leaves every buffer but its outputs' arrays as it was: a buffer that is no window's array is not
    touched, and an input window's array is only read. -/
theorem W6_keep (c : Dev nD) (r : Ref sig .tc) (h : r ∉ ([main_v48_0, main_v48_1, main_v48_2] : List (Ref sig .tc))) :
    W6 D0 D1 D2 m c (Proc.devRef .tc r) = W5 D0 D1 m c (Proc.devRef .tc r) := by
  by_cases hr : ∃ w, Pipeline.arrRef spec2 w = r
  · obtain ⟨w, rfl⟩ := hr
    have hin : (cfg2.win w).isOut = false :=
      (by decide : ∀ w : Fin 8, Pipeline.arrRef spec2 w ∉ ([main_v48_0, main_v48_1, main_v48_2] : List (Ref sig .tc)) → (cfg2.win w).isOut = false) w h
    exact (W6_arr D0 D1 D2 m c w).trans (((D2.dat (V5 D0 D1 m) c).arrAt_in w hin _).trans (D2.A_eq (V5 D0 D1 m) c w))
  · exact W6_of_ne D0 D1 D2 m c r fun w e => hr ⟨w, e⟩

/-- After the host stretch `hostOps3`: what region 3 is entered with. -/
abbrev W7 : Dev nD → Valuation τ sig (Elt F) := fun c => StableHlo.after hostOps3 (W6 D0 D1 D2 m c)
/-- The same, read at the tensor core's own references. -/
abbrev V7 : Vals F := fun c b => W7 D0 D1 D2 m c b
/-- After region 3: its windows' arrays at what its pipeline leaves in them, every other buffer as it was. -/
def W8 (c : Dev nD) : Valuation τ sig (Elt F) :=
  Pipeline.withArrays spec3 c (W7 D0 D1 D2 m c) fun w => (D3.dat (V7 D0 D1 D2 m) c).arrAt w cfg3.N
theorem W8_arr (c : Dev nD) (w : Fin cfg3.W) :
    W8 D0 D1 D2 D3 m c (Proc.devRef .tc (Pipeline.arrRef spec3 w)) = (D3.dat (V7 D0 D1 D2 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 D0 D1 D2 D3 m c (Proc.devRef .tc b) = W7 D0 D1 D2 m c (Proc.devRef .tc b) := by
  unfold W8; exact Pipeline.withArrays_of_ne spec3 c _ _ b hb
/-- The same, read at the tensor core's own references. -/
abbrev V8 : Vals F := fun c b => W8 D0 D1 D2 D3 m c b
theorem hF3 (c : Dev nD) (w : Fin cfg3.W) :
    (D3.dat (V7 D0 D1 D2 m) c).arrAt w cfg3.N = V8 D0 D1 D2 D3 m c (Pipeline.arrRef spec3 w) :=
  (W8_arr D0 D1 D2 D3 m c w).symm
theorem hrest3 (c : Dev nD) : ∀ b, b ∉ Finset.univ.image (Pipeline.arrRef spec3) → V8 D0 D1 D2 D3 m c b = V7 D0 D1 D2 m c b :=
  fun b hb => W8_of_ne D0 D1 D2 D3 m c b fun w e => hb (Finset.mem_image.mpr ⟨w, Finset.mem_univ _, e⟩)

/-- A host stretch leaves a buffer it does not write as it was. -/
theorem W7_keep (c : Dev nD) (r : Ref sig .tc) (h : r ∉ hostOps3_W) :
    W7 D0 D1 D2 m c (Proc.devRef .tc r) = W6 D0 D1 D2 m c (Proc.devRef .tc r) :=
  StableHlo.after_of_writes_sub hostOps3 _ hostOps3_writes h
/-- Region 3 leaves every buffer but its outputs' arrays as it was: a buffer that is no window's array is not
    touched, and an input window's array is only read. -/
theorem W8_keep (c : Dev nD) (r : Ref sig .tc) (h : r ∉ ([main_v57] : List (Ref sig .tc))) :
    W8 D0 D1 D2 D3 m c (Proc.devRef .tc r) = W7 D0 D1 D2 m c (Proc.devRef .tc r) := by
  by_cases hr : ∃ w, Pipeline.arrRef spec3 w = r
  · obtain ⟨w, rfl⟩ := hr
    have hin : (cfg3.win w).isOut = false :=
      (by decide : ∀ w : Fin 7, Pipeline.arrRef spec3 w ∉ ([main_v57] : List (Ref sig .tc)) → (cfg3.win w).isOut = false) w h
    exact (W8_arr D0 D1 D2 D3 m c w).trans (((D3.dat (V7 D0 D1 D2 m) c).arrAt_in w hin _).trans (D3.A_eq (V7 D0 D1 D2 m) c w))
  · exact W8_of_ne D0 D1 D2 D3 m c r fun w e => hr ⟨w, e⟩

/-- After the host stretch `hostOps4`: what region 4 is entered with. -/
abbrev W9 : Dev nD → Valuation τ sig (Elt F) := fun c => StableHlo.after hostOps4 (W8 D0 D1 D2 D3 m c)
/-- The same, read at the tensor core's own references. -/
abbrev V9 : Vals F := fun c b => W9 D0 D1 D2 D3 m c b
/-- After region 4: its windows' arrays at what its pipeline leaves in them, every other buffer as it was. -/
def W10 (c : Dev nD) : Valuation τ sig (Elt F) :=
  Pipeline.withArrays spec4 c (W9 D0 D1 D2 D3 m c) fun w => (D4.dat (V9 D0 D1 D2 D3 m) c).arrAt w cfg4.N
theorem W10_arr (c : Dev nD) (w : Fin cfg4.W) :
    W10 D0 D1 D2 D3 D4 m c (Proc.devRef .tc (Pipeline.arrRef spec4 w)) = (D4.dat (V9 D0 D1 D2 D3 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 D0 D1 D2 D3 D4 m c (Proc.devRef .tc b) = W9 D0 D1 D2 D3 m c (Proc.devRef .tc b) := by
  unfold W10; exact Pipeline.withArrays_of_ne spec4 c _ _ b hb
/-- The same, read at the tensor core's own references. -/
abbrev V10 : Vals F := fun c b => W10 D0 D1 D2 D3 D4 m c b
theorem hF4 (c : Dev nD) (w : Fin cfg4.W) :
    (D4.dat (V9 D0 D1 D2 D3 m) c).arrAt w cfg4.N = V10 D0 D1 D2 D3 D4 m c (Pipeline.arrRef spec4 w) :=
  (W10_arr D0 D1 D2 D3 D4 m c w).symm
theorem hrest4 (c : Dev nD) : ∀ b, b ∉ Finset.univ.image (Pipeline.arrRef spec4) → V10 D0 D1 D2 D3 D4 m c b = V9 D0 D1 D2 D3 m c b :=
  fun b hb => W10_of_ne D0 D1 D2 D3 D4 m c b fun w e => hb (Finset.mem_image.mpr ⟨w, Finset.mem_univ _, e⟩)

/-- A host stretch leaves a buffer it does not write as it was. -/
theorem W9_keep (c : Dev nD) (r : Ref sig .tc) (h : r ∉ hostOps4_W) :
    W9 D0 D1 D2 D3 m c (Proc.devRef .tc r) = W8 D0 D1 D2 D3 m c (Proc.devRef .tc r) :=
  StableHlo.after_of_writes_sub hostOps4 _ hostOps4_writes h
/-- Region 4 leaves every buffer but its outputs' arrays as it was: a buffer that is no window's array is not
    touched, and an input window's array is only read. -/
theorem W10_keep (c : Dev nD) (r : Ref sig .tc) (h : r ∉ ([main_v71] : List (Ref sig .tc))) :
    W10 D0 D1 D2 D3 D4 m c (Proc.devRef .tc r) = W9 D0 D1 D2 D3 m c (Proc.devRef .tc r) := by
  by_cases hr : ∃ w, Pipeline.arrRef spec4 w = r
  · obtain ⟨w, rfl⟩ := hr
    have hin : (cfg4.win w).isOut = false :=
      (by decide : ∀ w : Fin 6, Pipeline.arrRef spec4 w ∉ ([main_v71] : List (Ref sig .tc)) → (cfg4.win w).isOut = false) w h
    exact (W10_arr D0 D1 D2 D3 D4 m c w).trans (((D4.dat (V9 D0 D1 D2 D3 m) c).arrAt_in w hin _).trans (D4.A_eq (V9 D0 D1 D2 D3 m) c w))
  · exact W10_of_ne D0 D1 D2 D3 D4 m c r fun w e => hr ⟨w, e⟩

/-! ### A buffer no item writes ends as launched -/

/-- A buffer that no host stretch writes and that is no region's output array holds at the end what it held at
    launch: the fold walks back through the ten items. -/
theorem W10_launch (c : Dev nD) (r : Ref sig .tc)
    (h1 : r ∉ hostOps0_W)
    (h2 : r ∉ ([main_v25_0, main_v25_1, main_v25_2] : List (Ref sig .tc)))
    (h3 : r ∉ hostOps1_W)
    (h4 : r ∉ ([main_v34] : List (Ref sig .tc)))
    (h5 : r ∉ hostOps2_W)
    (h6 : r ∉ ([main_v48_0, main_v48_1, main_v48_2] : List (Ref sig .tc)))
    (h7 : r ∉ hostOps3_W)
    (h8 : r ∉ ([main_v57] : List (Ref sig .tc)))
    (h9 : r ∉ hostOps4_W)
    (h10 : r ∉ ([main_v71] : List (Ref sig .tc))) :
    W10 D0 D1 D2 D3 D4 m c (Proc.devRef .tc r) = m ((c : Thread nD τ).loc r) :=
  (W10_keep D0 D1 D2 D3 D4 m c r h10).trans <|
  (W9_keep D0 D1 D2 D3 m c r h9).trans <|
  (W8_keep D0 D1 D2 D3 m c r h8).trans <|
  (W7_keep D0 D1 D2 m c r h7).trans <|
  (W6_keep D0 D1 D2 m c r h6).trans <|
  (W5_keep D0 D1 m c r h5).trans <|
  (W4_keep D0 D1 m c r h4).trans <|
  (W3_keep D0 m c r h3).trans <|
  (W2_keep D0 m c r h2).trans <|
  (W1_keep m c r h1).trans rfl

theorem W10_main_arg0 (c : Dev nD) : W10 D0 D1 D2 D3 D4 m c (Proc.devRef .tc main_arg0) = m ((c : Thread nD τ).loc main_arg0) :=
  W10_launch D0 D1 D2 D3 D4 m c main_arg0 (by decide) (by decide) (by decide) (by decide) (by decide) (by decide) (by decide) (by decide) (by decide) (by decide)
theorem W10_main_arg1 (c : Dev nD) : W10 D0 D1 D2 D3 D4 m c (Proc.devRef .tc main_arg1) = m ((c : Thread nD τ).loc main_arg1) :=
  W10_launch D0 D1 D2 D3 D4 m c main_arg1 (by decide) (by decide) (by decide) (by decide) (by decide) (by decide) (by decide) (by decide) (by decide) (by decide)
theorem W10_main_arg2 (c : Dev nD) : W10 D0 D1 D2 D3 D4 m c (Proc.devRef .tc main_arg2) = m ((c : Thread nD τ).loc main_arg2) :=
  W10_launch D0 D1 D2 D3 D4 m c main_arg2 (by decide) (by decide) (by decide) (by decide) (by decide) (by decide) (by decide) (by decide) (by decide) (by decide)
theorem W10_main_arg3 (c : Dev nD) : W10 D0 D1 D2 D3 D4 m c (Proc.devRef .tc main_arg3) = m ((c : Thread nD τ).loc main_arg3) :=
  W10_launch D0 D1 D2 D3 D4 m c main_arg3 (by decide) (by decide) (by decide) (by decide) (by decide) (by decide) (by decide) (by decide) (by decide) (by decide)
theorem W10_main_arg4 (c : Dev nD) : W10 D0 D1 D2 D3 D4 m c (Proc.devRef .tc main_arg4) = m ((c : Thread nD τ).loc main_arg4) :=
  W10_launch D0 D1 D2 D3 D4 m c main_arg4 (by decide) (by decide) (by decide) (by decide) (by decide) (by decide) (by decide) (by decide) (by decide) (by decide)
theorem W10_main_arg5 (c : Dev nD) : W10 D0 D1 D2 D3 D4 m c (Proc.devRef .tc main_arg5) = m ((c : Thread nD τ).loc main_arg5) :=
  W10_launch D0 D1 D2 D3 D4 m c main_arg5 (by decide) (by decide) (by decide) (by decide) (by decide) (by decide) (by decide) (by decide) (by decide) (by decide)
theorem W10_main_arg6 (c : Dev nD) : W10 D0 D1 D2 D3 D4 m c (Proc.devRef .tc main_arg6) = m ((c : Thread nD τ).loc main_arg6) :=
  W10_launch D0 D1 D2 D3 D4 m c main_arg6 (by decide) (by decide) (by decide) (by decide) (by decide) (by decide) (by decide) (by decide) (by decide) (by decide)
theorem W10_main_arg7 (c : Dev nD) : W10 D0 D1 D2 D3 D4 m c (Proc.devRef .tc main_arg7) = m ((c : Thread nD τ).loc main_arg7) :=
  W10_launch D0 D1 D2 D3 D4 m c main_arg7 (by decide) (by decide) (by decide) (by decide) (by decide) (by decide) (by decide) (by decide) (by decide) (by decide)
theorem W10_main_arg8 (c : Dev nD) : W10 D0 D1 D2 D3 D4 m c (Proc.devRef .tc main_arg8) = m ((c : Thread nD τ).loc main_arg8) :=
  W10_launch D0 D1 D2 D3 D4 m c main_arg8 (by decide) (by decide) (by decide) (by decide) (by decide) (by decide) (by decide) (by decide) (by decide) (by decide)
theorem W10_main_arg9 (c : Dev nD) : W10 D0 D1 D2 D3 D4 m c (Proc.devRef .tc main_arg9) = m ((c : Thread nD τ).loc main_arg9) :=
  W10_launch D0 D1 D2 D3 D4 m c main_arg9 (by decide) (by decide) (by decide) (by decide) (by decide) (by decide) (by decide) (by decide) (by decide) (by decide)
theorem W10_main_arg10 (c : Dev nD) : W10 D0 D1 D2 D3 D4 m c (Proc.devRef .tc main_arg10) = m ((c : Thread nD τ).loc main_arg10) :=
  W10_launch D0 D1 D2 D3 D4 m c main_arg10 (by decide) (by decide) (by decide) (by decide) (by decide) (by decide) (by decide) (by decide) (by decide) (by decide)
theorem W10_main_arg11 (c : Dev nD) : W10 D0 D1 D2 D3 D4 m c (Proc.devRef .tc main_arg11) = m ((c : Thread nD τ).loc main_arg11) :=
  W10_launch D0 D1 D2 D3 D4 m c main_arg11 (by decide) (by decide) (by decide) (by decide) (by decide) (by decide) (by decide) (by decide) (by decide) (by decide)
theorem W10_main_arg12 (c : Dev nD) : W10 D0 D1 D2 D3 D4 m c (Proc.devRef .tc main_arg12) = m ((c : Thread nD τ).loc main_arg12) :=
  W10_launch D0 D1 D2 D3 D4 m c main_arg12 (by decide) (by decide) (by decide) (by decide) (by decide) (by decide) (by decide) (by decide) (by decide) (by decide)
theorem W10_main_arg13 (c : Dev nD) : W10 D0 D1 D2 D3 D4 m c (Proc.devRef .tc main_arg13) = m ((c : Thread nD τ).loc main_arg13) :=
  W10_launch D0 D1 D2 D3 D4 m c main_arg13 (by decide) (by decide) (by decide) (by decide) (by decide) (by decide) (by decide) (by decide) (by decide) (by decide)
theorem W10_main_arg14 (c : Dev nD) : W10 D0 D1 D2 D3 D4 m c (Proc.devRef .tc main_arg14) = m ((c : Thread nD τ).loc main_arg14) :=
  W10_launch D0 D1 D2 D3 D4 m c main_arg14 (by decide) (by decide) (by decide) (by decide) (by decide) (by decide) (by decide) (by decide) (by decide) (by decide)
theorem W10_main_arg15 (c : Dev nD) : W10 D0 D1 D2 D3 D4 m c (Proc.devRef .tc main_arg15) = m ((c : Thread nD τ).loc main_arg15) :=
  W10_launch D0 D1 D2 D3 D4 m c main_arg15 (by decide) (by decide) (by decide) (by decide) (by decide) (by decide) (by decide) (by decide) (by decide) (by decide)
theorem W10_main_arg16 (c : Dev nD) : W10 D0 D1 D2 D3 D4 m c (Proc.devRef .tc main_arg16) = m ((c : Thread nD τ).loc main_arg16) :=
  W10_launch D0 D1 D2 D3 D4 m c main_arg16 (by decide) (by decide) (by decide) (by decide) (by decide) (by decide) (by decide) (by decide) (by decide) (by decide)
theorem W10_main_arg17 (c : Dev nD) : W10 D0 D1 D2 D3 D4 m c (Proc.devRef .tc main_arg17) = m ((c : Thread nD τ).loc main_arg17) :=
  W10_launch D0 D1 D2 D3 D4 m c main_arg17 (by decide) (by decide) (by decide) (by decide) (by decide) (by decide) (by decide) (by decide) (by decide) (by decide)
theorem W10_main_arg18 (c : Dev nD) : W10 D0 D1 D2 D3 D4 m c (Proc.devRef .tc main_arg18) = m ((c : Thread nD τ).loc main_arg18) :=
  W10_launch D0 D1 D2 D3 D4 m c main_arg18 (by decide) (by decide) (by decide) (by decide) (by decide) (by decide) (by decide) (by decide) (by decide) (by decide)

/-- The result array ends at what the last region's pipeline leaves in its output window's array. -/
theorem W10_result (c : Dev nD) :
    W10 D0 D1 D2 D3 D4 m c (Proc.devRef .tc main_v71) = (D4.dat (V9 D0 D1 D2 D3 m) c).arrAt 5 cfg4.N :=
  W10_arr D0 D1 D2 D3 D4 m c 5

/-! ## The proof data family and the state of a thread between two items -/

/-- No pipeline reads a prefetched table. -/
abbrev adm : (p : Fin 5) → (pcfgs (F := F) p).Adm := fun p => (cfgs p).toPCfg_adm
/-- Every pipeline's proof data, each taken at the contents its region is entered with. -/
def pdats : (p : Fin 5) → (c : Dev nD) → Dat τ (Elt F) Unit ℕ (UR sig nD τ) ℕ (Pipeline.pin (pcfgs (F := F)) adm p) c
  | ⟨0, _⟩ => fun c => D0.dat (V1 m) c
  | ⟨1, _⟩ => fun c => D1.dat (V3 D0 m) c
  | ⟨2, _⟩ => fun c => D2.dat (V5 D0 D1 m) c
  | ⟨3, _⟩ => fun c => D3.dat (V7 D0 D1 D2 m) c
  | ⟨4, _⟩ => fun c => D4.dat (V9 D0 D1 D2 D3 m) c
abbrev 𝒱₀ : Variants := Variants.none
/-- No device owes another anything, so no level is assigned. -/
abbrev L : GSem nD τ sig → Finset Unit := fun _ => ∅
abbrev lv : GSem nD τ sig → Unit → ℕ := fun _ _ => 0
/-- What a thread holds beside its buffers at every boundary: its generator register at some state, and that it
    owes nothing. -/
abbrev R (c : Dev nD) : sProp 𝕄 := iprop((∃ r, prngReg c r) ∗ ∃ W, owes (c : Thread nD τ) (0 : CellTallies nD τ sig Unit) W)
/-- A host stretch as an item of the run: it takes the unscoped buffers from contents `W` to the stretch's
    result on `W`, `R` passing through untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the tensor core is among the buffers a thread holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state of a thread, without the "owes nothing": every unscoped buffer at the last fold's contents and
    the generator register at some state. -/
abbrev Tₙ (c : Dev nD) : sProp 𝕄 := iprop(StableHlo.held (c : Thread nD τ) (Pipeline.ucRefs τ sig) (W10 D0 D1 D2 D3 D4 m c) ∗ ∃ r, prngReg c r)

/-! ## The regions as items of the run

Each region is entered holding every unscoped buffer at the fold's contents before it and left holding them at the
fold's contents after it.  At entry the region's arrays are split out of the unscoped buffers; at exit they are put
back at what the pipeline leaves.  The generator register goes into the region's invariant and comes back out of
it, through the two assumed entailments. -/

set_option backward.isDefEq.respectTransparency.types false in
/-- Region 0, entered from the fold at `W1` and left at `W2`. -/
def reg0 : Pipeline.RegionSeg (pcfgs (F := F)) adm (pdats D0 D1 D2 D3 D4 m) () defs₀ 𝒱₀ L lv 0 where
  win := launch0.win.to₀
  block_pos := launch0.block_pos
  stage_whole := launch0.stage_whole
  K := PEmpty
  osem k := k.elim
  ho := Pipeline.OwnSemFacts.none _
  hbody c := (D0.body (V1 m) c).loose
  hwaits := Pipeline.hwaits_of_owed_zero _ _ _ _ L lv 0 fun c t => D0.ho (V1 m) c t
  pre c := iprop(StableHlo.held (c : Thread nD τ) (Pipeline.ucRefs τ sig) (W1 m c) ∗ R c)
  post c := iprop(StableHlo.held (c : Thread nD τ) (Pipeline.ucRefs τ sig) (W2 D0 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    have ho0 : (pdats D0 D1 D2 D3 D4 m 0 c).owed 0 = 0 := D0.ho (V1 m) c 0
    have hrec0 : (pdats D0 D1 D2 D3 D4 m 0 c).recorded 0 = Set.univ := D0.hrec (V1 m) c
    rw [Pipeline.ownSems0_none]
    have hsplit := Pipeline.arrays_of_unscopedBufs (p := 0) (pcfgs (F := F)) adm (pdats D0 D1 D2 D3 D4 m) launch0.win launch0.arr_whole c
      ((pdats D0 D1 D2 D3 D4 m 0 c).share_full (D0.hq (V1 m) c)) (V1 m c) (D0.A_eq (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho0]
      icases HO with ⟨%W, HO⟩; iexists W; isplitr; · ipureintro; exact fun x _ => Or.inl (hrec0.symm ▸ Set.mem_univ x)
      iexact HO
    isplitl [Hp]; · iexact Hp
    iexact Hrest
  hin c := by
    refine BIBase.Entails.trans ?_ (D0.hin (V1 m) c)
    unfold Pipeline.ΦA
    iintro ⟨Hp, -, Hr⟩
    isplitl [Hr]; · iexact Hr
    iexact Hp
  hout c := by
    refine BIBase.Entails.trans (D0.hout (V1 m) c) ?_
    rw [Pipeline.ownSems0_none]; unfold Pipeline.ΦA
    iintro ⟨Hr, Hp⟩
    isplitl [Hp]; · iexact Hp
    isplitr; · iempintro
    iexact Hr
  hexit c := by
    have hoN : (pdats D0 D1 D2 D3 D4 m 0 c).owed (Fin.last (Pipeline.pin (pcfgs (F := F)) adm 0).N) = 0 := D0.ho (V1 m) c (Fin.last _)
    have hjoin := Pipeline.unscopedBufs_of_arrays (p := 0) (pcfgs (F := F)) adm (Ix := Unit) (Name := ℕ) (U := UR sig nD τ) (Lvl := ℕ)
      launch0.win launch0.arr_whole c (pdats D0 D1 D2 D3 D4 m) ((pdats D0 D1 D2 D3 D4 m 0 c).share_full (D0.hq (V1 m) c))
      (V1 m c) (V2 D0 m c) ((pdats D0 D1 D2 D3 D4 m 0 c).arrAt · cfg0.N) (hF0 D0 m c) (hrest0 D0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hoN]
    icases HO with ⟨%W, -, HO⟩; iexists W; iexact HO

set_option backward.isDefEq.respectTransparency.types false in
/-- Region 1, entered from the fold at `W3` and left at `W4`. -/
def reg1 : Pipeline.RegionSeg (pcfgs (F := F)) adm (pdats D0 D1 D2 D3 D4 m) () defs₀ 𝒱₀ L lv 1 where
  win := launch1.win.to₀
  block_pos := launch1.block_pos
  stage_whole := launch1.stage_whole
  K := PEmpty
  osem k := k.elim
  ho := Pipeline.OwnSemFacts.none _
  hbody c := (D1.body (V3 D0 m) c).loose
  hwaits := Pipeline.hwaits_of_owed_zero _ _ _ _ L lv 1 fun c t => D1.ho (V3 D0 m) c t
  pre c := iprop(StableHlo.held (c : Thread nD τ) (Pipeline.ucRefs τ sig) (W3 D0 m c) ∗ R c)
  post c := iprop(StableHlo.held (c : Thread nD τ) (Pipeline.ucRefs τ sig) (W4 D0 D1 m c) ∗ R c)
  X c := iprop(∃ r, prngReg c r)
  Y c := iprop(∃ r, prngReg c r)
  Z c := Pipeline.unscopedRest (Ix := Unit) (Name := ℕ) (U := UR sig nD τ) (Lvl := ℕ) spec1 c (V3 D0 m c)
  hentry c := by
    have ho0 : (pdats D0 D1 D2 D3 D4 m 1 c).owed 0 = 0 := D1.ho (V3 D0 m) c 0
    have hrec0 : (pdats D0 D1 D2 D3 D4 m 1 c).recorded 0 = Set.univ := D1.hrec (V3 D0 m) c
    rw [Pipeline.ownSems0_none]
    have hsplit := Pipeline.arrays_of_unscopedBufs (p := 1) (pcfgs (F := F)) adm (pdats D0 D1 D2 D3 D4 m) launch1.win launch1.arr_whole c
      ((pdats D0 D1 D2 D3 D4 m 1 c).share_full (D1.hq (V3 D0 m) c)) (V3 D0 m c) (D1.A_eq (V3 D0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho0]
      icases HO with ⟨%W, HO⟩; iexists W; isplitr; · ipureintro; exact fun x _ => Or.inl (hrec0.symm ▸ Set.mem_univ x)
      iexact HO
    isplitl [Hp]; · iexact Hp
    iexact Hrest
  hin c := by
    refine BIBase.Entails.trans ?_ (D1.hin (V3 D0 m) c)
    unfold Pipeline.ΦA
    iintro ⟨Hp, -, Hr⟩
    isplitl [Hr]; · iexact Hr
    iexact Hp
  hout c := by
    refine BIBase.Entails.trans (D1.hout (V3 D0 m) c) ?_
    rw [Pipeline.ownSems0_none]; unfold Pipeline.ΦA
    iintro ⟨Hr, Hp⟩
    isplitl [Hp]; · iexact Hp
    isplitr; · iempintro
    iexact Hr
  hexit c := by
    have hoN : (pdats D0 D1 D2 D3 D4 m 1 c).owed (Fin.last (Pipeline.pin (pcfgs (F := F)) adm 1).N) = 0 := D1.ho (V3 D0 m) c (Fin.last _)
    have hjoin := Pipeline.unscopedBufs_of_arrays (p := 1) (pcfgs (F := F)) adm (Ix := Unit) (Name := ℕ) (U := UR sig nD τ) (Lvl := ℕ)
      launch1.win launch1.arr_whole c (pdats D0 D1 D2 D3 D4 m) ((pdats D0 D1 D2 D3 D4 m 1 c).share_full (D1.hq (V3 D0 m) c))
      (V3 D0 m c) (V4 D0 D1 m c) ((pdats D0 D1 D2 D3 D4 m 1 c).arrAt · cfg1.N) (hF1 D0 D1 m c) (hrest1 D0 D1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hoN]
    icases HO with ⟨%W, -, HO⟩; iexists W; iexact HO

set_option backward.isDefEq.respectTransparency.types false in
/-- Region 2, entered from the fold at `W5` and left at `W6`. -/
def reg2 : Pipeline.RegionSeg (pcfgs (F := F)) adm (pdats D0 D1 D2 D3 D4 m) () defs₀ 𝒱₀ L lv 2 where
  win := launch2.win.to₀
  block_pos := launch2.block_pos
  stage_whole := launch2.stage_whole
  K := PEmpty
  osem k := k.elim
  ho := Pipeline.OwnSemFacts.none _
  hbody c := (D2.body (V5 D0 D1 m) c).loose
  hwaits := Pipeline.hwaits_of_owed_zero _ _ _ _ L lv 2 fun c t => D2.ho (V5 D0 D1 m) c t
  pre c := iprop(StableHlo.held (c : Thread nD τ) (Pipeline.ucRefs τ sig) (W5 D0 D1 m c) ∗ R c)
  post c := iprop(StableHlo.held (c : Thread nD τ) (Pipeline.ucRefs τ sig) (W6 D0 D1 D2 m c) ∗ R c)
  X c := iprop(∃ r, prngReg c r)
  Y c := iprop(∃ r, prngReg c r)
  Z c := Pipeline.unscopedRest (Ix := Unit) (Name := ℕ) (U := UR sig nD τ) (Lvl := ℕ) spec2 c (V5 D0 D1 m c)
  hentry c := by
    have ho0 : (pdats D0 D1 D2 D3 D4 m 2 c).owed 0 = 0 := D2.ho (V5 D0 D1 m) c 0
    have hrec0 : (pdats D0 D1 D2 D3 D4 m 2 c).recorded 0 = Set.univ := D2.hrec (V5 D0 D1 m) c
    rw [Pipeline.ownSems0_none]
    have hsplit := Pipeline.arrays_of_unscopedBufs (p := 2) (pcfgs (F := F)) adm (pdats D0 D1 D2 D3 D4 m) launch2.win launch2.arr_whole c
      ((pdats D0 D1 D2 D3 D4 m 2 c).share_full (D2.hq (V5 D0 D1 m) c)) (V5 D0 D1 m c) (D2.A_eq (V5 D0 D1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho0]
      icases HO with ⟨%W, HO⟩; iexists W; isplitr; · ipureintro; exact fun x _ => Or.inl (hrec0.symm ▸ Set.mem_univ x)
      iexact HO
    isplitl [Hp]; · iexact Hp
    iexact Hrest
  hin c := by
    refine BIBase.Entails.trans ?_ (D2.hin (V5 D0 D1 m) c)
    unfold Pipeline.ΦA
    iintro ⟨Hp, -, Hr⟩
    isplitl [Hr]; · iexact Hr
    iexact Hp
  hout c := by
    refine BIBase.Entails.trans (D2.hout (V5 D0 D1 m) c) ?_
    rw [Pipeline.ownSems0_none]; unfold Pipeline.ΦA
    iintro ⟨Hr, Hp⟩
    isplitl [Hp]; · iexact Hp
    isplitr; · iempintro
    iexact Hr
  hexit c := by
    have hoN : (pdats D0 D1 D2 D3 D4 m 2 c).owed (Fin.last (Pipeline.pin (pcfgs (F := F)) adm 2).N) = 0 := D2.ho (V5 D0 D1 m) c (Fin.last _)
    have hjoin := Pipeline.unscopedBufs_of_arrays (p := 2) (pcfgs (F := F)) adm (Ix := Unit) (Name := ℕ) (U := UR sig nD τ) (Lvl := ℕ)
      launch2.win launch2.arr_whole c (pdats D0 D1 D2 D3 D4 m) ((pdats D0 D1 D2 D3 D4 m 2 c).share_full (D2.hq (V5 D0 D1 m) c))
      (V5 D0 D1 m c) (V6 D0 D1 D2 m c) ((pdats D0 D1 D2 D3 D4 m 2 c).arrAt · cfg2.N) (hF2 D0 D1 D2 m c) (hrest2 D0 D1 D2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hoN]
    icases HO with ⟨%W, -, HO⟩; iexists W; iexact HO

set_option backward.isDefEq.respectTransparency.types false in
/-- Region 3, entered from the fold at `W7` and left at `W8`. -/
def reg3 : Pipeline.RegionSeg (pcfgs (F := F)) adm (pdats D0 D1 D2 D3 D4 m) () defs₀ 𝒱₀ L lv 3 where
  win := launch3.win.to₀
  block_pos := launch3.block_pos
  stage_whole := launch3.stage_whole
  K := PEmpty
  osem k := k.elim
  ho := Pipeline.OwnSemFacts.none _
  hbody c := (D3.body (V7 D0 D1 D2 m) c).loose
  hwaits := Pipeline.hwaits_of_owed_zero _ _ _ _ L lv 3 fun c t => D3.ho (V7 D0 D1 D2 m) c t
  pre c := iprop(StableHlo.held (c : Thread nD τ) (Pipeline.ucRefs τ sig) (W7 D0 D1 D2 m c) ∗ R c)
  post c := iprop(StableHlo.held (c : Thread nD τ) (Pipeline.ucRefs τ sig) (W8 D0 D1 D2 D3 m c) ∗ R c)
  X c := iprop(∃ r, prngReg c r)
  Y c := iprop(∃ r, prngReg c r)
  Z c := Pipeline.unscopedRest (Ix := Unit) (Name := ℕ) (U := UR sig nD τ) (Lvl := ℕ) spec3 c (V7 D0 D1 D2 m c)
  hentry c := by
    have ho0 : (pdats D0 D1 D2 D3 D4 m 3 c).owed 0 = 0 := D3.ho (V7 D0 D1 D2 m) c 0
    have hrec0 : (pdats D0 D1 D2 D3 D4 m 3 c).recorded 0 = Set.univ := D3.hrec (V7 D0 D1 D2 m) c
    rw [Pipeline.ownSems0_none]
    have hsplit := Pipeline.arrays_of_unscopedBufs (p := 3) (pcfgs (F := F)) adm (pdats D0 D1 D2 D3 D4 m) launch3.win launch3.arr_whole c
      ((pdats D0 D1 D2 D3 D4 m 3 c).share_full (D3.hq (V7 D0 D1 D2 m) c)) (V7 D0 D1 D2 m c) (D3.A_eq (V7 D0 D1 D2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho0]
      icases HO with ⟨%W, HO⟩; iexists W; isplitr; · ipureintro; exact fun x _ => Or.inl (hrec0.symm ▸ Set.mem_univ x)
      iexact HO
    isplitl [Hp]; · iexact Hp
    iexact Hrest
  hin c := by
    refine BIBase.Entails.trans ?_ (D3.hin (V7 D0 D1 D2 m) c)
    unfold Pipeline.ΦA
    iintro ⟨Hp, -, Hr⟩
    isplitl [Hr]; · iexact Hr
    iexact Hp
  hout c := by
    refine BIBase.Entails.trans (D3.hout (V7 D0 D1 D2 m) c) ?_
    rw [Pipeline.ownSems0_none]; unfold Pipeline.ΦA
    iintro ⟨Hr, Hp⟩
    isplitl [Hp]; · iexact Hp
    isplitr; · iempintro
    iexact Hr
  hexit c := by
    have hoN : (pdats D0 D1 D2 D3 D4 m 3 c).owed (Fin.last (Pipeline.pin (pcfgs (F := F)) adm 3).N) = 0 := D3.ho (V7 D0 D1 D2 m) c (Fin.last _)
    have hjoin := Pipeline.unscopedBufs_of_arrays (p := 3) (pcfgs (F := F)) adm (Ix := Unit) (Name := ℕ) (U := UR sig nD τ) (Lvl := ℕ)
      launch3.win launch3.arr_whole c (pdats D0 D1 D2 D3 D4 m) ((pdats D0 D1 D2 D3 D4 m 3 c).share_full (D3.hq (V7 D0 D1 D2 m) c))
      (V7 D0 D1 D2 m c) (V8 D0 D1 D2 D3 m c) ((pdats D0 D1 D2 D3 D4 m 3 c).arrAt · cfg3.N) (hF3 D0 D1 D2 D3 m c) (hrest3 D0 D1 D2 D3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hoN]
    icases HO with ⟨%W, -, HO⟩; iexists W; iexact HO

set_option backward.isDefEq.respectTransparency.types false in
/-- Region 4, entered from the fold at `W9` and left at `W10`. -/
def reg4 : Pipeline.RegionSeg (pcfgs (F := F)) adm (pdats D0 D1 D2 D3 D4 m) () defs₀ 𝒱₀ L lv 4 where
  win := launch4.win.to₀
  block_pos := launch4.block_pos
  stage_whole := launch4.stage_whole
  K := PEmpty
  osem k := k.elim
  ho := Pipeline.OwnSemFacts.none _
  hbody c := (D4.body (V9 D0 D1 D2 D3 m) c).loose
  hwaits := Pipeline.hwaits_of_owed_zero _ _ _ _ L lv 4 fun c t => D4.ho (V9 D0 D1 D2 D3 m) c t
  pre c := iprop(StableHlo.held (c : Thread nD τ) (Pipeline.ucRefs τ sig) (W9 D0 D1 D2 D3 m c) ∗ R c)
  post c := iprop(Tₙ D0 D1 D2 D3 D4 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 D0 D1 D2 D3 m c)
  hentry c := by
    have ho0 : (pdats D0 D1 D2 D3 D4 m 4 c).owed 0 = 0 := D4.ho (V9 D0 D1 D2 D3 m) c 0
    have hrec0 : (pdats D0 D1 D2 D3 D4 m 4 c).recorded 0 = Set.univ := D4.hrec (V9 D0 D1 D2 D3 m) c
    rw [Pipeline.ownSems0_none]
    have hsplit := Pipeline.arrays_of_unscopedBufs (p := 4) (pcfgs (F := F)) adm (pdats D0 D1 D2 D3 D4 m) launch4.win launch4.arr_whole c
      ((pdats D0 D1 D2 D3 D4 m 4 c).share_full (D4.hq (V9 D0 D1 D2 D3 m) c)) (V9 D0 D1 D2 D3 m c) (D4.A_eq (V9 D0 D1 D2 D3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho0]
      icases HO with ⟨%W, HO⟩; iexists W; isplitr; · ipureintro; exact fun x _ => Or.inl (hrec0.symm ▸ Set.mem_univ x)
      iexact HO
    isplitl [Hp]; · iexact Hp
    iexact Hrest
  hin c := by
    refine BIBase.Entails.trans ?_ (D4.hin (V9 D0 D1 D2 D3 m) c)
    unfold Pipeline.ΦA
    iintro ⟨Hp, -, Hr⟩
    isplitl [Hr]; · iexact Hr
    iexact Hp
  hout c := by
    refine BIBase.Entails.trans (D4.hout (V9 D0 D1 D2 D3 m) c) ?_
    rw [Pipeline.ownSems0_none]; unfold Pipeline.ΦA
    iintro ⟨Hr, Hp⟩
    isplitl [Hp]; · iexact Hp
    isplitr; · iempintro
    iexact Hr
  hexit c := by
    have hoN : (pdats D0 D1 D2 D3 D4 m 4 c).owed (Fin.last (Pipeline.pin (pcfgs (F := F)) adm 4).N) = 0 := D4.ho (V9 D0 D1 D2 D3 m) c (Fin.last _)
    have hjoin := Pipeline.unscopedBufs_of_arrays (p := 4) (pcfgs (F := F)) adm (Ix := Unit) (Name := ℕ) (U := UR sig nD τ) (Lvl := ℕ)
      launch4.win launch4.arr_whole c (pdats D0 D1 D2 D3 D4 m) ((pdats D0 D1 D2 D3 D4 m 4 c).share_full (D4.hq (V9 D0 D1 D2 D3 m) c))
      (V9 D0 D1 D2 D3 m c) (V10 D0 D1 D2 D3 D4 m c) ((pdats D0 D1 D2 D3 D4 m 4 c).arrAt · cfg4.N) (hF4 D0 D1 D2 D3 D4 m c) (hrest4 D0 D1 D2 D3 D4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [hoN]
    icases HO with ⟨%W, -, HO⟩; iexists W; iexact HO

/-! ## The run -/

/-- The program's ten items in order. -/
abbrev segs : List (Pipeline.Seg (pcfgs (F := F)) adm (pdats D0 D1 D2 D3 D4 m) () defs₀ 𝒱₀ L lv) :=
  [ .host (hseg hostOps0 hostOps0_sub hostOps0_fresh (W0 m)),
    .region (reg0 D0 D1 D2 D3 D4 m),
    .host (hseg hostOps1 hostOps1_sub hostOps1_fresh (W2 D0 m)),
    .region (reg1 D0 D1 D2 D3 D4 m),
    .host (hseg hostOps2 hostOps2_sub hostOps2_fresh (W4 D0 D1 m)),
    .region (reg2 D0 D1 D2 D3 D4 m),
    .host (hseg hostOps3 hostOps3_sub hostOps3_fresh (W6 D0 D1 D2 m)),
    .region (reg3 D0 D1 D2 D3 D4 m),
    .host (hseg hostOps4 hostOps4_sub hostOps4_fresh (W8 D0 D1 D2 D3 m)),
    .region (reg4 D0 D1 D2 D3 D4 m) ]

set_option backward.isDefEq.respectTransparency.types false in
/-- THE RUN. From any memory `m` with every counter at zero, every weakly fair execution of the program on the
    tensor cores terminates, and in every final memory each unscoped buffer of each device holds the last fold's
    contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W10 D0 D1 D2 D3 D4 m c b) :=
  Pipeline.θ_run_regions_kit (pcfgs (F := F)) adm (pdats D0 D1 D2 D3 D4 m) () cellOf_inj emb₁ defs₀ 𝒱₀ L lv m ρ main (segs D0 D1 D2 D3 D4 m)
    (fun c Q => by
      rewrite [main_chain c, Pipeline.Seg.run_eq_chain,
        show (segs D0 D1 D2 D3 D4 m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ D0 D1 D2 D3 D4 m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 D0 D1 D2 D3 D4 m c b)
    (hfin := fun c s' => by
      iintro ⟨⟨Hh, -⟩, HSI⟩
      unfold StableHlo.held
      imodintro
      iapply (pointsTo_read_all (Pipeline.ucRefs τ sig) (fun b => (((c : Thread nD τ)).1, b)) (W10 D0 D1 D2 D3 D4 m c) s')
      isplitl [Hh] <;> iassumption)
    (hQ := fun s h => h)

include D0 D1 D2 D3 D4 in
/-- Every argument array ends as launched. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs (onTc (τ := τ) (main (F := F))) ⟨m, fun _ => 0, ρ⟩).mono (fun r h c =>
    ⟨(h c _ (mem_uc main_arg0 (by decide))).trans (W10_main_arg0 D0 D1 D2 D3 D4 m c),
     (h c _ (mem_uc main_arg1 (by decide))).trans (W10_main_arg1 D0 D1 D2 D3 D4 m c),
     (h c _ (mem_uc main_arg2 (by decide))).trans (W10_main_arg2 D0 D1 D2 D3 D4 m c),
     (h c _ (mem_uc main_arg3 (by decide))).trans (W10_main_arg3 D0 D1 D2 D3 D4 m c),
     (h c _ (mem_uc main_arg4 (by decide))).trans (W10_main_arg4 D0 D1 D2 D3 D4 m c),
     (h c _ (mem_uc main_arg5 (by decide))).trans (W10_main_arg5 D0 D1 D2 D3 D4 m c),
     (h c _ (mem_uc main_arg6 (by decide))).trans (W10_main_arg6 D0 D1 D2 D3 D4 m c),
     (h c _ (mem_uc main_arg7 (by decide))).trans (W10_main_arg7 D0 D1 D2 D3 D4 m c),
     (h c _ (mem_uc main_arg8 (by decide))).trans (W10_main_arg8 D0 D1 D2 D3 D4 m c),
     (h c _ (mem_uc main_arg9 (by decide))).trans (W10_main_arg9 D0 D1 D2 D3 D4 m c),
     (h c _ (mem_uc main_arg10 (by decide))).trans (W10_main_arg10 D0 D1 D2 D3 D4 m c),
     (h c _ (mem_uc main_arg11 (by decide))).trans (W10_main_arg11 D0 D1 D2 D3 D4 m c),
     (h c _ (mem_uc main_arg12 (by decide))).trans (W10_main_arg12 D0 D1 D2 D3 D4 m c),
     (h c _ (mem_uc main_arg13 (by decide))).trans (W10_main_arg13 D0 D1 D2 D3 D4 m c),
     (h c _ (mem_uc main_arg14 (by decide))).trans (W10_main_arg14 D0 D1 D2 D3 D4 m c),
     (h c _ (mem_uc main_arg15 (by decide))).trans (W10_main_arg15 D0 D1 D2 D3 D4 m c),
     (h c _ (mem_uc main_arg16 (by decide))).trans (W10_main_arg16 D0 D1 D2 D3 D4 m c),
     (h c _ (mem_uc main_arg17 (by decide))).trans (W10_main_arg17 D0 D1 D2 D3 D4 m c),
     (h c _ (mem_uc main_arg18 (by decide))).trans (W10_main_arg18 D0 D1 D2 D3 D4 m c)⟩)
    (run_all D0 D1 D2 D3 D4 m ρ)

end Run

end Cert.Kernel.Hand

end
-- ==== Proof.K.Reg0Runs.lean ====
import proofs.«126844_j8246337208554_1_alg».proof.Proof.Gen.Kernel.Launch
import proofs.«126844_j8246337208554_1_alg».proof.Proof.Gen.Kernel.Skeleton
import proofs.«126844_j8246337208554_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first linear stage with column statistics (pipeline 0): what the three kinds of grid point share

The grid has 25 points, one per block of 2000 rows.  At every point the body writes the block of
H = A · Wl + X · Wc + b into output window 5 and adds the block's column sums and column sums of squares into two
scratch rows; at the FIRST point it first sets the two rows to zero, and at the LAST point it copies them into the
output windows 6 and 7, which it touches at no other point. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body is at the first point. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)
/-- The body is at the last point. -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

/-- No input window and not the block output is ever idle; the two statistics outputs are idle, and not written
    back, everywhere but at the last point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6 : ∀ t : Fin cfg0.N, ¬cond0_1 (grid0.coords t) → cfg0.idle 6 (grid0.coords t) = true := by decide +kernel
theorem idleAt0_7 : ∀ t : Fin cfg0.N, ¬cond0_1 (grid0.coords t) → cfg0.idle 7 (grid0.coords t) = true := by decide +kernel
theorem noFlush0_6 : ∀ t : Fin cfg0.N, ¬cond0_1 (grid0.coords t) → (cfg0.win 6).flush t = false := by decide +kernel
theorem noFlush0_7 : ∀ t : Fin cfg0.N, ¬cond0_1 (grid0.coords t) → (cfg0.win 7).flush t = false := by decide +kernel
theorem liveAt0_6 : ∀ t : Fin cfg0.N, cond0_1 (grid0.coords t) → cfg0.idle 6 (grid0.coords t) = false := by decide +kernel
theorem liveAt0_7 : ∀ t : Fin cfg0.N, cond0_1 (grid0.coords t) → cfg0.idle 7 (grid0.coords t) = false := by decide +kernel

/-- The views through which the contents of the three outputs and of the two scratch rows are stated. -/
abbrev VO0_5 : View sig .tc .vmem S2000x128 .f32 := (Memref.whole cc0_stg5_0 : Memref sig .tc .vmem S2000x128 .f32).view
abbrev VO0_6 : View sig .tc .vmem S1x128 .f32 := (Memref.whole cc0_stg6_0 : Memref sig .tc .vmem S1x128 .f32).view
abbrev VO0_7 : View sig .tc .vmem S1x128 .f32 := (Memref.whole cc0_stg7_0 : Memref sig .tc .vmem S1x128 .f32).view
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The current staging memrefs at a point, as the pipeline passes them to the body. -/
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2000x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)

/-- The class's invariant with the two scratch rows named: each whole at some contents, beside the other scoped
    buffers no window stages and the generator register. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.Kernel.Hand

end
-- ==== Proof.K.Reg0RunA.lean ====
import proofs.«126844_j8246337208554_1_alg».proof.Proof.Gen.Kernel.Launch
import proofs.«126844_j8246337208554_1_alg».proof.Proof.Gen.Kernel.Skeleton
import proofs.«126844_j8246337208554_1_alg».proof.Proof.Gen.Kernel.Points
import proofs.«126844_j8246337208554_1_alg».proof.Proof.K.Reg0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST POINT: the body reads its five input blocks, stores the block of H, sets the two scratch rows to zero
    (whatever they held) and adds the block's column sums and sums of squares into them. -/
noncomputable def kernelRun0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 x1 : Vec F S2000x128 .f32) (x2 x3 : Vec F S128x128 .f32) (x4 : Vec F S1x128 .f32) :
    Σ' (L5 : List (View.Piece (Elt F) S2000x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__linear_stats_kernel_eq_skeleton]; unfold cc0__linear_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg1.eq_unread hf1; obtain rfl := harg2.eq_unread hf2; obtain rfl := harg3.eq_unread hf3
    obtain rfl := harg4.eq_unread hf4; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [HS0]; · iexists _; iexact HS0
    iexists _; iexact HS1

end Cert.Kernel.Hand

end
-- ==== Proof.K.Reg0RunB.lean ====
import proofs.«126844_j8246337208554_1_alg».proof.Proof.Gen.Kernel.Launch
import proofs.«126844_j8246337208554_1_alg».proof.Proof.Gen.Kernel.Skeleton
import proofs.«126844_j8246337208554_1_alg».proof.Proof.Gen.Kernel.Points
import proofs.«126844_j8246337208554_1_alg».proof.Proof.K.Reg0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE MIDDLE POINTS (neither the first nor the last): the body reads its five input blocks, stores the block of H,
    and adds the block's column sums and sums of squares into the two scratch rows, which it finds at the contents
    `xs0`, `xs1` the point before left.  What each buffer it stores into ends with is given as the list of its
    stores (last first). -/
noncomputable def kernelRun0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 x1 : Vec F S2000x128 .f32) (x2 x3 : Vec F S128x128 .f32) (x4 : Vec F S1x128 .f32) (xs0 xs1 : Vec F S1x128 .f32) :
    Σ' (L5 : List (View.Piece (Elt F) S2000x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__linear_stats_kernel_eq_skeleton]; unfold cc0__linear_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg4.eq_unread hf4; obtain rfl := harg5.eq_unread hf5
    obtain rfl := harg9.eq_unread hfs0; obtain rfl := harg10.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [HS0]; · iexists _; iexact HS0
    iexists _; iexact HS1

end Cert.Kernel.Hand

end
-- ==== Proof.K.Reg0RunC.lean ====
import proofs.«126844_j8246337208554_1_alg».proof.Proof.Gen.Kernel.Launch
import proofs.«126844_j8246337208554_1_alg».proof.Proof.Gen.Kernel.Skeleton
import proofs.«126844_j8246337208554_1_alg».proof.Proof.Gen.Kernel.Points
import proofs.«126844_j8246337208554_1_alg».proof.Proof.K.Reg0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST POINT: as at a middle point, and then the two scratch rows are copied into the output windows 6 and 7
    (whatever those held). -/
noncomputable def kernelRun0_C (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S2000x128 .f32) (x2 x3 : Vec F S128x128 .f32) (x4 : Vec F S1x128 .f32) (xs0 xs1 : Vec F S1x128 .f32) :
    Σ' (L5 : List (View.Piece (Elt F) S2000x128 .f32)) (L6 L7 LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__linear_stats_kernel_eq_skeleton]; unfold cc0__linear_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg4.eq_unread hf4; obtain rfl := harg5.eq_unread hf5
    obtain rfl := harg9.eq_unread hfs0; obtain rfl := harg10.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.K.Reg0.lean ====
import proofs.«126844_j8246337208554_1_alg».proof.Proof.Gen.Kernel.Launch
import proofs.«126844_j8246337208554_1_alg».proof.Proof.Gen.Kernel.Skeleton
import proofs.«126844_j8246337208554_1_alg».proof.Proof.Gen.Kernel.Points
import proofs.«126844_j8246337208554_1_alg».proof.Proof.K.Reg0RunA
import proofs.«126844_j8246337208554_1_alg».proof.Proof.K.Reg0RunB
import proofs.«126844_j8246337208554_1_alg».proof.Proof.K.Reg0RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What a point of kind A leaves -/

/-- The stores into the block output tile its buffer. -/
theorem cover0_A_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 x1 : Vec F S2000x128 .f32) (x2 x3 : Vec F S128x128 .f32) (x4 : Vec F S1x128 .f32) (y : S2000x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).1 S2000x128.size (by sl_kernel_rfl) y

def out0_A_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 x1 : Vec F S2000x128 .f32) (x2 x3 : Vec F S128x128 .f32) (x4 : Vec F S1x128 .f32) : Vec F S2000x128 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 hc1 x0 x1 x2 x3 x4).1)
/-- The stores into the first scratch row cover it. -/
theorem scover0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 x1 : Vec F S2000x128 .f32) (x2 x3 : Vec F S128x128 .f32) (x4 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.1 S1x128.size (by sl_kernel_rfl) y

def sout0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 x1 : Vec F S2000x128 .f32) (x2 x3 : Vec F S128x128 .f32) (x4 : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3 x4).2.1)
/-- The stores into the second scratch row cover it. -/
theorem scover0_A_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 x1 : Vec F S2000x128 .f32) (x2 x3 : Vec F S128x128 .f32) (x4 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.1 S1x128.size (by sl_kernel_rfl) y

def sout0_A_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 x1 : Vec F S2000x128 .f32) (x2 x3 : Vec F S128x128 .f32) (x4 : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 x0 x1 x2 x3 x4).2.2.1)
/-! ## What a point of kind B leaves -/

/-- The stores into the block output tile its buffer. -/
theorem cover0_B_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 x1 : Vec F S2000x128 .f32) (x2 x3 : Vec F S128x128 .f32) (x4 : Vec F S1x128 .f32) (xs0 xs1 : Vec F S1x128 .f32) (y : S2000x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).1 S2000x128.size (by sl_kernel_rfl) y

def out0_B_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 x1 : Vec F S2000x128 .f32) (x2 x3 : Vec F S128x128 .f32) (x4 : Vec F S1x128 .f32) (xs0 xs1 : Vec F S1x128 .f32) : Vec F S2000x128 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).1)
/-- The stores into the first scratch row cover it. -/
theorem scover0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 x1 : Vec F S2000x128 .f32) (x2 x3 : Vec F S128x128 .f32) (x4 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y

def sout0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 x1 : Vec F S2000x128 .f32) (x2 x3 : Vec F S128x128 .f32) (x4 : Vec F S1x128 .f32) (xs0 xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1)
/-- The stores into the second scratch row cover it. -/
theorem scover0_B_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 x1 : Vec F S2000x128 .f32) (x2 x3 : Vec F S128x128 .f32) (x4 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y

def sout0_B_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 x1 : Vec F S2000x128 .f32) (x2 x3 : Vec F S128x128 .f32) (x4 : Vec F S1x128 .f32) (xs0 xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1)
/-! ## What a point of kind C leaves -/

/-- The stores into the block output tile its buffer. -/
theorem cover0_C_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S2000x128 .f32) (x2 x3 : Vec F S128x128 .f32) (x4 : Vec F S1x128 .f32) (xs0 xs1 : Vec F S1x128 .f32) (y : S2000x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).1 S2000x128.size (by sl_kernel_rfl) y

def out0_C_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S2000x128 .f32) (x2 x3 : Vec F S128x128 .f32) (x4 : Vec F S1x128 .f32) (xs0 xs1 : Vec F S1x128 .f32) : Vec F S2000x128 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).1)
/-- The store into the column-sum output covers its buffer. -/
theorem cover0_C_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S2000x128 .f32) (x2 x3 : Vec F S128x128 .f32) (x4 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y

def out0_C_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S2000x128 .f32) (x2 x3 : Vec F S128x128 .f32) (x4 : Vec F S1x128 .f32) (xs0 xs1 : Vec F S1x128 .f32) : Vec F S1x128 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1)
/-- The store into the sum-of-squares output covers its buffer. -/
theorem cover0_C_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S2000x128 .f32) (x2 x3 : Vec F S128x128 .f32) (x4 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y

def out0_C_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S2000x128 .f32) (x2 x3 : Vec F S128x128 .f32) (x4 : Vec F S1x128 .f32) (xs0 xs1 : Vec F S1x128 .f32) : Vec F S1x128 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1)
/-- The stores into the first scratch row cover it. -/
theorem scover0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S2000x128 .f32) (x2 x3 : Vec F S128x128 .f32) (x4 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y

def sout0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S2000x128 .f32) (x2 x3 : Vec F S128x128 .f32) (x4 : Vec F S1x128 .f32) (xs0 xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1)
/-- The stores into the second scratch row cover it. -/
theorem scover0_C_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S2000x128 .f32) (x2 x3 : Vec F S128x128 .f32) (x4 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y

def sout0_C_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S2000x128 .f32) (x2 x3 : Vec F S128x128 .f32) (x4 : Vec F S1x128 .f32) (xs0 xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)
/-! ## What the outputs and the two scratch rows hold after each point -/

/-- After the body at position `n`: the block output's buffer, the two statistics outputs' buffers (placeholders
    at the points that do not store them), and the two scratch rows — the first point's run at position 0, a middle
    or last point's run over what the point before left in the scratch rows afterwards. -/
def outsAt0 (c : Dev nD) : (n : ℕ) → n < cfg0.N → Vec F S2000x128 .f32 × Vec F S1x128 .f32 × Vec F S1x128 .f32 × Vec F S1x128 .f32 × Vec F S1x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), (VO0_6.read (Elt F) VO0_6.junk), (VO0_7.read (Elt F) VO0_7.junk), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : (n + 1) % 25 = 24 then
      (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (fun h => by have hN : n + 1 < 25 := lt_of_lt_of_eq hn (show cfg0.N = 25 from N_0); (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (fun h => by have hN : n + 1 < 25 := lt_of_lt_of_eq hn (show cfg0.N = 25 from N_0); (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (fun h => by have hN : n + 1 < 25 := lt_of_lt_of_eq hn (show cfg0.N = 25 from N_0); (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (fun h => by have hN : n + 1 < 25 := lt_of_lt_of_eq hn (show cfg0.N = 25 from N_0); (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (fun h => by have hN : n + 1 < 25 := lt_of_lt_of_eq hn (show cfg0.N = 25 from N_0); (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (fun h => by have hN : n + 1 < 25 := lt_of_lt_of_eq hn (show cfg0.N = 25 from N_0); (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, (VO0_6.read (Elt F) VO0_6.junk), (VO0_7.read (Elt F) VO0_7.junk), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (fun h => by have hN : n + 1 < 25 := lt_of_lt_of_eq hn (show cfg0.N = 25 from N_0); (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (fun h => by have hN : n + 1 < 25 := lt_of_lt_of_eq hn (show cfg0.N = 25 from N_0); (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)

/-- At the first point: that run's contents. -/
theorem outsAt0_A (c : Dev nD) (t : Fin cfg0.N) (h0 : t.val % 25 = 0) (h1 : ¬t.val % 25 = 24) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), (VO0_6.read (Elt F) VO0_6.junk), (VO0_7.read (Elt F) VO0_7.junk), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (by exfalso; have hN : n + 1 < 25 := lt_of_lt_of_eq hn (show cfg0.N = 25 from N_0); (try dsimp only at h0); omega)

/-- At a middle point: that run's contents over what the point before left in the scratch rows. -/
theorem outsAt0_B (c : Dev nD) (t : Fin cfg0.N) (h0 : ¬t.val % 25 = 0) (h1 : ¬t.val % 25 = 24) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, (VO0_6.read (Elt F) VO0_6.junk), (VO0_7.read (Elt F) VO0_7.junk), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

/-- At the last point: that run's contents over what the point before left in the scratch rows. -/
theorem outsAt0_C (c : Dev nD) (t : Fin cfg0.N) (h0 : ¬t.val % 25 = 0) (h1 : t.val % 25 = 24) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-! ## The invariant -/

/-- Before the first point the class's invariant (the scratch rows at anything); afterwards the two scratch rows at
    what the point before left in them, beside the other scoped buffers and the generator register. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The proof data -/

/-- The arrays as the region finds them; after the body each input's buffer at its block, the outputs' at
    `outsAt0`'s components; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

/-- Each input's current staging buffer holds its block at every point, fetched there or not: an unfetched window's
    block index has not moved. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the inputs' buffers hold their blocks; the point is the first, a middle or the last one;
    the invariant hands the body the scratch rows at what the point before left (at anything at the first point) and
    takes them back at this point's contents; the statistics outputs pass through untouched except at the last point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 25 := lt_of_lt_of_eq t.isLt (show cfg0.N = 25 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  by_cases h1 : t.val % 25 = 24
  · have h0 : ¬t.val % 25 = 0 := by omega
    have hz : t.val ≠ 0 := by omega
    rw [show (dat0 V c).leavesExact 6 t = owns (c : Thread nD τ) (ms0_6 t) fullShare ((dat0 V c).after 6 t) from by
      unfold Dat.leavesExact; rw [liveAt0_6 t ((hcond0_1 t).mpr h1)], after0_6]
    rw [show (dat0 V c).leavesExact 7 t = owns (c : Thread nD τ) (ms0_7 t) fullShare ((dat0 V c).after 7 t) from by
      unfold Dat.leavesExact; rw [liveAt0_7 t ((hcond0_1 t).mpr h1)], after0_7]
    rw [outsAt0_C V c t h0 h1]
    unfold out0_C_5 out0_C_6 out0_C_7 sout0_C_0 sout0_C_1; (try dsimp only)
    rw [PhiS0_castSucc V c t, PhiS0_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ )
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ )
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_C_5 c _ _ _ _ _ _ _ _ _ _ _ _ _ _ _ _ _ _ _ _ _ _ _ _ _ _ _ _ _ _ )
    isplitl [H6]
    · unfold owns; iexists _; isplitr
      swap; · iexact H6
      ipureintro; exact View.read_writes_of_cover _ _ _ _ _ (cover0_C_6 c _ _ _ _ _ _ _ _ _ _ _ _ _ _ _ _ _ _ _ _ _ _ _ _ _ _ _ _ _ _ )
    unfold owns; iexists _; isplitr
    swap; · iexact H7
    ipureintro; exact View.read_writes_of_cover _ _ _ _ _ (cover0_C_7 c _ _ _ _ _ _ _ _ _ _ _ _ _ _ _ _ _ _ _ _ _ _ _ _ _ _ _ _ _ _ )
  · rw [Dat.leavesExact_idle (dat0 V c) 6 t (idleAt0_6 t (fun h => h1 ((hcond0_1 t).mp h))) (noFlush0_6 t (fun h => h1 ((hcond0_1 t).mp h)))]
    rw [Dat.leavesExact_idle (dat0 V c) 7 t (idleAt0_7 t (fun h => h1 ((hcond0_1 t).mp h))) (noFlush0_7 t (fun h => h1 ((hcond0_1 t).mp h)))]
    by_cases h0 : t.val % 25 = 0
    · have hz : t.val = 0 := by omega
      rw [outsAt0_A V c t h0 h1]
      unfold out0_A_5 sout0_A_0 sout0_A_1; (try dsimp only)
      rw [PhiS0_castSucc V c t, PhiS0_zero V c _ _ hz, PhiA0_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ )
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ )
      isplitl [H6]; · iexists _; iexact H6
      iexists _; iexact H7
    · have hz : t.val ≠ 0 := by omega
      rw [outsAt0_B V c t h0 h1]
      unfold out0_B_5 sout0_B_0 sout0_B_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ )
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ )
      isplitl [H6]; · iexists _; iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch rows' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 25 := N_0; omega), PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Cert.Kernel.Hand

end
-- ==== Proof.K.Reg1.lean ====
/-
  THE FIRST NORMALISING LAYER'S REGION: WHAT ITS BODY DOES TO THE STAGING BUFFERS, AT ANY ENTRY CONTENTS.

  The region walks 25 blocks of 2000 rows.  At every point the body reads six buffers whole — a block of rows of the
  layer's linear output and of the layer's input, and the four one-row arrays (column means, column variances, scale,
  shift) —, reads the output buffer once without using what it finds, and writes the whole output buffer with one
  value computed from the six.  Nothing is kept from one point to the next, so the proof data are: every input buffer
  holds its block of the array the region found on entry, whether or not it was fetched at this point, and the output
  buffer after the body is that one value of the six input blocks.  All of it is stated at a parameter V, the buffer
  contents when the region is entered, and for any float interpretation.
-/
import proofs.«126844_j8246337208554_1_alg».proof.Proof.Gen.Kernel.Launch
import proofs.«126844_j8246337208554_1_alg».proof.Proof.Gen.Kernel.Skeleton
import proofs.«126844_j8246337208554_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the arrays the region finds -/

/-- The block of window w at point t, read off the array as it stands when the region is entered. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input buffer holds its block at every point, fetched there or not (an unfetched window's block index has not
    moved), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: every one a whole buffer -/

abbrev r1_a : Rect S2000x128 := Rect.unit (s := S2000x128) ![0, 0] S2000x128.size inb_S2000x128_S2000x128_0_0
abbrev r1_r : Rect S1x128 := Rect.unit (s := S1x128) ![0, 0] S1x128.size inb_S1x128_S1x128_0_0

/-! ## The output buffer after the body -/

/-- The output buffer after the body, from the six input buffers (in the windows' order: linear output, layer input,
    means, variances, scale, shift): one piece, the whole buffer, holding the body's one value of what it read. -/
def out1_6 (x0 x1 : Vec F S2000x128 .f32) (x2 x3 x4 x5 : Vec F S1x128 .f32) : Vec F S2000x128 .f32 :=
  View.canon [⟨r1_a, k1_pay1 (View.ld x0 r1_a) (View.ld x2 r1_r) (View.ld x3 r1_r) (View.ld x4 r1_r) (View.ld x5 r1_r) (View.ld x1 r1_a)⟩]

/-- The one piece tiles the buffer, so it covers it. -/
theorem cover1_6 (p0 : Vec F S2000x128 .f32) (y : S2000x128.Idx) :
    ∃ pc ∈ ([⟨r1_a, p0⟩] : List (View.Piece (Elt F) S2000x128 .f32)), y ∈ pc.1.set :=
  View.cover_of_tiled [⟨r1_a, p0⟩] S2000x128.size (by rfl) y

/-! ## The body's triple -/

set_option maxHeartbeats 1000000 in
/-- The body on whole staging memrefs, the inputs' at known contents and the output's at anything, runs to the
    continuation with the inputs' as they were and the output's at out1_6 of the inputs'. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S2000x128 .f32) (harg7 : arg7.IsWhole)
    (x0 x1 : Vec F S2000x128 .f32) (x2 x3 x4 x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__norm_act_kernel i arg1 harg1 arg2 harg2 arg3 harg3 arg4 harg4 arg5 harg5 arg6 harg6 arg7 harg7) K := by
  simp only [cc1__norm_act_kernel_eq_skeleton]; unfold cc1__norm_act_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The region's proof data -/

/-- The proof data on core c: the arrays as the region finds them; after the body at point t every input buffer at
    its block and the output buffer at out1_6 of the input blocks; the invariant is the untouched rest; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by
  dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the input memrefs hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2Runs.lean ====
import proofs.«126844_j8246337208554_1_alg».proof.Proof.Gen.Kernel.Launch
import proofs.«126844_j8246337208554_1_alg».proof.Proof.Gen.Kernel.Skeleton
import proofs.«126844_j8246337208554_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second linear stage with column statistics (pipeline 2): what the three kinds of grid point share

The grid has 25 points, one per block of 2000 rows.  At every point the body writes the block of
H = A · Wl + X · Wc + b into output window 5 and adds the block's column sums and column sums of squares into two
scratch rows; at the FIRST point it first sets the two rows to zero, and at the LAST point it copies them into the
output windows 6 and 7, which it touches at no other point. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body is at the first point. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 25 = 0 :=
  (by decide +kernel : ∀ t : Fin grid2.N, cond2_0 (grid2.coords t) ↔ t.val % 25 = 0)
/-- The body is at the last point. -/
abbrev cond2_1 (i : grid2.Coords) : Prop := k2_cond2 i = 1#1
theorem hcond2_1 : ∀ t : Fin cfg2.N, cond2_1 (grid2.coords t) ↔ t.val % 25 = 24 :=
  (by decide +kernel : ∀ t : Fin grid2.N, cond2_1 (grid2.coords t) ↔ t.val % 25 = 24)

/-- No input window and not the block output is ever idle; the two statistics outputs are idle, and not written
    back, everywhere but at the last point. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem idleAt2_6 : ∀ t : Fin cfg2.N, ¬cond2_1 (grid2.coords t) → cfg2.idle 6 (grid2.coords t) = true := by decide +kernel
theorem idleAt2_7 : ∀ t : Fin cfg2.N, ¬cond2_1 (grid2.coords t) → cfg2.idle 7 (grid2.coords t) = true := by decide +kernel
theorem noFlush2_6 : ∀ t : Fin cfg2.N, ¬cond2_1 (grid2.coords t) → (cfg2.win 6).flush t = false := by decide +kernel
theorem noFlush2_7 : ∀ t : Fin cfg2.N, ¬cond2_1 (grid2.coords t) → (cfg2.win 7).flush t = false := by decide +kernel
theorem liveAt2_6 : ∀ t : Fin cfg2.N, cond2_1 (grid2.coords t) → cfg2.idle 6 (grid2.coords t) = false := by decide +kernel
theorem liveAt2_7 : ∀ t : Fin cfg2.N, cond2_1 (grid2.coords t) → cfg2.idle 7 (grid2.coords t) = false := by decide +kernel

/-- The views through which the contents of the three outputs and of the two scratch rows are stated. -/
abbrev VO2_5 : View sig .tc .vmem S2000x128 .f32 := (Memref.whole cc2_stg5_0 : Memref sig .tc .vmem S2000x128 .f32).view
abbrev VO2_6 : View sig .tc .vmem S1x128 .f32 := (Memref.whole cc2_stg6_0 : Memref sig .tc .vmem S1x128 .f32).view
abbrev VO2_7 : View sig .tc .vmem S1x128 .f32 := (Memref.whole cc2_stg7_0 : Memref sig .tc .vmem S1x128 .f32).view
abbrev scM2_0 : Memref sig .tc .vmem S1x128 .f32 := Memref.whole cc2_scratch0
abbrev scM2_1 : Memref sig .tc .vmem S1x128 .f32 := Memref.whole cc2_scratch1
abbrev VS2_0 : View sig .tc .vmem S1x128 .f32 := scM2_0.view
abbrev VS2_1 : View sig .tc .vmem S1x128 .f32 := scM2_1.view

/-- The current staging memrefs at a point, as the pipeline passes them to the body. -/
abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2000x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)

/-- The class's invariant with the two scratch rows named: each whole at some contents, beside the other scoped
    buffers no window stages and the generator register. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.Kernel.Hand

end
-- ==== Proof.K.Reg2RunA.lean ====
import proofs.«126844_j8246337208554_1_alg».proof.Proof.Gen.Kernel.Launch
import proofs.«126844_j8246337208554_1_alg».proof.Proof.Gen.Kernel.Skeleton
import proofs.«126844_j8246337208554_1_alg».proof.Proof.Gen.Kernel.Points
import proofs.«126844_j8246337208554_1_alg».proof.Proof.K.Reg2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST POINT: the body reads its five input blocks, stores the block of H, sets the two scratch rows to zero
    (whatever they held) and adds the block's column sums and sums of squares into them. -/
noncomputable def kernelRun2_A (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 x1 : Vec F S2000x128 .f32) (x2 x3 : Vec F S128x128 .f32) (x4 : Vec F S1x128 .f32) :
    Σ' (L5 : List (View.Piece (Elt F) S2000x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc2__linear_stats_kernel_eq_skeleton]; unfold cc2__linear_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg1.eq_unread hf1; obtain rfl := harg2.eq_unread hf2; obtain rfl := harg3.eq_unread hf3
    obtain rfl := harg4.eq_unread hf4; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [HS0]; · iexists _; iexact HS0
    iexists _; iexact HS1

end Cert.Kernel.Hand

end
-- ==== Proof.K.Reg2RunB.lean ====
import proofs.«126844_j8246337208554_1_alg».proof.Proof.Gen.Kernel.Launch
import proofs.«126844_j8246337208554_1_alg».proof.Proof.Gen.Kernel.Skeleton
import proofs.«126844_j8246337208554_1_alg».proof.Proof.Gen.Kernel.Points
import proofs.«126844_j8246337208554_1_alg».proof.Proof.K.Reg2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE MIDDLE POINTS (neither the first nor the last): the body reads its five input blocks, stores the block of H,
    and adds the block's column sums and sums of squares into the two scratch rows, which it finds at the contents
    `xs0`, `xs1` the point before left.  What each buffer it stores into ends with is given as the list of its
    stores (last first). -/
noncomputable def kernelRun2_B (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 x1 : Vec F S2000x128 .f32) (x2 x3 : Vec F S128x128 .f32) (x4 : Vec F S1x128 .f32) (xs0 xs1 : Vec F S1x128 .f32) :
    Σ' (L5 : List (View.Piece (Elt F) S2000x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc2__linear_stats_kernel_eq_skeleton]; unfold cc2__linear_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg4.eq_unread hf4; obtain rfl := harg5.eq_unread hf5
    obtain rfl := harg9.eq_unread hfs0; obtain rfl := harg10.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [HS0]; · iexists _; iexact HS0
    iexists _; iexact HS1

end Cert.Kernel.Hand

end
-- ==== Proof.K.Reg2RunC.lean ====
import proofs.«126844_j8246337208554_1_alg».proof.Proof.Gen.Kernel.Launch
import proofs.«126844_j8246337208554_1_alg».proof.Proof.Gen.Kernel.Skeleton
import proofs.«126844_j8246337208554_1_alg».proof.Proof.Gen.Kernel.Points
import proofs.«126844_j8246337208554_1_alg».proof.Proof.K.Reg2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST POINT: as at a middle point, and then the two scratch rows are copied into the output windows 6 and 7
    (whatever those held). -/
noncomputable def kernelRun2_C (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 : Vec F S2000x128 .f32) (x2 x3 : Vec F S128x128 .f32) (x4 : Vec F S1x128 .f32) (xs0 xs1 : Vec F S1x128 .f32) :
    Σ' (L5 : List (View.Piece (Elt F) S2000x128 .f32)) (L6 L7 LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__linear_stats_kernel_eq_skeleton]; unfold cc2__linear_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg4.eq_unread hf4; obtain rfl := harg5.eq_unread hf5
    obtain rfl := harg9.eq_unread hfs0; obtain rfl := harg10.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.K.Reg2.lean ====
import proofs.«126844_j8246337208554_1_alg».proof.Proof.Gen.Kernel.Launch
import proofs.«126844_j8246337208554_1_alg».proof.Proof.Gen.Kernel.Skeleton
import proofs.«126844_j8246337208554_1_alg».proof.Proof.Gen.Kernel.Points
import proofs.«126844_j8246337208554_1_alg».proof.Proof.K.Reg2RunA
import proofs.«126844_j8246337208554_1_alg».proof.Proof.K.Reg2RunB
import proofs.«126844_j8246337208554_1_alg».proof.Proof.K.Reg2RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What a point of kind A leaves -/

/-- The stores into the block output tile its buffer. -/
theorem cover2_A_5 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 x1 : Vec F S2000x128 .f32) (x2 x3 : Vec F S128x128 .f32) (x4 : Vec F S1x128 .f32) (y : S2000x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).1 S2000x128.size (by sl_kernel_rfl) y

def out2_A_5 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 x1 : Vec F S2000x128 .f32) (x2 x3 : Vec F S128x128 .f32) (x4 : Vec F S1x128 .f32) : Vec F S2000x128 .f32 :=
  VO2_5.read (Elt F) (VO2_5.writes (Elt F) VO2_5.junk (kernelRun2_A c i arg1 harg1 arg2 harg2 arg3 harg3 arg4 harg4 arg5 harg5 arg6 harg6 arg7 harg7 arg8 harg8 arg9 harg9 arg10 harg10 hc0 hc1 x0 x1 x2 x3 x4).1)
/-- The stores into the first scratch row cover it. -/
theorem scover2_A_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 x1 : Vec F S2000x128 .f32) (x2 x3 : Vec F S128x128 .f32) (x4 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).2.1 S1x128.size (by sl_kernel_rfl) y

def sout2_A_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 x1 : Vec F S2000x128 .f32) (x2 x3 : Vec F S128x128 .f32) (x4 : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 hc0 hc1 x0 x1 x2 x3 x4).2.1)
/-- The stores into the second scratch row cover it. -/
theorem scover2_A_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 x1 : Vec F S2000x128 .f32) (x2 x3 : Vec F S128x128 .f32) (x4 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).2.2.1 S1x128.size (by sl_kernel_rfl) y

def sout2_A_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 x1 : Vec F S2000x128 .f32) (x2 x3 : Vec F S128x128 .f32) (x4 : Vec F S1x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 hc0 hc1 x0 x1 x2 x3 x4).2.2.1)
/-! ## What a point of kind B leaves -/

/-- The stores into the block output tile its buffer. -/
theorem cover2_B_5 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 x1 : Vec F S2000x128 .f32) (x2 x3 : Vec F S128x128 .f32) (x4 : Vec F S1x128 .f32) (xs0 xs1 : Vec F S1x128 .f32) (y : S2000x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).1 S2000x128.size (by sl_kernel_rfl) y

def out2_B_5 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 x1 : Vec F S2000x128 .f32) (x2 x3 : Vec F S128x128 .f32) (x4 : Vec F S1x128 .f32) (xs0 xs1 : Vec F S1x128 .f32) : Vec F S2000x128 .f32 :=
  VO2_5.read (Elt F) (VO2_5.writes (Elt F) VO2_5.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).1)
/-- The stores into the first scratch row cover it. -/
theorem scover2_B_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 x1 : Vec F S2000x128 .f32) (x2 x3 : Vec F S128x128 .f32) (x4 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y

def sout2_B_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 x1 : Vec F S2000x128 .f32) (x2 x3 : Vec F S128x128 .f32) (x4 : Vec F S1x128 .f32) (xs0 xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.1)
/-- The stores into the second scratch row cover it. -/
theorem scover2_B_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 x1 : Vec F S2000x128 .f32) (x2 x3 : Vec F S128x128 .f32) (x4 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y

def sout2_B_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 x1 : Vec F S2000x128 .f32) (x2 x3 : Vec F S128x128 .f32) (x4 : Vec F S1x128 .f32) (xs0 xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.1)
/-! ## What a point of kind C leaves -/

/-- The stores into the block output tile its buffer. -/
theorem cover2_C_5 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 : Vec F S2000x128 .f32) (x2 x3 : Vec F S128x128 .f32) (x4 : Vec F S1x128 .f32) (xs0 xs1 : Vec F S1x128 .f32) (y : S2000x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).1 S2000x128.size (by sl_kernel_rfl) y

def out2_C_5 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 : Vec F S2000x128 .f32) (x2 x3 : Vec F S128x128 .f32) (x4 : Vec F S1x128 .f32) (xs0 xs1 : Vec F S1x128 .f32) : Vec F S2000x128 .f32 :=
  VO2_5.read (Elt F) (VO2_5.writes (Elt F) VO2_5.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).1)
/-- The store into the column-sum output covers its buffer. -/
theorem cover2_C_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 : Vec F S2000x128 .f32) (x2 x3 : Vec F S128x128 .f32) (x4 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y

def out2_C_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 : Vec F S2000x128 .f32) (x2 x3 : Vec F S128x128 .f32) (x4 : Vec F S1x128 .f32) (xs0 xs1 : Vec F S1x128 .f32) : Vec F S1x128 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1)
/-- The store into the sum-of-squares output covers its buffer. -/
theorem cover2_C_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 : Vec F S2000x128 .f32) (x2 x3 : Vec F S128x128 .f32) (x4 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y

def out2_C_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 : Vec F S2000x128 .f32) (x2 x3 : Vec F S128x128 .f32) (x4 : Vec F S1x128 .f32) (xs0 xs1 : Vec F S1x128 .f32) : Vec F S1x128 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1)
/-- The stores into the first scratch row cover it. -/
theorem scover2_C_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 : Vec F S2000x128 .f32) (x2 x3 : Vec F S128x128 .f32) (x4 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y

def sout2_C_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 : Vec F S2000x128 .f32) (x2 x3 : Vec F S128x128 .f32) (x4 : Vec F S1x128 .f32) (xs0 xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1)
/-- The stores into the second scratch row cover it. -/
theorem scover2_C_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 : Vec F S2000x128 .f32) (x2 x3 : Vec F S128x128 .f32) (x4 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y

def sout2_C_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 : Vec F S2000x128 .f32) (x2 x3 : Vec F S128x128 .f32) (x4 : Vec F S1x128 .f32) (xs0 xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)
/-! ## What the outputs and the two scratch rows hold after each point -/

/-- After the body at position `n`: the block output's buffer, the two statistics outputs' buffers (placeholders
    at the points that do not store them), and the two scratch rows — the first point's run at position 0, a middle
    or last point's run over what the point before left in the scratch rows afterwards. -/
def outsAt2 (c : Dev nD) : (n : ℕ) → n < cfg2.N → Vec F S2000x128 .f32 × Vec F S1x128 .f32 × Vec F S1x128 .f32 × Vec F S1x128 .f32 × Vec F S1x128 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), (VO2_6.read (Elt F) VO2_6.junk), (VO2_7.read (Elt F) VO2_7.junk), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h1 : (n + 1) % 25 = 24 then
      (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (fun h => by have hN : n + 1 < 25 := lt_of_lt_of_eq hn (show cfg2.N = 25 from N_2); (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (fun h => by have hN : n + 1 < 25 := lt_of_lt_of_eq hn (show cfg2.N = 25 from N_2); (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (fun h => by have hN : n + 1 < 25 := lt_of_lt_of_eq hn (show cfg2.N = 25 from N_2); (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (fun h => by have hN : n + 1 < 25 := lt_of_lt_of_eq hn (show cfg2.N = 25 from N_2); (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (fun h => by have hN : n + 1 < 25 := lt_of_lt_of_eq hn (show cfg2.N = 25 from N_2); (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2)
    else
      (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (fun h => by have hN : n + 1 < 25 := lt_of_lt_of_eq hn (show cfg2.N = 25 from N_2); (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, (VO2_6.read (Elt F) VO2_6.junk), (VO2_7.read (Elt F) VO2_7.junk), sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (fun h => by have hN : n + 1 < 25 := lt_of_lt_of_eq hn (show cfg2.N = 25 from N_2); (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (fun h => by have hN : n + 1 < 25 := lt_of_lt_of_eq hn (show cfg2.N = 25 from N_2); (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2)

/-- At the first point: that run's contents. -/
theorem outsAt2_A (c : Dev nD) (t : Fin cfg2.N) (h0 : t.val % 25 = 0) (h1 : ¬t.val % 25 = 24) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), (VO2_6.read (Elt F) VO2_6.junk), (VO2_7.read (Elt F) VO2_7.junk), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (by exfalso; have hN : n + 1 < 25 := lt_of_lt_of_eq hn (show cfg2.N = 25 from N_2); (try dsimp only at h0); omega)

/-- At a middle point: that run's contents over what the point before left in the scratch rows. -/
theorem outsAt2_B (c : Dev nD) (t : Fin cfg2.N) (h0 : ¬t.val % 25 = 0) (h1 : ¬t.val % 25 = 24) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, (VO2_6.read (Elt F) VO2_6.junk), (VO2_7.read (Elt F) VO2_7.junk), sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

/-- At the last point: that run's contents over what the point before left in the scratch rows. -/
theorem outsAt2_C (c : Dev nD) (t : Fin cfg2.N) (h0 : ¬t.val % 25 = 0) (h1 : t.val % 25 = 24) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-! ## The invariant -/

/-- Before the first point the class's invariant (the scratch rows at anything); afterwards the two scratch rows at
    what the point before left in them, beside the other scoped buffers and the generator register. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The proof data -/

/-- The arrays as the region finds them; after the body each input's buffer at its block, the outputs' at
    `outsAt2`'s components; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
    | ⟨7, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem after2_7 (c : Dev nD) (t : Fin cfg2.N) : (dat2 V c).after 7 t = (outsAt2 V c t.val t.isLt).2.2.1 := by dsimp only [dat2]

/-- Each input's current staging buffer holds its block at every point, fetched there or not: an unfetched window's
    block index has not moved. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 8000000 in
/-- The body at any point: the inputs' buffers hold their blocks; the point is the first, a middle or the last one;
    the invariant hands the body the scratch rows at what the point before left (at anything at the first point) and
    takes them back at this point's contents; the statistics outputs pass through untouched except at the last point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 25 := lt_of_lt_of_eq t.isLt (show cfg2.N = 25 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h1 : t.val % 25 = 24
  · have h0 : ¬t.val % 25 = 0 := by omega
    have hz : t.val ≠ 0 := by omega
    rw [show (dat2 V c).leavesExact 6 t = owns (c : Thread nD τ) (ms2_6 t) fullShare ((dat2 V c).after 6 t) from by
      unfold Dat.leavesExact; rw [liveAt2_6 t ((hcond2_1 t).mpr h1)], after2_6]
    rw [show (dat2 V c).leavesExact 7 t = owns (c : Thread nD τ) (ms2_7 t) fullShare ((dat2 V c).after 7 t) from by
      unfold Dat.leavesExact; rw [liveAt2_7 t ((hcond2_1 t).mpr h1)], after2_7]
    rw [outsAt2_C V c t h0 h1]
    unfold out2_C_5 out2_C_6 out2_C_7 sout2_C_0 sout2_C_1; (try dsimp only)
    rw [PhiS2_castSucc V c t, PhiS2_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_C c (grid2.coords t) _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _ _ _ _ _ )
          · unfold owns; iexists _; isplitr
            swap; · iexact HS1
            ipureintro; exact View.read_writes_of_cover _ _ _ _ _ (scover2_C_1 c _ _ _ _ _ _ _ _ _ _ _ _ _ _ _ _ _ _ _ _ _ _ _ _ _ _ _ _ _ _ )
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_C_5 c _ _ _ _ _ _ _ _ _ _ _ _ _ _ _ _ _ _ _ _ _ _ _ _ _ _ _ _ _ _ )
    isplitl [H6]
    · unfold owns; iexists _; isplitr
      swap; · iexact H6
      ipureintro; exact View.read_writes_of_cover _ _ _ _ _ (cover2_C_6 c _ _ _ _ _ _ _ _ _ _ _ _ _ _ _ _ _ _ _ _ _ _ _ _ _ _ _ _ _ _ )
    unfold owns; iexists _; isplitr
    swap; · iexact H7
    ipureintro; exact View.read_writes_of_cover _ _ _ _ _ (cover2_C_7 c _ _ _ _ _ _ _ _ _ _ _ _ _ _ _ _ _ _ _ _ _ _ _ _ _ _ _ _ _ _ )
  · rw [Dat.leavesExact_idle (dat2 V c) 6 t (idleAt2_6 t (fun h => h1 ((hcond2_1 t).mp h))) (noFlush2_6 t (fun h => h1 ((hcond2_1 t).mp h)))]
    rw [Dat.leavesExact_idle (dat2 V c) 7 t (idleAt2_7 t (fun h => h1 ((hcond2_1 t).mp h))) (noFlush2_7 t (fun h => h1 ((hcond2_1 t).mp h)))]
    by_cases h0 : t.val % 25 = 0
    · have hz : t.val = 0 := by omega
      rw [outsAt2_A V c t h0 h1]
      unfold out2_A_5 sout2_A_0 sout2_A_1; (try dsimp only)
      rw [PhiS2_castSucc V c t, PhiS2_zero V c _ _ hz, PhiA2_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_A c (grid2.coords t) _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ )
            · unfold owns; iexists _; isplitr
              swap; · iexact HS1
              ipureintro; exact View.read_writes_of_cover _ _ _ _ _ (scover2_A_1 c _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_A_5 c _ _ _ _ _ _ _ _ _ _ _ _ _ _ _ _ _ _ _ _ _ _ _ _ _ _ _ _ )
      isplitl [H6]; · iexists _; iexact H6
      iexists _; iexact H7
    · have hz : t.val ≠ 0 := by omega
      rw [outsAt2_B V c t h0 h1]
      unfold out2_B_5 sout2_B_0 sout2_B_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_B c (grid2.coords t) _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ )
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_B_5 c _ _ _ _ _ _ _ _ _ _ _ _ _ _ _ _ _ _ _ _ _ _ _ _ _ _ _ _ _ _ )
      isplitl [H6]; · iexists _; iexact H6
      iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch rows' named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 25 := N_2; omega), PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Cert.Kernel.Hand

end
-- ==== Proof.K.Reg3.lean ====
/-
  THE SECOND NORMALISING LAYER'S REGION: WHAT ITS BODY DOES TO THE STAGING BUFFERS, AT ANY ENTRY CONTENTS.

  The region walks 25 blocks of 2000 rows.  At every point the body reads six buffers whole — a block of rows of the
  layer's linear output and of the layer's input, and the four one-row arrays (column means, column variances, scale,
  shift) —, reads the output buffer once without using what it finds, and writes the whole output buffer with one
  value computed from the six.  Nothing is kept from one point to the next, so the proof data are: every input buffer
  holds its block of the array the region found on entry, whether or not it was fetched at this point, and the output
  buffer after the body is that one value of the six input blocks.  All of it is stated at a parameter V, the buffer
  contents when the region is entered, and for any float interpretation.
-/
import proofs.«126844_j8246337208554_1_alg».proof.Proof.Gen.Kernel.Launch
import proofs.«126844_j8246337208554_1_alg».proof.Proof.Gen.Kernel.Skeleton
import proofs.«126844_j8246337208554_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the arrays the region finds -/

/-- The block of window w at point t, read off the array as it stands when the region is entered. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input buffer holds its block at every point, fetched there or not (an unfetched window's block index has not
    moved), for any proof data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: every one a whole buffer -/

abbrev r3_a : Rect S2000x128 := Rect.unit (s := S2000x128) ![0, 0] S2000x128.size inb_S2000x128_S2000x128_0_0
abbrev r3_r : Rect S1x128 := Rect.unit (s := S1x128) ![0, 0] S1x128.size inb_S1x128_S1x128_0_0

/-! ## The output buffer after the body -/

/-- The output buffer after the body, from the six input buffers (in the windows' order: linear output, layer input,
    means, variances, scale, shift): one piece, the whole buffer, holding the body's one value of what it read. -/
def out3_6 (x0 x1 : Vec F S2000x128 .f32) (x2 x3 x4 x5 : Vec F S1x128 .f32) : Vec F S2000x128 .f32 :=
  View.canon [⟨r3_a, k3_pay1 (View.ld x0 r3_a) (View.ld x2 r3_r) (View.ld x3 r3_r) (View.ld x4 r3_r) (View.ld x5 r3_r) (View.ld x1 r3_a)⟩]

/-- The one piece tiles the buffer, so it covers it. -/
theorem cover3_6 (p0 : Vec F S2000x128 .f32) (y : S2000x128.Idx) :
    ∃ pc ∈ ([⟨r3_a, p0⟩] : List (View.Piece (Elt F) S2000x128 .f32)), y ∈ pc.1.set :=
  View.cover_of_tiled [⟨r3_a, p0⟩] S2000x128.size (by rfl) y

/-! ## The body's triple -/

set_option maxHeartbeats 1000000 in
/-- The body on whole staging memrefs, the inputs' at known contents and the output's at anything, runs to the
    continuation with the inputs' as they were and the output's at out3_6 of the inputs'. -/
theorem sound_kernel3 (c : Dev nD) (E : Set ℕ) (i : grid3.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S2000x128 .f32) (harg7 : arg7.IsWhole)
    (x0 x1 : Vec F S2000x128 .f32) (x2 x3 x4 x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E
          (cc3__norm_act_kernel i arg1 harg1 arg2 harg2 arg3 harg3 arg4 harg4 arg5 harg5 arg6 harg6 arg7 harg7) K := by
  simp only [cc3__norm_act_kernel_eq_skeleton]; unfold cc3__norm_act_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The region's proof data -/

/-- The proof data on core c: the arrays as the region finds them; after the body at point t every input buffer at
    its block and the output buffer at out3_6 of the input blocks; the invariant is the untouched rest; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) :
    (dat3 V c).after 6 t = out3_6 (iblk3 V c 0 t) (iblk3 V c 1 t) (iblk3 V c 2 t) (iblk3 V c 3 t) (iblk3 V c 4 t) (iblk3 V c 5 t) := by
  dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the input memrefs hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _
    (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
/-
  THE LAST LINEAR LAYER'S REGION: WHAT ITS BODY DOES TO THE STAGING BUFFERS, AT ANY ENTRY CONTENTS.

  The region walks 25 blocks of 2000 rows.  At every point the body reads five buffers whole — a block of rows of each
  of the two row-blocked operands, the two weight matrices, the one-row bias —, reads the output buffer once without
  using what it finds, and writes the whole output buffer with one value computed from the five.  Nothing is kept from
  one point to the next, so the proof data are: every input buffer holds its block of the array the region found on
  entry, whether or not it was fetched at this point, and the output buffer after the body is that one value of the
  five input blocks.  All of it is stated at a parameter V, the buffer contents when the region is entered, and for
  any float interpretation.
-/
import proofs.«126844_j8246337208554_1_alg».proof.Proof.Gen.Kernel.Launch
import proofs.«126844_j8246337208554_1_alg».proof.Proof.Gen.Kernel.Skeleton
import proofs.«126844_j8246337208554_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the arrays the region finds -/

/-- The block of window w at point t, read off the array as it stands when the region is entered. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input buffer holds its block at every point, fetched there or not (an unfetched window's block index has not
    moved), for any proof data whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body reads and writes: every one a whole buffer -/

abbrev r4_a : Rect S2000x128 := Rect.unit (s := S2000x128) ![0, 0] S2000x128.size inb_S2000x128_S2000x128_0_0
abbrev r4_w : Rect S128x64 := Rect.unit (s := S128x64) ![0, 0] S128x64.size inb_S128x64_S128x64_0_0
abbrev r4_b : Rect S1x64 := Rect.unit (s := S1x64) ![0, 0] S1x64.size inb_S1x64_S1x64_0_0
abbrev r4_o : Rect S2000x64 := Rect.unit (s := S2000x64) ![0, 0] S2000x64.size inb_S2000x64_S2000x64_0_0

/-! ## The output buffer after the body -/

/-- The output buffer after the body, from the five input buffers: one piece, the whole buffer, holding the body's
    one value of what it read. -/
def out4_5 (x0 x1 : Vec F S2000x128 .f32) (x2 x3 : Vec F S128x64 .f32) (x4 : Vec F S1x64 .f32) : Vec F S2000x64 .f32 :=
  View.canon [⟨r4_o, k4_pay1 (View.ld x0 r4_a) (View.ld x1 r4_a) (View.ld x2 r4_w) (View.ld x3 r4_w) (View.ld x4 r4_b)⟩]

/-- The one piece tiles the buffer, so it covers it. -/
theorem cover4_5 (p0 : Vec F S2000x64 .f32) (y : S2000x64.Idx) :
    ∃ pc ∈ ([⟨r4_o, p0⟩] : List (View.Piece (Elt F) S2000x64 .f32)), y ∈ pc.1.set :=
  View.cover_of_tiled [⟨r4_o, p0⟩] S2000x64.size (by rfl) y

/-! ## The body's triple -/

set_option maxHeartbeats 1000000 in
/-- The body on whole staging memrefs, the inputs' at known contents and the output's at anything, runs to the
    continuation with the inputs' as they were and the output's at out4_5 of the inputs'. -/
theorem sound_kernel4 (c : Dev nD) (E : Set ℕ) (i : grid4.Coords)
    (arg1 : Memref sig .tc .vmem S2000x128 .f32) (harg1 : arg1.IsWhole) (arg2 : Memref sig .tc .vmem S2000x128 .f32) (harg2 : arg2.IsWhole)
    (arg3 : Memref sig .tc .vmem S128x64 .f32) (harg3 : arg3.IsWhole) (arg4 : Memref sig .tc .vmem S128x64 .f32) (harg4 : arg4.IsWhole)
    (arg5 : Memref sig .tc .vmem S1x64 .f32) (harg5 : arg5.IsWhole) (arg6 : Memref sig .tc .vmem S2000x64 .f32) (harg6 : arg6.IsWhole)
    (x0 x1 : Vec F S2000x128 .f32) (x2 x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__linear_kernel i arg1 harg1 arg2 harg2 arg3 harg3 arg4 harg4 arg5 harg5 arg6 harg6) K := by
  simp only [cc4__linear_kernel_eq_skeleton]; unfold cc4__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The region's proof data -/

/-- The proof data on core c: the arrays as the region finds them; after the body at point t every input buffer at
    its block and the output buffer at out4_5 of the input blocks; the invariant is the untouched rest; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the entry contents. -/
theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the input memrefs hold their blocks, so the body's triple applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _
    (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Records.lean ====
import proofs.«126844_j8246337208554_1_alg».proof.Proof.K.Assemble
import proofs.«126844_j8246337208554_1_alg».proof.Proof.K.Reg0
import proofs.«126844_j8246337208554_1_alg».proof.Proof.K.Reg1
import proofs.«126844_j8246337208554_1_alg».proof.Proof.K.Reg2
import proofs.«126844_j8246337208554_1_alg».proof.Proof.K.Reg3
import proofs.«126844_j8246337208554_1_alg».proof.Proof.K.Reg4

set_option maxRecDepth 16384

noncomputable section

namespace Cert.Kernel.Hand

open Cert.Kernel Cert.Kernel.Gen
open Idealize.ShloMosaic Idealize.ShloMosaic.TcCoe
open Idealize.SL Idealize.SL.BI Idealize.SL.Sem
open Idealize.ShloMosaic.Pipeline (Dat BodyObligation)

variable {F : FTy → Type} [FloatOps F]

/-! # The five regions' proof data, each with its body obligation, as the run's assembly takes them

Regions 1, 3 and 4 keep the class's invariant at every point, so what the launch hands them is their invariant and
what they give back is it again; regions 0 and 2 name their two scratch rows from the second point on. -/

def rec0 : Region0 F :=
  ⟨fun V c => dat0 V c, fun V c w => A_eq0 V c w, fun V c => body_obligation0 V c, fun _ _ _ => rfl, fun _ _ _ => rfl,
    fun _ _ => rfl, fun V c => hin0 V c, fun V c => hout0 V c⟩

def rec1 : Region1 F :=
  ⟨fun V c => dat1 V c, fun V c w => A_eq1 V c w, fun V c => body_obligation1 V c, fun _ _ _ => rfl, fun _ _ _ => rfl,
    fun _ _ => rfl, fun _ _ => BI.Entails.refl _, fun _ _ => BI.Entails.refl _⟩

def rec2 : Region2 F :=
  ⟨fun V c => dat2 V c, fun V c w => A_eq2 V c w, fun V c => body_obligation2 V c, fun _ _ _ => rfl, fun _ _ _ => rfl,
    fun _ _ => rfl, fun V c => hin2 V c, fun V c => hout2 V c⟩

def rec3 : Region3 F :=
  ⟨fun V c => dat3 V c, fun V c w => A_eq3 V c w, fun V c => body_obligation3 V c, fun _ _ _ => rfl, fun _ _ _ => rfl,
    fun _ _ => rfl, fun _ _ => BI.Entails.refl _, fun _ _ => BI.Entails.refl _⟩

def rec4 : Region4 F :=
  ⟨fun V c => dat4 V c, fun V c w => A_eq4 V c w, fun V c => body_obligation4 V c, fun _ _ _ => rfl, fun _ _ _ => rfl,
    fun _ _ => rfl, fun _ _ => BI.Entails.refl _, fun _ _ => BI.Entails.refl _⟩

end Cert.Kernel.Hand

end
-- ==== Proof.KI.Assemble.lean ====
/- The whole run of the kernel program, put together from its five kernel regions.

   The program is five stretches of host operations, each followed by one kernel region.  For each region we
   assume (as a record) proof data for its pipeline at ANY contents of the tensor core's buffers when the region
   is entered, the body obligation for those data, full shares, nothing owed, and the two entailments that tie
   the data's invariant at the first and at the last grid point to the plain invariant "the scoped buffers no
   window stages, and the generator register".  From the five records we define the buffers' contents at every
   boundary between two items as a fold from the launch memory, run the ten items in order, and read the final
   memory off the last fold: every unscoped buffer ends at the last fold's contents.  Two corollaries: each of
   the nineteen argument arrays ends as launched, and the result array ends at what the last region's pipeline
   leaves in its output window's array. -/
import proofs.«126844_j8246337208554_1_alg».proof.Proof.Gen.KernelIdeal.Launch
import proofs.«126844_j8246337208554_1_alg».proof.Proof.Gen.KernelIdeal.Regions
import Idealize.ShloMosaic.Lib.Pipeline.RegionsLoop
import Idealize.ShloMosaic.Lib.Pipeline.FrameSuffix
import Idealize.ShloMosaic.Lib.Pipeline.Frame
import Idealize.ShloMosaic.Lib.Pipeline.Kit
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen (hostOps0 hostOps1 hostOps2 hostOps3 hostOps4
  hostOps0_sub hostOps1_sub hostOps2_sub hostOps3_sub hostOps4_sub
  hostOps0_fresh hostOps1_fresh hostOps2_fresh hostOps3_fresh hostOps4_fresh
  hostOps0_W hostOps1_W hostOps2_W hostOps3_W hostOps4_W
  hostOps0_writes hostOps1_writes hostOps2_writes hostOps3_writes hostOps4_writes
  launch0 launch1 launch2 launch3 launch4 cellOf_inj main_chain)

variable {F : FTy → Type} [FloatOps F]

/-- The tensor core's buffer contents on every device, read at its own references: what a region's proof data
    are stated at. -/
abbrev Vals (F : FTy → Type) : Type := (c : Dev nD) → (b : Ref sig .tc) → Buf (Elt F) ((c : Thread nD τ).loc b)

/-! ## What is assumed of each region -/

/-- Region 0: proof data for its pipeline at any entry contents `V`, reading their arrays off `V`; the body
    obligation; every share full; nothing owed; and the data's invariant entered from, and giving back, the
    plain invariant of the scoped rest and the generator register. -/
structure Region0 (F : FTy → Type) [FloatOps F] where
  dat : Vals F → (c : Dev nD) → Dat τ (Elt F) Unit ℕ (UR sig nD τ) ℕ cfg0 c
  A_eq : ∀ (V : Vals F) (c : Dev nD) (w : Fin cfg0.W), (dat V c).A w = V c (Pipeline.arrRef spec0 w)
  body : ∀ (V : Vals F) (c : Dev nD), BodyObligation (dat V c) (defs₀ (F := F)) Variants.none () Set.univ
  hq : ∀ (V : Vals F) (c : Dev nD) (w : Fin cfg0.W), (dat V c).q w = fullShare
  ho : ∀ (V : Vals F) (c : Dev nD) (t : Fin (cfg0.N + 1)), (dat V c).owed t = 0
  hrec : ∀ (V : Vals F) (c : Dev nD), (dat V c).recorded 0 = Set.univ
  hin : ∀ (V : Vals F) (c : Dev nD), (Pipeline.ΦA spec0 c : sProp (MT nD τ sig Unit (Elt F) ℕ (UR sig nD τ) ℕ)) ⊢ (dat V c).Φ 0
  hout : ∀ (V : Vals F) (c : Dev nD), (dat V c).Φ (Fin.last cfg0.N) ⊢ (Pipeline.ΦA spec0 c : sProp (MT nD τ sig Unit (Elt F) ℕ (UR sig nD τ) ℕ))

/-- Region 1: proof data for its pipeline at any entry contents `V`, reading their arrays off `V`; the body
    obligation; every share full; nothing owed; and the data's invariant entered from, and giving back, the
    plain invariant of the scoped rest and the generator register. -/
structure Region1 (F : FTy → Type) [FloatOps F] where
  dat : Vals F → (c : Dev nD) → Dat τ (Elt F) Unit ℕ (UR sig nD τ) ℕ cfg1 c
  A_eq : ∀ (V : Vals F) (c : Dev nD) (w : Fin cfg1.W), (dat V c).A w = V c (Pipeline.arrRef spec1 w)
  body : ∀ (V : Vals F) (c : Dev nD), BodyObligation (dat V c) (defs₀ (F := F)) Variants.none () Set.univ
  hq : ∀ (V : Vals F) (c : Dev nD) (w : Fin cfg1.W), (dat V c).q w = fullShare
  ho : ∀ (V : Vals F) (c : Dev nD) (t : Fin (cfg1.N + 1)), (dat V c).owed t = 0
  hrec : ∀ (V : Vals F) (c : Dev nD), (dat V c).recorded 0 = Set.univ
  hin : ∀ (V : Vals F) (c : Dev nD), (Pipeline.ΦA spec1 c : sProp (MT nD τ sig Unit (Elt F) ℕ (UR sig nD τ) ℕ)) ⊢ (dat V c).Φ 0
  hout : ∀ (V : Vals F) (c : Dev nD), (dat V c).Φ (Fin.last cfg1.N) ⊢ (Pipeline.ΦA spec1 c : sProp (MT nD τ sig Unit (Elt F) ℕ (UR sig nD τ) ℕ))

/-- Region 2: proof data for its pipeline at any entry contents `V`, reading their arrays off `V`; the body
    obligation; every share full; nothing owed; and the data's invariant entered from, and giving back, the
    plain invariant of the scoped rest and the generator register. -/
structure Region2 (F : FTy → Type) [FloatOps F] where
  dat : Vals F → (c : Dev nD) → Dat τ (Elt F) Unit ℕ (UR sig nD τ) ℕ cfg2 c
  A_eq : ∀ (V : Vals F) (c : Dev nD) (w : Fin cfg2.W), (dat V c).A w = V c (Pipeline.arrRef spec2 w)
  body : ∀ (V : Vals F) (c : Dev nD), BodyObligation (dat V c) (defs₀ (F := F)) Variants.none () Set.univ
  hq : ∀ (V : Vals F) (c : Dev nD) (w : Fin cfg2.W), (dat V c).q w = fullShare
  ho : ∀ (V : Vals F) (c : Dev nD) (t : Fin (cfg2.N + 1)), (dat V c).owed t = 0
  hrec : ∀ (V : Vals F) (c : Dev nD), (dat V c).recorded 0 = Set.univ
  hin : ∀ (V : Vals F) (c : Dev nD), (Pipeline.ΦA spec2 c : sProp (MT nD τ sig Unit (Elt F) ℕ (UR sig nD τ) ℕ)) ⊢ (dat V c).Φ 0
  hout : ∀ (V : Vals F) (c : Dev nD), (dat V c).Φ (Fin.last cfg2.N) ⊢ (Pipeline.ΦA spec2 c : sProp (MT nD τ sig Unit (Elt F) ℕ (UR sig nD τ) ℕ))

/-- Region 3: proof data for its pipeline at any entry contents `V`, reading their arrays off `V`; the body
    obligation; every share full; nothing owed; and the data's invariant entered from, and giving back, the
    plain invariant of the scoped rest and the generator register. -/
structure Region3 (F : FTy → Type) [FloatOps F] where
  dat : Vals F → (c : Dev nD) → Dat τ (Elt F) Unit ℕ (UR sig nD τ) ℕ cfg3 c
  A_eq : ∀ (V : Vals F) (c : Dev nD) (w : Fin cfg3.W), (dat V c).A w = V c (Pipeline.arrRef spec3 w)
  body : ∀ (V : Vals F) (c : Dev nD), BodyObligation (dat V c) (defs₀ (F := F)) Variants.none () Set.univ
  hq : ∀ (V : Vals F) (c : Dev nD) (w : Fin cfg3.W), (dat V c).q w = fullShare
  ho : ∀ (V : Vals F) (c : Dev nD) (t : Fin (cfg3.N + 1)), (dat V c).owed t = 0
  hrec : ∀ (V : Vals F) (c : Dev nD), (dat V c).recorded 0 = Set.univ
  hin : ∀ (V : Vals F) (c : Dev nD), (Pipeline.ΦA spec3 c : sProp (MT nD τ sig Unit (Elt F) ℕ (UR sig nD τ) ℕ)) ⊢ (dat V c).Φ 0
  hout : ∀ (V : Vals F) (c : Dev nD), (dat V c).Φ (Fin.last cfg3.N) ⊢ (Pipeline.ΦA spec3 c : sProp (MT nD τ sig Unit (Elt F) ℕ (UR sig nD τ) ℕ))

/-- Region 4: proof data for its pipeline at any entry contents `V`, reading their arrays off `V`; the body
    obligation; every share full; nothing owed; and the data's invariant entered from, and giving back, the
    plain invariant of the scoped rest and the generator register. -/
structure Region4 (F : FTy → Type) [FloatOps F] where
  dat : Vals F → (c : Dev nD) → Dat τ (Elt F) Unit ℕ (UR sig nD τ) ℕ cfg4 c
  A_eq : ∀ (V : Vals F) (c : Dev nD) (w : Fin cfg4.W), (dat V c).A w = V c (Pipeline.arrRef spec4 w)
  body : ∀ (V : Vals F) (c : Dev nD), BodyObligation (dat V c) (defs₀ (F := F)) Variants.none () Set.univ
  hq : ∀ (V : Vals F) (c : Dev nD) (w : Fin cfg4.W), (dat V c).q w = fullShare
  ho : ∀ (V : Vals F) (c : Dev nD) (t : Fin (cfg4.N + 1)), (dat V c).owed t = 0
  hrec : ∀ (V : Vals F) (c : Dev nD), (dat V c).recorded 0 = Set.univ
  hin : ∀ (V : Vals F) (c : Dev nD), (Pipeline.ΦA spec4 c : sProp (MT nD τ sig Unit (Elt F) ℕ (UR sig nD τ) ℕ)) ⊢ (dat V c).Φ 0
  hout : ∀ (V : Vals F) (c : Dev nD), (dat V c).Φ (Fin.last cfg4.N) ⊢ (Pipeline.ΦA spec4 c : sProp (MT nD τ sig Unit (Elt F) ℕ (UR sig nD τ) ℕ))

local notation "𝕄" => MT nD τ sig Unit (Elt F) ℕ (UR sig nD τ) ℕ

/-! ## The buffers' contents at every boundary between two items: a fold from the launch memory -/

section Run

variable (D0 : Region0 F) (D1 : Region1 F) (D2 : Region2 F) (D3 : Region3 F) (D4 : Region4 F)
variable (m : (ℓ : Loc nD τ sig) → Buf (Elt F) ℓ)

/-- Device `c`'s buffers at launch. -/
abbrev W0 : Dev nD → Valuation τ sig (Elt F) := fun c b => m (c, b)

/-- After the host stretch `hostOps0`: what region 0 is entered with. -/
abbrev W1 : Dev nD → Valuation τ sig (Elt F) := fun c => StableHlo.after hostOps0 (W0 m c)
/-- The same, read at the tensor core's own references. -/
abbrev V1 : Vals F := fun c b => W1 m c b
/-- After region 0: its windows' arrays at what its pipeline leaves in them, every other buffer as it was. -/
def W2 (c : Dev nD) : Valuation τ sig (Elt F) :=
  Pipeline.withArrays spec0 c (W1 m c) fun w => (D0.dat (V1 m) c).arrAt w cfg0.N
theorem W2_arr (c : Dev nD) (w : Fin cfg0.W) :
    W2 D0 m c (Proc.devRef .tc (Pipeline.arrRef spec0 w)) = (D0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 D0 m c (Proc.devRef .tc b) = W1 m c (Proc.devRef .tc b) := by
  unfold W2; exact Pipeline.withArrays_of_ne spec0 c _ _ b hb
/-- The same, read at the tensor core's own references. -/
abbrev V2 : Vals F := fun c b => W2 D0 m c b
theorem hF0 (c : Dev nD) (w : Fin cfg0.W) :
    (D0.dat (V1 m) c).arrAt w cfg0.N = V2 D0 m c (Pipeline.arrRef spec0 w) :=
  (W2_arr D0 m c w).symm
theorem hrest0 (c : Dev nD) : ∀ b, b ∉ Finset.univ.image (Pipeline.arrRef spec0) → V2 D0 m c b = V1 m c b :=
  fun b hb => W2_of_ne D0 m c b fun w e => hb (Finset.mem_image.mpr ⟨w, Finset.mem_univ _, e⟩)

/-- A host stretch leaves a buffer it does not write as it was. -/
theorem W1_keep (c : Dev nD) (r : Ref sig .tc) (h : r ∉ hostOps0_W) :
    W1 m c (Proc.devRef .tc r) = W0 m c (Proc.devRef .tc r) :=
  StableHlo.after_of_writes_sub hostOps0 _ hostOps0_writes h
/-- Region 0 leaves every buffer but its outputs' arrays as it was: a buffer that is no window's array is not
    touched, and an input window's array is only read. -/
theorem W2_keep (c : Dev nD) (r : Ref sig .tc) (h : r ∉ ([main_v25_0, main_v25_1, main_v25_2] : List (Ref sig .tc))) :
    W2 D0 m c (Proc.devRef .tc r) = W1 m c (Proc.devRef .tc r) := by
  by_cases hr : ∃ w, Pipeline.arrRef spec0 w = r
  · obtain ⟨w, rfl⟩ := hr
    have hin : (cfg0.win w).isOut = false :=
      (by decide : ∀ w : Fin 8, Pipeline.arrRef spec0 w ∉ ([main_v25_0, main_v25_1, main_v25_2] : List (Ref sig .tc)) → (cfg0.win w).isOut = false) w h
    exact (W2_arr D0 m c w).trans (((D0.dat (V1 m) c).arrAt_in w hin _).trans (D0.A_eq (V1 m) c w))
  · exact W2_of_ne D0 m c r fun w e => hr ⟨w, e⟩

/-- After the host stretch `hostOps1`: what region 1 is entered with. -/
abbrev W3 : Dev nD → Valuation τ sig (Elt F) := fun c => StableHlo.after hostOps1 (W2 D0 m c)
/-- The same, read at the tensor core's own references. -/
abbrev V3 : Vals F := fun c b => W3 D0 m c b
/-- After region 1: its windows' arrays at what its pipeline leaves in them, every other buffer as it was. -/
def W4 (c : Dev nD) : Valuation τ sig (Elt F) :=
  Pipeline.withArrays spec1 c (W3 D0 m c) fun w => (D1.dat (V3 D0 m) c).arrAt w cfg1.N
theorem W4_arr (c : Dev nD) (w : Fin cfg1.W) :
    W4 D0 D1 m c (Proc.devRef .tc (Pipeline.arrRef spec1 w)) = (D1.dat (V3 D0 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 D0 D1 m c (Proc.devRef .tc b) = W3 D0 m c (Proc.devRef .tc b) := by
  unfold W4; exact Pipeline.withArrays_of_ne spec1 c _ _ b hb
/-- The same, read at the tensor core's own references. -/
abbrev V4 : Vals F := fun c b => W4 D0 D1 m c b
theorem hF1 (c : Dev nD) (w : Fin cfg1.W) :
    (D1.dat (V3 D0 m) c).arrAt w cfg1.N = V4 D0 D1 m c (Pipeline.arrRef spec1 w) :=
  (W4_arr D0 D1 m c w).symm
theorem hrest1 (c : Dev nD) : ∀ b, b ∉ Finset.univ.image (Pipeline.arrRef spec1) → V4 D0 D1 m c b = V3 D0 m c b :=
  fun b hb => W4_of_ne D0 D1 m c b fun w e => hb (Finset.mem_image.mpr ⟨w, Finset.mem_univ _, e⟩)

/-- A host stretch leaves a buffer it does not write as it was. -/
theorem W3_keep (c : Dev nD) (r : Ref sig .tc) (h : r ∉ hostOps1_W) :
    W3 D0 m c (Proc.devRef .tc r) = W2 D0 m c (Proc.devRef .tc r) :=
  StableHlo.after_of_writes_sub hostOps1 _ hostOps1_writes h
/-- Region 1 leaves every buffer but its outputs' arrays as it was: a buffer that is no window's array is not
    touched, and an input window's array is only read. -/
theorem W4_keep (c : Dev nD) (r : Ref sig .tc) (h : r ∉ ([main_v34] : List (Ref sig .tc))) :
    W4 D0 D1 m c (Proc.devRef .tc r) = W3 D0 m c (Proc.devRef .tc r) := by
  by_cases hr : ∃ w, Pipeline.arrRef spec1 w = r
  · obtain ⟨w, rfl⟩ := hr
    have hin : (cfg1.win w).isOut = false :=
      (by decide : ∀ w : Fin 7, Pipeline.arrRef spec1 w ∉ ([main_v34] : List (Ref sig .tc)) → (cfg1.win w).isOut = false) w h
    exact (W4_arr D0 D1 m c w).trans (((D1.dat (V3 D0 m) c).arrAt_in w hin _).trans (D1.A_eq (V3 D0 m) c w))
  · exact W4_of_ne D0 D1 m c r fun w e => hr ⟨w, e⟩

/-- After the host stretch `hostOps2`: what region 2 is entered with. -/
abbrev W5 : Dev nD → Valuation τ sig (Elt F) := fun c => StableHlo.after hostOps2 (W4 D0 D1 m c)
/-- The same, read at the tensor core's own references. -/
abbrev V5 : Vals F := fun c b => W5 D0 D1 m c b
/-- After region 2: its windows' arrays at what its pipeline leaves in them, every other buffer as it was. -/
def W6 (c : Dev nD) : Valuation τ sig (Elt F) :=
  Pipeline.withArrays spec2 c (W5 D0 D1 m c) fun w => (D2.dat (V5 D0 D1 m) c).arrAt w cfg2.N
theorem W6_arr (c : Dev nD) (w : Fin cfg2.W) :
    W6 D0 D1 D2 m c (Proc.devRef .tc (Pipeline.arrRef spec2 w)) = (D2.dat (V5 D0 D1 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 D0 D1 D2 m c (Proc.devRef .tc b) = W5 D0 D1 m c (Proc.devRef .tc b) := by
  unfold W6; exact Pipeline.withArrays_of_ne spec2 c _ _ b hb
/-- The same, read at the tensor core's own references. -/
abbrev V6 : Vals F := fun c b => W6 D0 D1 D2 m c b
theorem hF2 (c : Dev nD) (w : Fin cfg2.W) :
    (D2.dat (V5 D0 D1 m) c).arrAt w cfg2.N = V6 D0 D1 D2 m c (Pipeline.arrRef spec2 w) :=
  (W6_arr D0 D1 D2 m c w).symm
theorem hrest2 (c : Dev nD) : ∀ b, b ∉ Finset.univ.image (Pipeline.arrRef spec2) → V6 D0 D1 D2 m c b = V5 D0 D1 m c b :=
  fun b hb => W6_of_ne D0 D1 D2 m c b fun w e => hb (Finset.mem_image.mpr ⟨w, Finset.mem_univ _, e⟩)

/-- A host stretch leaves a buffer it does not write as it was. -/
theorem W5_keep (c : Dev nD) (r : Ref sig .tc) (h : r ∉ hostOps2_W) :
    W5 D0 D1 m c (Proc.devRef .tc r) = W4 D0 D1 m c (Proc.devRef .tc r) :=
  StableHlo.after_of_writes_sub hostOps2 _ hostOps2_writes h
/-- Region 2 leaves every buffer but its outputs' arrays as it was: a buffer that is no window's array is not
    touched, and an input window's array is only read. -/
theorem W6_keep (c : Dev nD) (r : Ref sig .tc) (h : r ∉ ([main_v48_0, main_v48_1, main_v48_2] : List (Ref sig .tc))) :
    W6 D0 D1 D2 m c (Proc.devRef .tc r) = W5 D0 D1 m c (Proc.devRef .tc r) := by
  by_cases hr : ∃ w, Pipeline.arrRef spec2 w = r
  · obtain ⟨w, rfl⟩ := hr
    have hin : (cfg2.win w).isOut = false :=
      (by decide : ∀ w : Fin 8, Pipeline.arrRef spec2 w ∉ ([main_v48_0, main_v48_1, main_v48_2] : List (Ref sig .tc)) → (cfg2.win w).isOut = false) w h
    exact (W6_arr D0 D1 D2 m c w).trans (((D2.dat (V5 D0 D1 m) c).arrAt_in w hin _).trans (D2.A_eq (V5 D0 D1 m) c w))
  · exact W6_of_ne D0 D1 D2 m c r fun w e => hr ⟨w, e⟩

/-- After the host stretch `hostOps3`: what region 3 is entered with. -/
abbrev W7 : Dev nD → Valuation τ sig (Elt F) := fun c => StableHlo.after hostOps3 (W6 D0 D1 D2 m c)
/-- The same, read at the tensor core's own references. -/
abbrev V7 : Vals F := fun c b => W7 D0 D1 D2 m c b
/-- After region 3: its windows' arrays at what its pipeline leaves in them, every other buffer as it was. -/
def W8 (c : Dev nD) : Valuation τ sig (Elt F) :=
  Pipeline.withArrays spec3 c (W7 D0 D1 D2 m c) fun w => (D3.dat (V7 D0 D1 D2 m) c).arrAt w cfg3.N
theorem W8_arr (c : Dev nD) (w : Fin cfg3.W) :
    W8 D0 D1 D2 D3 m c (Proc.devRef .tc (Pipeline.arrRef spec3 w)) = (D3.dat (V7 D0 D1 D2 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 D0 D1 D2 D3 m c (Proc.devRef .tc b) = W7 D0 D1 D2 m c (Proc.devRef .tc b) := by
  unfold W8; exact Pipeline.withArrays_of_ne spec3 c _ _ b hb
/-- The same, read at the tensor core's own references. -/
abbrev V8 : Vals F := fun c b => W8 D0 D1 D2 D3 m c b
theorem hF3 (c : Dev nD) (w : Fin cfg3.W) :
    (D3.dat (V7 D0 D1 D2 m) c).arrAt w cfg3.N = V8 D0 D1 D2 D3 m c (Pipeline.arrRef spec3 w) :=
  (W8_arr D0 D1 D2 D3 m c w).symm
theorem hrest3 (c : Dev nD) : ∀ b, b ∉ Finset.univ.image (Pipeline.arrRef spec3) → V8 D0 D1 D2 D3 m c b = V7 D0 D1 D2 m c b :=
  fun b hb => W8_of_ne D0 D1 D2 D3 m c b fun w e => hb (Finset.mem_image.mpr ⟨w, Finset.mem_univ _, e⟩)

/-- A host stretch leaves a buffer it does not write as it was. -/
theorem W7_keep (c : Dev nD) (r : Ref sig .tc) (h : r ∉ hostOps3_W) :
    W7 D0 D1 D2 m c (Proc.devRef .tc r) = W6 D0 D1 D2 m c (Proc.devRef .tc r) :=
  StableHlo.after_of_writes_sub hostOps3 _ hostOps3_writes h
/-- Region 3 leaves every buffer but its outputs' arrays as it was: a buffer that is no window's array is not
    touched, and an input window's array is only read. -/
theorem W8_keep (c : Dev nD) (r : Ref sig .tc) (h : r ∉ ([main_v57] : List (Ref sig .tc))) :
    W8 D0 D1 D2 D3 m c (Proc.devRef .tc r) = W7 D0 D1 D2 m c (Proc.devRef .tc r) := by
  by_cases hr : ∃ w, Pipeline.arrRef spec3 w = r
  · obtain ⟨w, rfl⟩ := hr
    have hin : (cfg3.win w).isOut = false :=
      (by decide : ∀ w : Fin 7, Pipeline.arrRef spec3 w ∉ ([main_v57] : List (Ref sig .tc)) → (cfg3.win w).isOut = false) w h
    exact (W8_arr D0 D1 D2 D3 m c w).trans (((D3.dat (V7 D0 D1 D2 m) c).arrAt_in w hin _).trans (D3.A_eq (V7 D0 D1 D2 m) c w))
  · exact W8_of_ne D0 D1 D2 D3 m c r fun w e => hr ⟨w, e⟩

/-- After the host stretch `hostOps4`: what region 4 is entered with. -/
abbrev W9 : Dev nD → Valuation τ sig (Elt F) := fun c => StableHlo.after hostOps4 (W8 D0 D1 D2 D3 m c)
/-- The same, read at the tensor core's own references. -/
abbrev V9 : Vals F := fun c b => W9 D0 D1 D2 D3 m c b
/-- After region 4: its windows' arrays at what its pipeline leaves in them, every other buffer as it was. -/
def W10 (c : Dev nD) : Valuation τ sig (Elt F) :=
  Pipeline.withArrays spec4 c (W9 D0 D1 D2 D3 m c) fun w => (D4.dat (V9 D0 D1 D2 D3 m) c).arrAt w cfg4.N
theorem W10_arr (c : Dev nD) (w : Fin cfg4.W) :
    W10 D0 D1 D2 D3 D4 m c (Proc.devRef .tc (Pipeline.arrRef spec4 w)) = (D4.dat (V9 D0 D1 D2 D3 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 D0 D1 D2 D3 D4 m c (Proc.devRef .tc b) = W9 D0 D1 D2 D3 m c (Proc.devRef .tc b) := by
  unfold W10; exact Pipeline.withArrays_of_ne spec4 c _ _ b hb
/-- The same, read at the tensor core's own references. -/
abbrev V10 : Vals F := fun c b => W10 D0 D1 D2 D3 D4 m c b
theorem hF4 (c : Dev nD) (w : Fin cfg4.W) :
    (D4.dat (V9 D0 D1 D2 D3 m) c).arrAt w cfg4.N = V10 D0 D1 D2 D3 D4 m c (Pipeline.arrRef spec4 w) :=
  (W10_arr D0 D1 D2 D3 D4 m c w).symm
theorem hrest4 (c : Dev nD) : ∀ b, b ∉ Finset.univ.image (Pipeline.arrRef spec4) → V10 D0 D1 D2 D3 D4 m c b = V9 D0 D1 D2 D3 m c b :=
  fun b hb => W10_of_ne D0 D1 D2 D3 D4 m c b fun w e => hb (Finset.mem_image.mpr ⟨w, Finset.mem_univ _, e⟩)

/-- A host stretch leaves a buffer it does not write as it was. -/
theorem W9_keep (c : Dev nD) (r : Ref sig .tc) (h : r ∉ hostOps4_W) :
    W9 D0 D1 D2 D3 m c (Proc.devRef .tc r) = W8 D0 D1 D2 D3 m c (Proc.devRef .tc r) :=
  StableHlo.after_of_writes_sub hostOps4 _ hostOps4_writes h
/-- Region 4 leaves every buffer but its outputs' arrays as it was: a buffer that is no window's array is not
    touched, and an input window's array is only read. -/
theorem W10_keep (c : Dev nD) (r : Ref sig .tc) (h : r ∉ ([main_v71] : List (Ref sig .tc))) :
    W10 D0 D1 D2 D3 D4 m c (Proc.devRef .tc r) = W9 D0 D1 D2 D3 m c (Proc.devRef .tc r) := by
  by_cases hr : ∃ w, Pipeline.arrRef spec4 w = r
  · obtain ⟨w, rfl⟩ := hr
    have hin : (cfg4.win w).isOut = false :=
      (by decide : ∀ w : Fin 6, Pipeline.arrRef spec4 w ∉ ([main_v71] : List (Ref sig .tc)) → (cfg4.win w).isOut = false) w h
    exact (W10_arr D0 D1 D2 D3 D4 m c w).trans (((D4.dat (V9 D0 D1 D2 D3 m) c).arrAt_in w hin _).trans (D4.A_eq (V9 D0 D1 D2 D3 m) c w))
  · exact W10_of_ne D0 D1 D2 D3 D4 m c r fun w e => hr ⟨w, e⟩

/-! ### A buffer no item writes ends as launched -/

/-- A buffer that no host stretch writes and that is no region's output array holds at the end what it held at
    launch: the fold walks back through the ten items. -/
theorem W10_launch (c : Dev nD) (r : Ref sig .tc)
    (h1 : r ∉ hostOps0_W)
    (h2 : r ∉ ([main_v25_0, main_v25_1, main_v25_2] : List (Ref sig .tc)))
    (h3 : r ∉ hostOps1_W)
    (h4 : r ∉ ([main_v34] : List (Ref sig .tc)))
    (h5 : r ∉ hostOps2_W)
    (h6 : r ∉ ([main_v48_0, main_v48_1, main_v48_2] : List (Ref sig .tc)))
    (h7 : r ∉ hostOps3_W)
    (h8 : r ∉ ([main_v57] : List (Ref sig .tc)))
    (h9 : r ∉ hostOps4_W)
    (h10 : r ∉ ([main_v71] : List (Ref sig .tc))) :
    W10 D0 D1 D2 D3 D4 m c (Proc.devRef .tc r) = m ((c : Thread nD τ).loc r) :=
  (W10_keep D0 D1 D2 D3 D4 m c r h10).trans <|
  (W9_keep D0 D1 D2 D3 m c r h9).trans <|
  (W8_keep D0 D1 D2 D3 m c r h8).trans <|
  (W7_keep D0 D1 D2 m c r h7).trans <|
  (W6_keep D0 D1 D2 m c r h6).trans <|
  (W5_keep D0 D1 m c r h5).trans <|
  (W4_keep D0 D1 m c r h4).trans <|
  (W3_keep D0 m c r h3).trans <|
  (W2_keep D0 m c r h2).trans <|
  (W1_keep m c r h1).trans rfl

theorem W10_main_arg0 (c : Dev nD) : W10 D0 D1 D2 D3 D4 m c (Proc.devRef .tc main_arg0) = m ((c : Thread nD τ).loc main_arg0) :=
  W10_launch D0 D1 D2 D3 D4 m c main_arg0 (by decide) (by decide) (by decide) (by decide) (by decide) (by decide) (by decide) (by decide) (by decide) (by decide)
theorem W10_main_arg1 (c : Dev nD) : W10 D0 D1 D2 D3 D4 m c (Proc.devRef .tc main_arg1) = m ((c : Thread nD τ).loc main_arg1) :=
  W10_launch D0 D1 D2 D3 D4 m c main_arg1 (by decide) (by decide) (by decide) (by decide) (by decide) (by decide) (by decide) (by decide) (by decide) (by decide)
theorem W10_main_arg2 (c : Dev nD) : W10 D0 D1 D2 D3 D4 m c (Proc.devRef .tc main_arg2) = m ((c : Thread nD τ).loc main_arg2) :=
  W10_launch D0 D1 D2 D3 D4 m c main_arg2 (by decide) (by decide) (by decide) (by decide) (by decide) (by decide) (by decide) (by decide) (by decide) (by decide)
theorem W10_main_arg3 (c : Dev nD) : W10 D0 D1 D2 D3 D4 m c (Proc.devRef .tc main_arg3) = m ((c : Thread nD τ).loc main_arg3) :=
  W10_launch D0 D1 D2 D3 D4 m c main_arg3 (by decide) (by decide) (by decide) (by decide) (by decide) (by decide) (by decide) (by decide) (by decide) (by decide)
theorem W10_main_arg4 (c : Dev nD) : W10 D0 D1 D2 D3 D4 m c (Proc.devRef .tc main_arg4) = m ((c : Thread nD τ).loc main_arg4) :=
  W10_launch D0 D1 D2 D3 D4 m c main_arg4 (by decide) (by decide) (by decide) (by decide) (by decide) (by decide) (by decide) (by decide) (by decide) (by decide)
theorem W10_main_arg5 (c : Dev nD) : W10 D0 D1 D2 D3 D4 m c (Proc.devRef .tc main_arg5) = m ((c : Thread nD τ).loc main_arg5) :=
  W10_launch D0 D1 D2 D3 D4 m c main_arg5 (by decide) (by decide) (by decide) (by decide) (by decide) (by decide) (by decide) (by decide) (by decide) (by decide)
theorem W10_main_arg6 (c : Dev nD) : W10 D0 D1 D2 D3 D4 m c (Proc.devRef .tc main_arg6) = m ((c : Thread nD τ).loc main_arg6) :=
  W10_launch D0 D1 D2 D3 D4 m c main_arg6 (by decide) (by decide) (by decide) (by decide) (by decide) (by decide) (by decide) (by decide) (by decide) (by decide)
theorem W10_main_arg7 (c : Dev nD) : W10 D0 D1 D2 D3 D4 m c (Proc.devRef .tc main_arg7) = m ((c : Thread nD τ).loc main_arg7) :=
  W10_launch D0 D1 D2 D3 D4 m c main_arg7 (by decide) (by decide) (by decide) (by decide) (by decide) (by decide) (by decide) (by decide) (by decide) (by decide)
theorem W10_main_arg8 (c : Dev nD) : W10 D0 D1 D2 D3 D4 m c (Proc.devRef .tc main_arg8) = m ((c : Thread nD τ).loc main_arg8) :=
  W10_launch D0 D1 D2 D3 D4 m c main_arg8 (by decide) (by decide) (by decide) (by decide) (by decide) (by decide) (by decide) (by decide) (by decide) (by decide)
theorem W10_main_arg9 (c : Dev nD) : W10 D0 D1 D2 D3 D4 m c (Proc.devRef .tc main_arg9) = m ((c : Thread nD τ).loc main_arg9) :=
  W10_launch D0 D1 D2 D3 D4 m c main_arg9 (by decide) (by decide) (by decide) (by decide) (by decide) (by decide) (by decide) (by decide) (by decide) (by decide)
theorem W10_main_arg10 (c : Dev nD) : W10 D0 D1 D2 D3 D4 m c (Proc.devRef .tc main_arg10) = m ((c : Thread nD τ).loc main_arg10) :=
  W10_launch D0 D1 D2 D3 D4 m c main_arg10 (by decide) (by decide) (by decide) (by decide) (by decide) (by decide) (by decide) (by decide) (by decide) (by decide)
theorem W10_main_arg11 (c : Dev nD) : W10 D0 D1 D2 D3 D4 m c (Proc.devRef .tc main_arg11) = m ((c : Thread nD τ).loc main_arg11) :=
  W10_launch D0 D1 D2 D3 D4 m c main_arg11 (by decide) (by decide) (by decide) (by decide) (by decide) (by decide) (by decide) (by decide) (by decide) (by decide)
theorem W10_main_arg12 (c : Dev nD) : W10 D0 D1 D2 D3 D4 m c (Proc.devRef .tc main_arg12) = m ((c : Thread nD τ).loc main_arg12) :=
  W10_launch D0 D1 D2 D3 D4 m c main_arg12 (by decide) (by decide) (by decide) (by decide) (by decide) (by decide) (by decide) (by decide) (by decide) (by decide)
theorem W10_main_arg13 (c : Dev nD) : W10 D0 D1 D2 D3 D4 m c (Proc.devRef .tc main_arg13) = m ((c : Thread nD τ).loc main_arg13) :=
  W10_launch D0 D1 D2 D3 D4 m c main_arg13 (by decide) (by decide) (by decide) (by decide) (by decide) (by decide) (by decide) (by decide) (by decide) (by decide)
theorem W10_main_arg14 (c : Dev nD) : W10 D0 D1 D2 D3 D4 m c (Proc.devRef .tc main_arg14) = m ((c : Thread nD τ).loc main_arg14) :=
  W10_launch D0 D1 D2 D3 D4 m c main_arg14 (by decide) (by decide) (by decide) (by decide) (by decide) (by decide) (by decide) (by decide) (by decide) (by decide)
theorem W10_main_arg15 (c : Dev nD) : W10 D0 D1 D2 D3 D4 m c (Proc.devRef .tc main_arg15) = m ((c : Thread nD τ).loc main_arg15) :=
  W10_launch D0 D1 D2 D3 D4 m c main_arg15 (by decide) (by decide) (by decide) (by decide) (by decide) (by decide) (by decide) (by decide) (by decide) (by decide)
theorem W10_main_arg16 (c : Dev nD) : W10 D0 D1 D2 D3 D4 m c (Proc.devRef .tc main_arg16) = m ((c : Thread nD τ).loc main_arg16) :=
  W10_launch D0 D1 D2 D3 D4 m c main_arg16 (by decide) (by decide) (by decide) (by decide) (by decide) (by decide) (by decide) (by decide) (by decide) (by decide)
theorem W10_main_arg17 (c : Dev nD) : W10 D0 D1 D2 D3 D4 m c (Proc.devRef .tc main_arg17) = m ((c : Thread nD τ).loc main_arg17) :=
  W10_launch D0 D1 D2 D3 D4 m c main_arg17 (by decide) (by decide) (by decide) (by decide) (by decide) (by decide) (by decide) (by decide) (by decide) (by decide)
theorem W10_main_arg18 (c : Dev nD) : W10 D0 D1 D2 D3 D4 m c (Proc.devRef .tc main_arg18) = m ((c : Thread nD τ).loc main_arg18) :=
  W10_launch D0 D1 D2 D3 D4 m c main_arg18 (by decide) (by decide) (by decide) (by decide) (by decide) (by decide) (by decide) (by decide) (by decide) (by decide)

/-- The result array ends at what the last region's pipeline leaves in its output window's array. -/
theorem W10_result (c : Dev nD) :
    W10 D0 D1 D2 D3 D4 m c (Proc.devRef .tc main_v71) = (D4.dat (V9 D0 D1 D2 D3 m) c).arrAt 5 cfg4.N :=
  W10_arr D0 D1 D2 D3 D4 m c 5

/-! ## The proof data family and the state of a thread between two items -/

/-- No pipeline reads a prefetched table. -/
abbrev adm : (p : Fin 5) → (pcfgs (F := F) p).Adm := fun p => (cfgs p).toPCfg_adm
/-- Every pipeline's proof data, each taken at the contents its region is entered with. -/
def pdats : (p : Fin 5) → (c : Dev nD) → Dat τ (Elt F) Unit ℕ (UR sig nD τ) ℕ (Pipeline.pin (pcfgs (F := F)) adm p) c
  | ⟨0, _⟩ => fun c => D0.dat (V1 m) c
  | ⟨1, _⟩ => fun c => D1.dat (V3 D0 m) c
  | ⟨2, _⟩ => fun c => D2.dat (V5 D0 D1 m) c
  | ⟨3, _⟩ => fun c => D3.dat (V7 D0 D1 D2 m) c
  | ⟨4, _⟩ => fun c => D4.dat (V9 D0 D1 D2 D3 m) c
abbrev 𝒱₀ : Variants := Variants.none
/-- No device owes another anything, so no level is assigned. -/
abbrev L : GSem nD τ sig → Finset Unit := fun _ => ∅
abbrev lv : GSem nD τ sig → Unit → ℕ := fun _ _ => 0
/-- What a thread holds beside its buffers at every boundary: its generator register at some state, and that it
    owes nothing. -/
abbrev R (c : Dev nD) : sProp 𝕄 := iprop((∃ r, prngReg c r) ∗ ∃ W, owes (c : Thread nD τ) (0 : CellTallies nD τ sig Unit) W)
/-- A host stretch as an item of the run: it takes the unscoped buffers from contents `W` to the stretch's
    result on `W`, `R` passing through untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the tensor core is among the buffers a thread holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state of a thread, without the "owes nothing": every unscoped buffer at the last fold's contents and
    the generator register at some state. -/
abbrev Tₙ (c : Dev nD) : sProp 𝕄 := iprop(StableHlo.held (c : Thread nD τ) (Pipeline.ucRefs τ sig) (W10 D0 D1 D2 D3 D4 m c) ∗ ∃ r, prngReg c r)

/-! ## The regions as items of the run

Each region is entered holding every unscoped buffer at the fold's contents before it and left holding them at the
fold's contents after it.  At entry the region's arrays are split out of the unscoped buffers; at exit they are put
back at what the pipeline leaves.  The generator register goes into the region's invariant and comes back out of
it, through the two assumed entailments. -/

set_option backward.isDefEq.respectTransparency.types false in
/-- Region 0, entered from the fold at `W1` and left at `W2`. -/
def reg0 : Pipeline.RegionSeg (pcfgs (F := F)) adm (pdats D0 D1 D2 D3 D4 m) () defs₀ 𝒱₀ L lv 0 where
  win := launch0.win.to₀
  block_pos := launch0.block_pos
  stage_whole := launch0.stage_whole
  K := PEmpty
  osem k := k.elim
  ho := Pipeline.OwnSemFacts.none _
  hbody c := (D0.body (V1 m) c).loose
  hwaits := Pipeline.hwaits_of_owed_zero _ _ _ _ L lv 0 fun c t => D0.ho (V1 m) c t
  pre c := iprop(StableHlo.held (c : Thread nD τ) (Pipeline.ucRefs τ sig) (W1 m c) ∗ R c)
  post c := iprop(StableHlo.held (c : Thread nD τ) (Pipeline.ucRefs τ sig) (W2 D0 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    have ho0 : (pdats D0 D1 D2 D3 D4 m 0 c).owed 0 = 0 := D0.ho (V1 m) c 0
    have hrec0 : (pdats D0 D1 D2 D3 D4 m 0 c).recorded 0 = Set.univ := D0.hrec (V1 m) c
    rw [Pipeline.ownSems0_none]
    have hsplit := Pipeline.arrays_of_unscopedBufs (p := 0) (pcfgs (F := F)) adm (pdats D0 D1 D2 D3 D4 m) launch0.win launch0.arr_whole c
      ((pdats D0 D1 D2 D3 D4 m 0 c).share_full (D0.hq (V1 m) c)) (V1 m c) (D0.A_eq (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho0]
      icases HO with ⟨%W, HO⟩; iexists W; isplitr; · ipureintro; exact fun x _ => Or.inl (hrec0.symm ▸ Set.mem_univ x)
      iexact HO
    isplitl [Hp]; · iexact Hp
    iexact Hrest
  hin c := by
    refine BIBase.Entails.trans ?_ (D0.hin (V1 m) c)
    unfold Pipeline.ΦA
    iintro ⟨Hp, -, Hr⟩
    isplitl [Hr]; · iexact Hr
    iexact Hp
  hout c := by
    refine BIBase.Entails.trans (D0.hout (V1 m) c) ?_
    rw [Pipeline.ownSems0_none]; unfold Pipeline.ΦA
    iintro ⟨Hr, Hp⟩
    isplitl [Hp]; · iexact Hp
    isplitr; · iempintro
    iexact Hr
  hexit c := by
    have hoN : (pdats D0 D1 D2 D3 D4 m 0 c).owed (Fin.last (Pipeline.pin (pcfgs (F := F)) adm 0).N) = 0 := D0.ho (V1 m) c (Fin.last _)
    have hjoin := Pipeline.unscopedBufs_of_arrays (p := 0) (pcfgs (F := F)) adm (Ix := Unit) (Name := ℕ) (U := UR sig nD τ) (Lvl := ℕ)
      launch0.win launch0.arr_whole c (pdats D0 D1 D2 D3 D4 m) ((pdats D0 D1 D2 D3 D4 m 0 c).share_full (D0.hq (V1 m) c))
      (V1 m c) (V2 D0 m c) ((pdats D0 D1 D2 D3 D4 m 0 c).arrAt · cfg0.N) (hF0 D0 m c) (hrest0 D0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hoN]
    icases HO with ⟨%W, -, HO⟩; iexists W; iexact HO

set_option backward.isDefEq.respectTransparency.types false in
/-- Region 1, entered from the fold at `W3` and left at `W4`. -/
def reg1 : Pipeline.RegionSeg (pcfgs (F := F)) adm (pdats D0 D1 D2 D3 D4 m) () defs₀ 𝒱₀ L lv 1 where
  win := launch1.win.to₀
  block_pos := launch1.block_pos
  stage_whole := launch1.stage_whole
  K := PEmpty
  osem k := k.elim
  ho := Pipeline.OwnSemFacts.none _
  hbody c := (D1.body (V3 D0 m) c).loose
  hwaits := Pipeline.hwaits_of_owed_zero _ _ _ _ L lv 1 fun c t => D1.ho (V3 D0 m) c t
  pre c := iprop(StableHlo.held (c : Thread nD τ) (Pipeline.ucRefs τ sig) (W3 D0 m c) ∗ R c)
  post c := iprop(StableHlo.held (c : Thread nD τ) (Pipeline.ucRefs τ sig) (W4 D0 D1 m c) ∗ R c)
  X c := iprop(∃ r, prngReg c r)
  Y c := iprop(∃ r, prngReg c r)
  Z c := Pipeline.unscopedRest (Ix := Unit) (Name := ℕ) (U := UR sig nD τ) (Lvl := ℕ) spec1 c (V3 D0 m c)
  hentry c := by
    have ho0 : (pdats D0 D1 D2 D3 D4 m 1 c).owed 0 = 0 := D1.ho (V3 D0 m) c 0
    have hrec0 : (pdats D0 D1 D2 D3 D4 m 1 c).recorded 0 = Set.univ := D1.hrec (V3 D0 m) c
    rw [Pipeline.ownSems0_none]
    have hsplit := Pipeline.arrays_of_unscopedBufs (p := 1) (pcfgs (F := F)) adm (pdats D0 D1 D2 D3 D4 m) launch1.win launch1.arr_whole c
      ((pdats D0 D1 D2 D3 D4 m 1 c).share_full (D1.hq (V3 D0 m) c)) (V3 D0 m c) (D1.A_eq (V3 D0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho0]
      icases HO with ⟨%W, HO⟩; iexists W; isplitr; · ipureintro; exact fun x _ => Or.inl (hrec0.symm ▸ Set.mem_univ x)
      iexact HO
    isplitl [Hp]; · iexact Hp
    iexact Hrest
  hin c := by
    refine BIBase.Entails.trans ?_ (D1.hin (V3 D0 m) c)
    unfold Pipeline.ΦA
    iintro ⟨Hp, -, Hr⟩
    isplitl [Hr]; · iexact Hr
    iexact Hp
  hout c := by
    refine BIBase.Entails.trans (D1.hout (V3 D0 m) c) ?_
    rw [Pipeline.ownSems0_none]; unfold Pipeline.ΦA
    iintro ⟨Hr, Hp⟩
    isplitl [Hp]; · iexact Hp
    isplitr; · iempintro
    iexact Hr
  hexit c := by
    have hoN : (pdats D0 D1 D2 D3 D4 m 1 c).owed (Fin.last (Pipeline.pin (pcfgs (F := F)) adm 1).N) = 0 := D1.ho (V3 D0 m) c (Fin.last _)
    have hjoin := Pipeline.unscopedBufs_of_arrays (p := 1) (pcfgs (F := F)) adm (Ix := Unit) (Name := ℕ) (U := UR sig nD τ) (Lvl := ℕ)
      launch1.win launch1.arr_whole c (pdats D0 D1 D2 D3 D4 m) ((pdats D0 D1 D2 D3 D4 m 1 c).share_full (D1.hq (V3 D0 m) c))
      (V3 D0 m c) (V4 D0 D1 m c) ((pdats D0 D1 D2 D3 D4 m 1 c).arrAt · cfg1.N) (hF1 D0 D1 m c) (hrest1 D0 D1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hoN]
    icases HO with ⟨%W, -, HO⟩; iexists W; iexact HO

set_option backward.isDefEq.respectTransparency.types false in
/-- Region 2, entered from the fold at `W5` and left at `W6`. -/
def reg2 : Pipeline.RegionSeg (pcfgs (F := F)) adm (pdats D0 D1 D2 D3 D4 m) () defs₀ 𝒱₀ L lv 2 where
  win := launch2.win.to₀
  block_pos := launch2.block_pos
  stage_whole := launch2.stage_whole
  K := PEmpty
  osem k := k.elim
  ho := Pipeline.OwnSemFacts.none _
  hbody c := (D2.body (V5 D0 D1 m) c).loose
  hwaits := Pipeline.hwaits_of_owed_zero _ _ _ _ L lv 2 fun c t => D2.ho (V5 D0 D1 m) c t
  pre c := iprop(StableHlo.held (c : Thread nD τ) (Pipeline.ucRefs τ sig) (W5 D0 D1 m c) ∗ R c)
  post c := iprop(StableHlo.held (c : Thread nD τ) (Pipeline.ucRefs τ sig) (W6 D0 D1 D2 m c) ∗ R c)
  X c := iprop(∃ r, prngReg c r)
  Y c := iprop(∃ r, prngReg c r)
  Z c := Pipeline.unscopedRest (Ix := Unit) (Name := ℕ) (U := UR sig nD τ) (Lvl := ℕ) spec2 c (V5 D0 D1 m c)
  hentry c := by
    have ho0 : (pdats D0 D1 D2 D3 D4 m 2 c).owed 0 = 0 := D2.ho (V5 D0 D1 m) c 0
    have hrec0 : (pdats D0 D1 D2 D3 D4 m 2 c).recorded 0 = Set.univ := D2.hrec (V5 D0 D1 m) c
    rw [Pipeline.ownSems0_none]
    have hsplit := Pipeline.arrays_of_unscopedBufs (p := 2) (pcfgs (F := F)) adm (pdats D0 D1 D2 D3 D4 m) launch2.win launch2.arr_whole c
      ((pdats D0 D1 D2 D3 D4 m 2 c).share_full (D2.hq (V5 D0 D1 m) c)) (V5 D0 D1 m c) (D2.A_eq (V5 D0 D1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho0]
      icases HO with ⟨%W, HO⟩; iexists W; isplitr; · ipureintro; exact fun x _ => Or.inl (hrec0.symm ▸ Set.mem_univ x)
      iexact HO
    isplitl [Hp]; · iexact Hp
    iexact Hrest
  hin c := by
    refine BIBase.Entails.trans ?_ (D2.hin (V5 D0 D1 m) c)
    unfold Pipeline.ΦA
    iintro ⟨Hp, -, Hr⟩
    isplitl [Hr]; · iexact Hr
    iexact Hp
  hout c := by
    refine BIBase.Entails.trans (D2.hout (V5 D0 D1 m) c) ?_
    rw [Pipeline.ownSems0_none]; unfold Pipeline.ΦA
    iintro ⟨Hr, Hp⟩
    isplitl [Hp]; · iexact Hp
    isplitr; · iempintro
    iexact Hr
  hexit c := by
    have hoN : (pdats D0 D1 D2 D3 D4 m 2 c).owed (Fin.last (Pipeline.pin (pcfgs (F := F)) adm 2).N) = 0 := D2.ho (V5 D0 D1 m) c (Fin.last _)
    have hjoin := Pipeline.unscopedBufs_of_arrays (p := 2) (pcfgs (F := F)) adm (Ix := Unit) (Name := ℕ) (U := UR sig nD τ) (Lvl := ℕ)
      launch2.win launch2.arr_whole c (pdats D0 D1 D2 D3 D4 m) ((pdats D0 D1 D2 D3 D4 m 2 c).share_full (D2.hq (V5 D0 D1 m) c))
      (V5 D0 D1 m c) (V6 D0 D1 D2 m c) ((pdats D0 D1 D2 D3 D4 m 2 c).arrAt · cfg2.N) (hF2 D0 D1 D2 m c) (hrest2 D0 D1 D2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hoN]
    icases HO with ⟨%W, -, HO⟩; iexists W; iexact HO

set_option backward.isDefEq.respectTransparency.types false in
/-- Region 3, entered from the fold at `W7` and left at `W8`. -/
def reg3 : Pipeline.RegionSeg (pcfgs (F := F)) adm (pdats D0 D1 D2 D3 D4 m) () defs₀ 𝒱₀ L lv 3 where
  win := launch3.win.to₀
  block_pos := launch3.block_pos
  stage_whole := launch3.stage_whole
  K := PEmpty
  osem k := k.elim
  ho := Pipeline.OwnSemFacts.none _
  hbody c := (D3.body (V7 D0 D1 D2 m) c).loose
  hwaits := Pipeline.hwaits_of_owed_zero _ _ _ _ L lv 3 fun c t => D3.ho (V7 D0 D1 D2 m) c t
  pre c := iprop(StableHlo.held (c : Thread nD τ) (Pipeline.ucRefs τ sig) (W7 D0 D1 D2 m c) ∗ R c)
  post c := iprop(StableHlo.held (c : Thread nD τ) (Pipeline.ucRefs τ sig) (W8 D0 D1 D2 D3 m c) ∗ R c)
  X c := iprop(∃ r, prngReg c r)
  Y c := iprop(∃ r, prngReg c r)
  Z c := Pipeline.unscopedRest (Ix := Unit) (Name := ℕ) (U := UR sig nD τ) (Lvl := ℕ) spec3 c (V7 D0 D1 D2 m c)
  hentry c := by
    have ho0 : (pdats D0 D1 D2 D3 D4 m 3 c).owed 0 = 0 := D3.ho (V7 D0 D1 D2 m) c 0
    have hrec0 : (pdats D0 D1 D2 D3 D4 m 3 c).recorded 0 = Set.univ := D3.hrec (V7 D0 D1 D2 m) c
    rw [Pipeline.ownSems0_none]
    have hsplit := Pipeline.arrays_of_unscopedBufs (p := 3) (pcfgs (F := F)) adm (pdats D0 D1 D2 D3 D4 m) launch3.win launch3.arr_whole c
      ((pdats D0 D1 D2 D3 D4 m 3 c).share_full (D3.hq (V7 D0 D1 D2 m) c)) (V7 D0 D1 D2 m c) (D3.A_eq (V7 D0 D1 D2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho0]
      icases HO with ⟨%W, HO⟩; iexists W; isplitr; · ipureintro; exact fun x _ => Or.inl (hrec0.symm ▸ Set.mem_univ x)
      iexact HO
    isplitl [Hp]; · iexact Hp
    iexact Hrest
  hin c := by
    refine BIBase.Entails.trans ?_ (D3.hin (V7 D0 D1 D2 m) c)
    unfold Pipeline.ΦA
    iintro ⟨Hp, -, Hr⟩
    isplitl [Hr]; · iexact Hr
    iexact Hp
  hout c := by
    refine BIBase.Entails.trans (D3.hout (V7 D0 D1 D2 m) c) ?_
    rw [Pipeline.ownSems0_none]; unfold Pipeline.ΦA
    iintro ⟨Hr, Hp⟩
    isplitl [Hp]; · iexact Hp
    isplitr; · iempintro
    iexact Hr
  hexit c := by
    have hoN : (pdats D0 D1 D2 D3 D4 m 3 c).owed (Fin.last (Pipeline.pin (pcfgs (F := F)) adm 3).N) = 0 := D3.ho (V7 D0 D1 D2 m) c (Fin.last _)
    have hjoin := Pipeline.unscopedBufs_of_arrays (p := 3) (pcfgs (F := F)) adm (Ix := Unit) (Name := ℕ) (U := UR sig nD τ) (Lvl := ℕ)
      launch3.win launch3.arr_whole c (pdats D0 D1 D2 D3 D4 m) ((pdats D0 D1 D2 D3 D4 m 3 c).share_full (D3.hq (V7 D0 D1 D2 m) c))
      (V7 D0 D1 D2 m c) (V8 D0 D1 D2 D3 m c) ((pdats D0 D1 D2 D3 D4 m 3 c).arrAt · cfg3.N) (hF3 D0 D1 D2 D3 m c) (hrest3 D0 D1 D2 D3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hoN]
    icases HO with ⟨%W, -, HO⟩; iexists W; iexact HO

set_option backward.isDefEq.respectTransparency.types false in
/-- Region 4, entered from the fold at `W9` and left at `W10`. -/
def reg4 : Pipeline.RegionSeg (pcfgs (F := F)) adm (pdats D0 D1 D2 D3 D4 m) () defs₀ 𝒱₀ L lv 4 where
  win := launch4.win.to₀
  block_pos := launch4.block_pos
  stage_whole := launch4.stage_whole
  K := PEmpty
  osem k := k.elim
  ho := Pipeline.OwnSemFacts.none _
  hbody c := (D4.body (V9 D0 D1 D2 D3 m) c).loose
  hwaits := Pipeline.hwaits_of_owed_zero _ _ _ _ L lv 4 fun c t => D4.ho (V9 D0 D1 D2 D3 m) c t
  pre c := iprop(StableHlo.held (c : Thread nD τ) (Pipeline.ucRefs τ sig) (W9 D0 D1 D2 D3 m c) ∗ R c)
  post c := iprop(Tₙ D0 D1 D2 D3 D4 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 D0 D1 D2 D3 m c)
  hentry c := by
    have ho0 : (pdats D0 D1 D2 D3 D4 m 4 c).owed 0 = 0 := D4.ho (V9 D0 D1 D2 D3 m) c 0
    have hrec0 : (pdats D0 D1 D2 D3 D4 m 4 c).recorded 0 = Set.univ := D4.hrec (V9 D0 D1 D2 D3 m) c
    rw [Pipeline.ownSems0_none]
    have hsplit := Pipeline.arrays_of_unscopedBufs (p := 4) (pcfgs (F := F)) adm (pdats D0 D1 D2 D3 D4 m) launch4.win launch4.arr_whole c
      ((pdats D0 D1 D2 D3 D4 m 4 c).share_full (D4.hq (V9 D0 D1 D2 D3 m) c)) (V9 D0 D1 D2 D3 m c) (D4.A_eq (V9 D0 D1 D2 D3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho0]
      icases HO with ⟨%W, HO⟩; iexists W; isplitr; · ipureintro; exact fun x _ => Or.inl (hrec0.symm ▸ Set.mem_univ x)
      iexact HO
    isplitl [Hp]; · iexact Hp
    iexact Hrest
  hin c := by
    refine BIBase.Entails.trans ?_ (D4.hin (V9 D0 D1 D2 D3 m) c)
    unfold Pipeline.ΦA
    iintro ⟨Hp, -, Hr⟩
    isplitl [Hr]; · iexact Hr
    iexact Hp
  hout c := by
    refine BIBase.Entails.trans (D4.hout (V9 D0 D1 D2 D3 m) c) ?_
    rw [Pipeline.ownSems0_none]; unfold Pipeline.ΦA
    iintro ⟨Hr, Hp⟩
    isplitl [Hp]; · iexact Hp
    isplitr; · iempintro
    iexact Hr
  hexit c := by
    have hoN : (pdats D0 D1 D2 D3 D4 m 4 c).owed (Fin.last (Pipeline.pin (pcfgs (F := F)) adm 4).N) = 0 := D4.ho (V9 D0 D1 D2 D3 m) c (Fin.last _)
    have hjoin := Pipeline.unscopedBufs_of_arrays (p := 4) (pcfgs (F := F)) adm (Ix := Unit) (Name := ℕ) (U := UR sig nD τ) (Lvl := ℕ)
      launch4.win launch4.arr_whole c (pdats D0 D1 D2 D3 D4 m) ((pdats D0 D1 D2 D3 D4 m 4 c).share_full (D4.hq (V9 D0 D1 D2 D3 m) c))
      (V9 D0 D1 D2 D3 m c) (V10 D0 D1 D2 D3 D4 m c) ((pdats D0 D1 D2 D3 D4 m 4 c).arrAt · cfg4.N) (hF4 D0 D1 D2 D3 D4 m c) (hrest4 D0 D1 D2 D3 D4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [hoN]
    icases HO with ⟨%W, -, HO⟩; iexists W; iexact HO

/-! ## The run -/

/-- The program's ten items in order. -/
abbrev segs : List (Pipeline.Seg (pcfgs (F := F)) adm (pdats D0 D1 D2 D3 D4 m) () defs₀ 𝒱₀ L lv) :=
  [ .host (hseg hostOps0 hostOps0_sub hostOps0_fresh (W0 m)),
    .region (reg0 D0 D1 D2 D3 D4 m),
    .host (hseg hostOps1 hostOps1_sub hostOps1_fresh (W2 D0 m)),
    .region (reg1 D0 D1 D2 D3 D4 m),
    .host (hseg hostOps2 hostOps2_sub hostOps2_fresh (W4 D0 D1 m)),
    .region (reg2 D0 D1 D2 D3 D4 m),
    .host (hseg hostOps3 hostOps3_sub hostOps3_fresh (W6 D0 D1 D2 m)),
    .region (reg3 D0 D1 D2 D3 D4 m),
    .host (hseg hostOps4 hostOps4_sub hostOps4_fresh (W8 D0 D1 D2 D3 m)),
    .region (reg4 D0 D1 D2 D3 D4 m) ]

set_option backward.isDefEq.respectTransparency.types false in
/-- THE RUN. From any memory `m` with every counter at zero, every weakly fair execution of the program on the
    tensor cores terminates, and in every final memory each unscoped buffer of each device holds the last fold's
    contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W10 D0 D1 D2 D3 D4 m c b) :=
  Pipeline.θ_run_regions_kit (pcfgs (F := F)) adm (pdats D0 D1 D2 D3 D4 m) () cellOf_inj emb₁ defs₀ 𝒱₀ L lv m ρ main (segs D0 D1 D2 D3 D4 m)
    (fun c Q => by
      rewrite [main_chain c, Pipeline.Seg.run_eq_chain,
        show (segs D0 D1 D2 D3 D4 m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ D0 D1 D2 D3 D4 m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 D0 D1 D2 D3 D4 m c b)
    (hfin := fun c s' => by
      iintro ⟨⟨Hh, -⟩, HSI⟩
      unfold StableHlo.held
      imodintro
      iapply (pointsTo_read_all (Pipeline.ucRefs τ sig) (fun b => (((c : Thread nD τ)).1, b)) (W10 D0 D1 D2 D3 D4 m c) s')
      isplitl [Hh] <;> iassumption)
    (hQ := fun s h => h)

include D0 D1 D2 D3 D4 in
/-- Every argument array ends as launched. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs (onTc (τ := τ) (main (F := F))) ⟨m, fun _ => 0, ρ⟩).mono (fun r h c =>
    ⟨(h c _ (mem_uc main_arg0 (by decide))).trans (W10_main_arg0 D0 D1 D2 D3 D4 m c),
     (h c _ (mem_uc main_arg1 (by decide))).trans (W10_main_arg1 D0 D1 D2 D3 D4 m c),
     (h c _ (mem_uc main_arg2 (by decide))).trans (W10_main_arg2 D0 D1 D2 D3 D4 m c),
     (h c _ (mem_uc main_arg3 (by decide))).trans (W10_main_arg3 D0 D1 D2 D3 D4 m c),
     (h c _ (mem_uc main_arg4 (by decide))).trans (W10_main_arg4 D0 D1 D2 D3 D4 m c),
     (h c _ (mem_uc main_arg5 (by decide))).trans (W10_main_arg5 D0 D1 D2 D3 D4 m c),
     (h c _ (mem_uc main_arg6 (by decide))).trans (W10_main_arg6 D0 D1 D2 D3 D4 m c),
     (h c _ (mem_uc main_arg7 (by decide))).trans (W10_main_arg7 D0 D1 D2 D3 D4 m c),
     (h c _ (mem_uc main_arg8 (by decide))).trans (W10_main_arg8 D0 D1 D2 D3 D4 m c),
     (h c _ (mem_uc main_arg9 (by decide))).trans (W10_main_arg9 D0 D1 D2 D3 D4 m c),
     (h c _ (mem_uc main_arg10 (by decide))).trans (W10_main_arg10 D0 D1 D2 D3 D4 m c),
     (h c _ (mem_uc main_arg11 (by decide))).trans (W10_main_arg11 D0 D1 D2 D3 D4 m c),
     (h c _ (mem_uc main_arg12 (by decide))).trans (W10_main_arg12 D0 D1 D2 D3 D4 m c),
     (h c _ (mem_uc main_arg13 (by decide))).trans (W10_main_arg13 D0 D1 D2 D3 D4 m c),
     (h c _ (mem_uc main_arg14 (by decide))).trans (W10_main_arg14 D0 D1 D2 D3 D4 m c),
     (h c _ (mem_uc main_arg15 (by decide))).trans (W10_main_arg15 D0 D1 D2 D3 D4 m c),
     (h c _ (mem_uc main_arg16 (by decide))).trans (W10_main_arg16 D0 D1 D2 D3 D4 m c),
     (h c _ (mem_uc main_arg17 (by decide))).trans (W10_main_arg17 D0 D1 D2 D3 D4 m c),
     (h c _ (mem_uc main_arg18 (by decide))).trans (W10_main_arg18 D0 D1 D2 D3 D4 m c)⟩)
    (run_all D0 D1 D2 D3 D4 m ρ)

end Run

end Cert.KernelIdeal.Hand

end
-- ==== Proof.KI.Reg0Runs.lean ====
import proofs.«126844_j8246337208554_1_alg».proof.Proof.Gen.KernelIdeal.Launch
import proofs.«126844_j8246337208554_1_alg».proof.Proof.Gen.KernelIdeal.Skeleton
import proofs.«126844_j8246337208554_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first linear stage with column statistics (pipeline 0): what the three kinds of grid point share

The grid has 25 points, one per block of 2000 rows.  At every point the body writes the block of
H = A · Wl + X · Wc + b into output window 5 and adds the block's column sums and column sums of squares into two
scratch rows; at the FIRST point it first sets the two rows to zero, and at the LAST point it copies them into the
output windows 6 and 7, which it touches at no other point. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body is at the first point. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)
/-- The body is at the last point. -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

/-- No input window and not the block output is ever idle; the two statistics outputs are idle, and not written
    back, everywhere but at the last point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6 : ∀ t : Fin cfg0.N, ¬cond0_1 (grid0.coords t) → cfg0.idle 6 (grid0.coords t) = true := by decide +kernel
theorem idleAt0_7 : ∀ t : Fin cfg0.N, ¬cond0_1 (grid0.coords t) → cfg0.idle 7 (grid0.coords t) = true := by decide +kernel
theorem noFlush0_6 : ∀ t : Fin cfg0.N, ¬cond0_1 (grid0.coords t) → (cfg0.win 6).flush t = false := by decide +kernel
theorem noFlush0_7 : ∀ t : Fin cfg0.N, ¬cond0_1 (grid0.coords t) → (cfg0.win 7).flush t = false := by decide +kernel
theorem liveAt0_6 : ∀ t : Fin cfg0.N, cond0_1 (grid0.coords t) → cfg0.idle 6 (grid0.coords t) = false := by decide +kernel
theorem liveAt0_7 : ∀ t : Fin cfg0.N, cond0_1 (grid0.coords t) → cfg0.idle 7 (grid0.coords t) = false := by decide +kernel

/-- The views through which the contents of the three outputs and of the two scratch rows are stated. -/
abbrev VO0_5 : View sig .tc .vmem S2000x128 .f32 := (Memref.whole cc0_stg5_0 : Memref sig .tc .vmem S2000x128 .f32).view
abbrev VO0_6 : View sig .tc .vmem S1x128 .f32 := (Memref.whole cc0_stg6_0 : Memref sig .tc .vmem S1x128 .f32).view
abbrev VO0_7 : View sig .tc .vmem S1x128 .f32 := (Memref.whole cc0_stg7_0 : Memref sig .tc .vmem S1x128 .f32).view
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The current staging memrefs at a point, as the pipeline passes them to the body. -/
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2000x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)

/-- The class's invariant with the two scratch rows named: each whole at some contents, beside the other scoped
    buffers no window stages and the generator register. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.KernelIdeal.Hand

end
-- ==== Proof.KI.Reg0RunA.lean ====
import proofs.«126844_j8246337208554_1_alg».proof.Proof.Gen.KernelIdeal.Launch
import proofs.«126844_j8246337208554_1_alg».proof.Proof.Gen.KernelIdeal.Skeleton
import proofs.«126844_j8246337208554_1_alg».proof.Proof.Gen.KernelIdeal.Points
import proofs.«126844_j8246337208554_1_alg».proof.Proof.KI.Reg0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST POINT: the body reads its five input blocks, stores the block of H, sets the two scratch rows to zero
    (whatever they held) and adds the block's column sums and sums of squares into them. -/
noncomputable def kernelRun0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 x1 : Vec F S2000x128 .f32) (x2 x3 : Vec F S128x128 .f32) (x4 : Vec F S1x128 .f32) :
    Σ' (L5 : List (View.Piece (Elt F) S2000x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__linear_stats_kernel_eq_skeleton]; unfold cc0__linear_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg1.eq_unread hf1; obtain rfl := harg2.eq_unread hf2; obtain rfl := harg3.eq_unread hf3
    obtain rfl := harg4.eq_unread hf4; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [HS0]; · iexists _; iexact HS0
    iexists _; iexact HS1

end Cert.KernelIdeal.Hand

end
-- ==== Proof.KI.Reg0RunB.lean ====
import proofs.«126844_j8246337208554_1_alg».proof.Proof.Gen.KernelIdeal.Launch
import proofs.«126844_j8246337208554_1_alg».proof.Proof.Gen.KernelIdeal.Skeleton
import proofs.«126844_j8246337208554_1_alg».proof.Proof.Gen.KernelIdeal.Points
import proofs.«126844_j8246337208554_1_alg».proof.Proof.KI.Reg0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE MIDDLE POINTS (neither the first nor the last): the body reads its five input blocks, stores the block of H,
    and adds the block's column sums and sums of squares into the two scratch rows, which it finds at the contents
    `xs0`, `xs1` the point before left.  What each buffer it stores into ends with is given as the list of its
    stores (last first). -/
noncomputable def kernelRun0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 x1 : Vec F S2000x128 .f32) (x2 x3 : Vec F S128x128 .f32) (x4 : Vec F S1x128 .f32) (xs0 xs1 : Vec F S1x128 .f32) :
    Σ' (L5 : List (View.Piece (Elt F) S2000x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__linear_stats_kernel_eq_skeleton]; unfold cc0__linear_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg4.eq_unread hf4; obtain rfl := harg5.eq_unread hf5
    obtain rfl := harg9.eq_unread hfs0; obtain rfl := harg10.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [HS0]; · iexists _; iexact HS0
    iexists _; iexact HS1

end Cert.KernelIdeal.Hand

end
-- ==== Proof.KI.Reg0RunC.lean ====
import proofs.«126844_j8246337208554_1_alg».proof.Proof.Gen.KernelIdeal.Launch
import proofs.«126844_j8246337208554_1_alg».proof.Proof.Gen.KernelIdeal.Skeleton
import proofs.«126844_j8246337208554_1_alg».proof.Proof.Gen.KernelIdeal.Points
import proofs.«126844_j8246337208554_1_alg».proof.Proof.KI.Reg0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST POINT: as at a middle point, and then the two scratch rows are copied into the output windows 6 and 7
    (whatever those held). -/
noncomputable def kernelRun0_C (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S2000x128 .f32) (x2 x3 : Vec F S128x128 .f32) (x4 : Vec F S1x128 .f32) (xs0 xs1 : Vec F S1x128 .f32) :
    Σ' (L5 : List (View.Piece (Elt F) S2000x128 .f32)) (L6 L7 LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__linear_stats_kernel_eq_skeleton]; unfold cc0__linear_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg4.eq_unread hf4; obtain rfl := harg5.eq_unread hf5
    obtain rfl := harg9.eq_unread hfs0; obtain rfl := harg10.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KI.Reg0.lean ====
import proofs.«126844_j8246337208554_1_alg».proof.Proof.Gen.KernelIdeal.Launch
import proofs.«126844_j8246337208554_1_alg».proof.Proof.Gen.KernelIdeal.Skeleton
import proofs.«126844_j8246337208554_1_alg».proof.Proof.Gen.KernelIdeal.Points
import proofs.«126844_j8246337208554_1_alg».proof.Proof.KI.Reg0RunA
import proofs.«126844_j8246337208554_1_alg».proof.Proof.KI.Reg0RunB
import proofs.«126844_j8246337208554_1_alg».proof.Proof.KI.Reg0RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What a point of kind A leaves -/

/-- The stores into the block output tile its buffer. -/
theorem cover0_A_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 x1 : Vec F S2000x128 .f32) (x2 x3 : Vec F S128x128 .f32) (x4 : Vec F S1x128 .f32) (y : S2000x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).1 S2000x128.size (by sl_kernel_rfl) y

def out0_A_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 x1 : Vec F S2000x128 .f32) (x2 x3 : Vec F S128x128 .f32) (x4 : Vec F S1x128 .f32) : Vec F S2000x128 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 hc1 x0 x1 x2 x3 x4).1)
/-- The stores into the first scratch row cover it. -/
theorem scover0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 x1 : Vec F S2000x128 .f32) (x2 x3 : Vec F S128x128 .f32) (x4 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.1 S1x128.size (by sl_kernel_rfl) y

def sout0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 x1 : Vec F S2000x128 .f32) (x2 x3 : Vec F S128x128 .f32) (x4 : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3 x4).2.1)
/-- The stores into the second scratch row cover it. -/
theorem scover0_A_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 x1 : Vec F S2000x128 .f32) (x2 x3 : Vec F S128x128 .f32) (x4 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.1 S1x128.size (by sl_kernel_rfl) y

def sout0_A_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 x1 : Vec F S2000x128 .f32) (x2 x3 : Vec F S128x128 .f32) (x4 : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 x0 x1 x2 x3 x4).2.2.1)
/-! ## What a point of kind B leaves -/

/-- The stores into the block output tile its buffer. -/
theorem cover0_B_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 x1 : Vec F S2000x128 .f32) (x2 x3 : Vec F S128x128 .f32) (x4 : Vec F S1x128 .f32) (xs0 xs1 : Vec F S1x128 .f32) (y : S2000x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).1 S2000x128.size (by sl_kernel_rfl) y

def out0_B_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 x1 : Vec F S2000x128 .f32) (x2 x3 : Vec F S128x128 .f32) (x4 : Vec F S1x128 .f32) (xs0 xs1 : Vec F S1x128 .f32) : Vec F S2000x128 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).1)
/-- The stores into the first scratch row cover it. -/
theorem scover0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 x1 : Vec F S2000x128 .f32) (x2 x3 : Vec F S128x128 .f32) (x4 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y

def sout0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 x1 : Vec F S2000x128 .f32) (x2 x3 : Vec F S128x128 .f32) (x4 : Vec F S1x128 .f32) (xs0 xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1)
/-- The stores into the second scratch row cover it. -/
theorem scover0_B_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 x1 : Vec F S2000x128 .f32) (x2 x3 : Vec F S128x128 .f32) (x4 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y

def sout0_B_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 x1 : Vec F S2000x128 .f32) (x2 x3 : Vec F S128x128 .f32) (x4 : Vec F S1x128 .f32) (xs0 xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1)
/-! ## What a point of kind C leaves -/

/-- The stores into the block output tile its buffer. -/
theorem cover0_C_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S2000x128 .f32) (x2 x3 : Vec F S128x128 .f32) (x4 : Vec F S1x128 .f32) (xs0 xs1 : Vec F S1x128 .f32) (y : S2000x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).1 S2000x128.size (by sl_kernel_rfl) y

def out0_C_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S2000x128 .f32) (x2 x3 : Vec F S128x128 .f32) (x4 : Vec F S1x128 .f32) (xs0 xs1 : Vec F S1x128 .f32) : Vec F S2000x128 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).1)
/-- The store into the column-sum output covers its buffer. -/
theorem cover0_C_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S2000x128 .f32) (x2 x3 : Vec F S128x128 .f32) (x4 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y

def out0_C_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S2000x128 .f32) (x2 x3 : Vec F S128x128 .f32) (x4 : Vec F S1x128 .f32) (xs0 xs1 : Vec F S1x128 .f32) : Vec F S1x128 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1)
/-- The store into the sum-of-squares output covers its buffer. -/
theorem cover0_C_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S2000x128 .f32) (x2 x3 : Vec F S128x128 .f32) (x4 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y

def out0_C_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S2000x128 .f32) (x2 x3 : Vec F S128x128 .f32) (x4 : Vec F S1x128 .f32) (xs0 xs1 : Vec F S1x128 .f32) : Vec F S1x128 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1)
/-- The stores into the first scratch row cover it. -/
theorem scover0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S2000x128 .f32) (x2 x3 : Vec F S128x128 .f32) (x4 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y

def sout0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S2000x128 .f32) (x2 x3 : Vec F S128x128 .f32) (x4 : Vec F S1x128 .f32) (xs0 xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1)
/-- The stores into the second scratch row cover it. -/
theorem scover0_C_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S2000x128 .f32) (x2 x3 : Vec F S128x128 .f32) (x4 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y

def sout0_C_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S2000x128 .f32) (x2 x3 : Vec F S128x128 .f32) (x4 : Vec F S1x128 .f32) (xs0 xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)
/-! ## What the outputs and the two scratch rows hold after each point -/

/-- After the body at position `n`: the block output's buffer, the two statistics outputs' buffers (placeholders
    at the points that do not store them), and the two scratch rows — the first point's run at position 0, a middle
    or last point's run over what the point before left in the scratch rows afterwards. -/
def outsAt0 (c : Dev nD) : (n : ℕ) → n < cfg0.N → Vec F S2000x128 .f32 × Vec F S1x128 .f32 × Vec F S1x128 .f32 × Vec F S1x128 .f32 × Vec F S1x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), (VO0_6.read (Elt F) VO0_6.junk), (VO0_7.read (Elt F) VO0_7.junk), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : (n + 1) % 25 = 24 then
      (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (fun h => by have hN : n + 1 < 25 := lt_of_lt_of_eq hn (show cfg0.N = 25 from N_0); (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (fun h => by have hN : n + 1 < 25 := lt_of_lt_of_eq hn (show cfg0.N = 25 from N_0); (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (fun h => by have hN : n + 1 < 25 := lt_of_lt_of_eq hn (show cfg0.N = 25 from N_0); (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (fun h => by have hN : n + 1 < 25 := lt_of_lt_of_eq hn (show cfg0.N = 25 from N_0); (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (fun h => by have hN : n + 1 < 25 := lt_of_lt_of_eq hn (show cfg0.N = 25 from N_0); (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (fun h => by have hN : n + 1 < 25 := lt_of_lt_of_eq hn (show cfg0.N = 25 from N_0); (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, (VO0_6.read (Elt F) VO0_6.junk), (VO0_7.read (Elt F) VO0_7.junk), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (fun h => by have hN : n + 1 < 25 := lt_of_lt_of_eq hn (show cfg0.N = 25 from N_0); (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (fun h => by have hN : n + 1 < 25 := lt_of_lt_of_eq hn (show cfg0.N = 25 from N_0); (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)

/-- At the first point: that run's contents. -/
theorem outsAt0_A (c : Dev nD) (t : Fin cfg0.N) (h0 : t.val % 25 = 0) (h1 : ¬t.val % 25 = 24) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), (VO0_6.read (Elt F) VO0_6.junk), (VO0_7.read (Elt F) VO0_7.junk), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (by exfalso; have hN : n + 1 < 25 := lt_of_lt_of_eq hn (show cfg0.N = 25 from N_0); (try dsimp only at h0); omega)

/-- At a middle point: that run's contents over what the point before left in the scratch rows. -/
theorem outsAt0_B (c : Dev nD) (t : Fin cfg0.N) (h0 : ¬t.val % 25 = 0) (h1 : ¬t.val % 25 = 24) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, (VO0_6.read (Elt F) VO0_6.junk), (VO0_7.read (Elt F) VO0_7.junk), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

/-- At the last point: that run's contents over what the point before left in the scratch rows. -/
theorem outsAt0_C (c : Dev nD) (t : Fin cfg0.N) (h0 : ¬t.val % 25 = 0) (h1 : t.val % 25 = 24) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-! ## The invariant -/

/-- Before the first point the class's invariant (the scratch rows at anything); afterwards the two scratch rows at
    what the point before left in them, beside the other scoped buffers and the generator register. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The proof data -/

/-- The arrays as the region finds them; after the body each input's buffer at its block, the outputs' at
    `outsAt0`'s components; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

/-- Each input's current staging buffer holds its block at every point, fetched there or not: an unfetched window's
    block index has not moved. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the inputs' buffers hold their blocks; the point is the first, a middle or the last one;
    the invariant hands the body the scratch rows at what the point before left (at anything at the first point) and
    takes them back at this point's contents; the statistics outputs pass through untouched except at the last point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 25 := lt_of_lt_of_eq t.isLt (show cfg0.N = 25 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  by_cases h1 : t.val % 25 = 24
  · have h0 : ¬t.val % 25 = 0 := by omega
    have hz : t.val ≠ 0 := by omega
    rw [show (dat0 V c).leavesExact 6 t = owns (c : Thread nD τ) (ms0_6 t) fullShare ((dat0 V c).after 6 t) from by
      unfold Dat.leavesExact; rw [liveAt0_6 t ((hcond0_1 t).mpr h1)], after0_6]
    rw [show (dat0 V c).leavesExact 7 t = owns (c : Thread nD τ) (ms0_7 t) fullShare ((dat0 V c).after 7 t) from by
      unfold Dat.leavesExact; rw [liveAt0_7 t ((hcond0_1 t).mpr h1)], after0_7]
    rw [outsAt0_C V c t h0 h1]
    unfold out0_C_5 out0_C_6 out0_C_7 sout0_C_0 sout0_C_1; (try dsimp only)
    rw [PhiS0_castSucc V c t, PhiS0_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ )
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ )
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_C_5 c _ _ _ _ _ _ _ _ _ _ _ _ _ _ _ _ _ _ _ _ _ _ _ _ _ _ _ _ _ _ )
    isplitl [H6]
    · unfold owns; iexists _; isplitr
      swap; · iexact H6
      ipureintro; exact View.read_writes_of_cover _ _ _ _ _ (cover0_C_6 c _ _ _ _ _ _ _ _ _ _ _ _ _ _ _ _ _ _ _ _ _ _ _ _ _ _ _ _ _ _ )
    unfold owns; iexists _; isplitr
    swap; · iexact H7
    ipureintro; exact View.read_writes_of_cover _ _ _ _ _ (cover0_C_7 c _ _ _ _ _ _ _ _ _ _ _ _ _ _ _ _ _ _ _ _ _ _ _ _ _ _ _ _ _ _ )
  · rw [Dat.leavesExact_idle (dat0 V c) 6 t (idleAt0_6 t (fun h => h1 ((hcond0_1 t).mp h))) (noFlush0_6 t (fun h => h1 ((hcond0_1 t).mp h)))]
    rw [Dat.leavesExact_idle (dat0 V c) 7 t (idleAt0_7 t (fun h => h1 ((hcond0_1 t).mp h))) (noFlush0_7 t (fun h => h1 ((hcond0_1 t).mp h)))]
    by_cases h0 : t.val % 25 = 0
    · have hz : t.val = 0 := by omega
      rw [outsAt0_A V c t h0 h1]
      unfold out0_A_5 sout0_A_0 sout0_A_1; (try dsimp only)
      rw [PhiS0_castSucc V c t, PhiS0_zero V c _ _ hz, PhiA0_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ )
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ )
      isplitl [H6]; · iexists _; iexact H6
      iexists _; iexact H7
    · have hz : t.val ≠ 0 := by omega
      rw [outsAt0_B V c t h0 h1]
      unfold out0_B_5 sout0_B_0 sout0_B_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ )
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ )
      isplitl [H6]; · iexists _; iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch rows' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 25 := N_0; omega), PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Cert.KernelIdeal.Hand

end
-- ==== Proof.KI.Reg1.lean ====
/-
  THE FIRST NORMALISING LAYER'S REGION: WHAT ITS BODY DOES TO THE STAGING BUFFERS, AT ANY ENTRY CONTENTS.

  The region walks 25 blocks of 2000 rows.  At every point the body reads six buffers whole — a block of rows of the
  layer's linear output and of the layer's input, and the four one-row arrays (column means, column variances, scale,
  shift) —, reads the output buffer once without using what it finds, and writes the whole output buffer with one
  value computed from the six.  Nothing is kept from one point to the next, so the proof data are: every input buffer
  holds its block of the array the region found on entry, whether or not it was fetched at this point, and the output
  buffer after the body is that one value of the six input blocks.  All of it is stated at a parameter V, the buffer
  contents when the region is entered, and for any float interpretation.
-/
import proofs.«126844_j8246337208554_1_alg».proof.Proof.Gen.KernelIdeal.Launch
import proofs.«126844_j8246337208554_1_alg».proof.Proof.Gen.KernelIdeal.Skeleton
import proofs.«126844_j8246337208554_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the arrays the region finds -/

/-- The block of window w at point t, read off the array as it stands when the region is entered. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input buffer holds its block at every point, fetched there or not (an unfetched window's block index has not
    moved), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: every one a whole buffer -/

abbrev r1_a : Rect S2000x128 := Rect.unit (s := S2000x128) ![0, 0] S2000x128.size inb_S2000x128_S2000x128_0_0
abbrev r1_r : Rect S1x128 := Rect.unit (s := S1x128) ![0, 0] S1x128.size inb_S1x128_S1x128_0_0

/-! ## The output buffer after the body -/

/-- The output buffer after the body, from the six input buffers (in the windows' order: linear output, layer input,
    means, variances, scale, shift): one piece, the whole buffer, holding the body's one value of what it read. -/
def out1_6 (x0 x1 : Vec F S2000x128 .f32) (x2 x3 x4 x5 : Vec F S1x128 .f32) : Vec F S2000x128 .f32 :=
  View.canon [⟨r1_a, k1_pay1 (View.ld x0 r1_a) (View.ld x2 r1_r) (View.ld x3 r1_r) (View.ld x4 r1_r) (View.ld x5 r1_r) (View.ld x1 r1_a)⟩]

/-- The one piece tiles the buffer, so it covers it. -/
theorem cover1_6 (p0 : Vec F S2000x128 .f32) (y : S2000x128.Idx) :
    ∃ pc ∈ ([⟨r1_a, p0⟩] : List (View.Piece (Elt F) S2000x128 .f32)), y ∈ pc.1.set :=
  View.cover_of_tiled [⟨r1_a, p0⟩] S2000x128.size (by rfl) y

/-! ## The body's triple -/

set_option maxHeartbeats 1000000 in
/-- The body on whole staging memrefs, the inputs' at known contents and the output's at anything, runs to the
    continuation with the inputs' as they were and the output's at out1_6 of the inputs'. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S2000x128 .f32) (harg7 : arg7.IsWhole)
    (x0 x1 : Vec F S2000x128 .f32) (x2 x3 x4 x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__norm_act_kernel i arg1 harg1 arg2 harg2 arg3 harg3 arg4 harg4 arg5 harg5 arg6 harg6 arg7 harg7) K := by
  simp only [cc1__norm_act_kernel_eq_skeleton]; unfold cc1__norm_act_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The region's proof data -/

/-- The proof data on core c: the arrays as the region finds them; after the body at point t every input buffer at
    its block and the output buffer at out1_6 of the input blocks; the invariant is the untouched rest; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by
  dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the input memrefs hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2Runs.lean ====
import proofs.«126844_j8246337208554_1_alg».proof.Proof.Gen.KernelIdeal.Launch
import proofs.«126844_j8246337208554_1_alg».proof.Proof.Gen.KernelIdeal.Skeleton
import proofs.«126844_j8246337208554_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second linear stage with column statistics (pipeline 2): what the three kinds of grid point share

The grid has 25 points, one per block of 2000 rows.  At every point the body writes the block of
H = A · Wl + X · Wc + b into output window 5 and adds the block's column sums and column sums of squares into two
scratch rows; at the FIRST point it first sets the two rows to zero, and at the LAST point it copies them into the
output windows 6 and 7, which it touches at no other point. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body is at the first point. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 25 = 0 :=
  (by decide +kernel : ∀ t : Fin grid2.N, cond2_0 (grid2.coords t) ↔ t.val % 25 = 0)
/-- The body is at the last point. -/
abbrev cond2_1 (i : grid2.Coords) : Prop := k2_cond2 i = 1#1
theorem hcond2_1 : ∀ t : Fin cfg2.N, cond2_1 (grid2.coords t) ↔ t.val % 25 = 24 :=
  (by decide +kernel : ∀ t : Fin grid2.N, cond2_1 (grid2.coords t) ↔ t.val % 25 = 24)

/-- No input window and not the block output is ever idle; the two statistics outputs are idle, and not written
    back, everywhere but at the last point. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem idleAt2_6 : ∀ t : Fin cfg2.N, ¬cond2_1 (grid2.coords t) → cfg2.idle 6 (grid2.coords t) = true := by decide +kernel
theorem idleAt2_7 : ∀ t : Fin cfg2.N, ¬cond2_1 (grid2.coords t) → cfg2.idle 7 (grid2.coords t) = true := by decide +kernel
theorem noFlush2_6 : ∀ t : Fin cfg2.N, ¬cond2_1 (grid2.coords t) → (cfg2.win 6).flush t = false := by decide +kernel
theorem noFlush2_7 : ∀ t : Fin cfg2.N, ¬cond2_1 (grid2.coords t) → (cfg2.win 7).flush t = false := by decide +kernel
theorem liveAt2_6 : ∀ t : Fin cfg2.N, cond2_1 (grid2.coords t) → cfg2.idle 6 (grid2.coords t) = false := by decide +kernel
theorem liveAt2_7 : ∀ t : Fin cfg2.N, cond2_1 (grid2.coords t) → cfg2.idle 7 (grid2.coords t) = false := by decide +kernel

/-- The views through which the contents of the three outputs and of the two scratch rows are stated. -/
abbrev VO2_5 : View sig .tc .vmem S2000x128 .f32 := (Memref.whole cc2_stg5_0 : Memref sig .tc .vmem S2000x128 .f32).view
abbrev VO2_6 : View sig .tc .vmem S1x128 .f32 := (Memref.whole cc2_stg6_0 : Memref sig .tc .vmem S1x128 .f32).view
abbrev VO2_7 : View sig .tc .vmem S1x128 .f32 := (Memref.whole cc2_stg7_0 : Memref sig .tc .vmem S1x128 .f32).view
abbrev scM2_0 : Memref sig .tc .vmem S1x128 .f32 := Memref.whole cc2_scratch0
abbrev scM2_1 : Memref sig .tc .vmem S1x128 .f32 := Memref.whole cc2_scratch1
abbrev VS2_0 : View sig .tc .vmem S1x128 .f32 := scM2_0.view
abbrev VS2_1 : View sig .tc .vmem S1x128 .f32 := scM2_1.view

/-- The current staging memrefs at a point, as the pipeline passes them to the body. -/
abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2000x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)

/-- The class's invariant with the two scratch rows named: each whole at some contents, beside the other scoped
    buffers no window stages and the generator register. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.KernelIdeal.Hand

end
-- ==== Proof.KI.Reg2RunA.lean ====
import proofs.«126844_j8246337208554_1_alg».proof.Proof.Gen.KernelIdeal.Launch
import proofs.«126844_j8246337208554_1_alg».proof.Proof.Gen.KernelIdeal.Skeleton
import proofs.«126844_j8246337208554_1_alg».proof.Proof.Gen.KernelIdeal.Points
import proofs.«126844_j8246337208554_1_alg».proof.Proof.KI.Reg2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST POINT: the body reads its five input blocks, stores the block of H, sets the two scratch rows to zero
    (whatever they held) and adds the block's column sums and sums of squares into them. -/
noncomputable def kernelRun2_A (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 x1 : Vec F S2000x128 .f32) (x2 x3 : Vec F S128x128 .f32) (x4 : Vec F S1x128 .f32) :
    Σ' (L5 : List (View.Piece (Elt F) S2000x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc2__linear_stats_kernel_eq_skeleton]; unfold cc2__linear_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg1.eq_unread hf1; obtain rfl := harg2.eq_unread hf2; obtain rfl := harg3.eq_unread hf3
    obtain rfl := harg4.eq_unread hf4; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [HS0]; · iexists _; iexact HS0
    iexists _; iexact HS1

end Cert.KernelIdeal.Hand

end
-- ==== Proof.KI.Reg2RunB.lean ====
import proofs.«126844_j8246337208554_1_alg».proof.Proof.Gen.KernelIdeal.Launch
import proofs.«126844_j8246337208554_1_alg».proof.Proof.Gen.KernelIdeal.Skeleton
import proofs.«126844_j8246337208554_1_alg».proof.Proof.Gen.KernelIdeal.Points
import proofs.«126844_j8246337208554_1_alg».proof.Proof.KI.Reg2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE MIDDLE POINTS (neither the first nor the last): the body reads its five input blocks, stores the block of H,
    and adds the block's column sums and sums of squares into the two scratch rows, which it finds at the contents
    `xs0`, `xs1` the point before left.  What each buffer it stores into ends with is given as the list of its
    stores (last first). -/
noncomputable def kernelRun2_B (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 x1 : Vec F S2000x128 .f32) (x2 x3 : Vec F S128x128 .f32) (x4 : Vec F S1x128 .f32) (xs0 xs1 : Vec F S1x128 .f32) :
    Σ' (L5 : List (View.Piece (Elt F) S2000x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc2__linear_stats_kernel_eq_skeleton]; unfold cc2__linear_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg4.eq_unread hf4; obtain rfl := harg5.eq_unread hf5
    obtain rfl := harg9.eq_unread hfs0; obtain rfl := harg10.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [HS0]; · iexists _; iexact HS0
    iexists _; iexact HS1

end Cert.KernelIdeal.Hand

end
-- ==== Proof.KI.Reg2RunC.lean ====
import proofs.«126844_j8246337208554_1_alg».proof.Proof.Gen.KernelIdeal.Launch
import proofs.«126844_j8246337208554_1_alg».proof.Proof.Gen.KernelIdeal.Skeleton
import proofs.«126844_j8246337208554_1_alg».proof.Proof.Gen.KernelIdeal.Points
import proofs.«126844_j8246337208554_1_alg».proof.Proof.KI.Reg2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST POINT: as at a middle point, and then the two scratch rows are copied into the output windows 6 and 7
    (whatever those held). -/
noncomputable def kernelRun2_C (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 : Vec F S2000x128 .f32) (x2 x3 : Vec F S128x128 .f32) (x4 : Vec F S1x128 .f32) (xs0 xs1 : Vec F S1x128 .f32) :
    Σ' (L5 : List (View.Piece (Elt F) S2000x128 .f32)) (L6 L7 LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__linear_stats_kernel_eq_skeleton]; unfold cc2__linear_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg4.eq_unread hf4; obtain rfl := harg5.eq_unread hf5
    obtain rfl := harg9.eq_unread hfs0; obtain rfl := harg10.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KI.Reg2.lean ====
import proofs.«126844_j8246337208554_1_alg».proof.Proof.Gen.KernelIdeal.Launch
import proofs.«126844_j8246337208554_1_alg».proof.Proof.Gen.KernelIdeal.Skeleton
import proofs.«126844_j8246337208554_1_alg».proof.Proof.Gen.KernelIdeal.Points
import proofs.«126844_j8246337208554_1_alg».proof.Proof.KI.Reg2RunA
import proofs.«126844_j8246337208554_1_alg».proof.Proof.KI.Reg2RunB
import proofs.«126844_j8246337208554_1_alg».proof.Proof.KI.Reg2RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What a point of kind A leaves -/

/-- The stores into the block output tile its buffer. -/
theorem cover2_A_5 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 x1 : Vec F S2000x128 .f32) (x2 x3 : Vec F S128x128 .f32) (x4 : Vec F S1x128 .f32) (y : S2000x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).1 S2000x128.size (by sl_kernel_rfl) y

def out2_A_5 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 x1 : Vec F S2000x128 .f32) (x2 x3 : Vec F S128x128 .f32) (x4 : Vec F S1x128 .f32) : Vec F S2000x128 .f32 :=
  VO2_5.read (Elt F) (VO2_5.writes (Elt F) VO2_5.junk (kernelRun2_A c i arg1 harg1 arg2 harg2 arg3 harg3 arg4 harg4 arg5 harg5 arg6 harg6 arg7 harg7 arg8 harg8 arg9 harg9 arg10 harg10 hc0 hc1 x0 x1 x2 x3 x4).1)
/-- The stores into the first scratch row cover it. -/
theorem scover2_A_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 x1 : Vec F S2000x128 .f32) (x2 x3 : Vec F S128x128 .f32) (x4 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).2.1 S1x128.size (by sl_kernel_rfl) y

def sout2_A_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 x1 : Vec F S2000x128 .f32) (x2 x3 : Vec F S128x128 .f32) (x4 : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 hc0 hc1 x0 x1 x2 x3 x4).2.1)
/-- The stores into the second scratch row cover it. -/
theorem scover2_A_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 x1 : Vec F S2000x128 .f32) (x2 x3 : Vec F S128x128 .f32) (x4 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).2.2.1 S1x128.size (by sl_kernel_rfl) y

def sout2_A_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 x1 : Vec F S2000x128 .f32) (x2 x3 : Vec F S128x128 .f32) (x4 : Vec F S1x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 hc0 hc1 x0 x1 x2 x3 x4).2.2.1)
/-! ## What a point of kind B leaves -/

/-- The stores into the block output tile its buffer. -/
theorem cover2_B_5 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 x1 : Vec F S2000x128 .f32) (x2 x3 : Vec F S128x128 .f32) (x4 : Vec F S1x128 .f32) (xs0 xs1 : Vec F S1x128 .f32) (y : S2000x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).1 S2000x128.size (by sl_kernel_rfl) y

def out2_B_5 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 x1 : Vec F S2000x128 .f32) (x2 x3 : Vec F S128x128 .f32) (x4 : Vec F S1x128 .f32) (xs0 xs1 : Vec F S1x128 .f32) : Vec F S2000x128 .f32 :=
  VO2_5.read (Elt F) (VO2_5.writes (Elt F) VO2_5.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).1)
/-- The stores into the first scratch row cover it. -/
theorem scover2_B_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 x1 : Vec F S2000x128 .f32) (x2 x3 : Vec F S128x128 .f32) (x4 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y

def sout2_B_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 x1 : Vec F S2000x128 .f32) (x2 x3 : Vec F S128x128 .f32) (x4 : Vec F S1x128 .f32) (xs0 xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.1)
/-- The stores into the second scratch row cover it. -/
theorem scover2_B_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 x1 : Vec F S2000x128 .f32) (x2 x3 : Vec F S128x128 .f32) (x4 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y

def sout2_B_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 x1 : Vec F S2000x128 .f32) (x2 x3 : Vec F S128x128 .f32) (x4 : Vec F S1x128 .f32) (xs0 xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.1)
/-! ## What a point of kind C leaves -/

/-- The stores into the block output tile its buffer. -/
theorem cover2_C_5 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 : Vec F S2000x128 .f32) (x2 x3 : Vec F S128x128 .f32) (x4 : Vec F S1x128 .f32) (xs0 xs1 : Vec F S1x128 .f32) (y : S2000x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).1 S2000x128.size (by sl_kernel_rfl) y

def out2_C_5 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 : Vec F S2000x128 .f32) (x2 x3 : Vec F S128x128 .f32) (x4 : Vec F S1x128 .f32) (xs0 xs1 : Vec F S1x128 .f32) : Vec F S2000x128 .f32 :=
  VO2_5.read (Elt F) (VO2_5.writes (Elt F) VO2_5.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).1)
/-- The store into the column-sum output covers its buffer. -/
theorem cover2_C_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 : Vec F S2000x128 .f32) (x2 x3 : Vec F S128x128 .f32) (x4 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y

def out2_C_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 : Vec F S2000x128 .f32) (x2 x3 : Vec F S128x128 .f32) (x4 : Vec F S1x128 .f32) (xs0 xs1 : Vec F S1x128 .f32) : Vec F S1x128 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1)
/-- The store into the sum-of-squares output covers its buffer. -/
theorem cover2_C_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 : Vec F S2000x128 .f32) (x2 x3 : Vec F S128x128 .f32) (x4 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y

def out2_C_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 : Vec F S2000x128 .f32) (x2 x3 : Vec F S128x128 .f32) (x4 : Vec F S1x128 .f32) (xs0 xs1 : Vec F S1x128 .f32) : Vec F S1x128 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1)
/-- The stores into the first scratch row cover it. -/
theorem scover2_C_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 : Vec F S2000x128 .f32) (x2 x3 : Vec F S128x128 .f32) (x4 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y

def sout2_C_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 : Vec F S2000x128 .f32) (x2 x3 : Vec F S128x128 .f32) (x4 : Vec F S1x128 .f32) (xs0 xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1)
/-- The stores into the second scratch row cover it. -/
theorem scover2_C_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 : Vec F S2000x128 .f32) (x2 x3 : Vec F S128x128 .f32) (x4 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y

def sout2_C_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 : Vec F S2000x128 .f32) (x2 x3 : Vec F S128x128 .f32) (x4 : Vec F S1x128 .f32) (xs0 xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)
/-! ## What the outputs and the two scratch rows hold after each point -/

/-- After the body at position `n`: the block output's buffer, the two statistics outputs' buffers (placeholders
    at the points that do not store them), and the two scratch rows — the first point's run at position 0, a middle
    or last point's run over what the point before left in the scratch rows afterwards. -/
def outsAt2 (c : Dev nD) : (n : ℕ) → n < cfg2.N → Vec F S2000x128 .f32 × Vec F S1x128 .f32 × Vec F S1x128 .f32 × Vec F S1x128 .f32 × Vec F S1x128 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), (VO2_6.read (Elt F) VO2_6.junk), (VO2_7.read (Elt F) VO2_7.junk), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h1 : (n + 1) % 25 = 24 then
      (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (fun h => by have hN : n + 1 < 25 := lt_of_lt_of_eq hn (show cfg2.N = 25 from N_2); (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (fun h => by have hN : n + 1 < 25 := lt_of_lt_of_eq hn (show cfg2.N = 25 from N_2); (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (fun h => by have hN : n + 1 < 25 := lt_of_lt_of_eq hn (show cfg2.N = 25 from N_2); (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (fun h => by have hN : n + 1 < 25 := lt_of_lt_of_eq hn (show cfg2.N = 25 from N_2); (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (fun h => by have hN : n + 1 < 25 := lt_of_lt_of_eq hn (show cfg2.N = 25 from N_2); (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2)
    else
      (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (fun h => by have hN : n + 1 < 25 := lt_of_lt_of_eq hn (show cfg2.N = 25 from N_2); (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, (VO2_6.read (Elt F) VO2_6.junk), (VO2_7.read (Elt F) VO2_7.junk), sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (fun h => by have hN : n + 1 < 25 := lt_of_lt_of_eq hn (show cfg2.N = 25 from N_2); (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (fun h => by have hN : n + 1 < 25 := lt_of_lt_of_eq hn (show cfg2.N = 25 from N_2); (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2)

/-- At the first point: that run's contents. -/
theorem outsAt2_A (c : Dev nD) (t : Fin cfg2.N) (h0 : t.val % 25 = 0) (h1 : ¬t.val % 25 = 24) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), (VO2_6.read (Elt F) VO2_6.junk), (VO2_7.read (Elt F) VO2_7.junk), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (by exfalso; have hN : n + 1 < 25 := lt_of_lt_of_eq hn (show cfg2.N = 25 from N_2); (try dsimp only at h0); omega)

/-- At a middle point: that run's contents over what the point before left in the scratch rows. -/
theorem outsAt2_B (c : Dev nD) (t : Fin cfg2.N) (h0 : ¬t.val % 25 = 0) (h1 : ¬t.val % 25 = 24) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, (VO2_6.read (Elt F) VO2_6.junk), (VO2_7.read (Elt F) VO2_7.junk), sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

/-- At the last point: that run's contents over what the point before left in the scratch rows. -/
theorem outsAt2_C (c : Dev nD) (t : Fin cfg2.N) (h0 : ¬t.val % 25 = 0) (h1 : t.val % 25 = 24) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-! ## The invariant -/

/-- Before the first point the class's invariant (the scratch rows at anything); afterwards the two scratch rows at
    what the point before left in them, beside the other scoped buffers and the generator register. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The proof data -/

/-- The arrays as the region finds them; after the body each input's buffer at its block, the outputs' at
    `outsAt2`'s components; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
    | ⟨7, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem after2_7 (c : Dev nD) (t : Fin cfg2.N) : (dat2 V c).after 7 t = (outsAt2 V c t.val t.isLt).2.2.1 := by dsimp only [dat2]

/-- Each input's current staging buffer holds its block at every point, fetched there or not: an unfetched window's
    block index has not moved. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 8000000 in
/-- The body at any point: the inputs' buffers hold their blocks; the point is the first, a middle or the last one;
    the invariant hands the body the scratch rows at what the point before left (at anything at the first point) and
    takes them back at this point's contents; the statistics outputs pass through untouched except at the last point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 25 := lt_of_lt_of_eq t.isLt (show cfg2.N = 25 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h1 : t.val % 25 = 24
  · have h0 : ¬t.val % 25 = 0 := by omega
    have hz : t.val ≠ 0 := by omega
    rw [show (dat2 V c).leavesExact 6 t = owns (c : Thread nD τ) (ms2_6 t) fullShare ((dat2 V c).after 6 t) from by
      unfold Dat.leavesExact; rw [liveAt2_6 t ((hcond2_1 t).mpr h1)], after2_6]
    rw [show (dat2 V c).leavesExact 7 t = owns (c : Thread nD τ) (ms2_7 t) fullShare ((dat2 V c).after 7 t) from by
      unfold Dat.leavesExact; rw [liveAt2_7 t ((hcond2_1 t).mpr h1)], after2_7]
    rw [outsAt2_C V c t h0 h1]
    unfold out2_C_5 out2_C_6 out2_C_7 sout2_C_0 sout2_C_1; (try dsimp only)
    rw [PhiS2_castSucc V c t, PhiS2_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_C c (grid2.coords t) _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _ _ _ _ _ )
          · unfold owns; iexists _; isplitr
            swap; · iexact HS1
            ipureintro; exact View.read_writes_of_cover _ _ _ _ _ (scover2_C_1 c _ _ _ _ _ _ _ _ _ _ _ _ _ _ _ _ _ _ _ _ _ _ _ _ _ _ _ _ _ _ )
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_C_5 c _ _ _ _ _ _ _ _ _ _ _ _ _ _ _ _ _ _ _ _ _ _ _ _ _ _ _ _ _ _ )
    isplitl [H6]
    · unfold owns; iexists _; isplitr
      swap; · iexact H6
      ipureintro; exact View.read_writes_of_cover _ _ _ _ _ (cover2_C_6 c _ _ _ _ _ _ _ _ _ _ _ _ _ _ _ _ _ _ _ _ _ _ _ _ _ _ _ _ _ _ )
    unfold owns; iexists _; isplitr
    swap; · iexact H7
    ipureintro; exact View.read_writes_of_cover _ _ _ _ _ (cover2_C_7 c _ _ _ _ _ _ _ _ _ _ _ _ _ _ _ _ _ _ _ _ _ _ _ _ _ _ _ _ _ _ )
  · rw [Dat.leavesExact_idle (dat2 V c) 6 t (idleAt2_6 t (fun h => h1 ((hcond2_1 t).mp h))) (noFlush2_6 t (fun h => h1 ((hcond2_1 t).mp h)))]
    rw [Dat.leavesExact_idle (dat2 V c) 7 t (idleAt2_7 t (fun h => h1 ((hcond2_1 t).mp h))) (noFlush2_7 t (fun h => h1 ((hcond2_1 t).mp h)))]
    by_cases h0 : t.val % 25 = 0
    · have hz : t.val = 0 := by omega
      rw [outsAt2_A V c t h0 h1]
      unfold out2_A_5 sout2_A_0 sout2_A_1; (try dsimp only)
      rw [PhiS2_castSucc V c t, PhiS2_zero V c _ _ hz, PhiA2_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_A c (grid2.coords t) _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ )
            · unfold owns; iexists _; isplitr
              swap; · iexact HS1
              ipureintro; exact View.read_writes_of_cover _ _ _ _ _ (scover2_A_1 c _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_A_5 c _ _ _ _ _ _ _ _ _ _ _ _ _ _ _ _ _ _ _ _ _ _ _ _ _ _ _ _ )
      isplitl [H6]; · iexists _; iexact H6
      iexists _; iexact H7
    · have hz : t.val ≠ 0 := by omega
      rw [outsAt2_B V c t h0 h1]
      unfold out2_B_5 sout2_B_0 sout2_B_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_B c (grid2.coords t) _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ )
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_B_5 c _ _ _ _ _ _ _ _ _ _ _ _ _ _ _ _ _ _ _ _ _ _ _ _ _ _ _ _ _ _ )
      isplitl [H6]; · iexists _; iexact H6
      iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch rows' named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 25 := N_2; omega), PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Cert.KernelIdeal.Hand

end
-- ==== Proof.KI.Reg3.lean ====
/-
  THE SECOND NORMALISING LAYER'S REGION: WHAT ITS BODY DOES TO THE STAGING BUFFERS, AT ANY ENTRY CONTENTS.

  The region walks 25 blocks of 2000 rows.  At every point the body reads six buffers whole — a block of rows of the
  layer's linear output and of the layer's input, and the four one-row arrays (column means, column variances, scale,
  shift) —, reads the output buffer once without using what it finds, and writes the whole output buffer with one
  value computed from the six.  Nothing is kept from one point to the next, so the proof data are: every input buffer
  holds its block of the array the region found on entry, whether or not it was fetched at this point, and the output
  buffer after the body is that one value of the six input blocks.  All of it is stated at a parameter V, the buffer
  contents when the region is entered, and for any float interpretation.
-/
import proofs.«126844_j8246337208554_1_alg».proof.Proof.Gen.KernelIdeal.Launch
import proofs.«126844_j8246337208554_1_alg».proof.Proof.Gen.KernelIdeal.Skeleton
import proofs.«126844_j8246337208554_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the arrays the region finds -/

/-- The block of window w at point t, read off the array as it stands when the region is entered. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input buffer holds its block at every point, fetched there or not (an unfetched window's block index has not
    moved), for any proof data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: every one a whole buffer -/

abbrev r3_a : Rect S2000x128 := Rect.unit (s := S2000x128) ![0, 0] S2000x128.size inb_S2000x128_S2000x128_0_0
abbrev r3_r : Rect S1x128 := Rect.unit (s := S1x128) ![0, 0] S1x128.size inb_S1x128_S1x128_0_0

/-! ## The output buffer after the body -/

/-- The output buffer after the body, from the six input buffers (in the windows' order: linear output, layer input,
    means, variances, scale, shift): one piece, the whole buffer, holding the body's one value of what it read. -/
def out3_6 (x0 x1 : Vec F S2000x128 .f32) (x2 x3 x4 x5 : Vec F S1x128 .f32) : Vec F S2000x128 .f32 :=
  View.canon [⟨r3_a, k3_pay1 (View.ld x0 r3_a) (View.ld x2 r3_r) (View.ld x3 r3_r) (View.ld x4 r3_r) (View.ld x5 r3_r) (View.ld x1 r3_a)⟩]

/-- The one piece tiles the buffer, so it covers it. -/
theorem cover3_6 (p0 : Vec F S2000x128 .f32) (y : S2000x128.Idx) :
    ∃ pc ∈ ([⟨r3_a, p0⟩] : List (View.Piece (Elt F) S2000x128 .f32)), y ∈ pc.1.set :=
  View.cover_of_tiled [⟨r3_a, p0⟩] S2000x128.size (by rfl) y

/-! ## The body's triple -/

set_option maxHeartbeats 1000000 in
/-- The body on whole staging memrefs, the inputs' at known contents and the output's at anything, runs to the
    continuation with the inputs' as they were and the output's at out3_6 of the inputs'. -/
theorem sound_kernel3 (c : Dev nD) (E : Set ℕ) (i : grid3.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S2000x128 .f32) (harg7 : arg7.IsWhole)
    (x0 x1 : Vec F S2000x128 .f32) (x2 x3 x4 x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E
          (cc3__norm_act_kernel i arg1 harg1 arg2 harg2 arg3 harg3 arg4 harg4 arg5 harg5 arg6 harg6 arg7 harg7) K := by
  simp only [cc3__norm_act_kernel_eq_skeleton]; unfold cc3__norm_act_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The region's proof data -/

/-- The proof data on core c: the arrays as the region finds them; after the body at point t every input buffer at
    its block and the output buffer at out3_6 of the input blocks; the invariant is the untouched rest; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) :
    (dat3 V c).after 6 t = out3_6 (iblk3 V c 0 t) (iblk3 V c 1 t) (iblk3 V c 2 t) (iblk3 V c 3 t) (iblk3 V c 4 t) (iblk3 V c 5 t) := by
  dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the input memrefs hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _
    (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  THE LAST LINEAR LAYER'S REGION: WHAT ITS BODY DOES TO THE STAGING BUFFERS, AT ANY ENTRY CONTENTS.

  The region walks 25 blocks of 2000 rows.  At every point the body reads five buffers whole — a block of rows of each
  of the two row-blocked operands, the two weight matrices, the one-row bias —, reads the output buffer once without
  using what it finds, and writes the whole output buffer with one value computed from the five.  Nothing is kept from
  one point to the next, so the proof data are: every input buffer holds its block of the array the region found on
  entry, whether or not it was fetched at this point, and the output buffer after the body is that one value of the
  five input blocks.  All of it is stated at a parameter V, the buffer contents when the region is entered, and for
  any float interpretation.
-/
import proofs.«126844_j8246337208554_1_alg».proof.Proof.Gen.KernelIdeal.Launch
import proofs.«126844_j8246337208554_1_alg».proof.Proof.Gen.KernelIdeal.Skeleton
import proofs.«126844_j8246337208554_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the arrays the region finds -/

/-- The block of window w at point t, read off the array as it stands when the region is entered. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input buffer holds its block at every point, fetched there or not (an unfetched window's block index has not
    moved), for any proof data whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body reads and writes: every one a whole buffer -/

abbrev r4_a : Rect S2000x128 := Rect.unit (s := S2000x128) ![0, 0] S2000x128.size inb_S2000x128_S2000x128_0_0
abbrev r4_w : Rect S128x64 := Rect.unit (s := S128x64) ![0, 0] S128x64.size inb_S128x64_S128x64_0_0
abbrev r4_b : Rect S1x64 := Rect.unit (s := S1x64) ![0, 0] S1x64.size inb_S1x64_S1x64_0_0
abbrev r4_o : Rect S2000x64 := Rect.unit (s := S2000x64) ![0, 0] S2000x64.size inb_S2000x64_S2000x64_0_0

/-! ## The output buffer after the body -/

/-- The output buffer after the body, from the five input buffers: one piece, the whole buffer, holding the body's
    one value of what it read. -/
def out4_5 (x0 x1 : Vec F S2000x128 .f32) (x2 x3 : Vec F S128x64 .f32) (x4 : Vec F S1x64 .f32) : Vec F S2000x64 .f32 :=
  View.canon [⟨r4_o, k4_pay1 (View.ld x0 r4_a) (View.ld x1 r4_a) (View.ld x2 r4_w) (View.ld x3 r4_w) (View.ld x4 r4_b)⟩]

/-- The one piece tiles the buffer, so it covers it. -/
theorem cover4_5 (p0 : Vec F S2000x64 .f32) (y : S2000x64.Idx) :
    ∃ pc ∈ ([⟨r4_o, p0⟩] : List (View.Piece (Elt F) S2000x64 .f32)), y ∈ pc.1.set :=
  View.cover_of_tiled [⟨r4_o, p0⟩] S2000x64.size (by rfl) y

/-! ## The body's triple -/

set_option maxHeartbeats 1000000 in
/-- The body on whole staging memrefs, the inputs' at known contents and the output's at anything, runs to the
    continuation with the inputs' as they were and the output's at out4_5 of the inputs'. -/
theorem sound_kernel4 (c : Dev nD) (E : Set ℕ) (i : grid4.Coords)
    (arg1 : Memref sig .tc .vmem S2000x128 .f32) (harg1 : arg1.IsWhole) (arg2 : Memref sig .tc .vmem S2000x128 .f32) (harg2 : arg2.IsWhole)
    (arg3 : Memref sig .tc .vmem S128x64 .f32) (harg3 : arg3.IsWhole) (arg4 : Memref sig .tc .vmem S128x64 .f32) (harg4 : arg4.IsWhole)
    (arg5 : Memref sig .tc .vmem S1x64 .f32) (harg5 : arg5.IsWhole) (arg6 : Memref sig .tc .vmem S2000x64 .f32) (harg6 : arg6.IsWhole)
    (x0 x1 : Vec F S2000x128 .f32) (x2 x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__linear_kernel i arg1 harg1 arg2 harg2 arg3 harg3 arg4 harg4 arg5 harg5 arg6 harg6) K := by
  simp only [cc4__linear_kernel_eq_skeleton]; unfold cc4__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The region's proof data -/

/-- The proof data on core c: the arrays as the region finds them; after the body at point t every input buffer at
    its block and the output buffer at out4_5 of the input blocks; the invariant is the untouched rest; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the entry contents. -/
theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the input memrefs hold their blocks, so the body's triple applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _
    (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Records.lean ====
import proofs.«126844_j8246337208554_1_alg».proof.Proof.KI.Assemble
import proofs.«126844_j8246337208554_1_alg».proof.Proof.KI.Reg0
import proofs.«126844_j8246337208554_1_alg».proof.Proof.KI.Reg1
import proofs.«126844_j8246337208554_1_alg».proof.Proof.KI.Reg2
import proofs.«126844_j8246337208554_1_alg».proof.Proof.KI.Reg3
import proofs.«126844_j8246337208554_1_alg».proof.Proof.KI.Reg4

set_option maxRecDepth 16384

noncomputable section

namespace Cert.KernelIdeal.Hand

open Cert.KernelIdeal Cert.KernelIdeal.Gen
open Idealize.ShloMosaic Idealize.ShloMosaic.TcCoe
open Idealize.SL Idealize.SL.BI Idealize.SL.Sem
open Idealize.ShloMosaic.Pipeline (Dat BodyObligation)

variable {F : FTy → Type} [FloatOps F]

/-! # The five regions' proof data, each with its body obligation, as the run's assembly takes them

Regions 1, 3 and 4 keep the class's invariant at every point, so what the launch hands them is their invariant and
what they give back is it again; regions 0 and 2 name their two scratch rows from the second point on. -/

def rec0 : Region0 F :=
  ⟨fun V c => dat0 V c, fun V c w => A_eq0 V c w, fun V c => body_obligation0 V c, fun _ _ _ => rfl, fun _ _ _ => rfl,
    fun _ _ => rfl, fun V c => hin0 V c, fun V c => hout0 V c⟩

def rec1 : Region1 F :=
  ⟨fun V c => dat1 V c, fun V c w => A_eq1 V c w, fun V c => body_obligation1 V c, fun _ _ _ => rfl, fun _ _ _ => rfl,
    fun _ _ => rfl, fun _ _ => BI.Entails.refl _, fun _ _ => BI.Entails.refl _⟩

def rec2 : Region2 F :=
  ⟨fun V c => dat2 V c, fun V c w => A_eq2 V c w, fun V c => body_obligation2 V c, fun _ _ _ => rfl, fun _ _ _ => rfl,
    fun _ _ => rfl, fun V c => hin2 V c, fun V c => hout2 V c⟩

def rec3 : Region3 F :=
  ⟨fun V c => dat3 V c, fun V c w => A_eq3 V c w, fun V c => body_obligation3 V c, fun _ _ _ => rfl, fun _ _ _ => rfl,
    fun _ _ => rfl, fun _ _ => BI.Entails.refl _, fun _ _ => BI.Entails.refl _⟩

def rec4 : Region4 F :=
  ⟨fun V c => dat4 V c, fun V c w => A_eq4 V c w, fun V c => body_obligation4 V c, fun _ _ _ => rfl, fun _ _ _ => rfl,
    fun _ _ => rfl, fun _ _ => BI.Entails.refl _, fun _ _ => BI.Entails.refl _⟩

end Cert.KernelIdeal.Hand

end
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.LibColumnCast.lean ====
/-
  A vector recast as a one-column matrix, read at an index. A row sum kept as a column (a sum over the last axis with
  the axis kept) is stored by recasting the vector of `a` sums to shape `a × 1`; row-major order puts entry `p` of the
  vector at `(p, 0)`.
-/
import Idealize.ShloMosaic.Lib.ValueIdx
import Idealize.ShloMosaic.Lib.Pipeline.Value

namespace Cert.LibColumnCast

open Idealize.ShloMosaic Idealize.ShloMosaic.ValueIdx

/-- A vector of `a` entries recast as an `a × 1` column reads, at `(p, z)`, the vector's entry `p`, whatever the
    unit coordinate `z`: both sit at position `p` in row-major order. Generic in the extent and the element type. -/
theorem column_cast {a : ℕ} {α : Type} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Cert.LibColumnCast
-- ==== Proof.LibLayerForms.lean ====
/-
  ONE GRAPH-CONVOLUTION LAYER'S TWO DENSE STEPS AS WHOLE-ARRAY FUNCTIONS, index by index on the extended reals.

  `dense X W` is the matrix product: entry (p, q) is the sum over k of X (p, k) · W (k, q).
  `combine agg h b s` adds, to the collected neighbour messages `agg`, the node's own features scaled by its
  self-loop weight — row p of `h` times the p-th entry of the one-column array `s` — and then the bias, the one-row
  array `b` laid along every row: entry (p, q) is (agg (p, q) + h (p, q) · s (p, 0)) + b (0, q).
  `combineRelu` is the larger of that and zero.

  The host spells the same arrays with broadcasts: the product is its `dot_general`; the scale is a vector broadcast
  first to a column and then across the columns, the bias a vector broadcast first to a row and then down the rows.
  Recasting a vector of n entries as a column (n × 1) or as a row (1 × n) keeps entry p at (p, 0), respectively (0, p),
  so the host's sums are `combine` of the recast vectors. No law of arithmetic is used: every entry is the same
  expression on both sides.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.Pipeline.Value
import proofs.«126844_j8246337208554_1_alg».proof.Proof.LibMatOps
import proofs.«126844_j8246337208554_1_alg».proof.Proof.LibColumnCast

noncomputable section

open scoped BigOperators

namespace Cert.LayerForms

open Idealize.ShloMosaic Idealize.ShloMosaic.ValueIdx

section
variable {N K C : Nat}

/-- The matrix product, entry by entry. -/
def dense (X : FVec Ideal ⟨2, ![N, K]⟩ .f32) (W : FVec Ideal ⟨2, ![K, C]⟩ .f32) : FVec Ideal ⟨2, ![N, C]⟩ .f32 :=
  fun i => ∑ k : Fin K, X (ix2 (i 0 : Fin N) k) * W (ix2 k (i 1 : Fin C))

theorem dense_apply (X : FVec Ideal ⟨2, ![N, K]⟩ .f32) (W : FVec Ideal ⟨2, ![K, C]⟩ .f32) (p : Fin N) (q : Fin C) :
    dense X W (ix2 p q) = ∑ k : Fin K, X (ix2 p k) * W (ix2 k q) := rfl

/-- The host's plain product of an N × K by a K × C array is `dense`. -/
theorem dotGeneral_eq_dense (d : DotDims ⟨2, ![N, K]⟩ ⟨2, ![K, C]⟩ ⟨2, ![N, C]⟩)
    (wf : DotDims.WF ⟨2, ![N, K]⟩ ⟨2, ![K, C]⟩ ⟨2, ![N, C]⟩ [1] [0] [0] [1] [] [])
    (hd : d = Cert.MatOps.plainDot N K C wf)
    (X : FVec Ideal ⟨2, ![N, K]⟩ .f32) (W : FVec Ideal ⟨2, ![K, C]⟩ .f32) :
    Host.dotGeneral d none X W = dense X W := by
  subst hd
  funext i
  obtain ⟨p, q, rfl⟩ : ∃ (p : Fin N) (q : Fin C), i = ix2 p q := ⟨i 0, i 1, eq_ix2 i⟩
  exact Cert.MatOps.dotGeneral_plain_apply wf none _ X W p q

/-- Messages plus the scaled own features plus the bias, entry by entry. -/
def combine (agg h : FVec Ideal ⟨2, ![N, C]⟩ .f32) (b : FVec Ideal ⟨2, ![1, C]⟩ .f32) (s : FVec Ideal ⟨2, ![N, 1]⟩ .f32) :
    FVec Ideal ⟨2, ![N, C]⟩ .f32 :=
  fun i => (agg i + h i * s (ix2 (i 0 : Fin N) (0 : Fin 1))) + b (ix2 (0 : Fin 1) (i 1 : Fin C))

/-- The same, cut off below at zero. -/
def combineRelu (agg h : FVec Ideal ⟨2, ![N, C]⟩ .f32) (b : FVec Ideal ⟨2, ![1, C]⟩ .f32) (s : FVec Ideal ⟨2, ![N, 1]⟩ .f32) :
    FVec Ideal ⟨2, ![N, C]⟩ .f32 :=
  fun i => max (combine agg h b s i) (Ideal.ofBits .f32 0x00000000#32)

/-- A vector broadcast to a column and then across C columns reads, at (p, q), its entry p. -/
theorem column_then_across (sv : FVec Ideal ⟨1, ![N]⟩ .f32)
    (h1 : (⟨1, ![N]⟩ : Shape).BroadcastsInDim ⟨2, ![N, 1]⟩ ![0])
    (h2 : (⟨2, ![N, 1]⟩ : Shape).BroadcastsInDim ⟨2, ![N, C]⟩ ![0, 1]) (p : Fin N) (q : Fin C) :
    broadcastInDim ⟨2, ![N, C]⟩ ![0, 1] h2 (broadcastInDim ⟨2, ![N, 1]⟩ ![0] h1 sv) (ix2 p q) = sv (ix1 p) := by
  refine (broadcastInDim_apply ![0, 1] h2 _ (ix2 p q) (ix2 p (0 : Fin 1)) fun a => ?_).trans
    (broadcastInDim_apply ![0] h1 sv (ix2 p (0 : Fin 1)) (ix1 p) fun a => ?_)
  · match a with
    | ⟨0, _⟩ =>
      show p.val = if N = 1 then 0 else p.val
      split
      · have := p.isLt; omega
      · rfl
    | ⟨1, _⟩ => rfl
  · match a with
    | ⟨0, _⟩ =>
      show p.val = if N = 1 then 0 else p.val
      split
      · have := p.isLt; omega
      · rfl

/-- A vector broadcast to a row and then down N rows reads, at (p, q), its entry q. -/
theorem row_then_down (bv : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![N, C]⟩ ![0, 1]) (p : Fin N) (q : Fin C) :
    broadcastInDim ⟨2, ![N, C]⟩ ![0, 1] h2 (broadcastInDim ⟨2, ![1, C]⟩ ![1] h1 bv) (ix2 p q) = bv (ix1 q) := by
  refine (broadcastInDim_oneRow_apply h2 _ p q).trans
    (broadcastInDim_apply ![1] h1 bv (ix2 (0 : Fin 1) q) (ix1 q) fun a => ?_)
  match a with
  | ⟨0, _⟩ =>
    show q.val = if C = 1 then 0 else q.val
    split
    · have := q.isLt; omega
    · rfl

/-- The host's spelling of one layer's last step — the scale broadcast to a column and across, the bias to a row and
    down — is `combine` of the vectors recast as a column and as a row. -/
theorem host_combine (agg h : FVec Ideal ⟨2, ![N, C]⟩ .f32) (bv : FVec Ideal ⟨1, ![C]⟩ .f32) (sv : FVec Ideal ⟨1, ![N]⟩ .f32)
    (hs1 : (⟨1, ![N]⟩ : Shape).BroadcastsInDim ⟨2, ![N, 1]⟩ ![0])
    (hs2 : (⟨2, ![N, 1]⟩ : Shape).BroadcastsInDim ⟨2, ![N, C]⟩ ![0, 1])
    (hb1 : (⟨1, ![C]⟩ : Shape).BroadcastsInDim ⟨2, ![1, C]⟩ ![1])
    (hb2 : (⟨2, ![1, C]⟩ : Shape).BroadcastsInDim ⟨2, ![N, C]⟩ ![0, 1])
    (cs : (⟨1, ![N]⟩ : Shape).ShapeCasts ⟨2, ![N, 1]⟩) (cb : (⟨1, ![C]⟩ : Shape).ShapeCasts ⟨2, ![1, C]⟩) :
    addf (addf agg (mulf h (broadcastInDim ⟨2, ![N, C]⟩ ![0, 1] hs2 (broadcastInDim ⟨2, ![N, 1]⟩ ![0] hs1 sv))))
        (broadcastInDim ⟨2, ![N, C]⟩ ![0, 1] hb2 (broadcastInDim ⟨2, ![1, C]⟩ ![1] hb1 bv))
      = combine agg h (shapeCast ⟨2, ![1, C]⟩ bv cb) (shapeCast ⟨2, ![N, 1]⟩ sv cs) := by
  funext i
  obtain ⟨p, q, rfl⟩ : ∃ (p : Fin N) (q : Fin C), i = ix2 p q := ⟨i 0, i 1, eq_ix2 i⟩
  show (agg (ix2 p q) + h (ix2 p q) * broadcastInDim ⟨2, ![N, C]⟩ ![0, 1] hs2 (broadcastInDim ⟨2, ![N, 1]⟩ ![0] hs1 sv) (ix2 p q))
      + broadcastInDim ⟨2, ![N, C]⟩ ![0, 1] hb2 (broadcastInDim ⟨2, ![1, C]⟩ ![1] hb1 bv) (ix2 p q)
    = (agg (ix2 p q) + h (ix2 p q) * shapeCast ⟨2, ![N, 1]⟩ sv cs (ix2 p (0 : Fin 1)))
      + shapeCast ⟨2, ![1, C]⟩ bv cb (ix2 (0 : Fin 1) q)
  rw [column_then_across sv hs1 hs2 p q, row_then_down bv hb1 hb2 p q,
    Cert.LibColumnCast.column_cast sv cs p 0, shapeCast_a_1a_apply bv cb (0 : Fin 1) q]

/-- The host's cut-off at zero of an array is the entrywise larger of it and zero. -/
theorem host_relu (x : FVec Ideal ⟨2, ![N, C]⟩ .f32) (h0 : (⟨0, ![]⟩ : Shape).BroadcastsInDim ⟨2, ![N, C]⟩ ![]) :
    maximumf x (broadcastInDim ⟨2, ![N, C]⟩ ![] h0 (constant (F := Ideal) ⟨0, ![]⟩ .f32 0x00000000#32))
      = fun i => max (x i) (Ideal.ofBits .f32 0x00000000#32) := by
  funext i
  show max (x i) (broadcastInDim ⟨2, ![N, C]⟩ ![] h0 (constant (F := Ideal) ⟨0, ![]⟩ .f32 0x00000000#32) i) = _
  rw [broadcastInDim_apply ![] h0 _ i ix0 (fun a => a.elim0)]
  rfl

end

end Cert.LayerForms

end
-- ==== Proof.LibDenseStages.lean ====
/-
  THE DENSE STEPS OF A GRAPH NETWORK, ENTRY BY ENTRY ON THE EXTENDED REALS.

  A node layer sends an array X (one row per node) to X · W + b: entry (p, q) is the sum over k of
  X (p, k) · W (k, q), plus entry q of the bias, which is stored as a one-row array ('affine'); 'affineRelu' is the
  larger of that and zero. After the neighbours' messages are collected, a layer adds the collected array, the node's
  own scaled features and the bias ('addBias'), again possibly cut off below at zero ('addBiasRelu'). The edge scorer
  applies an affine step cut off at zero, a second affine step onto one column, and the logistic function
  x ↦ 1 / (1 + e^(-x)) ('score').

  Each formula mentions only the row p of its inputs, so a block of rows of the result is the same formula applied to
  that block of rows: this is why a device program that works through the rows ten thousand at a time and a host
  program that treats the whole array at once compute the same array. The host spells the bias by broadcasting a
  vector to one row and then down all rows, the device by broadcasting its one-row block; zero is the float pattern
  of all zero bits, and adding it changes nothing; the logistic function is by definition the quotient the host
  spells out. No law of arithmetic beyond x + 0 = x is used: both spellings are the same expression entry by entry.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.Pipeline.Value
import proofs.«126844_j8246337208554_1_alg».proof.Proof.LibLayerForms

noncomputable section

open scoped BigOperators

namespace Cert.DenseStages

open Idealize.ShloMosaic Idealize.ShloMosaic.ValueIdx Cert.LayerForms Cert.MatOps

/-! ## The stages -/

section
variable {N K C : Nat}

/-- X · W plus the one-row bias laid along every row. -/
def affine (X : FVec Ideal ⟨2, ![N, K]⟩ .f32) (W : FVec Ideal ⟨2, ![K, C]⟩ .f32) (b : FVec Ideal ⟨2, ![1, C]⟩ .f32) :
    FVec Ideal ⟨2, ![N, C]⟩ .f32 :=
  fun i => dense X W i + b (ix2 (0 : Fin 1) (i 1 : Fin C))

/-- The same, cut off below at zero. -/
def affineRelu (X : FVec Ideal ⟨2, ![N, K]⟩ .f32) (W : FVec Ideal ⟨2, ![K, C]⟩ .f32) (b : FVec Ideal ⟨2, ![1, C]⟩ .f32) :
    FVec Ideal ⟨2, ![N, C]⟩ .f32 :=
  fun i => max (affine X W b i) (Ideal.ofBits .f32 0x00000000#32)

/-- Collected messages plus the node's own scaled features plus the one-row bias. -/
def addBias (A S : FVec Ideal ⟨2, ![N, C]⟩ .f32) (b : FVec Ideal ⟨2, ![1, C]⟩ .f32) : FVec Ideal ⟨2, ![N, C]⟩ .f32 :=
  fun i => (A i + S i) + b (ix2 (0 : Fin 1) (i 1 : Fin C))

/-- The same, cut off below at zero. -/
def addBiasRelu (A S : FVec Ideal ⟨2, ![N, C]⟩ .f32) (b : FVec Ideal ⟨2, ![1, C]⟩ .f32) : FVec Ideal ⟨2, ![N, C]⟩ .f32 :=
  fun i => max (addBias A S b i) (Ideal.ofBits .f32 0x00000000#32)

theorem affine_apply (X : FVec Ideal ⟨2, ![N, K]⟩ .f32) (W : FVec Ideal ⟨2, ![K, C]⟩ .f32) (b : FVec Ideal ⟨2, ![1, C]⟩ .f32)
    (p : Fin N) (q : Fin C) :
    affine X W b (ix2 p q) = (∑ k : Fin K, X (ix2 p k) * W (ix2 k q)) + b (ix2 (0 : Fin 1) q) := rfl

theorem affineRelu_apply (X : FVec Ideal ⟨2, ![N, K]⟩ .f32) (W : FVec Ideal ⟨2, ![K, C]⟩ .f32) (b : FVec Ideal ⟨2, ![1, C]⟩ .f32)
    (p : Fin N) (q : Fin C) :
    affineRelu X W b (ix2 p q)
      = max ((∑ k : Fin K, X (ix2 p k) * W (ix2 k q)) + b (ix2 (0 : Fin 1) q)) (Ideal.ofBits .f32 0x00000000#32) := rfl

theorem addBias_apply (A S : FVec Ideal ⟨2, ![N, C]⟩ .f32) (b : FVec Ideal ⟨2, ![1, C]⟩ .f32) (p : Fin N) (q : Fin C) :
    addBias A S b (ix2 p q) = (A (ix2 p q) + S (ix2 p q)) + b (ix2 (0 : Fin 1) q) := rfl

theorem addBiasRelu_apply (A S : FVec Ideal ⟨2, ![N, C]⟩ .f32) (b : FVec Ideal ⟨2, ![1, C]⟩ .f32) (p : Fin N) (q : Fin C) :
    addBiasRelu A S b (ix2 p q)
      = max ((A (ix2 p q) + S (ix2 p q)) + b (ix2 (0 : Fin 1) q)) (Ideal.ofBits .f32 0x00000000#32) := rfl

end

/-- The edge scorer: an affine step cut off at zero, an affine step onto one column, the logistic function. -/
def score {N K H : Nat} (E : FVec Ideal ⟨2, ![N, K]⟩ .f32) (W1 : FVec Ideal ⟨2, ![K, H]⟩ .f32) (b1 : FVec Ideal ⟨2, ![1, H]⟩ .f32)
    (W2 : FVec Ideal ⟨2, ![H, 1]⟩ .f32) (b2 : FVec Ideal ⟨2, ![1, 1]⟩ .f32) : FVec Ideal ⟨2, ![N, 1]⟩ .f32 :=
  fun i => Ideal.logistic (affine (affineRelu E W1 b1) W2 b2 i)

/-! ## A block of rows of a stage is the stage of the block of rows

Each lemma reads the stage of the whole arrays at row 'r p' where the block's row p sits; the inputs that are not cut
into rows (the weights, the bias) are the same on both sides. -/

section
variable {M N K C : Nat}

theorem affine_rows (X : FVec Ideal ⟨2, ![N, K]⟩ .f32) (W : FVec Ideal ⟨2, ![K, C]⟩ .f32) (b : FVec Ideal ⟨2, ![1, C]⟩ .f32)
    (x : FVec Ideal ⟨2, ![M, K]⟩ .f32) (r : Fin M → Fin N) (hx : ∀ p k, x (ix2 p k) = X (ix2 (r p) k)) (p : Fin M) (q : Fin C) :
    affine x W b (ix2 p q) = affine X W b (ix2 (r p) q) := by
  rw [affine_apply, affine_apply]
  simp only [hx]

theorem affineRelu_rows (X : FVec Ideal ⟨2, ![N, K]⟩ .f32) (W : FVec Ideal ⟨2, ![K, C]⟩ .f32) (b : FVec Ideal ⟨2, ![1, C]⟩ .f32)
    (x : FVec Ideal ⟨2, ![M, K]⟩ .f32) (r : Fin M → Fin N) (hx : ∀ p k, x (ix2 p k) = X (ix2 (r p) k)) (p : Fin M) (q : Fin C) :
    affineRelu x W b (ix2 p q) = affineRelu X W b (ix2 (r p) q) := by
  rw [affineRelu_apply, affineRelu_apply]
  simp only [hx]

theorem addBias_rows (A S : FVec Ideal ⟨2, ![N, C]⟩ .f32) (b : FVec Ideal ⟨2, ![1, C]⟩ .f32)
    (a s : FVec Ideal ⟨2, ![M, C]⟩ .f32) (r : Fin M → Fin N) (ha : ∀ p q, a (ix2 p q) = A (ix2 (r p) q))
    (hs : ∀ p q, s (ix2 p q) = S (ix2 (r p) q)) (p : Fin M) (q : Fin C) :
    addBias a s b (ix2 p q) = addBias A S b (ix2 (r p) q) := by
  rw [addBias_apply, addBias_apply, ha, hs]

theorem addBiasRelu_rows (A S : FVec Ideal ⟨2, ![N, C]⟩ .f32) (b : FVec Ideal ⟨2, ![1, C]⟩ .f32)
    (a s : FVec Ideal ⟨2, ![M, C]⟩ .f32) (r : Fin M → Fin N) (ha : ∀ p q, a (ix2 p q) = A (ix2 (r p) q))
    (hs : ∀ p q, s (ix2 p q) = S (ix2 (r p) q)) (p : Fin M) (q : Fin C) :
    addBiasRelu a s b (ix2 p q) = addBiasRelu A S b (ix2 (r p) q) := by
  rw [addBiasRelu_apply, addBiasRelu_apply, ha, hs]

end

theorem score_rows {M N K H : Nat} (E : FVec Ideal ⟨2, ![N, K]⟩ .f32) (W1 : FVec Ideal ⟨2, ![K, H]⟩ .f32)
    (b1 : FVec Ideal ⟨2, ![1, H]⟩ .f32) (W2 : FVec Ideal ⟨2, ![H, 1]⟩ .f32) (b2 : FVec Ideal ⟨2, ![1, 1]⟩ .f32)
    (e : FVec Ideal ⟨2, ![M, K]⟩ .f32) (r : Fin M → Fin N) (he : ∀ p k, e (ix2 p k) = E (ix2 (r p) k)) (p : Fin M) (q : Fin 1) :
    score e W1 b1 W2 b2 (ix2 p q) = score E W1 b1 W2 b2 (ix2 (r p) q) := by
  show Ideal.logistic (affine (affineRelu e W1 b1) W2 b2 (ix2 p q)) = Ideal.logistic (affine (affineRelu E W1 b1) W2 b2 (ix2 (r p) q))
  rw [affine_rows (affineRelu E W1 b1) W2 b2 (affineRelu e W1 b1) r (fun p' k => affineRelu_rows E W1 b1 e r he p' k) p q]

/-! ## The host's spelling -/

section
variable {N K C : Nat}

/-- A matrix product plus a vector broadcast to a row and down the rows is 'affine' of the vector recast as a row. -/
theorem host_affine (d : DotDims ⟨2, ![N, K]⟩ ⟨2, ![K, C]⟩ ⟨2, ![N, C]⟩)
    (wf : DotDims.WF ⟨2, ![N, K]⟩ ⟨2, ![K, C]⟩ ⟨2, ![N, C]⟩ [1] [0] [0] [1] [] []) (hd : d = plainDot N K C wf)
    (X : FVec Ideal ⟨2, ![N, K]⟩ .f32) (W : FVec Ideal ⟨2, ![K, C]⟩ .f32) (bv : FVec Ideal ⟨1, ![C]⟩ .f32)
    (hb1 : (⟨1, ![C]⟩ : Shape).BroadcastsInDim ⟨2, ![1, C]⟩ ![1])
    (hb2 : (⟨2, ![1, C]⟩ : Shape).BroadcastsInDim ⟨2, ![N, C]⟩ ![0, 1])
    (cb : (⟨1, ![C]⟩ : Shape).ShapeCasts ⟨2, ![1, C]⟩) :
    addf (Host.dotGeneral d none X W) (broadcastInDim ⟨2, ![N, C]⟩ ![0, 1] hb2 (broadcastInDim ⟨2, ![1, C]⟩ ![1] hb1 bv))
      = affine X W (shapeCast ⟨2, ![1, C]⟩ bv cb) := by
  rw [dotGeneral_eq_dense d wf hd]
  funext i
  obtain ⟨p, q, rfl⟩ : ∃ (p : Fin N) (q : Fin C), i = ix2 p q := ⟨i 0, i 1, eq_ix2 i⟩
  show dense X W (ix2 p q) + broadcastInDim ⟨2, ![N, C]⟩ ![0, 1] hb2 (broadcastInDim ⟨2, ![1, C]⟩ ![1] hb1 bv) (ix2 p q)
    = dense X W (ix2 p q) + shapeCast ⟨2, ![1, C]⟩ bv cb (ix2 (0 : Fin 1) q)
  rw [row_then_down bv hb1 hb2 p q, shapeCast_a_1a_apply bv cb (0 : Fin 1) q]

/-- The same cut off at zero by the host's maximum against a broadcast zero. -/
theorem host_affineRelu (d : DotDims ⟨2, ![N, K]⟩ ⟨2, ![K, C]⟩ ⟨2, ![N, C]⟩)
    (wf : DotDims.WF ⟨2, ![N, K]⟩ ⟨2, ![K, C]⟩ ⟨2, ![N, C]⟩ [1] [0] [0] [1] [] []) (hd : d = plainDot N K C wf)
    (X : FVec Ideal ⟨2, ![N, K]⟩ .f32) (W : FVec Ideal ⟨2, ![K, C]⟩ .f32) (bv : FVec Ideal ⟨1, ![C]⟩ .f32)
    (hb1 : (⟨1, ![C]⟩ : Shape).BroadcastsInDim ⟨2, ![1, C]⟩ ![1])
    (hb2 : (⟨2, ![1, C]⟩ : Shape).BroadcastsInDim ⟨2, ![N, C]⟩ ![0, 1])
    (h0 : (⟨0, ![]⟩ : Shape).BroadcastsInDim ⟨2, ![N, C]⟩ ![])
    (cb : (⟨1, ![C]⟩ : Shape).ShapeCasts ⟨2, ![1, C]⟩) :
    maximumf (addf (Host.dotGeneral d none X W) (broadcastInDim ⟨2, ![N, C]⟩ ![0, 1] hb2 (broadcastInDim ⟨2, ![1, C]⟩ ![1] hb1 bv)))
        (broadcastInDim ⟨2, ![N, C]⟩ ![] h0 (constant (F := Ideal) ⟨0, ![]⟩ .f32 0x00000000#32))
      = affineRelu X W (shapeCast ⟨2, ![1, C]⟩ bv cb) := by
  rw [host_relu, host_affine d wf hd X W bv hb1 hb2 cb]
  rfl

/-- A matrix product alone is 'affine' with the bias a vector of zeros recast as a row: adding zero changes nothing. -/
theorem host_product (d : DotDims ⟨2, ![N, K]⟩ ⟨2, ![K, C]⟩ ⟨2, ![N, C]⟩)
    (wf : DotDims.WF ⟨2, ![N, K]⟩ ⟨2, ![K, C]⟩ ⟨2, ![N, C]⟩ [1] [0] [0] [1] [] []) (hd : d = plainDot N K C wf)
    (X : FVec Ideal ⟨2, ![N, K]⟩ .f32) (W : FVec Ideal ⟨2, ![K, C]⟩ .f32)
    (hz : (⟨0, ![]⟩ : Shape).BroadcastsInDim ⟨1, ![C]⟩ ![])
    (cb : (⟨1, ![C]⟩ : Shape).ShapeCasts ⟨2, ![1, C]⟩) :
    Host.dotGeneral d none X W
      = affine X W (shapeCast ⟨2, ![1, C]⟩ (broadcastInDim ⟨1, ![C]⟩ ![] hz (constant (F := Ideal) ⟨0, ![]⟩ .f32 0x00000000#32)) cb) := by
  rw [dotGeneral_eq_dense d wf hd]
  funext i
  obtain ⟨p, q, rfl⟩ : ∃ (p : Fin N) (q : Fin C), i = ix2 p q := ⟨i 0, i 1, eq_ix2 i⟩
  show dense X W (ix2 p q) = dense X W (ix2 p q) + shapeCast ⟨2, ![1, C]⟩ _ cb (ix2 (0 : Fin 1) q)
  rw [shapeCast_a_1a_apply _ cb (0 : Fin 1) q, broadcastInDim_apply ![] hz _ (ix1 q) ix0 (fun a => a.elim0)]
  show dense X W (ix2 p q) = dense X W (ix2 p q) + Ideal.ofBits .f32 0x00000000#32
  rw [Ideal.ofBits_zero_f32, add_zero]

/-- The host's closing step of a layer. -/
theorem host_addBias (A S : FVec Ideal ⟨2, ![N, C]⟩ .f32) (bv : FVec Ideal ⟨1, ![C]⟩ .f32)
    (hb1 : (⟨1, ![C]⟩ : Shape).BroadcastsInDim ⟨2, ![1, C]⟩ ![1])
    (hb2 : (⟨2, ![1, C]⟩ : Shape).BroadcastsInDim ⟨2, ![N, C]⟩ ![0, 1])
    (cb : (⟨1, ![C]⟩ : Shape).ShapeCasts ⟨2, ![1, C]⟩) :
    addf (addf A S) (broadcastInDim ⟨2, ![N, C]⟩ ![0, 1] hb2 (broadcastInDim ⟨2, ![1, C]⟩ ![1] hb1 bv))
      = addBias A S (shapeCast ⟨2, ![1, C]⟩ bv cb) := by
  funext i
  obtain ⟨p, q, rfl⟩ : ∃ (p : Fin N) (q : Fin C), i = ix2 p q := ⟨i 0, i 1, eq_ix2 i⟩
  show (A (ix2 p q) + S (ix2 p q)) + broadcastInDim ⟨2, ![N, C]⟩ ![0, 1] hb2 (broadcastInDim ⟨2, ![1, C]⟩ ![1] hb1 bv) (ix2 p q)
    = (A (ix2 p q) + S (ix2 p q)) + shapeCast ⟨2, ![1, C]⟩ bv cb (ix2 (0 : Fin 1) q)
  rw [row_then_down bv hb1 hb2 p q, shapeCast_a_1a_apply bv cb (0 : Fin 1) q]

/-- The same cut off at zero. -/
theorem host_addBiasRelu (A S : FVec Ideal ⟨2, ![N, C]⟩ .f32) (bv : FVec Ideal ⟨1, ![C]⟩ .f32)
    (hb1 : (⟨1, ![C]⟩ : Shape).BroadcastsInDim ⟨2, ![1, C]⟩ ![1])
    (hb2 : (⟨2, ![1, C]⟩ : Shape).BroadcastsInDim ⟨2, ![N, C]⟩ ![0, 1])
    (h0 : (⟨0, ![]⟩ : Shape).BroadcastsInDim ⟨2, ![N, C]⟩ ![])
    (cb : (⟨1, ![C]⟩ : Shape).ShapeCasts ⟨2, ![1, C]⟩) :
    maximumf (addf (addf A S) (broadcastInDim ⟨2, ![N, C]⟩ ![0, 1] hb2 (broadcastInDim ⟨2, ![1, C]⟩ ![1] hb1 bv)))
        (broadcastInDim ⟨2, ![N, C]⟩ ![] h0 (constant (F := Ideal) ⟨0, ![]⟩ .f32 0x00000000#32))
      = addBiasRelu A S (shapeCast ⟨2, ![1, C]⟩ bv cb) := by
  rw [host_relu, host_addBias A S bv hb1 hb2 cb]
  rfl

end

/-- The float pattern of one is the number one. -/
theorem one_f32 : Ideal.ofBits .f32 0x3F800000#32 = 1 := by
  simp [Ideal.ofBits, Ideal.ieee, -EReal.coe_mul]; norm_num

/-- The host's quotient 1 / (1 + e^(-y)), entry by entry, is the logistic function of y. -/
theorem host_logistic {s : Shape} (y : FVec Ideal s .f32) (h1 : (⟨0, ![]⟩ : Shape).BroadcastsInDim s ![]) :
    Host.divf (broadcastInDim s ![] h1 (constant (F := Ideal) ⟨0, ![]⟩ .f32 0x3F800000#32))
        (addf (broadcastInDim s ![] h1 (constant (F := Ideal) ⟨0, ![]⟩ .f32 0x3F800000#32)) (Host.exp (Host.negf y)))
      = fun i => Ideal.logistic (y i) := by
  funext i
  show Ideal.div (broadcastInDim s ![] h1 (constant (F := Ideal) ⟨0, ![]⟩ .f32 0x3F800000#32) i)
      (broadcastInDim s ![] h1 (constant (F := Ideal) ⟨0, ![]⟩ .f32 0x3F800000#32) i + Ideal.exp (-(y i))) = _
  rw [broadcastInDim_apply ![] h1 _ i ix0 (fun a => a.elim0)]
  show Ideal.div (Ideal.ofBits .f32 0x3F800000#32) (Ideal.ofBits .f32 0x3F800000#32 + Ideal.exp (-(y i))) = Ideal.logistic (y i)
  rw [one_f32]
  rfl

/-- The host's edge scorer. -/
theorem host_score {N K H : Nat}
    (d1 : DotDims ⟨2, ![N, K]⟩ ⟨2, ![K, H]⟩ ⟨2, ![N, H]⟩)
    (wf1 : DotDims.WF ⟨2, ![N, K]⟩ ⟨2, ![K, H]⟩ ⟨2, ![N, H]⟩ [1] [0] [0] [1] [] []) (hd1 : d1 = plainDot N K H wf1)
    (d2 : DotDims ⟨2, ![N, H]⟩ ⟨2, ![H, 1]⟩ ⟨2, ![N, 1]⟩)
    (wf2 : DotDims.WF ⟨2, ![N, H]⟩ ⟨2, ![H, 1]⟩ ⟨2, ![N, 1]⟩ [1] [0] [0] [1] [] []) (hd2 : d2 = plainDot N H 1 wf2)
    (E : FVec Ideal ⟨2, ![N, K]⟩ .f32) (W1 : FVec Ideal ⟨2, ![K, H]⟩ .f32) (b1 : FVec Ideal ⟨1, ![H]⟩ .f32)
    (W2 : FVec Ideal ⟨2, ![H, 1]⟩ .f32) (b2 : FVec Ideal ⟨1, ![1]⟩ .f32)
    (hb1 : (⟨1, ![H]⟩ : Shape).BroadcastsInDim ⟨2, ![1, H]⟩ ![1])
    (hb2 : (⟨2, ![1, H]⟩ : Shape).BroadcastsInDim ⟨2, ![N, H]⟩ ![0, 1])
    (h0 : (⟨0, ![]⟩ : Shape).BroadcastsInDim ⟨2, ![N, H]⟩ ![])
    (cb1 : (⟨1, ![H]⟩ : Shape).ShapeCasts ⟨2, ![1, H]⟩)
    (hc1 : (⟨1, ![1]⟩ : Shape).BroadcastsInDim ⟨2, ![1, 1]⟩ ![1])
    (hc2 : (⟨2, ![1, 1]⟩ : Shape).BroadcastsInDim ⟨2, ![N, 1]⟩ ![0, 1])
    (h1 : (⟨0, ![]⟩ : Shape).BroadcastsInDim ⟨2, ![N, 1]⟩ ![])
    (cb2 : (⟨1, ![1]⟩ : Shape).ShapeCasts ⟨2, ![1, 1]⟩) :
    Host.divf (broadcastInDim ⟨2, ![N, 1]⟩ ![] h1 (constant (F := Ideal) ⟨0, ![]⟩ .f32 0x3F800000#32))
        (addf (broadcastInDim ⟨2, ![N, 1]⟩ ![] h1 (constant (F := Ideal) ⟨0, ![]⟩ .f32 0x3F800000#32))
          (Host.exp (Host.negf
            (addf (Host.dotGeneral d2 none
                (maximumf (addf (Host.dotGeneral d1 none E W1)
                    (broadcastInDim ⟨2, ![N, H]⟩ ![0, 1] hb2 (broadcastInDim ⟨2, ![1, H]⟩ ![1] hb1 b1)))
                  (broadcastInDim ⟨2, ![N, H]⟩ ![] h0 (constant (F := Ideal) ⟨0, ![]⟩ .f32 0x00000000#32))) W2)
              (broadcastInDim ⟨2, ![N, 1]⟩ ![0, 1] hc2 (broadcastInDim ⟨2, ![1, 1]⟩ ![1] hc1 b2))))))
      = score E W1 (shapeCast ⟨2, ![1, H]⟩ b1 cb1) W2 (shapeCast ⟨2, ![1, 1]⟩ b2 cb2) := by
  rw [host_logistic, host_affineRelu d1 wf1 hd1 E W1 b1 hb1 hb2 h0 cb1,
    host_affine d2 wf2 hd2 _ W2 b2 hc1 hc2 cb2]
  rfl

/-! ## The device's spelling, on one block of rows -/

section
variable {M K C : Nat}

/-- The matrix unit accumulating into zeros (its operands first narrowed to sixteen bits, which changes no number
    here), plus the one-row bias block broadcast down the rows. -/
theorem device_affine (d : DotDims ⟨2, ![M, K]⟩ ⟨2, ![K, C]⟩ ⟨2, ![M, C]⟩)
    (wf : DotDims.WF ⟨2, ![M, K]⟩ ⟨2, ![K, C]⟩ ⟨2, ![M, C]⟩ [1] [0] [0] [1] [] []) (hd : d = plainDot M K C wf)
    (x : FVec Ideal ⟨2, ![M, K]⟩ .f32) (w : FVec Ideal ⟨2, ![K, C]⟩ .f32) (b : FVec Ideal ⟨2, ![1, C]⟩ .f32)
    (hlt : FTy.bf16.bits < FTy.f32.bits)
    (hc : (⟨2, ![1, C]⟩ : Shape).ShapeCasts ⟨2, ![1, C]⟩) (hb : (⟨2, ![1, C]⟩ : Shape).Broadcasts ⟨2, ![M, C]⟩) :
    addf (matmul d none (truncf .bf16 x hlt) (truncf .bf16 w hlt) (constant (F := Ideal) ⟨2, ![M, C]⟩ .f32 0x00000000#32))
        (broadcastTo ⟨2, ![M, C]⟩ (shapeCast ⟨2, ![1, C]⟩ b hc) hb)
      = affine x w b := by
  subst hd
  funext i
  obtain ⟨p, q, rfl⟩ : ∃ (p : Fin M) (q : Fin C), i = ix2 p q := ⟨i 0, i 1, eq_ix2 i⟩
  show FloatOps.matmul (plainDot M K C wf) none (truncf .bf16 x hlt) (truncf .bf16 w hlt)
        (constant (F := Ideal) ⟨2, ![M, C]⟩ .f32 0x00000000#32) (ix2 p q)
      + broadcastTo ⟨2, ![M, C]⟩ (shapeCast ⟨2, ![1, C]⟩ b hc) hb (ix2 p q) = _
  rw [matmul_plain_apply wf none _ _ p q, broadcastTo_1b_ab_apply _ hb p q, shapeCast_self b hc]
  rfl

/-- The same cut off at zero by the device's maximum against a splat zero. -/
theorem device_affineRelu (d : DotDims ⟨2, ![M, K]⟩ ⟨2, ![K, C]⟩ ⟨2, ![M, C]⟩)
    (wf : DotDims.WF ⟨2, ![M, K]⟩ ⟨2, ![K, C]⟩ ⟨2, ![M, C]⟩ [1] [0] [0] [1] [] []) (hd : d = plainDot M K C wf)
    (x : FVec Ideal ⟨2, ![M, K]⟩ .f32) (w : FVec Ideal ⟨2, ![K, C]⟩ .f32) (b : FVec Ideal ⟨2, ![1, C]⟩ .f32)
    (hlt : FTy.bf16.bits < FTy.f32.bits)
    (hc : (⟨2, ![1, C]⟩ : Shape).ShapeCasts ⟨2, ![1, C]⟩) (hb : (⟨2, ![1, C]⟩ : Shape).Broadcasts ⟨2, ![M, C]⟩) :
    maximumf (addf (matmul d none (truncf .bf16 x hlt) (truncf .bf16 w hlt) (constant (F := Ideal) ⟨2, ![M, C]⟩ .f32 0x00000000#32))
        (broadcastTo ⟨2, ![M, C]⟩ (shapeCast ⟨2, ![1, C]⟩ b hc) hb))
      (broadcast ⟨2, ![M, C]⟩ (Scalar.ofBits (F := Ideal) .f32 0x00000000#32))
      = affineRelu x w b := by
  rw [device_affine d wf hd x w b hlt hc hb]
  rfl

/-- The same with the block of rows first recast onto its own shape, which changes nothing. -/
theorem device_affine_cast (d : DotDims ⟨2, ![M, K]⟩ ⟨2, ![K, C]⟩ ⟨2, ![M, C]⟩)
    (wf : DotDims.WF ⟨2, ![M, K]⟩ ⟨2, ![K, C]⟩ ⟨2, ![M, C]⟩ [1] [0] [0] [1] [] []) (hd : d = plainDot M K C wf)
    (x : FVec Ideal ⟨2, ![M, K]⟩ .f32) (w : FVec Ideal ⟨2, ![K, C]⟩ .f32) (b : FVec Ideal ⟨2, ![1, C]⟩ .f32)
    (hlt : FTy.bf16.bits < FTy.f32.bits) (hm : (⟨2, ![M, K]⟩ : Shape).ShapeCasts ⟨2, ![M, K]⟩)
    (hc : (⟨2, ![1, C]⟩ : Shape).ShapeCasts ⟨2, ![1, C]⟩) (hb : (⟨2, ![1, C]⟩ : Shape).Broadcasts ⟨2, ![M, C]⟩) :
    addf (matmul d none (truncf .bf16 (shapeCast ⟨2, ![M, K]⟩ x hm) hlt) (truncf .bf16 w hlt)
          (constant (F := Ideal) ⟨2, ![M, C]⟩ .f32 0x00000000#32))
        (broadcastTo ⟨2, ![M, C]⟩ (shapeCast ⟨2, ![1, C]⟩ b hc) hb)
      = affine x w b := by
  rw [shapeCast_self x hm]
  exact device_affine d wf hd x w b hlt hc hb

theorem device_affineRelu_cast (d : DotDims ⟨2, ![M, K]⟩ ⟨2, ![K, C]⟩ ⟨2, ![M, C]⟩)
    (wf : DotDims.WF ⟨2, ![M, K]⟩ ⟨2, ![K, C]⟩ ⟨2, ![M, C]⟩ [1] [0] [0] [1] [] []) (hd : d = plainDot M K C wf)
    (x : FVec Ideal ⟨2, ![M, K]⟩ .f32) (w : FVec Ideal ⟨2, ![K, C]⟩ .f32) (b : FVec Ideal ⟨2, ![1, C]⟩ .f32)
    (hlt : FTy.bf16.bits < FTy.f32.bits) (hm : (⟨2, ![M, K]⟩ : Shape).ShapeCasts ⟨2, ![M, K]⟩)
    (hc : (⟨2, ![1, C]⟩ : Shape).ShapeCasts ⟨2, ![1, C]⟩) (hb : (⟨2, ![1, C]⟩ : Shape).Broadcasts ⟨2, ![M, C]⟩) :
    maximumf (addf (matmul d none (truncf .bf16 (shapeCast ⟨2, ![M, K]⟩ x hm) hlt) (truncf .bf16 w hlt)
          (constant (F := Ideal) ⟨2, ![M, C]⟩ .f32 0x00000000#32))
        (broadcastTo ⟨2, ![M, C]⟩ (shapeCast ⟨2, ![1, C]⟩ b hc) hb))
      (broadcast ⟨2, ![M, C]⟩ (Scalar.ofBits (F := Ideal) .f32 0x00000000#32))
      = affineRelu x w b := by
  rw [device_affine_cast d wf hd x w b hlt hm hc hb]
  rfl

/-- The device's closing step of a layer on a block of rows (the two recasts of a block onto its own shape change
    nothing). -/
theorem device_addBias (a s : FVec Ideal ⟨2, ![M, C]⟩ .f32) (b : FVec Ideal ⟨2, ![1, C]⟩ .f32)
    (hm : (⟨2, ![M, C]⟩ : Shape).ShapeCasts ⟨2, ![M, C]⟩)
    (hc : (⟨2, ![1, C]⟩ : Shape).ShapeCasts ⟨2, ![1, C]⟩) (hb : (⟨2, ![1, C]⟩ : Shape).Broadcasts ⟨2, ![M, C]⟩) :
    addf (addf (shapeCast ⟨2, ![M, C]⟩ a hm) (shapeCast ⟨2, ![M, C]⟩ s hm)) (broadcastTo ⟨2, ![M, C]⟩ (shapeCast ⟨2, ![1, C]⟩ b hc) hb)
      = addBias a s b := by
  rw [shapeCast_self a hm, shapeCast_self s hm, shapeCast_self b hc]
  funext i
  obtain ⟨p, q, rfl⟩ : ∃ (p : Fin M) (q : Fin C), i = ix2 p q := ⟨i 0, i 1, eq_ix2 i⟩
  show (a (ix2 p q) + s (ix2 p q)) + broadcastTo ⟨2, ![M, C]⟩ b hb (ix2 p q) = _
  rw [broadcastTo_1b_ab_apply b hb p q]
  rfl

theorem device_addBiasRelu (a s : FVec Ideal ⟨2, ![M, C]⟩ .f32) (b : FVec Ideal ⟨2, ![1, C]⟩ .f32)
    (hm : (⟨2, ![M, C]⟩ : Shape).ShapeCasts ⟨2, ![M, C]⟩)
    (hc : (⟨2, ![1, C]⟩ : Shape).ShapeCasts ⟨2, ![1, C]⟩) (hb : (⟨2, ![1, C]⟩ : Shape).Broadcasts ⟨2, ![M, C]⟩) :
    maximumf (addf (addf (shapeCast ⟨2, ![M, C]⟩ a hm) (shapeCast ⟨2, ![M, C]⟩ s hm))
        (broadcastTo ⟨2, ![M, C]⟩ (shapeCast ⟨2, ![1, C]⟩ b hc) hb))
      (broadcast ⟨2, ![M, C]⟩ (Scalar.ofBits (F := Ideal) .f32 0x00000000#32))
      = addBiasRelu a s b := by
  rw [device_addBias a s b hm hc hb]
  rfl

end

/-- The device's edge scorer on a block of rows: the two affine steps through the matrix unit, the device's logistic
    operation at the end. -/
theorem device_score {M K H : Nat}
    (d1 : DotDims ⟨2, ![M, K]⟩ ⟨2, ![K, H]⟩ ⟨2, ![M, H]⟩)
    (wf1 : DotDims.WF ⟨2, ![M, K]⟩ ⟨2, ![K, H]⟩ ⟨2, ![M, H]⟩ [1] [0] [0] [1] [] []) (hd1 : d1 = plainDot M K H wf1)
    (d2 : DotDims ⟨2, ![M, H]⟩ ⟨2, ![H, 1]⟩ ⟨2, ![M, 1]⟩)
    (wf2 : DotDims.WF ⟨2, ![M, H]⟩ ⟨2, ![H, 1]⟩ ⟨2, ![M, 1]⟩ [1] [0] [0] [1] [] []) (hd2 : d2 = plainDot M H 1 wf2)
    (x : FVec Ideal ⟨2, ![M, K]⟩ .f32) (w1 : FVec Ideal ⟨2, ![K, H]⟩ .f32) (b1 : FVec Ideal ⟨2, ![1, H]⟩ .f32)
    (w2 : FVec Ideal ⟨2, ![H, 1]⟩ .f32) (b2 : FVec Ideal ⟨2, ![1, 1]⟩ .f32)
    (hlt : FTy.bf16.bits < FTy.f32.bits) (hm : (⟨2, ![M, K]⟩ : Shape).ShapeCasts ⟨2, ![M, K]⟩)
    (hc1 : (⟨2, ![1, H]⟩ : Shape).ShapeCasts ⟨2, ![1, H]⟩) (hb1 : (⟨2, ![1, H]⟩ : Shape).Broadcasts ⟨2, ![M, H]⟩)
    (hc2 : (⟨2, ![1, 1]⟩ : Shape).ShapeCasts ⟨2, ![1, 1]⟩) (hb2 : (⟨2, ![1, 1]⟩ : Shape).Broadcasts ⟨2, ![M, 1]⟩) :
    logistic (addf (matmul d2 none
          (truncf .bf16 (maximumf (addf (matmul d1 none (truncf .bf16 (shapeCast ⟨2, ![M, K]⟩ x hm) hlt) (truncf .bf16 w1 hlt)
                (constant (F := Ideal) ⟨2, ![M, H]⟩ .f32 0x00000000#32))
              (broadcastTo ⟨2, ![M, H]⟩ (shapeCast ⟨2, ![1, H]⟩ b1 hc1) hb1))
            (broadcast ⟨2, ![M, H]⟩ (Scalar.ofBits (F := Ideal) .f32 0x00000000#32))) hlt)
          (truncf .bf16 w2 hlt) (constant (F := Ideal) ⟨2, ![M, 1]⟩ .f32 0x00000000#32))
        (broadcastTo ⟨2, ![M, 1]⟩ (shapeCast ⟨2, ![1, 1]⟩ b2 hc2) hb2))
      = score x w1 b1 w2 b2 := by
  rw [device_affineRelu_cast d1 wf1 hd1 x w1 b1 hlt hm hc1 hb1, device_affine d2 wf2 hd2 (affineRelu x w1 b1) w2 b2 hlt hc2 hb2]
  rfl

end Cert.DenseStages

end
-- ==== Proof.SageSpec.lean ====
/-
  THE STAGES OF A THREE-LAYER MEAN-AGGREGATING GRAPH NETWORK WITH BATCH NORMALISATION, ENTRY BY ENTRY ON THE
  EXTENDED REALS.

  A layer takes the node features X (one row per node) and the neighbourhood means A of the same shape and forms
  H = A · Wl + X · Wc + b, where b is a one-row bias laid along every row ('lin').  The normalising layers then need,
  for every column q, the sum over all rows of H (p, q) ('colSum') and of H (p, q)² ('colSumSq'); from the mean m
  and the variance v of the column they form  max (((H − m) · (v + ε)^(-1/2)) · γ + β + X, 0)  ('normAct'), the
  one-row arrays m, v, γ, β laid along every row ('rows1') and ε the fixed small constant whose float pattern is
  0x3727C5AC.  Every formula mentions only row p of the arrays that have one row per node, so a block of rows of a
  stage is the stage of the block of rows; the column sums of the whole array are the sums, over the blocks, of the
  blocks' column sums.
-/
import proofs.«126844_j8246337208554_1_alg».proof.Proof.LibDenseStages

noncomputable section

open scoped BigOperators

namespace Cert.Sage

open Idealize.ShloMosaic Idealize.ShloMosaic.ValueIdx Cert.LayerForms Cert.DenseStages

variable {N K C : Nat}

/-- A · Wl + X · Wc plus the one-row bias laid along every row. -/
def lin (A X : FVec Ideal ⟨2, ![N, K]⟩ .f32) (Wl Wc : FVec Ideal ⟨2, ![K, C]⟩ .f32) (b : FVec Ideal ⟨2, ![1, C]⟩ .f32) :
    FVec Ideal ⟨2, ![N, C]⟩ .f32 :=
  addBias (dense A Wl) (dense X Wc) b

theorem lin_apply (A X : FVec Ideal ⟨2, ![N, K]⟩ .f32) (Wl Wc : FVec Ideal ⟨2, ![K, C]⟩ .f32) (b : FVec Ideal ⟨2, ![1, C]⟩ .f32)
    (p : Fin N) (q : Fin C) :
    lin A X Wl Wc b (ix2 p q)
      = ((∑ k : Fin K, A (ix2 p k) * Wl (ix2 k q)) + (∑ k : Fin K, X (ix2 p k) * Wc (ix2 k q))) + b (ix2 (0 : Fin 1) q) := rfl

/-- The sum of every column, as a one-row array. -/
def colSum (H : FVec Ideal ⟨2, ![N, C]⟩ .f32) : FVec Ideal ⟨2, ![1, C]⟩ .f32 :=
  fun i => ∑ p : Fin N, H (ix2 p (i 1 : Fin C))

theorem colSum_apply (H : FVec Ideal ⟨2, ![N, C]⟩ .f32) (z : Fin 1) (q : Fin C) :
    colSum H (ix2 z q) = ∑ p : Fin N, H (ix2 p q) := rfl

/-- The sum of the squares of every column, as a one-row array. -/
def colSumSq (H : FVec Ideal ⟨2, ![N, C]⟩ .f32) : FVec Ideal ⟨2, ![1, C]⟩ .f32 :=
  fun i => ∑ p : Fin N, H (ix2 p (i 1 : Fin C)) * H (ix2 p (i 1 : Fin C))

theorem colSumSq_apply (H : FVec Ideal ⟨2, ![N, C]⟩ .f32) (z : Fin 1) (q : Fin C) :
    colSumSq H (ix2 z q) = ∑ p : Fin N, H (ix2 p q) * H (ix2 p q) := rfl

/-- A one-row array laid along every row. -/
def rows1 (v : FVec Ideal ⟨2, ![1, C]⟩ .f32) : FVec Ideal ⟨2, ![N, C]⟩ .f32 :=
  fun i => v (ix2 (0 : Fin 1) (i 1 : Fin C))

theorem rows1_apply (v : FVec Ideal ⟨2, ![1, C]⟩ .f32) (p : Fin N) (q : Fin C) :
    rows1 (N := N) v (ix2 p q) = v (ix2 (0 : Fin 1) q) := rfl

/-- The small constant added to the variance. -/
abbrev eps : EReal := Ideal.ofBits .f32 0x3727C5AC#32

/-- Normalise each column by its mean and variance, scale, shift, add the layer's input, cut off below at zero. -/
def normAct (H X : FVec Ideal ⟨2, ![N, C]⟩ .f32) (mu var g bt : FVec Ideal ⟨2, ![1, C]⟩ .f32) :
    FVec Ideal ⟨2, ![N, C]⟩ .f32 :=
  fun i => max (((((H i - mu (ix2 (0 : Fin 1) (i 1 : Fin C))) * Ideal.rsqrt (var (ix2 (0 : Fin 1) (i 1 : Fin C)) + eps))
      * g (ix2 (0 : Fin 1) (i 1 : Fin C))) + bt (ix2 (0 : Fin 1) (i 1 : Fin C))) + X i) (Ideal.ofBits .f32 0x00000000#32)

theorem normAct_apply (H X : FVec Ideal ⟨2, ![N, C]⟩ .f32) (mu var g bt : FVec Ideal ⟨2, ![1, C]⟩ .f32) (p : Fin N) (q : Fin C) :
    normAct H X mu var g bt (ix2 p q)
      = max (((((H (ix2 p q) - mu (ix2 (0 : Fin 1) q)) * Ideal.rsqrt (var (ix2 (0 : Fin 1) q) + eps))
          * g (ix2 (0 : Fin 1) q)) + bt (ix2 (0 : Fin 1) q)) + X (ix2 p q)) (Ideal.ofBits .f32 0x00000000#32) := rfl

end Cert.Sage

end
-- ==== Proof.KerTerm.lean ====
/-
  THE KERNEL PROGRAM'S RESULT AS ONE TERM OF ITS ARGUMENTS.

  Around the five device stages (lin, its column sums, normAct, twice; then lin) the host computes, once, the inverse
  of each node's in-degree cut off below at one ('dinv': one over the larger of one and the number of edges whose
  target is the node), and for each layer the neighbourhood means ('aggK'): the rows of the features gathered at the
  edges' sources (a negative source wrapped around once), added up at the edges' targets, each row then multiplied by
  the node's inverse degree.  The column means and variances are the column sums divided by the number of nodes,
  the variance as the mean of the squares less the square of the mean ('meanOf', 'varOf').  Every host step is spelt
  exactly as the host program spells it.
-/
import proofs.«126844_j8246337208554_1_alg».proof.KernelIdeal
import proofs.«126844_j8246337208554_1_alg».proof.Proof.Gen.KernelIdeal
import proofs.«126844_j8246337208554_1_alg».proof.Proof.SageSpec

noncomputable section

namespace Cert.KernelIdeal.Spec

open Idealize.ShloMosaic Cert.KernelIdeal Cert.KernelIdeal.Gen Cert.Sage

/-- One over the larger of one and the number of edges arriving at each node, as a column. -/
def dinv (row : IVec S800000 32) : FVec Ideal S50000x1 .f32 :=
  broadcastInDim S50000x1 ![0] bcast_S50000_S50000x1_0
    (Host.divf (F := Ideal) (broadcastInDim S50000 ![] bcast_S_S50000 (constant (F := Ideal) S_ .f32 0x3F800000#32))
      (maximumf
        (Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 row)
          (broadcastInDim S800000 ![] bcast_S_S800000 (constant (F := Ideal) S_ .f32 0x3F800000#32)))
        (broadcastInDim S50000 ![] bcast_S_S50000 (constant (F := Ideal) S_ .f32 0x3F800000#32))))

/-- The edges' sources, a negative one wrapped around once, as a column of indices. -/
def srcIdx (col : IVec S800000 32) : IVec S800000x1 32 :=
  broadcastInDim S800000x1 ![0] bcast_S800000_S800000x1_0
    (select (cmpi .slt col (broadcastInDim S800000 ![] bcast_S_S800000 (constantI S_ 32 0#32)))
      (addi col (broadcastInDim S800000 ![] bcast_S_S800000 (constantI S_ 32 50000#32))) col)

/-- The neighbourhood means of the rows of X. -/
def aggK (X : FVec Ideal S50000x128 .f32) (row col : IVec S800000 32) : FVec Ideal S50000x128 .f32 :=
  mulf
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 row)
      (Host.gather gather_S50000x128_S800000x1_S800000x128_1_0_n_n_0_1_1128 X (srcIdx col)))
    (broadcastInDim S50000x128 ![0, 1] bcast_S50000x1_S50000x128_0_1 (dinv row))

/-- A vector of 128 entries as a one-row array. -/
def row128 (v : FVec Ideal S128 .f32) : FVec Ideal S1x128 .f32 := shapeCast S1x128 v shapeCasts_S128_S1x128
/-- A vector of 64 entries as a one-row array. -/
def row64 (v : FVec Ideal S64 .f32) : FVec Ideal S1x64 .f32 := shapeCast S1x64 v shapeCasts_S64_S1x64

/-- A row of column sums divided by the number of nodes. -/
def meanOf (s : FVec Ideal S1x128 .f32) : FVec Ideal S1x128 .f32 :=
  Host.divf (F := Ideal) s (broadcastInDim S1x128 ![] bcast_S_S1x128 (constant (F := Ideal) S_ .f32 0x47435000#32))

/-- The mean of the squares less the square of the mean. -/
def varOf (sq mean : FVec Ideal S1x128 .f32) : FVec Ideal S1x128 .f32 :=
  subf (meanOf sq) (mulf mean mean)

/-- One normalising layer as the kernel program computes it. -/
def layerK (X : FVec Ideal S50000x128 .f32) (row col : IVec S800000 32) (Wl Wc : FVec Ideal S128x128 .f32)
    (bl g bt : FVec Ideal S128 .f32) : FVec Ideal S50000x128 .f32 :=
  normAct (lin (aggK X row col) X Wl Wc (row128 bl)) X
    (meanOf (colSum (lin (aggK X row col) X Wl Wc (row128 bl))))
    (varOf (colSumSq (lin (aggK X row col) X Wl Wc (row128 bl))) (meanOf (colSum (lin (aggK X row col) X Wl Wc (row128 bl)))))
    (row128 g) (row128 bt)

/-- The kernel program's result. -/
def kerTerm (x : FVec Ideal S50000x128 .f32) (row col : IVec S800000 32)
    (Wl0 : FVec Ideal S128x128 .f32) (bl0 : FVec Ideal S128 .f32) (Wr0 Ws0 : FVec Ideal S128x128 .f32)
    (Wl1 : FVec Ideal S128x128 .f32) (bl1 : FVec Ideal S128 .f32) (Wr1 Ws1 : FVec Ideal S128x128 .f32)
    (Wl2 : FVec Ideal S128x64 .f32) (bl2 : FVec Ideal S64 .f32) (Wr2 Ws2 : FVec Ideal S128x64 .f32)
    (g0 b0 g1 b1 : FVec Ideal S128 .f32) : FVec Ideal S50000x64 .f32 :=
  lin (aggK (layerK (layerK x row col Wl0 (addf Wr0 Ws0) bl0 g0 b0) row col Wl1 (addf Wr1 Ws1) bl1 g1 b1) row col)
    (layerK (layerK x row col Wl0 (addf Wr0 Ws0) bl0 g0 b0) row col Wl1 (addf Wr1 Ws1) bl1 g1 b1)
    Wl2 (addf Wr2 Ws2) (row64 bl2)

end Cert.KernelIdeal.Spec

end
-- ==== Proof.KI.HostRead.lean ====
/- Reading the kernel program's result through the fold, down to the launch memory.

   Each stretch of host operations is read once, over ANY contents of the buffers before it: the buffers it
   writes that a later region or stretch reads come out as the inverse in-degree column, the neighbourhood
   means, the sums of two weight matrices, the one-row forms of the bias, scale and shift vectors, and the
   column means and variances.  With the five regions' output arrays given (as hypotheses) as the layer
   formulas of the arrays they find, the fold is then read level by level: a buffer that an item does not
   write is carried back unchanged, a stretch's result by its read, a region's output by its formula.  The
   result array ends as the three-layer term of the nineteen launch arrays. -/
import proofs.«126844_j8246337208554_1_alg».proof.Proof.KI.Assemble
import proofs.«126844_j8246337208554_1_alg».proof.Proof.KerTerm

set_option maxRecDepth 16384

noncomputable section

namespace Cert.KernelIdeal.HandVal

open Cert.KernelIdeal Cert.KernelIdeal.Hand Cert.KernelIdeal.Spec Cert.Sage
open Cert.KernelIdeal.Gen (hostOps0 hostOps1 hostOps2 hostOps3 hostOps4
  hostOps0_W hostOps1_W hostOps2_W hostOps3_W hostOps4_W)
open Idealize.ShloMosaic Idealize.ShloMosaic.TcCoe Idealize.SL.Sem

/-! ## Equal arguments give equal stages -/

theorem rdLin {N K C : Nat} {A A' X X' : FVec Ideal ⟨2, ![N, K]⟩ .f32} {Wl Wl' Wc Wc' : FVec Ideal ⟨2, ![K, C]⟩ .f32}
    {b b' : FVec Ideal ⟨2, ![1, C]⟩ .f32} (h1 : A = A') (h2 : X = X') (h3 : Wl = Wl') (h4 : Wc = Wc') (h5 : b = b') :
    lin A X Wl Wc b = lin A' X' Wl' Wc' b' := by subst h1 h2 h3 h4 h5; rfl

theorem rdNormAct {N C : Nat} {H H' X X' : FVec Ideal ⟨2, ![N, C]⟩ .f32} {mu mu' var var' g g' bt bt' : FVec Ideal ⟨2, ![1, C]⟩ .f32}
    (h1 : H = H') (h2 : X = X') (h3 : mu = mu') (h4 : var = var') (h5 : g = g') (h6 : bt = bt') :
    normAct H X mu var g bt = normAct H' X' mu' var' g' bt' := by subst h1 h2 h3 h4 h5 h6; rfl

/-! ## The stretches, read over any contents before them -/

section Stretches

variable (W : Valuation τ sig (Elt Ideal))

set_option maxHeartbeats 2000000 in
/-- The inverse in-degree column. -/
theorem rdHost0_v8 : (StableHlo.after hostOps0 W (Proc.devRef .tc main_v8) : FVec Ideal S50000x1 .f32) = dinv (W (Proc.devRef .tc main_arg1) : IVec S800000 32) := by
  after_results_simp <;> rfl
set_option maxHeartbeats 2000000 in
/-- The neighbourhood means of the input features. -/
theorem rdHost0_v23 : (StableHlo.after hostOps0 W (Proc.devRef .tc main_v23) : FVec Ideal S50000x128 .f32)
    = aggK (W (Proc.devRef .tc main_arg0) : FVec Ideal S50000x128 .f32) (W (Proc.devRef .tc main_arg1) : IVec S800000 32) (W (Proc.devRef .tc main_arg2) : IVec S800000 32) := by
  after_results_simp <;> rfl
set_option maxHeartbeats 2000000 in
theorem rdHost0_v9 : (StableHlo.after hostOps0 W (Proc.devRef .tc main_v9) : FVec Ideal S128x128 .f32) = (addf (W (Proc.devRef .tc main_arg5) : FVec Ideal S128x128 .f32) (W (Proc.devRef .tc main_arg6) : FVec Ideal S128x128 .f32) : FVec Ideal S128x128 .f32) := by
  after_results_simp <;> rfl
set_option maxHeartbeats 2000000 in
theorem rdHost0_v10 : (StableHlo.after hostOps0 W (Proc.devRef .tc main_v10) : FVec Ideal S128x128 .f32) = (addf (W (Proc.devRef .tc main_arg9) : FVec Ideal S128x128 .f32) (W (Proc.devRef .tc main_arg10) : FVec Ideal S128x128 .f32) : FVec Ideal S128x128 .f32) := by
  after_results_simp <;> rfl
set_option maxHeartbeats 2000000 in
theorem rdHost0_v11 : (StableHlo.after hostOps0 W (Proc.devRef .tc main_v11) : FVec Ideal S128x64 .f32) = (addf (W (Proc.devRef .tc main_arg13) : FVec Ideal S128x64 .f32) (W (Proc.devRef .tc main_arg14) : FVec Ideal S128x64 .f32) : FVec Ideal S128x64 .f32) := by
  after_results_simp <;> rfl
set_option maxHeartbeats 2000000 in
theorem rdHost0_v24 : (StableHlo.after hostOps0 W (Proc.devRef .tc main_v24) : FVec Ideal S1x128 .f32) = row128 (W (Proc.devRef .tc main_arg4) : FVec Ideal S128 .f32) := by
  after_results_simp <;> rfl

set_option maxHeartbeats 2000000 in
/-- The column means. -/
theorem rdHost1_mean {s : FVec Ideal S1x128 .f32} (hs : (W (Proc.devRef .tc main_v25_1) : FVec Ideal S1x128 .f32) = s) :
    (StableHlo.after hostOps1 W (Proc.devRef .tc main_v27) : FVec Ideal S1x128 .f32) = meanOf s := by
  subst hs; after_results_simp <;> rfl
set_option maxHeartbeats 2000000 in
/-- The column variances. -/
theorem rdHost1_var {s q : FVec Ideal S1x128 .f32} (hs : (W (Proc.devRef .tc main_v25_1) : FVec Ideal S1x128 .f32) = s) (hq : (W (Proc.devRef .tc main_v25_2) : FVec Ideal S1x128 .f32) = q) :
    (StableHlo.after hostOps1 W (Proc.devRef .tc main_v31) : FVec Ideal S1x128 .f32) = varOf q (meanOf s) := by
  subst hs hq; after_results_simp <;> rfl
set_option maxHeartbeats 2000000 in
theorem rdHost1_scale {g : FVec Ideal S128 .f32} (hg : (W (Proc.devRef .tc main_arg15) : FVec Ideal S128 .f32) = g) :
    (StableHlo.after hostOps1 W (Proc.devRef .tc main_v32) : FVec Ideal S1x128 .f32) = row128 g := by
  subst hg; after_results_simp <;> rfl
set_option maxHeartbeats 2000000 in
theorem rdHost1_shift {g : FVec Ideal S128 .f32} (hg : (W (Proc.devRef .tc main_arg16) : FVec Ideal S128 .f32) = g) :
    (StableHlo.after hostOps1 W (Proc.devRef .tc main_v33) : FVec Ideal S1x128 .f32) = row128 g := by
  subst hg; after_results_simp <;> rfl

set_option maxHeartbeats 2000000 in
/-- The column means. -/
theorem rdHost3_mean {s : FVec Ideal S1x128 .f32} (hs : (W (Proc.devRef .tc main_v48_1) : FVec Ideal S1x128 .f32) = s) :
    (StableHlo.after hostOps3 W (Proc.devRef .tc main_v50) : FVec Ideal S1x128 .f32) = meanOf s := by
  subst hs; after_results_simp <;> rfl
set_option maxHeartbeats 2000000 in
/-- The column variances. -/
theorem rdHost3_var {s q : FVec Ideal S1x128 .f32} (hs : (W (Proc.devRef .tc main_v48_1) : FVec Ideal S1x128 .f32) = s) (hq : (W (Proc.devRef .tc main_v48_2) : FVec Ideal S1x128 .f32) = q) :
    (StableHlo.after hostOps3 W (Proc.devRef .tc main_v54) : FVec Ideal S1x128 .f32) = varOf q (meanOf s) := by
  subst hs hq; after_results_simp <;> rfl
set_option maxHeartbeats 2000000 in
theorem rdHost3_scale {g : FVec Ideal S128 .f32} (hg : (W (Proc.devRef .tc main_arg17) : FVec Ideal S128 .f32) = g) :
    (StableHlo.after hostOps3 W (Proc.devRef .tc main_v55) : FVec Ideal S1x128 .f32) = row128 g := by
  subst hg; after_results_simp <;> rfl
set_option maxHeartbeats 2000000 in
theorem rdHost3_shift {g : FVec Ideal S128 .f32} (hg : (W (Proc.devRef .tc main_arg18) : FVec Ideal S128 .f32) = g) :
    (StableHlo.after hostOps3 W (Proc.devRef .tc main_v56) : FVec Ideal S1x128 .f32) = row128 g := by
  subst hg; after_results_simp <;> rfl

set_option maxHeartbeats 2000000 in
/-- The neighbourhood means of the layer's input, the inverse in-degree column read from where the first stretch
    left it. -/
theorem rdHost2_agg {X : FVec Ideal S50000x128 .f32} {row col : IVec S800000 32} (hX : (W (Proc.devRef .tc main_v34) : FVec Ideal S50000x128 .f32) = X)
    (hr : (W (Proc.devRef .tc main_arg1) : IVec S800000 32) = row) (hc : (W (Proc.devRef .tc main_arg2) : IVec S800000 32) = col)
    (h8 : (W (Proc.devRef .tc main_v8) : FVec Ideal S50000x1 .f32) = dinv row) :
    (StableHlo.after hostOps2 W (Proc.devRef .tc main_v46) : FVec Ideal S50000x128 .f32) = aggK X row col := by
  subst hX hr hc; after_results_simp; rw [h8]; rfl
set_option maxHeartbeats 2000000 in
theorem rdHost2_bias {b : FVec Ideal S128 .f32} (hb : (W (Proc.devRef .tc main_arg8) : FVec Ideal S128 .f32) = b) :
    (StableHlo.after hostOps2 W (Proc.devRef .tc main_v47) : FVec Ideal S1x128 .f32) = row128 b := by
  subst hb; after_results_simp <;> rfl

set_option maxHeartbeats 2000000 in
/-- The neighbourhood means of the layer's input, the inverse in-degree column read from where the first stretch
    left it. -/
theorem rdHost4_agg {X : FVec Ideal S50000x128 .f32} {row col : IVec S800000 32} (hX : (W (Proc.devRef .tc main_v57) : FVec Ideal S50000x128 .f32) = X)
    (hr : (W (Proc.devRef .tc main_arg1) : IVec S800000 32) = row) (hc : (W (Proc.devRef .tc main_arg2) : IVec S800000 32) = col)
    (h8 : (W (Proc.devRef .tc main_v8) : FVec Ideal S50000x1 .f32) = dinv row) :
    (StableHlo.after hostOps4 W (Proc.devRef .tc main_v69) : FVec Ideal S50000x128 .f32) = aggK X row col := by
  subst hX hr hc; after_results_simp; rw [h8]; rfl
set_option maxHeartbeats 2000000 in
theorem rdHost4_bias {b : FVec Ideal S64 .f32} (hb : (W (Proc.devRef .tc main_arg12) : FVec Ideal S64 .f32) = b) :
    (StableHlo.after hostOps4 W (Proc.devRef .tc main_v70) : FVec Ideal S1x64 .f32) = row64 b := by
  subst hb; after_results_simp <;> rfl

end Stretches

/-! ## A buffer nothing has written yet holds its launch contents -/

section Launch

variable (D0 : Region0 Ideal) (D1 : Region1 Ideal) (D2 : Region2 Ideal) (D3 : Region3 Ideal) (D4 : Region4 Ideal)
variable (m : (ℓ : Loc nD τ sig) → Buf (Elt Ideal) ℓ)

theorem rdW1_launch (c : Dev nD) (r : Ref sig .tc) (h1 : r ∉ hostOps0_W) :
    W1 m c (Proc.devRef .tc r) = W0 m c (Proc.devRef .tc r) :=
  (W1_keep m c r h1)

theorem rdW2_launch (c : Dev nD) (r : Ref sig .tc) (h1 : r ∉ hostOps0_W) (h2 : r ∉ ([main_v25_0, main_v25_1, main_v25_2] : List (Ref sig .tc))) :
    W2 D0 m c (Proc.devRef .tc r) = W0 m c (Proc.devRef .tc r) :=
  (W2_keep D0 m c r h2).trans <| (W1_keep m c r h1)

theorem rdW3_launch (c : Dev nD) (r : Ref sig .tc) (h1 : r ∉ hostOps0_W) (h2 : r ∉ ([main_v25_0, main_v25_1, main_v25_2] : List (Ref sig .tc))) (h3 : r ∉ hostOps1_W) :
    W3 D0 m c (Proc.devRef .tc r) = W0 m c (Proc.devRef .tc r) :=
  (W3_keep D0 m c r h3).trans <| (W2_keep D0 m c r h2).trans <| (W1_keep m c r h1)

theorem rdW4_launch (c : Dev nD) (r : Ref sig .tc) (h1 : r ∉ hostOps0_W) (h2 : r ∉ ([main_v25_0, main_v25_1, main_v25_2] : List (Ref sig .tc))) (h3 : r ∉ hostOps1_W) (h4 : r ∉ ([main_v34] : List (Ref sig .tc))) :
    W4 D0 D1 m c (Proc.devRef .tc r) = W0 m c (Proc.devRef .tc r) :=
  (W4_keep D0 D1 m c r h4).trans <| (W3_keep D0 m c r h3).trans <| (W2_keep D0 m c r h2).trans <| (W1_keep m c r h1)

theorem rdW5_launch (c : Dev nD) (r : Ref sig .tc) (h1 : r ∉ hostOps0_W) (h2 : r ∉ ([main_v25_0, main_v25_1, main_v25_2] : List (Ref sig .tc))) (h3 : r ∉ hostOps1_W) (h4 : r ∉ ([main_v34] : List (Ref sig .tc))) (h5 : r ∉ hostOps2_W) :
    W5 D0 D1 m c (Proc.devRef .tc r) = W0 m c (Proc.devRef .tc r) :=
  (W5_keep D0 D1 m c r h5).trans <| (W4_keep D0 D1 m c r h4).trans <| (W3_keep D0 m c r h3).trans <| (W2_keep D0 m c r h2).trans <| (W1_keep m c r h1)

theorem rdW6_launch (c : Dev nD) (r : Ref sig .tc) (h1 : r ∉ hostOps0_W) (h2 : r ∉ ([main_v25_0, main_v25_1, main_v25_2] : List (Ref sig .tc))) (h3 : r ∉ hostOps1_W) (h4 : r ∉ ([main_v34] : List (Ref sig .tc))) (h5 : r ∉ hostOps2_W) (h6 : r ∉ ([main_v48_0, main_v48_1, main_v48_2] : List (Ref sig .tc))) :
    W6 D0 D1 D2 m c (Proc.devRef .tc r) = W0 m c (Proc.devRef .tc r) :=
  (W6_keep D0 D1 D2 m c r h6).trans <| (W5_keep D0 D1 m c r h5).trans <| (W4_keep D0 D1 m c r h4).trans <| (W3_keep D0 m c r h3).trans <| (W2_keep D0 m c r h2).trans <| (W1_keep m c r h1)

theorem rdW7_launch (c : Dev nD) (r : Ref sig .tc) (h1 : r ∉ hostOps0_W) (h2 : r ∉ ([main_v25_0, main_v25_1, main_v25_2] : List (Ref sig .tc))) (h3 : r ∉ hostOps1_W) (h4 : r ∉ ([main_v34] : List (Ref sig .tc))) (h5 : r ∉ hostOps2_W) (h6 : r ∉ ([main_v48_0, main_v48_1, main_v48_2] : List (Ref sig .tc))) (h7 : r ∉ hostOps3_W) :
    W7 D0 D1 D2 m c (Proc.devRef .tc r) = W0 m c (Proc.devRef .tc r) :=
  (W7_keep D0 D1 D2 m c r h7).trans <| (W6_keep D0 D1 D2 m c r h6).trans <| (W5_keep D0 D1 m c r h5).trans <| (W4_keep D0 D1 m c r h4).trans <| (W3_keep D0 m c r h3).trans <| (W2_keep D0 m c r h2).trans <| (W1_keep m c r h1)

theorem rdW8_launch (c : Dev nD) (r : Ref sig .tc) (h1 : r ∉ hostOps0_W) (h2 : r ∉ ([main_v25_0, main_v25_1, main_v25_2] : List (Ref sig .tc))) (h3 : r ∉ hostOps1_W) (h4 : r ∉ ([main_v34] : List (Ref sig .tc))) (h5 : r ∉ hostOps2_W) (h6 : r ∉ ([main_v48_0, main_v48_1, main_v48_2] : List (Ref sig .tc))) (h7 : r ∉ hostOps3_W) (h8 : r ∉ ([main_v57] : List (Ref sig .tc))) :
    W8 D0 D1 D2 D3 m c (Proc.devRef .tc r) = W0 m c (Proc.devRef .tc r) :=
  (W8_keep D0 D1 D2 D3 m c r h8).trans <| (W7_keep D0 D1 D2 m c r h7).trans <| (W6_keep D0 D1 D2 m c r h6).trans <| (W5_keep D0 D1 m c r h5).trans <| (W4_keep D0 D1 m c r h4).trans <| (W3_keep D0 m c r h3).trans <| (W2_keep D0 m c r h2).trans <| (W1_keep m c r h1)

theorem rdW9_launch (c : Dev nD) (r : Ref sig .tc) (h1 : r ∉ hostOps0_W) (h2 : r ∉ ([main_v25_0, main_v25_1, main_v25_2] : List (Ref sig .tc))) (h3 : r ∉ hostOps1_W) (h4 : r ∉ ([main_v34] : List (Ref sig .tc))) (h5 : r ∉ hostOps2_W) (h6 : r ∉ ([main_v48_0, main_v48_1, main_v48_2] : List (Ref sig .tc))) (h7 : r ∉ hostOps3_W) (h8 : r ∉ ([main_v57] : List (Ref sig .tc))) (h9 : r ∉ hostOps4_W) :
    W9 D0 D1 D2 D3 m c (Proc.devRef .tc r) = W0 m c (Proc.devRef .tc r) :=
  (W9_keep D0 D1 D2 D3 m c r h9).trans <| (W8_keep D0 D1 D2 D3 m c r h8).trans <| (W7_keep D0 D1 D2 m c r h7).trans <| (W6_keep D0 D1 D2 m c r h6).trans <| (W5_keep D0 D1 m c r h5).trans <| (W4_keep D0 D1 m c r h4).trans <| (W3_keep D0 m c r h3).trans <| (W2_keep D0 m c r h2).trans <| (W1_keep m c r h1)

end Launch

/-! ## The fold, level by level -/

/-- What each region's pipeline leaves in its output arrays, as the layer formulas of the arrays the region finds:
    the nine facts the level-by-level reading uses, bundled. -/
structure RegionValues (D0 : Region0 Ideal) (D1 : Region1 Ideal) (D2 : Region2 Ideal) (D3 : Region3 Ideal) (D4 : Region4 Ideal) : Prop where
  hv0_5 : ∀ (V : Vals Ideal) (c : Dev nD), (D0.dat V c).arrAt 5 cfg0.N
    = lin (V c main_v23 : FVec Ideal S50000x128 .f32) (V c main_arg0 : FVec Ideal S50000x128 .f32) (V c main_arg3 : FVec Ideal S128x128 .f32) (V c main_v9 : FVec Ideal S128x128 .f32) (V c main_v24 : FVec Ideal S1x128 .f32)
  hv0_6 : ∀ (V : Vals Ideal) (c : Dev nD), (D0.dat V c).arrAt 6 cfg0.N
    = colSum (lin (V c main_v23 : FVec Ideal S50000x128 .f32) (V c main_arg0 : FVec Ideal S50000x128 .f32) (V c main_arg3 : FVec Ideal S128x128 .f32) (V c main_v9 : FVec Ideal S128x128 .f32) (V c main_v24 : FVec Ideal S1x128 .f32))
  hv0_7 : ∀ (V : Vals Ideal) (c : Dev nD), (D0.dat V c).arrAt 7 cfg0.N
    = colSumSq (lin (V c main_v23 : FVec Ideal S50000x128 .f32) (V c main_arg0 : FVec Ideal S50000x128 .f32) (V c main_arg3 : FVec Ideal S128x128 .f32) (V c main_v9 : FVec Ideal S128x128 .f32) (V c main_v24 : FVec Ideal S1x128 .f32))
  hv1 : ∀ (V : Vals Ideal) (c : Dev nD), (D1.dat V c).arrAt 6 cfg1.N
    = normAct (V c main_v25_0 : FVec Ideal S50000x128 .f32) (V c main_arg0 : FVec Ideal S50000x128 .f32) (V c main_v27 : FVec Ideal S1x128 .f32) (V c main_v31 : FVec Ideal S1x128 .f32) (V c main_v32 : FVec Ideal S1x128 .f32) (V c main_v33 : FVec Ideal S1x128 .f32)
  hv2_5 : ∀ (V : Vals Ideal) (c : Dev nD), (D2.dat V c).arrAt 5 cfg2.N
    = lin (V c main_v46 : FVec Ideal S50000x128 .f32) (V c main_v34 : FVec Ideal S50000x128 .f32) (V c main_arg7 : FVec Ideal S128x128 .f32) (V c main_v10 : FVec Ideal S128x128 .f32) (V c main_v47 : FVec Ideal S1x128 .f32)
  hv2_6 : ∀ (V : Vals Ideal) (c : Dev nD), (D2.dat V c).arrAt 6 cfg2.N
    = colSum (lin (V c main_v46 : FVec Ideal S50000x128 .f32) (V c main_v34 : FVec Ideal S50000x128 .f32) (V c main_arg7 : FVec Ideal S128x128 .f32) (V c main_v10 : FVec Ideal S128x128 .f32) (V c main_v47 : FVec Ideal S1x128 .f32))
  hv2_7 : ∀ (V : Vals Ideal) (c : Dev nD), (D2.dat V c).arrAt 7 cfg2.N
    = colSumSq (lin (V c main_v46 : FVec Ideal S50000x128 .f32) (V c main_v34 : FVec Ideal S50000x128 .f32) (V c main_arg7 : FVec Ideal S128x128 .f32) (V c main_v10 : FVec Ideal S128x128 .f32) (V c main_v47 : FVec Ideal S1x128 .f32))
  hv3 : ∀ (V : Vals Ideal) (c : Dev nD), (D3.dat V c).arrAt 6 cfg3.N
    = normAct (V c main_v48_0 : FVec Ideal S50000x128 .f32) (V c main_v34 : FVec Ideal S50000x128 .f32) (V c main_v50 : FVec Ideal S1x128 .f32) (V c main_v54 : FVec Ideal S1x128 .f32) (V c main_v55 : FVec Ideal S1x128 .f32) (V c main_v56 : FVec Ideal S1x128 .f32)
  hv4 : ∀ (V : Vals Ideal) (c : Dev nD), (D4.dat V c).arrAt 5 cfg4.N
    = lin (V c main_v69 : FVec Ideal S50000x128 .f32) (V c main_v57 : FVec Ideal S50000x128 .f32) (V c main_arg11 : FVec Ideal S128x64 .f32) (V c main_v11 : FVec Ideal S128x64 .f32) (V c main_v70 : FVec Ideal S1x64 .f32)

section Levels

variable (D0 : Region0 Ideal) (D1 : Region1 Ideal) (D2 : Region2 Ideal) (D3 : Region3 Ideal) (D4 : Region4 Ideal)
variable (m : (ℓ : Loc nD τ sig) → Buf (Elt Ideal) ℓ)
variable (H : RegionValues D0 D1 D2 D3 D4)

/-- The first layer's linear stage, of the launch arrays. -/
def rdLin0 (c : Dev nD) : FVec Ideal S50000x128 .f32 :=
  lin (aggK (W0 m c (Proc.devRef .tc main_arg0) : FVec Ideal S50000x128 .f32) (W0 m c (Proc.devRef .tc main_arg1) : IVec S800000 32) (W0 m c (Proc.devRef .tc main_arg2) : IVec S800000 32)) (W0 m c (Proc.devRef .tc main_arg0) : FVec Ideal S50000x128 .f32) (W0 m c (Proc.devRef .tc main_arg3) : FVec Ideal S128x128 .f32) (addf (W0 m c (Proc.devRef .tc main_arg5) : FVec Ideal S128x128 .f32) (W0 m c (Proc.devRef .tc main_arg6) : FVec Ideal S128x128 .f32)) (row128 (W0 m c (Proc.devRef .tc main_arg4) : FVec Ideal S128 .f32))
/-- The first layer's output. -/
def rdAct0 (c : Dev nD) : FVec Ideal S50000x128 .f32 :=
  layerK (W0 m c (Proc.devRef .tc main_arg0) : FVec Ideal S50000x128 .f32) (W0 m c (Proc.devRef .tc main_arg1) : IVec S800000 32) (W0 m c (Proc.devRef .tc main_arg2) : IVec S800000 32) (W0 m c (Proc.devRef .tc main_arg3) : FVec Ideal S128x128 .f32) (addf (W0 m c (Proc.devRef .tc main_arg5) : FVec Ideal S128x128 .f32) (W0 m c (Proc.devRef .tc main_arg6) : FVec Ideal S128x128 .f32)) (W0 m c (Proc.devRef .tc main_arg4) : FVec Ideal S128 .f32) (W0 m c (Proc.devRef .tc main_arg15) : FVec Ideal S128 .f32) (W0 m c (Proc.devRef .tc main_arg16) : FVec Ideal S128 .f32)
/-- The second layer's linear stage. -/
def rdLin1 (c : Dev nD) : FVec Ideal S50000x128 .f32 :=
  lin (aggK (rdAct0 m c) (W0 m c (Proc.devRef .tc main_arg1) : IVec S800000 32) (W0 m c (Proc.devRef .tc main_arg2) : IVec S800000 32)) (rdAct0 m c) (W0 m c (Proc.devRef .tc main_arg7) : FVec Ideal S128x128 .f32) (addf (W0 m c (Proc.devRef .tc main_arg9) : FVec Ideal S128x128 .f32) (W0 m c (Proc.devRef .tc main_arg10) : FVec Ideal S128x128 .f32)) (row128 (W0 m c (Proc.devRef .tc main_arg8) : FVec Ideal S128 .f32))
/-- The second layer's output. -/
def rdAct1 (c : Dev nD) : FVec Ideal S50000x128 .f32 :=
  layerK (rdAct0 m c) (W0 m c (Proc.devRef .tc main_arg1) : IVec S800000 32) (W0 m c (Proc.devRef .tc main_arg2) : IVec S800000 32) (W0 m c (Proc.devRef .tc main_arg7) : FVec Ideal S128x128 .f32) (addf (W0 m c (Proc.devRef .tc main_arg9) : FVec Ideal S128x128 .f32) (W0 m c (Proc.devRef .tc main_arg10) : FVec Ideal S128x128 .f32)) (W0 m c (Proc.devRef .tc main_arg8) : FVec Ideal S128 .f32) (W0 m c (Proc.devRef .tc main_arg17) : FVec Ideal S128 .f32) (W0 m c (Proc.devRef .tc main_arg18) : FVec Ideal S128 .f32)

include D0 D1 D2 D3 D4 m H

/-! ### Before region 0 -/
theorem rd1_v23 (c : Dev nD) : (V1 m c main_v23 : FVec Ideal S50000x128 .f32) = aggK (W0 m c (Proc.devRef .tc main_arg0) : FVec Ideal S50000x128 .f32) (W0 m c (Proc.devRef .tc main_arg1) : IVec S800000 32) (W0 m c (Proc.devRef .tc main_arg2) : IVec S800000 32) :=
  rdHost0_v23 (W0 m c)
theorem rd1_arg0 (c : Dev nD) : (V1 m c main_arg0 : FVec Ideal S50000x128 .f32) = (W0 m c (Proc.devRef .tc main_arg0) : FVec Ideal S50000x128 .f32) :=
  (rdW1_launch m c main_arg0 (by decide))
theorem rd1_arg3 (c : Dev nD) : (V1 m c main_arg3 : FVec Ideal S128x128 .f32) = (W0 m c (Proc.devRef .tc main_arg3) : FVec Ideal S128x128 .f32) :=
  (rdW1_launch m c main_arg3 (by decide))
theorem rd1_v9 (c : Dev nD) : (V1 m c main_v9 : FVec Ideal S128x128 .f32) = (addf (W0 m c (Proc.devRef .tc main_arg5) : FVec Ideal S128x128 .f32) (W0 m c (Proc.devRef .tc main_arg6) : FVec Ideal S128x128 .f32) : FVec Ideal S128x128 .f32) :=
  rdHost0_v9 (W0 m c)
theorem rd1_v24 (c : Dev nD) : (V1 m c main_v24 : FVec Ideal S1x128 .f32) = row128 (W0 m c (Proc.devRef .tc main_arg4) : FVec Ideal S128 .f32) :=
  rdHost0_v24 (W0 m c)
theorem rd1_v8 (c : Dev nD) : (W1 m c (Proc.devRef .tc main_v8) : FVec Ideal S50000x1 .f32) = dinv (W0 m c (Proc.devRef .tc main_arg1) : IVec S800000 32) :=
  rdHost0_v8 (W0 m c)
theorem rd1_v10 (c : Dev nD) : (W1 m c (Proc.devRef .tc main_v10) : FVec Ideal S128x128 .f32) = (addf (W0 m c (Proc.devRef .tc main_arg9) : FVec Ideal S128x128 .f32) (W0 m c (Proc.devRef .tc main_arg10) : FVec Ideal S128x128 .f32) : FVec Ideal S128x128 .f32) :=
  rdHost0_v10 (W0 m c)
theorem rd1_v11 (c : Dev nD) : (W1 m c (Proc.devRef .tc main_v11) : FVec Ideal S128x64 .f32) = (addf (W0 m c (Proc.devRef .tc main_arg13) : FVec Ideal S128x64 .f32) (W0 m c (Proc.devRef .tc main_arg14) : FVec Ideal S128x64 .f32) : FVec Ideal S128x64 .f32) :=
  rdHost0_v11 (W0 m c)

/-! ### After region 0 -/
theorem rd2_v25_0 (c : Dev nD) : (W2 D0 m c (Proc.devRef .tc main_v25_0) : FVec Ideal S50000x128 .f32) = rdLin0 m c :=
  (W2_arr D0 m c 5).trans ((H.hv0_5 (V1 m) c).trans (rdLin (rd1_v23 D0 D1 D2 D3 D4 m H c) (rd1_arg0 D0 D1 D2 D3 D4 m H c) (rd1_arg3 D0 D1 D2 D3 D4 m H c) (rd1_v9 D0 D1 D2 D3 D4 m H c) (rd1_v24 D0 D1 D2 D3 D4 m H c)))
theorem rd2_v25_1 (c : Dev nD) : (W2 D0 m c (Proc.devRef .tc main_v25_1) : FVec Ideal S1x128 .f32) = colSum (rdLin0 m c) :=
  (W2_arr D0 m c 6).trans ((H.hv0_6 (V1 m) c).trans (congrArg colSum (rdLin (rd1_v23 D0 D1 D2 D3 D4 m H c) (rd1_arg0 D0 D1 D2 D3 D4 m H c) (rd1_arg3 D0 D1 D2 D3 D4 m H c) (rd1_v9 D0 D1 D2 D3 D4 m H c) (rd1_v24 D0 D1 D2 D3 D4 m H c))))
theorem rd2_v25_2 (c : Dev nD) : (W2 D0 m c (Proc.devRef .tc main_v25_2) : FVec Ideal S1x128 .f32) = colSumSq (rdLin0 m c) :=
  (W2_arr D0 m c 7).trans ((H.hv0_7 (V1 m) c).trans (congrArg colSumSq (rdLin (rd1_v23 D0 D1 D2 D3 D4 m H c) (rd1_arg0 D0 D1 D2 D3 D4 m H c) (rd1_arg3 D0 D1 D2 D3 D4 m H c) (rd1_v9 D0 D1 D2 D3 D4 m H c) (rd1_v24 D0 D1 D2 D3 D4 m H c))))

/-! ### Before region 1 -/
theorem rd3_v25_0 (c : Dev nD) : (V3 D0 m c main_v25_0 : FVec Ideal S50000x128 .f32) = rdLin0 m c :=
  (W3_keep D0 m c main_v25_0 (by decide)).trans (rd2_v25_0 D0 D1 D2 D3 D4 m H c)
theorem rd3_arg0 (c : Dev nD) : (V3 D0 m c main_arg0 : FVec Ideal S50000x128 .f32) = (W0 m c (Proc.devRef .tc main_arg0) : FVec Ideal S50000x128 .f32) :=
  (rdW3_launch D0 m c main_arg0 (by decide) (by decide) (by decide))
theorem rd3_v27 (c : Dev nD) : (V3 D0 m c main_v27 : FVec Ideal S1x128 .f32) = meanOf (colSum (rdLin0 m c)) :=
  rdHost1_mean (W2 D0 m c) (rd2_v25_1 D0 D1 D2 D3 D4 m H c)
theorem rd3_v31 (c : Dev nD) : (V3 D0 m c main_v31 : FVec Ideal S1x128 .f32) = varOf (colSumSq (rdLin0 m c)) (meanOf (colSum (rdLin0 m c))) :=
  rdHost1_var (W2 D0 m c) (rd2_v25_1 D0 D1 D2 D3 D4 m H c) (rd2_v25_2 D0 D1 D2 D3 D4 m H c)
theorem rd3_v32 (c : Dev nD) : (V3 D0 m c main_v32 : FVec Ideal S1x128 .f32) = row128 (W0 m c (Proc.devRef .tc main_arg15) : FVec Ideal S128 .f32) :=
  rdHost1_scale (W2 D0 m c) (rdW2_launch D0 m c main_arg15 (by decide) (by decide))
theorem rd3_v33 (c : Dev nD) : (V3 D0 m c main_v33 : FVec Ideal S1x128 .f32) = row128 (W0 m c (Proc.devRef .tc main_arg16) : FVec Ideal S128 .f32) :=
  rdHost1_shift (W2 D0 m c) (rdW2_launch D0 m c main_arg16 (by decide) (by decide))

/-! ### After region 1 -/
theorem rd4_v34 (c : Dev nD) : (W4 D0 D1 m c (Proc.devRef .tc main_v34) : FVec Ideal S50000x128 .f32) = rdAct0 m c :=
  (W4_arr D0 D1 m c 6).trans ((H.hv1 (V3 D0 m) c).trans (rdNormAct (rd3_v25_0 D0 D1 D2 D3 D4 m H c) (rd3_arg0 D0 D1 D2 D3 D4 m H c) (rd3_v27 D0 D1 D2 D3 D4 m H c) (rd3_v31 D0 D1 D2 D3 D4 m H c) (rd3_v32 D0 D1 D2 D3 D4 m H c) (rd3_v33 D0 D1 D2 D3 D4 m H c)))
theorem rd4_v8 (c : Dev nD) : (W4 D0 D1 m c (Proc.devRef .tc main_v8) : FVec Ideal S50000x1 .f32) = dinv (W0 m c (Proc.devRef .tc main_arg1) : IVec S800000 32) :=
  ((W4_keep D0 D1 m c main_v8 (by decide)).trans <| (W3_keep D0 m c main_v8 (by decide)).trans <| (W2_keep D0 m c main_v8 (by decide))).trans (rd1_v8 D0 D1 D2 D3 D4 m H c)

/-! ### Before region 2 -/
theorem rd5_v46 (c : Dev nD) : (V5 D0 D1 m c main_v46 : FVec Ideal S50000x128 .f32) = aggK (rdAct0 m c) (W0 m c (Proc.devRef .tc main_arg1) : IVec S800000 32) (W0 m c (Proc.devRef .tc main_arg2) : IVec S800000 32) :=
  rdHost2_agg (W4 D0 D1 m c) (rd4_v34 D0 D1 D2 D3 D4 m H c) (rdW4_launch D0 D1 m c main_arg1 (by decide) (by decide) (by decide) (by decide)) (rdW4_launch D0 D1 m c main_arg2 (by decide) (by decide) (by decide) (by decide)) (rd4_v8 D0 D1 D2 D3 D4 m H c)
theorem rd5_v34 (c : Dev nD) : (V5 D0 D1 m c main_v34 : FVec Ideal S50000x128 .f32) = rdAct0 m c :=
  (W5_keep D0 D1 m c main_v34 (by decide)).trans (rd4_v34 D0 D1 D2 D3 D4 m H c)
theorem rd5_arg7 (c : Dev nD) : (V5 D0 D1 m c main_arg7 : FVec Ideal S128x128 .f32) = (W0 m c (Proc.devRef .tc main_arg7) : FVec Ideal S128x128 .f32) :=
  (rdW5_launch D0 D1 m c main_arg7 (by decide) (by decide) (by decide) (by decide) (by decide))
theorem rd5_v10 (c : Dev nD) : (V5 D0 D1 m c main_v10 : FVec Ideal S128x128 .f32) = (addf (W0 m c (Proc.devRef .tc main_arg9) : FVec Ideal S128x128 .f32) (W0 m c (Proc.devRef .tc main_arg10) : FVec Ideal S128x128 .f32) : FVec Ideal S128x128 .f32) :=
  ((W5_keep D0 D1 m c main_v10 (by decide)).trans <| (W4_keep D0 D1 m c main_v10 (by decide)).trans <| (W3_keep D0 m c main_v10 (by decide)).trans <| (W2_keep D0 m c main_v10 (by decide))).trans (rd1_v10 D0 D1 D2 D3 D4 m H c)
theorem rd5_v47 (c : Dev nD) : (V5 D0 D1 m c main_v47 : FVec Ideal S1x128 .f32) = row128 (W0 m c (Proc.devRef .tc main_arg8) : FVec Ideal S128 .f32) :=
  rdHost2_bias (W4 D0 D1 m c) (rdW4_launch D0 D1 m c main_arg8 (by decide) (by decide) (by decide) (by decide))

/-! ### After region 2 -/
theorem rd6_v48_0 (c : Dev nD) : (W6 D0 D1 D2 m c (Proc.devRef .tc main_v48_0) : FVec Ideal S50000x128 .f32) = rdLin1 m c :=
  (W6_arr D0 D1 D2 m c 5).trans ((H.hv2_5 (V5 D0 D1 m) c).trans (rdLin (rd5_v46 D0 D1 D2 D3 D4 m H c) (rd5_v34 D0 D1 D2 D3 D4 m H c) (rd5_arg7 D0 D1 D2 D3 D4 m H c) (rd5_v10 D0 D1 D2 D3 D4 m H c) (rd5_v47 D0 D1 D2 D3 D4 m H c)))
theorem rd6_v48_1 (c : Dev nD) : (W6 D0 D1 D2 m c (Proc.devRef .tc main_v48_1) : FVec Ideal S1x128 .f32) = colSum (rdLin1 m c) :=
  (W6_arr D0 D1 D2 m c 6).trans ((H.hv2_6 (V5 D0 D1 m) c).trans (congrArg colSum (rdLin (rd5_v46 D0 D1 D2 D3 D4 m H c) (rd5_v34 D0 D1 D2 D3 D4 m H c) (rd5_arg7 D0 D1 D2 D3 D4 m H c) (rd5_v10 D0 D1 D2 D3 D4 m H c) (rd5_v47 D0 D1 D2 D3 D4 m H c))))
theorem rd6_v48_2 (c : Dev nD) : (W6 D0 D1 D2 m c (Proc.devRef .tc main_v48_2) : FVec Ideal S1x128 .f32) = colSumSq (rdLin1 m c) :=
  (W6_arr D0 D1 D2 m c 7).trans ((H.hv2_7 (V5 D0 D1 m) c).trans (congrArg colSumSq (rdLin (rd5_v46 D0 D1 D2 D3 D4 m H c) (rd5_v34 D0 D1 D2 D3 D4 m H c) (rd5_arg7 D0 D1 D2 D3 D4 m H c) (rd5_v10 D0 D1 D2 D3 D4 m H c) (rd5_v47 D0 D1 D2 D3 D4 m H c))))

/-! ### Before region 3 -/
theorem rd7_v48_0 (c : Dev nD) : (V7 D0 D1 D2 m c main_v48_0 : FVec Ideal S50000x128 .f32) = rdLin1 m c :=
  (W7_keep D0 D1 D2 m c main_v48_0 (by decide)).trans (rd6_v48_0 D0 D1 D2 D3 D4 m H c)
theorem rd7_v34 (c : Dev nD) : (V7 D0 D1 D2 m c main_v34 : FVec Ideal S50000x128 .f32) = rdAct0 m c :=
  ((W7_keep D0 D1 D2 m c main_v34 (by decide)).trans <| (W6_keep D0 D1 D2 m c main_v34 (by decide)).trans <| (W5_keep D0 D1 m c main_v34 (by decide))).trans (rd4_v34 D0 D1 D2 D3 D4 m H c)
theorem rd7_v50 (c : Dev nD) : (V7 D0 D1 D2 m c main_v50 : FVec Ideal S1x128 .f32) = meanOf (colSum (rdLin1 m c)) :=
  rdHost3_mean (W6 D0 D1 D2 m c) (rd6_v48_1 D0 D1 D2 D3 D4 m H c)
theorem rd7_v54 (c : Dev nD) : (V7 D0 D1 D2 m c main_v54 : FVec Ideal S1x128 .f32) = varOf (colSumSq (rdLin1 m c)) (meanOf (colSum (rdLin1 m c))) :=
  rdHost3_var (W6 D0 D1 D2 m c) (rd6_v48_1 D0 D1 D2 D3 D4 m H c) (rd6_v48_2 D0 D1 D2 D3 D4 m H c)
theorem rd7_v55 (c : Dev nD) : (V7 D0 D1 D2 m c main_v55 : FVec Ideal S1x128 .f32) = row128 (W0 m c (Proc.devRef .tc main_arg17) : FVec Ideal S128 .f32) :=
  rdHost3_scale (W6 D0 D1 D2 m c) (rdW6_launch D0 D1 D2 m c main_arg17 (by decide) (by decide) (by decide) (by decide) (by decide) (by decide))
theorem rd7_v56 (c : Dev nD) : (V7 D0 D1 D2 m c main_v56 : FVec Ideal S1x128 .f32) = row128 (W0 m c (Proc.devRef .tc main_arg18) : FVec Ideal S128 .f32) :=
  rdHost3_shift (W6 D0 D1 D2 m c) (rdW6_launch D0 D1 D2 m c main_arg18 (by decide) (by decide) (by decide) (by decide) (by decide) (by decide))

/-! ### After region 3 -/
theorem rd8_v57 (c : Dev nD) : (W8 D0 D1 D2 D3 m c (Proc.devRef .tc main_v57) : FVec Ideal S50000x128 .f32) = rdAct1 m c :=
  (W8_arr D0 D1 D2 D3 m c 6).trans ((H.hv3 (V7 D0 D1 D2 m) c).trans (rdNormAct (rd7_v48_0 D0 D1 D2 D3 D4 m H c) (rd7_v34 D0 D1 D2 D3 D4 m H c) (rd7_v50 D0 D1 D2 D3 D4 m H c) (rd7_v54 D0 D1 D2 D3 D4 m H c) (rd7_v55 D0 D1 D2 D3 D4 m H c) (rd7_v56 D0 D1 D2 D3 D4 m H c)))
theorem rd8_v8 (c : Dev nD) : (W8 D0 D1 D2 D3 m c (Proc.devRef .tc main_v8) : FVec Ideal S50000x1 .f32) = dinv (W0 m c (Proc.devRef .tc main_arg1) : IVec S800000 32) :=
  ((W8_keep D0 D1 D2 D3 m c main_v8 (by decide)).trans <| (W7_keep D0 D1 D2 m c main_v8 (by decide)).trans <| (W6_keep D0 D1 D2 m c main_v8 (by decide)).trans <| (W5_keep D0 D1 m c main_v8 (by decide))).trans (rd4_v8 D0 D1 D2 D3 D4 m H c)

/-! ### Before region 4 -/
theorem rd9_v69 (c : Dev nD) : (V9 D0 D1 D2 D3 m c main_v69 : FVec Ideal S50000x128 .f32) = aggK (rdAct1 m c) (W0 m c (Proc.devRef .tc main_arg1) : IVec S800000 32) (W0 m c (Proc.devRef .tc main_arg2) : IVec S800000 32) :=
  rdHost4_agg (W8 D0 D1 D2 D3 m c) (rd8_v57 D0 D1 D2 D3 D4 m H c) (rdW8_launch D0 D1 D2 D3 m c main_arg1 (by decide) (by decide) (by decide) (by decide) (by decide) (by decide) (by decide) (by decide)) (rdW8_launch D0 D1 D2 D3 m c main_arg2 (by decide) (by decide) (by decide) (by decide) (by decide) (by decide) (by decide) (by decide)) (rd8_v8 D0 D1 D2 D3 D4 m H c)
theorem rd9_v57 (c : Dev nD) : (V9 D0 D1 D2 D3 m c main_v57 : FVec Ideal S50000x128 .f32) = rdAct1 m c :=
  (W9_keep D0 D1 D2 D3 m c main_v57 (by decide)).trans (rd8_v57 D0 D1 D2 D3 D4 m H c)
theorem rd9_arg11 (c : Dev nD) : (V9 D0 D1 D2 D3 m c main_arg11 : FVec Ideal S128x64 .f32) = (W0 m c (Proc.devRef .tc main_arg11) : FVec Ideal S128x64 .f32) :=
  (rdW9_launch D0 D1 D2 D3 m c main_arg11 (by decide) (by decide) (by decide) (by decide) (by decide) (by decide) (by decide) (by decide) (by decide))
theorem rd9_v11 (c : Dev nD) : (V9 D0 D1 D2 D3 m c main_v11 : FVec Ideal S128x64 .f32) = (addf (W0 m c (Proc.devRef .tc main_arg13) : FVec Ideal S128x64 .f32) (W0 m c (Proc.devRef .tc main_arg14) : FVec Ideal S128x64 .f32) : FVec Ideal S128x64 .f32) :=
  ((W9_keep D0 D1 D2 D3 m c main_v11 (by decide)).trans <| (W8_keep D0 D1 D2 D3 m c main_v11 (by decide)).trans <| (W7_keep D0 D1 D2 m c main_v11 (by decide)).trans <| (W6_keep D0 D1 D2 m c main_v11 (by decide)).trans <| (W5_keep D0 D1 m c main_v11 (by decide)).trans <| (W4_keep D0 D1 m c main_v11 (by decide)).trans <| (W3_keep D0 m c main_v11 (by decide)).trans <| (W2_keep D0 m c main_v11 (by decide))).trans (rd1_v11 D0 D1 D2 D3 D4 m H c)
theorem rd9_v70 (c : Dev nD) : (V9 D0 D1 D2 D3 m c main_v70 : FVec Ideal S1x64 .f32) = row64 (W0 m c (Proc.devRef .tc main_arg12) : FVec Ideal S64 .f32) :=
  rdHost4_bias (W8 D0 D1 D2 D3 m c) (rdW8_launch D0 D1 D2 D3 m c main_arg12 (by decide) (by decide) (by decide) (by decide) (by decide) (by decide) (by decide) (by decide))

/-! ### The result -/

/-- THE RESULT ARRAY after the run is the three-layer term of the nineteen launch arrays. -/
theorem result_eq_kerTerm_of (c : Dev nD) :
    W10 D0 D1 D2 D3 D4 m c (Proc.devRef .tc main_v71)
      = kerTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  (W10_result D0 D1 D2 D3 D4 m c).trans ((H.hv4 (V9 D0 D1 D2 D3 m) c).trans
    (rdLin (rd9_v69 D0 D1 D2 D3 D4 m H c) (rd9_v57 D0 D1 D2 D3 D4 m H c) (rd9_arg11 D0 D1 D2 D3 D4 m H c) (rd9_v11 D0 D1 D2 D3 D4 m H c) (rd9_v70 D0 D1 D2 D3 D4 m H c)))

end Levels

/-- The same, from the nine facts given one by one. -/
theorem result_eq_kerTerm (D0 : Region0 Ideal) (D1 : Region1 Ideal) (D2 : Region2 Ideal) (D3 : Region3 Ideal) (D4 : Region4 Ideal)
    (m : (ℓ : Loc nD τ sig) → Buf (Elt Ideal) ℓ)
    (hv0_5 : ∀ (V : Vals Ideal) (c : Dev nD), (D0.dat V c).arrAt 5 cfg0.N
    = lin (V c main_v23 : FVec Ideal S50000x128 .f32) (V c main_arg0 : FVec Ideal S50000x128 .f32) (V c main_arg3 : FVec Ideal S128x128 .f32) (V c main_v9 : FVec Ideal S128x128 .f32) (V c main_v24 : FVec Ideal S1x128 .f32))
    (hv0_6 : ∀ (V : Vals Ideal) (c : Dev nD), (D0.dat V c).arrAt 6 cfg0.N
    = colSum (lin (V c main_v23 : FVec Ideal S50000x128 .f32) (V c main_arg0 : FVec Ideal S50000x128 .f32) (V c main_arg3 : FVec Ideal S128x128 .f32) (V c main_v9 : FVec Ideal S128x128 .f32) (V c main_v24 : FVec Ideal S1x128 .f32)))
    (hv0_7 : ∀ (V : Vals Ideal) (c : Dev nD), (D0.dat V c).arrAt 7 cfg0.N
    = colSumSq (lin (V c main_v23 : FVec Ideal S50000x128 .f32) (V c main_arg0 : FVec Ideal S50000x128 .f32) (V c main_arg3 : FVec Ideal S128x128 .f32) (V c main_v9 : FVec Ideal S128x128 .f32) (V c main_v24 : FVec Ideal S1x128 .f32)))
    (hv1 : ∀ (V : Vals Ideal) (c : Dev nD), (D1.dat V c).arrAt 6 cfg1.N
    = normAct (V c main_v25_0 : FVec Ideal S50000x128 .f32) (V c main_arg0 : FVec Ideal S50000x128 .f32) (V c main_v27 : FVec Ideal S1x128 .f32) (V c main_v31 : FVec Ideal S1x128 .f32) (V c main_v32 : FVec Ideal S1x128 .f32) (V c main_v33 : FVec Ideal S1x128 .f32))
    (hv2_5 : ∀ (V : Vals Ideal) (c : Dev nD), (D2.dat V c).arrAt 5 cfg2.N
    = lin (V c main_v46 : FVec Ideal S50000x128 .f32) (V c main_v34 : FVec Ideal S50000x128 .f32) (V c main_arg7 : FVec Ideal S128x128 .f32) (V c main_v10 : FVec Ideal S128x128 .f32) (V c main_v47 : FVec Ideal S1x128 .f32))
    (hv2_6 : ∀ (V : Vals Ideal) (c : Dev nD), (D2.dat V c).arrAt 6 cfg2.N
    = colSum (lin (V c main_v46 : FVec Ideal S50000x128 .f32) (V c main_v34 : FVec Ideal S50000x128 .f32) (V c main_arg7 : FVec Ideal S128x128 .f32) (V c main_v10 : FVec Ideal S128x128 .f32) (V c main_v47 : FVec Ideal S1x128 .f32)))
    (hv2_7 : ∀ (V : Vals Ideal) (c : Dev nD), (D2.dat V c).arrAt 7 cfg2.N
    = colSumSq (lin (V c main_v46 : FVec Ideal S50000x128 .f32) (V c main_v34 : FVec Ideal S50000x128 .f32) (V c main_arg7 : FVec Ideal S128x128 .f32) (V c main_v10 : FVec Ideal S128x128 .f32) (V c main_v47 : FVec Ideal S1x128 .f32)))
    (hv3 : ∀ (V : Vals Ideal) (c : Dev nD), (D3.dat V c).arrAt 6 cfg3.N
    = normAct (V c main_v48_0 : FVec Ideal S50000x128 .f32) (V c main_v34 : FVec Ideal S50000x128 .f32) (V c main_v50 : FVec Ideal S1x128 .f32) (V c main_v54 : FVec Ideal S1x128 .f32) (V c main_v55 : FVec Ideal S1x128 .f32) (V c main_v56 : FVec Ideal S1x128 .f32))
    (hv4 : ∀ (V : Vals Ideal) (c : Dev nD), (D4.dat V c).arrAt 5 cfg4.N
    = lin (V c main_v69 : FVec Ideal S50000x128 .f32) (V c main_v57 : FVec Ideal S50000x128 .f32) (V c main_arg11 : FVec Ideal S128x64 .f32) (V c main_v11 : FVec Ideal S128x64 .f32) (V c main_v70 : FVec Ideal S1x64 .f32))
    (c : Dev nD) :
    W10 D0 D1 D2 D3 D4 m c (Proc.devRef .tc main_v71)
      = kerTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  result_eq_kerTerm_of D0 D1 D2 D3 D4 m ⟨hv0_5, hv0_6, hv0_7, hv1, hv2_5, hv2_6, hv2_7, hv3, hv4⟩ c

end Cert.KernelIdeal.HandVal

end
-- ==== Proof.KI.Val0H.lean ====
/-
  THE FIRST LINEAR LAYER'S REGION, READ AT ITS BLOCK OUTPUT: THE ARRAY OF H AFTER THE REGION IS THE LAYER OF THE ARRAYS
  THE REGION FOUND.

  Whatever kind of grid point the body is at (first, middle or last), its one store into the block output writes
  the whole buffer with the same value of the five input buffers; what it does besides to the two scratch rows and to
  the statistics outputs does not touch this buffer.  On the exact reals that value is, at entry (p, q) of a block of
  2000 rows, the sum over k of a (p, k) · wl (k, q), plus the sum over k of x (p, k) · wc (k, q), plus entry q of the
  one-row bias: the layer's formula on the block.  Point t's blocks of the two row-blocked operands are rows
  2000 t … 2000 t + 1999 of their arrays, the blocks of the weights and of the bias are the whole arrays, and the
  formula mentions only row p of the row-blocked operands; so what point t writes back is rows 2000 t … 2000 t + 1999
  of the layer applied to the whole arrays.  Row r lies in the block of point r / 2000, so the 25 blocks cover the
  output array, which therefore ends holding the layer of the whole arrays.
-/
import proofs.«126844_j8246337208554_1_alg».proof.Proof.KI.Reg0
import proofs.«126844_j8246337208554_1_alg».proof.Proof.SageSpec
import Idealize.ShloMosaic.Lib.Pipeline.Value
import Idealize.ShloMosaic.Lib.Tactic

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.Tactic Idealize.SL.Sem Idealize.ShloMosaic.ValueIdx
open Idealize.ShloMosaic.Pipeline (Dat)
open Cert.Sage Cert.MatOps Cert.LayerForms Cert.DenseStages

theorem zeros2_0 : (![0, 0] : Fin 2 → Nat) = fun _ => 0 := funext fun a => by fin_cases a <;> rfl

/-! ## The block output's buffer after the body, at each kind of point: the one stored value -/

section
variable {F : FTy → Type} [FloatOps F]

theorem out0_A_5_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 x1 : Vec F S2000x128 .f32) (x2 x3 : Vec F S128x128 .f32) (x4 : Vec F S1x128 .f32) :
    out0_A_5 c i arg1 harg1 arg2 harg2 arg3 harg3 arg4 harg4 arg5 harg5 arg6 harg6 arg7 harg7 arg8 harg8 arg9 harg9 arg10 harg10 hc0 hc1 x0 x1 x2 x3 x4 = k0_pay2 x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  try sl_unfold_words
  rw [View.canon_unit_zero zeros2_0]
  simp only [View.readAt_eq_ld, harg1.read_unread, harg2.read_unread, harg3.read_unread, harg4.read_unread, harg5.read_unread,
    View.ld_unit_zero (S := S2000x128) zeros2_0, View.ld_unit_zero (S := S128x128) zeros2_0, View.ld_unit_zero (S := S1x128) zeros2_0]

theorem out0_B_5_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 x1 : Vec F S2000x128 .f32) (x2 x3 : Vec F S128x128 .f32) (x4 : Vec F S1x128 .f32) (xs0 xs1 : Vec F S1x128 .f32) :
    out0_B_5 c i arg1 harg1 arg2 harg2 arg3 harg3 arg4 harg4 arg5 harg5 arg6 harg6 arg7 harg7 arg8 harg8 arg9 harg9 arg10 harg10 hc0 hc1 x0 x1 x2 x3 x4 xs0 xs1 = k0_pay2 x0 x1 x2 x3 x4 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  try sl_unfold_words
  rw [View.canon_unit_zero zeros2_0]
  simp only [View.readAt_eq_ld, harg1.read_unread, harg2.read_unread, harg3.read_unread, harg4.read_unread, harg5.read_unread,
    View.ld_unit_zero (S := S2000x128) zeros2_0, View.ld_unit_zero (S := S128x128) zeros2_0, View.ld_unit_zero (S := S1x128) zeros2_0]

theorem out0_C_5_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S2000x128 .f32) (x2 x3 : Vec F S128x128 .f32) (x4 : Vec F S1x128 .f32) (xs0 xs1 : Vec F S1x128 .f32) :
    out0_C_5 c i arg1 harg1 arg2 harg2 arg3 harg3 arg4 harg4 arg5 harg5 arg6 harg6 arg7 harg7 arg8 harg8 arg9 harg9 arg10 harg10 hc0 hc1 x0 x1 x2 x3 x4 xs0 xs1 = k0_pay2 x0 x1 x2 x3 x4 := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  try sl_unfold_words
  rw [View.canon_unit_zero zeros2_0]
  simp only [View.readAt_eq_ld, harg1.read_unread, harg2.read_unread, harg3.read_unread, harg4.read_unread, harg5.read_unread,
    View.ld_unit_zero (S := S2000x128) zeros2_0, View.ld_unit_zero (S := S128x128) zeros2_0, View.ld_unit_zero (S := S1x128) zeros2_0]

end

/-! ## The stored value on a block -/

/-- The product's dimension record is the plain one. -/
theorem dot0_eq : dot_S2000x128_S128x128_S2000x128_1_0_0_1_n_n
    = plainDot 2000 128 128 dot_S2000x128_S128x128_S2000x128_1_0_0_1_n_n_wf := rfl

/-- The stored value is the layer's formula on the five blocks. -/
theorem pay0_eq (x0 x1 : FVec Ideal S2000x128 .f32) (x2 x3 : FVec Ideal S128x128 .f32) (x4 : FVec Ideal S1x128 .f32) :
    k0_pay2 (F := Ideal) x0 x1 x2 x3 x4 = lin x0 x1 x2 x3 x4 := by
  funext j
  obtain ⟨p, q, rfl⟩ : ∃ (p : Fin 2000) (q : Fin 128), j = ix2 p q := ⟨j 0, j 1, eq_ix2 j⟩
  unfold k0_pay2
  rw [lin_apply]
  show (FloatOps.matmul dot_S2000x128_S128x128_S2000x128_1_0_0_1_n_n none
          (truncf .bf16 (shapeCast S2000x128 x0 shapeCasts_S2000x128_S2000x128) bitsLt_bf16_f32) (truncf .bf16 x2 bitsLt_bf16_f32)
          (constant (F := Ideal) S2000x128 .f32 0x00000000#32) (ix2 p q)
        + FloatOps.matmul dot_S2000x128_S128x128_S2000x128_1_0_0_1_n_n none
          (truncf .bf16 x1 bitsLt_bf16_f32)
          (truncf .bf16 (shapeCast S128x128 x3 shapeCasts_S128x128_S128x128) bitsLt_bf16_f32)
          (constant (F := Ideal) S2000x128 .f32 0x00000000#32) (ix2 p q))
      + broadcastTo S2000x128 (shapeCast S1x128 x4 shapeCasts_S1x128_S1x128) broadcasts_S1x128_S2000x128 (ix2 p q) = _
  rw [dot0_eq, matmul_plain_apply _ none _ _ p q, matmul_plain_apply _ none _ _ p q,
    broadcastTo_1b_ab_apply _ broadcasts_S1x128_S2000x128 p q, shapeCast_self x0, shapeCast_self x3, shapeCast_self x4]
  rfl

/-! ## A block of rows of the layer is the layer of the block of rows -/

theorem lin_rows0 {M N K C : Nat} (A X : FVec Ideal ⟨2, ![N, K]⟩ .f32) (Wl Wc : FVec Ideal ⟨2, ![K, C]⟩ .f32)
    (b : FVec Ideal ⟨2, ![1, C]⟩ .f32) (a x : FVec Ideal ⟨2, ![M, K]⟩ .f32) (wl wc : FVec Ideal ⟨2, ![K, C]⟩ .f32)
    (b' : FVec Ideal ⟨2, ![1, C]⟩ .f32) (r : Fin M → Fin N)
    (ha : ∀ p k, a (ix2 p k) = A (ix2 (r p) k)) (hx : ∀ p k, x (ix2 p k) = X (ix2 (r p) k))
    (hwl : wl = Wl) (hwc : wc = Wc) (hb : b' = b) (p : Fin M) (q : Fin C) :
    lin a x wl wc b' (ix2 p q) = lin A X Wl Wc b (ix2 (r p) q) := by
  subst hwl hwc hb
  rw [lin_apply, lin_apply]
  simp only [ha, hx]

/-! ## The windows' index maps, decided over the 25 points -/

theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_5.index t (0 : Fin 2) = t.val ∧ win0_5.index t (1 : Fin 2) = 0 :=
  (by decide +kernel : ∀ t : Fin grid0.N, _)

theorem idx0_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

variable (V : (c : Dev nD) → (b : Ref sig .tc) → Buf (Elt Ideal) ((c : Thread nD τ).loc b))

/-- The row of the array that row p of point t's block is. -/
def row0 (t : Fin cfg0.N) (p : Fin 2000) : Fin 50000 :=
  ⟨t.val * 2000 + p.val, by have := t.isLt; have hN : cfg0.N = 25 := N_0; have := p.isLt; omega⟩

/-! ## The input blocks as rows of the arrays -/

theorem blk0_0 (c : Dev nD) (t : Fin cfg0.N) (p : Fin 2000) (k : Fin 128) :
    (iblk0 V c 0 t : FVec Ideal S2000x128 .f32) (ix2 p k) = (V c main_v23 : FVec Ideal S50000x128 .f32) (ix2 (row0 t p) k) := by
  have e0 := (idx0 t).1
  have e1 := (idx0 t).2.1
  unfold iblk0
  rw [View.read_apply]
  show V c main_v23 _ = V c main_v23 _
  refine congrArg (V c main_v23) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

theorem blk0_1 (c : Dev nD) (t : Fin cfg0.N) (p : Fin 2000) (k : Fin 128) :
    (iblk0 V c 1 t : FVec Ideal S2000x128 .f32) (ix2 p k) = (V c main_arg0 : FVec Ideal S50000x128 .f32) (ix2 (row0 t p) k) := by
  have e0 := (idx0 t).2.2.1
  have e1 := (idx0 t).2.2.2.1
  unfold iblk0
  rw [View.read_apply]
  show V c main_arg0 _ = V c main_arg0 _
  refine congrArg (V c main_arg0) (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

theorem blk0_2 (c : Dev nD) (t : Fin cfg0.N) :
    (iblk0 V c 2 t : FVec Ideal S128x128 .f32) = (V c main_arg3 : FVec Ideal S128x128 .f32) := by
  have e0 := (idx0_whole t).1
  have e1 := (idx0_whole t).2.1
  funext j
  unfold iblk0
  rw [View.read_apply]
  show V c main_arg3 _ = V c main_arg3 _
  refine congrArg (V c main_arg3) (funext fun a => Fin.ext ?_)
  match a with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega

theorem blk0_3 (c : Dev nD) (t : Fin cfg0.N) :
    (iblk0 V c 3 t : FVec Ideal S128x128 .f32) = (V c main_v9 : FVec Ideal S128x128 .f32) := by
  have e0 := (idx0_whole t).2.2.1
  have e1 := (idx0_whole t).2.2.2.1
  funext j
  unfold iblk0
  rw [View.read_apply]
  show V c main_v9 _ = V c main_v9 _
  refine congrArg (V c main_v9) (funext fun a => Fin.ext ?_)
  match a with
  | ⟨0, _⟩ => show win0_3.index t (0 : Fin 2) * 128 + 1 * (j 0).val = (j 0).val; rw [e0]; omega
  | ⟨1, _⟩ => show win0_3.index t (1 : Fin 2) * 128 + 1 * (j 1).val = (j 1).val; rw [e1]; omega

theorem blk0_4 (c : Dev nD) (t : Fin cfg0.N) :
    (iblk0 V c 4 t : FVec Ideal S1x128 .f32) = (V c main_v24 : FVec Ideal S1x128 .f32) := by
  have e0 := (idx0_whole t).2.2.2.2.1
  have e1 := (idx0_whole t).2.2.2.2.2
  funext j
  unfold iblk0
  rw [View.read_apply]
  show V c main_v24 _ = V c main_v24 _
  refine congrArg (V c main_v24) (funext fun a => Fin.ext ?_)
  match a with
  | ⟨0, _⟩ => show win0_4.index t (0 : Fin 2) * 1 + 1 * (j 0).val = (j 0).val; rw [e0]; omega
  | ⟨1, _⟩ => show win0_4.index t (1 : Fin 2) * 128 + 1 * (j 1).val = (j 1).val; rw [e1]; omega

/-! ## What a point writes back, and the whole array -/

/-- The layer of the arrays the region finds. -/
def G0 (c : Dev nD) : FVec Ideal S50000x128 .f32 :=
  lin (V c main_v23 : FVec Ideal S50000x128 .f32) (V c main_arg0 : FVec Ideal S50000x128 .f32)
    (V c main_arg3 : FVec Ideal S128x128 .f32) (V c main_v9 : FVec Ideal S128x128 .f32) (V c main_v24 : FVec Ideal S1x128 .f32)

/-- The stored value of point t's input blocks, read at (p, q), is the layer of the whole arrays at row 2000 t + p. -/
theorem pay0_blocks_apply (c : Dev nD) (t : Fin cfg0.N) (p : Fin 2000) (q : Fin 128) :
    k0_pay2 (F := Ideal) (iblk0 V c 0 t) (iblk0 V c 1 t) (iblk0 V c 2 t) (iblk0 V c 3 t) (iblk0 V c 4 t) (ix2 p q) = G0 V c (ix2 (row0 t p) q) := by
  refine (congrFun (pay0_eq (iblk0 V c 0 t) (iblk0 V c 1 t) (iblk0 V c 2 t) (iblk0 V c 3 t) (iblk0 V c 4 t)) (ix2 p q)).trans ?_
  exact lin_rows0 _ _ _ _ _ _ _ _ _ _ (row0 t) (blk0_0 V c t) (blk0_1 V c t) (blk0_2 V c t) (blk0_3 V c t) (blk0_4 V c t) p q

/-- At every point the block output's buffer after the body is the layer's formula on the point's input blocks:
    at the first point, -/
theorem outs0_5_A (c : Dev nD) (t : Fin cfg0.N) (h0 : t.val % 25 = 0) (h1 : ¬t.val % 25 = 24) :
    (outsAt0 V c t.val t.isLt).1 = lin (iblk0 V c 0 t) (iblk0 V c 1 t) (iblk0 V c 2 t) (iblk0 V c 3 t) (iblk0 V c 4 t) := by
  rw [outsAt0_A V c t h0 h1]
  dsimp only
  refine (out0_A_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
    ((hcond0_0 t).mpr h0) (fun h => h1 ((hcond0_1 t).mp h)) (iblk0 V c 0 t) (iblk0 V c 1 t) (iblk0 V c 2 t) (iblk0 V c 3 t) (iblk0 V c 4 t)).trans ?_
  exact pay0_eq (iblk0 V c 0 t) (iblk0 V c 1 t) (iblk0 V c 2 t) (iblk0 V c 3 t) (iblk0 V c 4 t)

/-- at a middle point, -/
theorem outs0_5_B (c : Dev nD) (t : Fin cfg0.N) (h0 : ¬t.val % 25 = 0) (h1 : ¬t.val % 25 = 24) :
    (outsAt0 V c t.val t.isLt).1 = lin (iblk0 V c 0 t) (iblk0 V c 1 t) (iblk0 V c 2 t) (iblk0 V c 3 t) (iblk0 V c 4 t) := by
  rw [outsAt0_B V c t h0 h1]
  dsimp only
  refine (out0_B_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
    (fun h => h0 ((hcond0_0 t).mp h)) (fun h => h1 ((hcond0_1 t).mp h)) (iblk0 V c 0 t) (iblk0 V c 1 t) (iblk0 V c 2 t) (iblk0 V c 3 t) (iblk0 V c 4 t)
    (outsAt0 V c (t.val - 1) (Nat.lt_of_le_of_lt (Nat.sub_le _ _) t.isLt)).2.2.2.1 (outsAt0 V c (t.val - 1) (Nat.lt_of_le_of_lt (Nat.sub_le _ _) t.isLt)).2.2.2.2).trans ?_
  exact pay0_eq (iblk0 V c 0 t) (iblk0 V c 1 t) (iblk0 V c 2 t) (iblk0 V c 3 t) (iblk0 V c 4 t)

/-- at the last point. -/
theorem outs0_5_C (c : Dev nD) (t : Fin cfg0.N) (h0 : ¬t.val % 25 = 0) (h1 : t.val % 25 = 24) :
    (outsAt0 V c t.val t.isLt).1 = lin (iblk0 V c 0 t) (iblk0 V c 1 t) (iblk0 V c 2 t) (iblk0 V c 3 t) (iblk0 V c 4 t) := by
  rw [outsAt0_C V c t h0 h1]
  dsimp only
  refine (out0_C_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
    (fun h => h0 ((hcond0_0 t).mp h)) ((hcond0_1 t).mpr h1) (iblk0 V c 0 t) (iblk0 V c 1 t) (iblk0 V c 2 t) (iblk0 V c 3 t) (iblk0 V c 4 t)
    (outsAt0 V c (t.val - 1) (Nat.lt_of_le_of_lt (Nat.sub_le _ _) t.isLt)).2.2.2.1 (outsAt0 V c (t.val - 1) (Nat.lt_of_le_of_lt (Nat.sub_le _ _) t.isLt)).2.2.2.2).trans ?_
  exact pay0_eq (iblk0 V c 0 t) (iblk0 V c 1 t) (iblk0 V c 2 t) (iblk0 V c 3 t) (iblk0 V c 4 t)

theorem outs0_5 (c : Dev nD) (t : Fin cfg0.N) :
    (outsAt0 V c t.val t.isLt).1 = lin (iblk0 V c 0 t) (iblk0 V c 1 t) (iblk0 V c 2 t) (iblk0 V c 3 t) (iblk0 V c 4 t) := by
  by_cases h0 : t.val % 25 = 0
  · exact outs0_5_A V c t h0 (by omega)
  · by_cases h1 : t.val % 25 = 24
    · exact outs0_5_C V c t h0 h1
    · exact outs0_5_B V c t h0 h1

/-- Point t writes back rows 2000 t … 2000 t + 1999 of the layer of the whole arrays. -/
theorem flushed0_5_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  refine (congrArg ((cfg0.win 5).cut (grid0.coords t)) (outs0_5 V c t)).trans ?_
  have e0 := (idx0 t).2.2.2.2.1
  have e1 := (idx0 t).2.2.2.2.2
  funext j
  obtain ⟨p, q, rfl⟩ : ∃ (p : Fin 2000) (q : Fin 128), j = ix2 p q := ⟨j 0, j 1, eq_ix2 j⟩
  have hemb : ((cfg0.win 5).blk t).view.emb (ix2 p q) = (ix2 (row0 t p) q : S50000x128.Idx) := by
    funext a; apply Fin.ext
    match a with
    | ⟨0, _⟩ => show win0_5.index t (0 : Fin 2) * 2000 + 1 * p.val = t.val * 2000 + p.val; rw [e0]; omega
    | ⟨1, _⟩ => show win0_5.index t (1 : Fin 2) * 128 + 1 * q.val = q.val; rw [e1]; omega
  show lin (iblk0 V c 0 t) (iblk0 V c 1 t) (iblk0 V c 2 t) (iblk0 V c 3 t) (iblk0 V c 4 t) (ix2 p q)
    = G0 V c (((cfg0.win 5).blk t).view.emb (ix2 p q))
  rw [hemb]
  exact lin_rows0 _ _ _ _ _ _ _ _ _ _ (row0 t) (blk0_0 V c t) (blk0_1 V c t) (blk0_2 V c t) (blk0_3 V c t) (blk0_4 V c t) p q

/-- An index of the output array is in point t's block iff each coordinate is in the block's range on its axis. -/
theorem mem_blk0_5 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v25_0).slice (win0_5.rect t)).set ↔ _
  rw [View.set_slice_whole, Rect.mem_set_unit]
  exact Iff.rfl

/-- Row r lies in the block of point r / 2000. -/
theorem cover0_5 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  let t : Fin cfg0.N := ⟨(i 0).val / 2000, by omega⟩
  have e0 := (idx0 t).2.2.2.2.1
  have e1 := (idx0 t).2.2.2.2.2
  refine ⟨t, flush0_5 t, ?_⟩
  rw [mem_blk0_5]
  intro a
  match a with
  | ⟨0, _⟩ =>
    show win0_5.index t (0 : Fin 2) * 2000 ≤ (i 0).val ∧ (i 0).val < win0_5.index t (0 : Fin 2) * 2000 + 2000
    rw [e0]; show (i 0).val / 2000 * 2000 ≤ (i 0).val ∧ (i 0).val < (i 0).val / 2000 * 2000 + 2000; omega
  | ⟨1, _⟩ =>
    show win0_5.index t (1 : Fin 2) * 128 ≤ (i 1).val ∧ (i 1).val < win0_5.index t (1 : Fin 2) * 128 + 128
    rw [e1]; omega

/-- THE ARRAY OF H AFTER THE REGION is the layer of the arrays the region found. -/
theorem final0_5 (c : Dev nD) : (dat0 (F := Ideal) V c).arrAt 5 cfg0.N
    = lin (V c main_v23 : FVec Ideal S50000x128 .f32) (V c main_arg0 : FVec Ideal S50000x128 .f32)
        (V c main_arg3 : FVec Ideal S128x128 .f32) (V c main_v9 : FVec Ideal S128x128 .f32) (V c main_v24 : FVec Ideal S1x128 .f32) :=
  (dat0 V c).arrAt_eq_of_cover 5 (G0 V c) (fun t _ => flushed0_5_eq V c t) cover0_5

end Cert.KernelIdeal.HandVal

end
-- ==== Proof.KI.Val0S.lean ====
/-
  THE FIRST LINEAR LAYER'S REGION, READ AT ITS TWO STATISTICS OUTPUTS: AFTER THE REGION THEY HOLD THE COLUMN SUMS AND THE
  COLUMN SUMS OF SQUARES OF THE LAYER OF THE ARRAYS THE REGION FOUND.

  The region walks over the 25 blocks of 2000 rows.  At each block it forms the block of H (the layer's formula on the
  block's rows) and adds, for every column q, the sum of H (p, q) over the block's rows p into entry q of one scratch
  row, and the sum of H (p, q)² into entry q of a second scratch row; before the first block it sets both rows to the
  pattern of zero, which denotes the number zero, and after the last block it copies the two rows into the two outputs,
  which it writes at no other block.  So after block n the first scratch row holds, at q, the sum over the blocks
  t ≤ n and their rows p of H (2000 t + p, q) — by induction on n, the first block adding to zero and each later one to
  what the block before left — and likewise the second row with squares.  Row r of the array is row r % 2000 of block
  r / 2000, so summing block by block and then over a block's rows is summing over all 50000 rows: after the last
  block the rows hold the column sums and the column sums of squares of H.  Addition of extended reals is commutative
  and associative, so no finiteness is needed.  The outputs are one-row arrays that are their own single block, written
  back at the last block only: they end holding exactly those two rows.
-/
import proofs.«126844_j8246337208554_1_alg».proof.Proof.KI.Val0H
import Idealize.ShloMosaic.Lib.ValueLayout
import Idealize.ShloMosaic.PureOps.Ideal.Laws

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.Tactic Idealize.SL.Sem Idealize.ShloMosaic.ValueIdx
open Idealize.ShloMosaic.Pipeline (Dat)
open Cert.Sage Cert.MatOps Cert.LayerForms Cert.DenseStages

/-! ## The stored values at an entry, on the exact reals -/

/-- The sum over the rows of a block, kept as one row: entry q is the sum of column q. -/
theorem rowsum_cast (H : FVec Ideal S2000x128 .f32) (hr : S2000x128.Reduces [0] S128) (hφ : FKind.Formats .f32)
    (hacc : (0x00000000#32 : BitVec 32) = 0x00000000#32) (hc : S128.ShapeCasts S1x128) (z : Fin 1) (q : Fin 128) :
    shapeCast S1x128 (multiReduction (F := Ideal) .add [0] S128 H 0x00000000#32 hr hφ hacc) hc (ix2 z q)
      = ∑ p : Fin 2000, H (ix2 p q) := by
  refine (shapeCast_a_1a_apply _ hc z q).trans ?_
  refine (Ideal.multiReduction_add_single H 0x00000000#32 hr hφ hacc (ix1 q)).trans ?_
  refine Finset.sum_congr rfl fun p _ => congrArg H ?_
  funext a
  apply Fin.ext
  match a with
  | ⟨0, _⟩ => rfl
  | ⟨1, _⟩ => rfl

/-- The row the first scratch row is set to before the first block is zero everywhere. -/
theorem pay3_apply (z : Fin 1) (q : Fin 128) : k0_pay3 (F := Ideal) (ix2 z q) = 0 := by
  unfold k0_pay3
  rw [shapeCast_self]
  exact Ideal.ofBits_zero_f32

/-- So is the row the second scratch row is set to. -/
theorem pay4_apply (z : Fin 1) (q : Fin 128) : k0_pay4 (F := Ideal) (ix2 z q) = 0 := by
  unfold k0_pay4
  rw [shapeCast_self]
  exact Ideal.ofBits_zero_f32

/-- The first scratch row's new value: the old one plus the block's column sums. -/
theorem pay5_apply (x0 x1 : FVec Ideal S2000x128 .f32) (x2 x3 : FVec Ideal S128x128 .f32) (x4 v21 : FVec Ideal S1x128 .f32)
    (z : Fin 1) (q : Fin 128) :
    k0_pay5 (F := Ideal) x0 x1 x2 x3 x4 v21 (ix2 z q)
      = v21 (ix2 z q) + ∑ p : Fin 2000, k0_pay2 (F := Ideal) x0 x1 x2 x3 x4 (ix2 p q) := by
  unfold k0_pay5
  rw [shapeCast_self]
  exact congrArg (v21 (ix2 z q) + ·) (rowsum_cast (k0_pay2 (F := Ideal) x0 x1 x2 x3 x4) _ _ _ _ z q)

/-- The block's column sums of squares. -/
theorem pay6_apply (x0 x1 : FVec Ideal S2000x128 .f32) (x2 x3 : FVec Ideal S128x128 .f32) (x4 : FVec Ideal S1x128 .f32)
    (z : Fin 1) (q : Fin 128) :
    k0_pay6 (F := Ideal) x0 x1 x2 x3 x4 (ix2 z q)
      = ∑ p : Fin 2000, k0_pay2 (F := Ideal) x0 x1 x2 x3 x4 (ix2 p q) * k0_pay2 (F := Ideal) x0 x1 x2 x3 x4 (ix2 p q) := by
  unfold k0_pay6
  exact rowsum_cast (mulf (k0_pay2 (F := Ideal) x0 x1 x2 x3 x4) (k0_pay2 (F := Ideal) x0 x1 x2 x3 x4)) _ _ _ _ z q

/-- The second scratch row's new value: the old one plus what is added. -/
theorem pay1_apply (v28 v31 : FVec Ideal S1x128 .f32) (z : Fin 1) (q : Fin 128) :
    k0_pay1 (F := Ideal) v28 v31 (ix2 z q) = v28 (ix2 z q) + v31 (ix2 z q) := by
  unfold k0_pay1
  rw [shapeCast_self]
  rfl

/-! ## Block by block is row by row -/

/-- The sum of `f` over the 2000 rows of block `t` (zero past the last block). -/
def blkSum (f : Fin 50000 → EReal) (t : ℕ) : EReal :=
  if h : t < 25 then ∑ p : Fin 2000, f ⟨t * 2000 + p.val, by have := p.isLt; omega⟩ else 0

/-- Adding up the 25 blocks' sums adds up all 50000 rows: row r is row r % 2000 of block r / 2000. -/
theorem sum_blkSum (f : Fin 50000 → EReal) : ∑ t ∈ Finset.range 25, blkSum f t = ∑ r : Fin 50000, f r := by
  rw [Finset.sum_range]
  have e : ∀ t : Fin 25, blkSum f t.val = ∑ p : Fin 2000, f ⟨t.val * 2000 + p.val, by have := p.isLt; have := t.isLt; omega⟩ :=
    fun t => dif_pos t.isLt
  rw [Finset.sum_congr rfl fun t _ => e t, ← Fintype.sum_prod_type']
  refine Fintype.sum_equiv (finProdFinEquiv (m := 25) (n := 2000)) _ _ fun x => congrArg f (Fin.ext ?_)
  show x.1.val * 2000 + x.2.val = x.2.val + 2000 * x.1.val
  omega

/-! ## What each kind of block leaves in the scratch rows and in the statistics outputs -/

section pieces

variable {F : FTy → Type} [FloatOps F]
variable (c : Dev nD) (i : grid0.Coords) (arg1 : Memref sig .tc .vmem S2000x128 .f32) (harg1 : arg1.IsWhole)
  (arg2 : Memref sig .tc .vmem S2000x128 .f32) (harg2 : arg2.IsWhole) (arg3 : Memref sig .tc .vmem S128x128 .f32) (harg3 : arg3.IsWhole)
  (arg4 : Memref sig .tc .vmem S128x128 .f32) (harg4 : arg4.IsWhole) (arg5 : Memref sig .tc .vmem S1x128 .f32) (harg5 : arg5.IsWhole)
  (arg6 : Memref sig .tc .vmem S2000x128 .f32) (harg6 : arg6.IsWhole) (arg7 : Memref sig .tc .vmem S1x128 .f32) (harg7 : arg7.IsWhole)
  (arg8 : Memref sig .tc .vmem S1x128 .f32) (harg8 : arg8.IsWhole) (arg9 : Memref sig .tc .vmem S1x128 .f32) (harg9 : arg9.IsWhole)
  (arg10 : Memref sig .tc .vmem S1x128 .f32) (harg10 : arg10.IsWhole)

/-- At the first block the first scratch row is set to the zero row and then the block's column sums are added. -/
theorem sout0_A_0_eq (hc0 : cond0_0 i) (hc1 : ¬cond0_1 i)
    (x0 x1 : Vec F S2000x128 .f32) (x2 x3 : Vec F S128x128 .f32) (x4 : Vec F S1x128 .f32) :
    sout0_A_0 c i arg1 harg1 arg2 harg2 arg3 harg3 arg4 harg4 arg5 harg5 arg6 harg6 arg7 harg7 arg8 harg8 arg9 harg9 arg10 harg10 hc0 hc1 x0 x1 x2 x3 x4
      = k0_pay5 x0 x1 x2 x3 x4 (k0_pay3 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x128) zeros2_0, View.readCov_unit_zero (S := S1x128) _ zeros2_0]
  simp only [View.readAt_eq_ld, harg1.read_unread, harg2.read_unread, harg3.read_unread, harg4.read_unread, harg5.read_unread,
    View.ld_unit_zero (S := S2000x128) zeros2_0, View.ld_unit_zero (S := S128x128) zeros2_0, View.ld_unit_zero (S := S1x128) zeros2_0]

/-- … and the second scratch row is set to the zero row and then the block's column sums of squares are added. -/
theorem sout0_A_1_eq (hc0 : cond0_0 i) (hc1 : ¬cond0_1 i)
    (x0 x1 : Vec F S2000x128 .f32) (x2 x3 : Vec F S128x128 .f32) (x4 : Vec F S1x128 .f32) :
    sout0_A_1 c i arg1 harg1 arg2 harg2 arg3 harg3 arg4 harg4 arg5 harg5 arg6 harg6 arg7 harg7 arg8 harg8 arg9 harg9 arg10 harg10 hc0 hc1 x0 x1 x2 x3 x4
      = k0_pay1 (k0_pay4 (F := F)) (k0_pay6 x0 x1 x2 x3 x4) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x128) zeros2_0, View.readCov_unit_zero (S := S1x128) _ zeros2_0]
  simp only [View.readAt_eq_ld, harg1.read_unread, harg2.read_unread, harg3.read_unread, harg4.read_unread, harg5.read_unread,
    View.ld_unit_zero (S := S2000x128) zeros2_0, View.ld_unit_zero (S := S128x128) zeros2_0, View.ld_unit_zero (S := S1x128) zeros2_0]

/-- At a middle block the block's column sums are added to what the first scratch row held. -/
theorem sout0_B_0_eq (hc0 : ¬cond0_0 i) (hc1 : ¬cond0_1 i)
    (x0 x1 : Vec F S2000x128 .f32) (x2 x3 : Vec F S128x128 .f32) (x4 xs0 xs1 : Vec F S1x128 .f32) :
    sout0_B_0 c i arg1 harg1 arg2 harg2 arg3 harg3 arg4 harg4 arg5 harg5 arg6 harg6 arg7 harg7 arg8 harg8 arg9 harg9 arg10 harg10 hc0 hc1 x0 x1 x2 x3 x4 xs0 xs1
      = k0_pay5 x0 x1 x2 x3 x4 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  try sl_unfold_words
  rw [View.canon_unit_zero zeros2_0]
  simp only [View.readAt_eq_ld, harg1.read_unread, harg2.read_unread, harg3.read_unread, harg4.read_unread, harg5.read_unread,
    harg9.read_unread, harg10.read_unread,
    View.ld_unit_zero (S := S2000x128) zeros2_0, View.ld_unit_zero (S := S128x128) zeros2_0, View.ld_unit_zero (S := S1x128) zeros2_0]

/-- … and the block's column sums of squares to what the second scratch row held. -/
theorem sout0_B_1_eq (hc0 : ¬cond0_0 i) (hc1 : ¬cond0_1 i)
    (x0 x1 : Vec F S2000x128 .f32) (x2 x3 : Vec F S128x128 .f32) (x4 xs0 xs1 : Vec F S1x128 .f32) :
    sout0_B_1 c i arg1 harg1 arg2 harg2 arg3 harg3 arg4 harg4 arg5 harg5 arg6 harg6 arg7 harg7 arg8 harg8 arg9 harg9 arg10 harg10 hc0 hc1 x0 x1 x2 x3 x4 xs0 xs1
      = k0_pay1 xs1 (k0_pay6 x0 x1 x2 x3 x4) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  try sl_unfold_words
  rw [View.canon_unit_zero zeros2_0]
  simp only [View.readAt_eq_ld, harg1.read_unread, harg2.read_unread, harg3.read_unread, harg4.read_unread, harg5.read_unread,
    harg9.read_unread, harg10.read_unread,
    View.ld_unit_zero (S := S2000x128) zeros2_0, View.ld_unit_zero (S := S128x128) zeros2_0, View.ld_unit_zero (S := S1x128) zeros2_0]

/-- At the last block the scratch rows are updated as at a middle block … -/
theorem sout0_C_0_eq (hc0 : ¬cond0_0 i) (hc1 : cond0_1 i)
    (x0 x1 : Vec F S2000x128 .f32) (x2 x3 : Vec F S128x128 .f32) (x4 xs0 xs1 : Vec F S1x128 .f32) :
    sout0_C_0 c i arg1 harg1 arg2 harg2 arg3 harg3 arg4 harg4 arg5 harg5 arg6 harg6 arg7 harg7 arg8 harg8 arg9 harg9 arg10 harg10 hc0 hc1 x0 x1 x2 x3 x4 xs0 xs1
      = k0_pay5 x0 x1 x2 x3 x4 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  try sl_unfold_words
  rw [View.canon_unit_zero zeros2_0]
  simp only [View.readAt_eq_ld, harg1.read_unread, harg2.read_unread, harg3.read_unread, harg4.read_unread, harg5.read_unread,
    harg9.read_unread, harg10.read_unread,
    View.ld_unit_zero (S := S2000x128) zeros2_0, View.ld_unit_zero (S := S128x128) zeros2_0, View.ld_unit_zero (S := S1x128) zeros2_0]

theorem sout0_C_1_eq (hc0 : ¬cond0_0 i) (hc1 : cond0_1 i)
    (x0 x1 : Vec F S2000x128 .f32) (x2 x3 : Vec F S128x128 .f32) (x4 xs0 xs1 : Vec F S1x128 .f32) :
    sout0_C_1 c i arg1 harg1 arg2 harg2 arg3 harg3 arg4 harg4 arg5 harg5 arg6 harg6 arg7 harg7 arg8 harg8 arg9 harg9 arg10 harg10 hc0 hc1 x0 x1 x2 x3 x4 xs0 xs1
      = k0_pay1 xs1 (k0_pay6 x0 x1 x2 x3 x4) := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  try sl_unfold_words
  rw [View.canon_unit_zero zeros2_0]
  simp only [View.readAt_eq_ld, harg1.read_unread, harg2.read_unread, harg3.read_unread, harg4.read_unread, harg5.read_unread,
    harg9.read_unread, harg10.read_unread,
    View.ld_unit_zero (S := S2000x128) zeros2_0, View.ld_unit_zero (S := S128x128) zeros2_0, View.ld_unit_zero (S := S1x128) zeros2_0]

/-- … and then copied into the two statistics outputs: the column-sum output receives the first scratch row … -/
theorem out0_C_6_eq (hc0 : ¬cond0_0 i) (hc1 : cond0_1 i)
    (x0 x1 : Vec F S2000x128 .f32) (x2 x3 : Vec F S128x128 .f32) (x4 xs0 xs1 : Vec F S1x128 .f32) :
    out0_C_6 c i arg1 harg1 arg2 harg2 arg3 harg3 arg4 harg4 arg5 harg5 arg6 harg6 arg7 harg7 arg8 harg8 arg9 harg9 arg10 harg10 hc0 hc1 x0 x1 x2 x3 x4 xs0 xs1
      = k0_pay5 x0 x1 x2 x3 x4 xs0 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  try sl_unfold_words
  rw [View.canon_unit_zero zeros2_0, View.readCov_unit_zero (S := S1x128) _ zeros2_0]
  simp only [View.readAt_eq_ld, harg1.read_unread, harg2.read_unread, harg3.read_unread, harg4.read_unread, harg5.read_unread,
    harg9.read_unread, harg10.read_unread,
    View.ld_unit_zero (S := S2000x128) zeros2_0, View.ld_unit_zero (S := S128x128) zeros2_0, View.ld_unit_zero (S := S1x128) zeros2_0]

/-- … and the sum-of-squares output the second. -/
theorem out0_C_7_eq (hc0 : ¬cond0_0 i) (hc1 : cond0_1 i)
    (x0 x1 : Vec F S2000x128 .f32) (x2 x3 : Vec F S128x128 .f32) (x4 xs0 xs1 : Vec F S1x128 .f32) :
    out0_C_7 c i arg1 harg1 arg2 harg2 arg3 harg3 arg4 harg4 arg5 harg5 arg6 harg6 arg7 harg7 arg8 harg8 arg9 harg9 arg10 harg10 hc0 hc1 x0 x1 x2 x3 x4 xs0 xs1
      = k0_pay1 xs1 (k0_pay6 x0 x1 x2 x3 x4) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  try sl_unfold_words
  rw [View.canon_unit_zero zeros2_0, View.readCov_unit_zero (S := S1x128) _ zeros2_0]
  simp only [View.readAt_eq_ld, harg1.read_unread, harg2.read_unread, harg3.read_unread, harg4.read_unread, harg5.read_unread,
    harg9.read_unread, harg10.read_unread,
    View.ld_unit_zero (S := S2000x128) zeros2_0, View.ld_unit_zero (S := S128x128) zeros2_0, View.ld_unit_zero (S := S1x128) zeros2_0]

end pieces

/-! ## One block's contribution -/

variable (V : (c : Dev nD) → (b : Ref sig .tc) → Buf (Elt Ideal) ((c : Thread nD τ).loc b))

/-- Column q of the layer of the arrays the region finds, as a function of the row. -/
def colOf (c : Dev nD) (q : Fin 128) : Fin 50000 → EReal := fun r => G0 V c (ix2 r q)

/-- The square of that entry. -/
def colSqOf (c : Dev nD) (q : Fin 128) : Fin 50000 → EReal := fun r => G0 V c (ix2 r q) * G0 V c (ix2 r q)

/-- The column sums of block t's block of H are the sums of the layer's column over the block's rows. -/
theorem blk_sum0 (c : Dev nD) (t : Fin cfg0.N) (q : Fin 128) :
    ∑ p : Fin 2000, k0_pay2 (F := Ideal) (iblk0 V c 0 t) (iblk0 V c 1 t) (iblk0 V c 2 t) (iblk0 V c 3 t) (iblk0 V c 4 t) (ix2 p q)
      = blkSum (colOf V c q) t.val := by
  have ht : t.val < 25 := lt_of_lt_of_eq t.isLt N_0
  unfold blkSum
  rw [dif_pos ht]
  exact Finset.sum_congr rfl fun p _ => pay0_blocks_apply V c t p q

/-- Likewise the sums of squares. -/
theorem blk_sumsq0 (c : Dev nD) (t : Fin cfg0.N) (q : Fin 128) :
    ∑ p : Fin 2000, k0_pay2 (F := Ideal) (iblk0 V c 0 t) (iblk0 V c 1 t) (iblk0 V c 2 t) (iblk0 V c 3 t) (iblk0 V c 4 t) (ix2 p q)
        * k0_pay2 (F := Ideal) (iblk0 V c 0 t) (iblk0 V c 1 t) (iblk0 V c 2 t) (iblk0 V c 3 t) (iblk0 V c 4 t) (ix2 p q)
      = blkSum (colSqOf V c q) t.val := by
  have ht : t.val < 25 := lt_of_lt_of_eq t.isLt N_0
  unfold blkSum
  rw [dif_pos ht]
  exact Finset.sum_congr rfl fun p _ => congrArg₂ (· * ·) (pay0_blocks_apply V c t p q) (pay0_blocks_apply V c t p q)

/-! ## The scratch rows and the statistics outputs after block t, by the kind of block -/

/-- After the first block: zero plus the block's sums. -/
theorem scrA_0 (c : Dev nD) (t : Fin cfg0.N) (h0 : t.val % 25 = 0) (h1 : ¬t.val % 25 = 24) :
    (outsAt0 V c t.val t.isLt).2.2.2.1
      = k0_pay5 (F := Ideal) (iblk0 V c 0 t) (iblk0 V c 1 t) (iblk0 V c 2 t) (iblk0 V c 3 t) (iblk0 V c 4 t) (k0_pay3 (F := Ideal)) := by
  rw [outsAt0_A V c t h0 h1]
  exact sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)

theorem scrA_1 (c : Dev nD) (t : Fin cfg0.N) (h0 : t.val % 25 = 0) (h1 : ¬t.val % 25 = 24) :
    (outsAt0 V c t.val t.isLt).2.2.2.2
      = k0_pay1 (F := Ideal) (k0_pay4 (F := Ideal))
          (k0_pay6 (F := Ideal) (iblk0 V c 0 t) (iblk0 V c 1 t) (iblk0 V c 2 t) (iblk0 V c 3 t) (iblk0 V c 4 t)) := by
  rw [outsAt0_A V c t h0 h1]
  exact sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)

/-- After a middle block: what the block before left plus the block's sums. -/
theorem scrB_0 (c : Dev nD) (t : Fin cfg0.N) (h0 : ¬t.val % 25 = 0) (h1 : ¬t.val % 25 = 24) :
    (outsAt0 V c t.val t.isLt).2.2.2.1
      = k0_pay5 (F := Ideal) (iblk0 V c 0 t) (iblk0 V c 1 t) (iblk0 V c 2 t) (iblk0 V c 3 t) (iblk0 V c 4 t)
          (outsAt0 V c (t.val - 1) (Nat.lt_of_le_of_lt (Nat.sub_le _ _) t.isLt)).2.2.2.1 := by
  rw [outsAt0_B V c t h0 h1]
  exact sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

theorem scrB_1 (c : Dev nD) (t : Fin cfg0.N) (h0 : ¬t.val % 25 = 0) (h1 : ¬t.val % 25 = 24) :
    (outsAt0 V c t.val t.isLt).2.2.2.2
      = k0_pay1 (F := Ideal) (outsAt0 V c (t.val - 1) (Nat.lt_of_le_of_lt (Nat.sub_le _ _) t.isLt)).2.2.2.2
          (k0_pay6 (F := Ideal) (iblk0 V c 0 t) (iblk0 V c 1 t) (iblk0 V c 2 t) (iblk0 V c 3 t) (iblk0 V c 4 t)) := by
  rw [outsAt0_B V c t h0 h1]
  exact sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- After the last block: the same, … -/
theorem scrC_0 (c : Dev nD) (t : Fin cfg0.N) (h0 : ¬t.val % 25 = 0) (h1 : t.val % 25 = 24) :
    (outsAt0 V c t.val t.isLt).2.2.2.1
      = k0_pay5 (F := Ideal) (iblk0 V c 0 t) (iblk0 V c 1 t) (iblk0 V c 2 t) (iblk0 V c 3 t) (iblk0 V c 4 t)
          (outsAt0 V c (t.val - 1) (Nat.lt_of_le_of_lt (Nat.sub_le _ _) t.isLt)).2.2.2.1 := by
  rw [outsAt0_C V c t h0 h1]
  exact sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

theorem scrC_1 (c : Dev nD) (t : Fin cfg0.N) (h0 : ¬t.val % 25 = 0) (h1 : t.val % 25 = 24) :
    (outsAt0 V c t.val t.isLt).2.2.2.2
      = k0_pay1 (F := Ideal) (outsAt0 V c (t.val - 1) (Nat.lt_of_le_of_lt (Nat.sub_le _ _) t.isLt)).2.2.2.2
          (k0_pay6 (F := Ideal) (iblk0 V c 0 t) (iblk0 V c 1 t) (iblk0 V c 2 t) (iblk0 V c 3 t) (iblk0 V c 4 t)) := by
  rw [outsAt0_C V c t h0 h1]
  exact sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- … and the two statistics outputs' buffers are the two scratch rows as the last block leaves them. -/
theorem outs0_6 (c : Dev nD) (t : Fin cfg0.N) (h0 : ¬t.val % 25 = 0) (h1 : t.val % 25 = 24) :
    (outsAt0 V c t.val t.isLt).2.1 = (outsAt0 V c t.val t.isLt).2.2.2.1 := by
  rw [scrC_0 V c t h0 h1, outsAt0_C V c t h0 h1]
  exact out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

theorem outs0_7 (c : Dev nD) (t : Fin cfg0.N) (h0 : ¬t.val % 25 = 0) (h1 : t.val % 25 = 24) :
    (outsAt0 V c t.val t.isLt).2.2.1 = (outsAt0 V c t.val t.isLt).2.2.2.2 := by
  rw [scrC_1 V c t h0 h1, outsAt0_C V c t h0 h1]
  exact out0_C_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-! ## The scratch rows after each block -/

/-- After block t the first scratch row holds, at q, the sum over the blocks up to t of the blocks' sums of column q. -/
theorem scr0_eq (c : Dev nD) : ∀ (n : ℕ) (t : Fin cfg0.N), t.val = n → ∀ (z : Fin 1) (q : Fin 128),
    ((outsAt0 V c t.val t.isLt).2.2.2.1 : FVec Ideal S1x128 .f32) (ix2 z q)
      = ∑ s ∈ Finset.range (t.val + 1), blkSum (colOf V c q) s := by
  intro n
  induction n with
  | zero =>
    intro t ht z q
    have h0 : t.val % 25 = 0 := by omega
    have h1 : ¬t.val % 25 = 24 := by omega
    rw [scrA_0 V c t h0 h1]
    refine (pay5_apply (iblk0 V c 0 t) (iblk0 V c 1 t) (iblk0 V c 2 t) (iblk0 V c 3 t) (iblk0 V c 4 t) (k0_pay3 (F := Ideal)) z q).trans ?_
    rw [pay3_apply z q, zero_add, blk_sum0 V c t q, ht, Finset.sum_range_succ, Finset.sum_range_zero, zero_add]
  | succ n ih =>
    intro t ht z q
    have hN : cfg0.N = 25 := N_0
    have htl := t.isLt
    have h0 : ¬t.val % 25 = 0 := by omega
    have ihp := ih ⟨t.val - 1, Nat.lt_of_le_of_lt (Nat.sub_le _ _) t.isLt⟩ (by show t.val - 1 = n; omega) z q
    have hs : ∑ s ∈ Finset.range (t.val - 1 + 1), blkSum (colOf V c q) s + blkSum (colOf V c q) t.val
        = ∑ s ∈ Finset.range (t.val + 1), blkSum (colOf V c q) s := by
      rw [show t.val - 1 + 1 = t.val from by omega, ← Finset.sum_range_succ]
    have hstep : k0_pay5 (F := Ideal) (iblk0 V c 0 t) (iblk0 V c 1 t) (iblk0 V c 2 t) (iblk0 V c 3 t) (iblk0 V c 4 t)
          (outsAt0 V c (t.val - 1) (Nat.lt_of_le_of_lt (Nat.sub_le _ _) t.isLt)).2.2.2.1 (ix2 z q)
        = ∑ s ∈ Finset.range (t.val + 1), blkSum (colOf V c q) s := by
      refine (pay5_apply (iblk0 V c 0 t) (iblk0 V c 1 t) (iblk0 V c 2 t) (iblk0 V c 3 t) (iblk0 V c 4 t)
        (outsAt0 V c (t.val - 1) (Nat.lt_of_le_of_lt (Nat.sub_le _ _) t.isLt)).2.2.2.1 z q).trans ?_
      rw [blk_sum0 V c t q]
      exact (congrArg (· + blkSum (colOf V c q) t.val) ihp).trans hs
    by_cases h1 : t.val % 25 = 24
    · rw [scrC_0 V c t h0 h1]; exact hstep
    · rw [scrB_0 V c t h0 h1]; exact hstep

/-- After block t the second scratch row holds, at q, the sum over the blocks up to t of the blocks' sums of squares of
    column q. -/
theorem scr1_eq (c : Dev nD) : ∀ (n : ℕ) (t : Fin cfg0.N), t.val = n → ∀ (z : Fin 1) (q : Fin 128),
    ((outsAt0 V c t.val t.isLt).2.2.2.2 : FVec Ideal S1x128 .f32) (ix2 z q)
      = ∑ s ∈ Finset.range (t.val + 1), blkSum (colSqOf V c q) s := by
  intro n
  induction n with
  | zero =>
    intro t ht z q
    have h0 : t.val % 25 = 0 := by omega
    have h1 : ¬t.val % 25 = 24 := by omega
    rw [scrA_1 V c t h0 h1]
    refine (pay1_apply (k0_pay4 (F := Ideal))
      (k0_pay6 (F := Ideal) (iblk0 V c 0 t) (iblk0 V c 1 t) (iblk0 V c 2 t) (iblk0 V c 3 t) (iblk0 V c 4 t)) z q).trans ?_
    rw [pay4_apply z q, zero_add,
      pay6_apply (iblk0 V c 0 t) (iblk0 V c 1 t) (iblk0 V c 2 t) (iblk0 V c 3 t) (iblk0 V c 4 t) z q,
      blk_sumsq0 V c t q, ht, Finset.sum_range_succ, Finset.sum_range_zero, zero_add]
  | succ n ih =>
    intro t ht z q
    have hN : cfg0.N = 25 := N_0
    have htl := t.isLt
    have h0 : ¬t.val % 25 = 0 := by omega
    have ihp := ih ⟨t.val - 1, Nat.lt_of_le_of_lt (Nat.sub_le _ _) t.isLt⟩ (by show t.val - 1 = n; omega) z q
    have hs : ∑ s ∈ Finset.range (t.val - 1 + 1), blkSum (colSqOf V c q) s + blkSum (colSqOf V c q) t.val
        = ∑ s ∈ Finset.range (t.val + 1), blkSum (colSqOf V c q) s := by
      rw [show t.val - 1 + 1 = t.val from by omega, ← Finset.sum_range_succ]
    have hb := (pay6_apply (iblk0 V c 0 t) (iblk0 V c 1 t) (iblk0 V c 2 t) (iblk0 V c 3 t) (iblk0 V c 4 t) z q).trans
      (blk_sumsq0 V c t q)
    have hstep : k0_pay1 (F := Ideal) (outsAt0 V c (t.val - 1) (Nat.lt_of_le_of_lt (Nat.sub_le _ _) t.isLt)).2.2.2.2
          (k0_pay6 (F := Ideal) (iblk0 V c 0 t) (iblk0 V c 1 t) (iblk0 V c 2 t) (iblk0 V c 3 t) (iblk0 V c 4 t)) (ix2 z q)
        = ∑ s ∈ Finset.range (t.val + 1), blkSum (colSqOf V c q) s := by
      refine (pay1_apply (outsAt0 V c (t.val - 1) (Nat.lt_of_le_of_lt (Nat.sub_le _ _) t.isLt)).2.2.2.2
        (k0_pay6 (F := Ideal) (iblk0 V c 0 t) (iblk0 V c 1 t) (iblk0 V c 2 t) (iblk0 V c 3 t) (iblk0 V c 4 t)) z q).trans ?_
      rw [hb]
      exact (congrArg (· + blkSum (colSqOf V c q) t.val) ihp).trans hs
    by_cases h1 : t.val % 25 = 24
    · rw [scrC_1 V c t h0 h1]; exact hstep
    · rw [scrB_1 V c t h0 h1]; exact hstep

/-! ## The statistics outputs after the last block, and the arrays after the region -/

/-- After the last block the column-sum output's buffer holds the column sums of the layer of the whole arrays … -/
theorem stat0_6 (c : Dev nD) (t : Fin cfg0.N) (h1 : t.val % 25 = 24) :
    ((outsAt0 V c t.val t.isLt).2.1 : FVec Ideal S1x128 .f32) = colSum (G0 V c) := by
  have hN : cfg0.N = 25 := N_0
  have htl := t.isLt
  rw [outs0_6 V c t (by omega) h1]
  funext j
  obtain ⟨z, q, rfl⟩ : ∃ (z : Fin 1) (q : Fin 128), j = ix2 z q := ⟨j 0, j 1, eq_ix2 j⟩
  rw [scr0_eq V c t.val t rfl z q, colSum_apply, show t.val + 1 = 25 from by omega]
  exact sum_blkSum (colOf V c q)

/-- … and the sum-of-squares output's buffer the column sums of squares. -/
theorem stat0_7 (c : Dev nD) (t : Fin cfg0.N) (h1 : t.val % 25 = 24) :
    ((outsAt0 V c t.val t.isLt).2.2.1 : FVec Ideal S1x128 .f32) = colSumSq (G0 V c) := by
  have hN : cfg0.N = 25 := N_0
  have htl := t.isLt
  rw [outs0_7 V c t (by omega) h1]
  funext j
  obtain ⟨z, q, rfl⟩ : ∃ (z : Fin 1) (q : Fin 128), j = ix2 z q := ⟨j 0, j 1, eq_ix2 j⟩
  rw [scr1_eq V c t.val t rfl z q, colSumSq_apply, show t.val + 1 = 25 from by omega]
  exact sum_blkSum (colSqOf V c q)

/-- The two statistics windows have one block: the whole one-row array. -/
theorem idx0_stats : ∀ t : Fin cfg0.N,
    win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Through a statistics window, a one-row buffer is cut to, and its array's block reads, the row itself. -/
theorem cut_read0_6 (t : Fin cfg0.N) (X : FVec Ideal S1x128 .f32) :
    (cfg0.win 6).cut (grid0.coords t) X = ((cfg0.win 6).blk t).view.read (Elt Ideal) X := by
  obtain ⟨e0, e1, -, -⟩ := idx0_stats t
  funext j
  obtain ⟨z, q, rfl⟩ : ∃ (z : Fin 1) (q : Fin 128), j = ix2 z q := ⟨j 0, j 1, eq_ix2 j⟩
  have hemb : ((cfg0.win 6).blk t).view.emb (ix2 z q) = (ix2 z q : S1x128.Idx) := by
    funext a; apply Fin.ext
    match a with
    | ⟨0, _⟩ => show win0_6.index t (0 : Fin 2) * 1 + 1 * z.val = z.val; rw [e0]; omega
    | ⟨1, _⟩ => show win0_6.index t (1 : Fin 2) * 128 + 1 * q.val = q.val; rw [e1]; omega
  show X (ix2 z q) = X (((cfg0.win 6).blk t).view.emb (ix2 z q))
  rw [hemb]

theorem cut_read0_7 (t : Fin cfg0.N) (X : FVec Ideal S1x128 .f32) :
    (cfg0.win 7).cut (grid0.coords t) X = ((cfg0.win 7).blk t).view.read (Elt Ideal) X := by
  obtain ⟨-, -, e0, e1⟩ := idx0_stats t
  funext j
  obtain ⟨z, q, rfl⟩ : ∃ (z : Fin 1) (q : Fin 128), j = ix2 z q := ⟨j 0, j 1, eq_ix2 j⟩
  have hemb : ((cfg0.win 7).blk t).view.emb (ix2 z q) = (ix2 z q : S1x128.Idx) := by
    funext a; apply Fin.ext
    match a with
    | ⟨0, _⟩ => show win0_7.index t (0 : Fin 2) * 1 + 1 * z.val = z.val; rw [e0]; omega
    | ⟨1, _⟩ => show win0_7.index t (1 : Fin 2) * 128 + 1 * q.val = q.val; rw [e1]; omega
  show X (ix2 z q) = X (((cfg0.win 7).blk t).view.emb (ix2 z q))
  rw [hemb]

/-- The last block writes back the column sums of the layer of the whole arrays. -/
theorem flushed0_6_eq (c : Dev nD) (t : Fin cfg0.N) (h1 : t.val % 25 = 24) :
    (dat0 V c).flushed 6 t = ((cfg0.win 6).blk t).view.read (Elt Ideal) (colSum (G0 V c)) := by
  show (cfg0.win 6).cut (grid0.coords t) ((dat0 V c).after 6 t) = _
  rw [after0_6]
  exact (congrArg ((cfg0.win 6).cut (grid0.coords t)) (stat0_6 V c t h1)).trans (cut_read0_6 t (colSum (G0 V c)))

/-- … and the column sums of squares. -/
theorem flushed0_7_eq (c : Dev nD) (t : Fin cfg0.N) (h1 : t.val % 25 = 24) :
    (dat0 V c).flushed 7 t = ((cfg0.win 7).blk t).view.read (Elt Ideal) (colSumSq (G0 V c)) := by
  show (cfg0.win 7).cut (grid0.coords t) ((dat0 V c).after 7 t) = _
  rw [after0_7]
  exact (congrArg ((cfg0.win 7).cut (grid0.coords t)) (stat0_7 V c t h1)).trans (cut_read0_7 t (colSumSq (G0 V c)))

/-- An index of a statistics output is in block t iff each coordinate is in the block's range on its axis. -/
theorem mem_blk0_6 (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v25_1).slice (win0_6.rect t)).set ↔ _
  rw [View.set_slice_whole, Rect.mem_set_unit]
  exact Iff.rfl

theorem mem_blk0_7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v25_2).slice (win0_7.rect t)).set ↔ _
  rw [View.set_slice_whole, Rect.mem_set_unit]
  exact Iff.rfl

/-- Every entry of the one-row output lies in the last block's block, the whole array. -/
theorem cover0_6 (i : S1x128.Idx) : ∃ t : Fin cfg0.N, (cfg0.win 6).flush t = true ∧ i ∈ ((cfg0.win 6).blk t).view.set := by
  have hi0 : (i 0).val < 1 := (i 0).isLt
  have hi1 : (i 1).val < 128 := (i 1).isLt
  have hN : cfg0.N = 25 := N_0
  let t : Fin cfg0.N := ⟨24, by omega⟩
  obtain ⟨e0, e1, -, -⟩ := idx0_stats t
  refine ⟨t, (flush0_6 t).mpr rfl, ?_⟩
  rw [mem_blk0_6]
  intro a
  match a with
  | ⟨0, _⟩ =>
    show win0_6.index t (0 : Fin 2) * 1 ≤ (i 0).val ∧ (i 0).val < win0_6.index t (0 : Fin 2) * 1 + 1
    rw [e0]; omega
  | ⟨1, _⟩ =>
    show win0_6.index t (1 : Fin 2) * 128 ≤ (i 1).val ∧ (i 1).val < win0_6.index t (1 : Fin 2) * 128 + 128
    rw [e1]; omega

theorem cover0_7 (i : S1x128.Idx) : ∃ t : Fin cfg0.N, (cfg0.win 7).flush t = true ∧ i ∈ ((cfg0.win 7).blk t).view.set := by
  have hi0 : (i 0).val < 1 := (i 0).isLt
  have hi1 : (i 1).val < 128 := (i 1).isLt
  have hN : cfg0.N = 25 := N_0
  let t : Fin cfg0.N := ⟨24, by omega⟩
  obtain ⟨-, -, e0, e1⟩ := idx0_stats t
  refine ⟨t, (flush0_7 t).mpr rfl, ?_⟩
  rw [mem_blk0_7]
  intro a
  match a with
  | ⟨0, _⟩ =>
    show win0_7.index t (0 : Fin 2) * 1 ≤ (i 0).val ∧ (i 0).val < win0_7.index t (0 : Fin 2) * 1 + 1
    rw [e0]; omega
  | ⟨1, _⟩ =>
    show win0_7.index t (1 : Fin 2) * 128 ≤ (i 1).val ∧ (i 1).val < win0_7.index t (1 : Fin 2) * 128 + 128
    rw [e1]; omega

/-- THE COLUMN-SUM OUTPUT AFTER THE REGION holds the column sums of the layer of the arrays the region found. -/
theorem final0_6 (c : Dev nD) : (dat0 (F := Ideal) V c).arrAt 6 cfg0.N
    = colSum (lin (V c main_v23 : FVec Ideal S50000x128 .f32) (V c main_arg0 : FVec Ideal S50000x128 .f32)
        (V c main_arg3 : FVec Ideal S128x128 .f32) (V c main_v9 : FVec Ideal S128x128 .f32) (V c main_v24 : FVec Ideal S1x128 .f32)) :=
  (dat0 V c).arrAt_eq_of_cover 6 (colSum (G0 V c)) (fun t hf => flushed0_6_eq V c t ((flush0_6 t).mp hf)) cover0_6

/-- THE SUM-OF-SQUARES OUTPUT AFTER THE REGION holds the column sums of squares of that layer. -/
theorem final0_7 (c : Dev nD) : (dat0 (F := Ideal) V c).arrAt 7 cfg0.N
    = colSumSq (lin (V c main_v23 : FVec Ideal S50000x128 .f32) (V c main_arg0 : FVec Ideal S50000x128 .f32)
        (V c main_arg3 : FVec Ideal S128x128 .f32) (V c main_v9 : FVec Ideal S128x128 .f32) (V c main_v24 : FVec Ideal S1x128 .f32)) :=
  (dat0 V c).arrAt_eq_of_cover 7 (colSumSq (G0 V c)) (fun t hf => flushed0_7_eq V c t ((flush0_7 t).mp hf)) cover0_7

end Cert.KernelIdeal.HandVal

end
-- ==== Proof.KI.Val1.lean ====
/-
  THE FIRST NORMALISING LAYER'S REGION, READ: THE OUTPUT ARRAY AFTER THE REGION IS THE NORMALISED, SHIFTED AND CUT-OFF
  ARRAY OF THE ARRAYS IT FOUND.

  On the exact reals the body's one stored value is, at entry (p, q) of a block of 2000 rows, the larger of zero and
  (((h (p, q) − m (q)) · (v (q) + ε)^(-1/2)) · g (q) + b (q)) + x (p, q): every operation is entry by entry, the four
  one-row arrays are laid along the rows, and recasting an array onto its own shape changes nothing.  That is the
  normalising formula on the block.  Point t's blocks of the two row-blocked operands are rows 2000 t … 2000 t + 1999
  of their arrays, the blocks of the one-row arrays are the whole arrays, and the formula mentions only row p of the
  row-blocked operands; so what point t writes back is rows 2000 t … 2000 t + 1999 of the formula applied to the
  whole arrays.  Row r lies in the block of point r / 2000, so the 25 blocks cover the output array, which therefore
  ends holding the formula of the whole arrays.
-/
import proofs.«126844_j8246337208554_1_alg».proof.Proof.KI.Reg1
import proofs.«126844_j8246337208554_1_alg».proof.Proof.SageSpec
import Idealize.ShloMosaic.Lib.Pipeline.Value

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Sage

theorem zeros2_1 : (![0, 0] : Fin 2 → Nat) = fun _ => 0 := funext fun a => by fin_cases a <;> rfl

/-! ## The body's stored value on a block -/

/-- The stored value is the normalising formula on the six blocks (the body reads them in the order linear output,
    means, variances, scale, shift, layer input). -/
theorem pay1_eq (x0 x1 : FVec Ideal S2000x128 .f32) (x2 x3 x4 x5 : FVec Ideal S1x128 .f32) :
    k1_pay1 (F := Ideal) x0 x2 x3 x4 x5 x1 = normAct x0 x1 x2 x3 x4 x5 := by
  funext j
  obtain ⟨p, q, rfl⟩ : ∃ (p : Fin 2000) (q : Fin 128), j = ix2 p q := ⟨j 0, j 1, eq_ix2 j⟩
  unfold k1_pay1
  rw [normAct_apply]
  simp only [shapeCast_self]
  simp only [maximumf_apply, addf_apply, mulf_apply, subf_apply]
  rw [broadcastTo_1b_ab_apply x2 broadcasts_S1x128_S2000x128 p q, broadcastTo_1b_ab_apply x4 broadcasts_S1x128_S2000x128 p q,
    broadcastTo_1b_ab_apply x5 broadcasts_S1x128_S2000x128 p q, broadcastTo_1b_ab_apply _ broadcasts_S1x128_S2000x128 p q]
  rfl

/-- The output buffer after the body is the normalising formula on the six input buffers. -/
theorem out1_eq (x0 x1 : FVec Ideal S2000x128 .f32) (x2 x3 x4 x5 : FVec Ideal S1x128 .f32) :
    out1_6 (F := Ideal) x0 x1 x2 x3 x4 x5 = normAct x0 x1 x2 x3 x4 x5 := by
  unfold out1_6
  rw [View.canon_unit_zero zeros2_1]
  simp only [View.ld_unit_zero (S := S2000x128) zeros2_1, View.ld_unit_zero (S := S1x128) zeros2_1]
  exact pay1_eq x0 x1 x2 x3 x4 x5

/-! ## A block of rows of the formula is the formula of the block of rows -/

theorem normAct_rows_1 {M N C : Nat} (H X : FVec Ideal ⟨2, ![N, C]⟩ .f32) (mu var g bt : FVec Ideal ⟨2, ![1, C]⟩ .f32)
    (h x : FVec Ideal ⟨2, ![M, C]⟩ .f32) (mu' var' g' bt' : FVec Ideal ⟨2, ![1, C]⟩ .f32) (r : Fin M → Fin N)
    (hh : ∀ p k, h (ix2 p k) = H (ix2 (r p) k)) (hx : ∀ p k, x (ix2 p k) = X (ix2 (r p) k))
    (hmu : mu' = mu) (hvar : var' = var) (hg : g' = g) (hbt : bt' = bt) (p : Fin M) (q : Fin C) :
    normAct h x mu' var' g' bt' (ix2 p q) = normAct H X mu var g bt (ix2 (r p) q) := by
  subst hmu hvar hg hbt
  rw [normAct_apply, normAct_apply, hh, hx]

/-! ## The windows' index maps, decided over the 25 points -/

theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_6.index t (0 : Fin 2) = t.val ∧ win1_6.index t (1 : Fin 2) = 0 :=
  (by decide +kernel : ∀ t : Fin grid1.N, _)

theorem idx1_rows : ∀ t : Fin cfg1.N,
    (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0) :=
  (by decide +kernel : ∀ t : Fin grid1.N, _)

variable (V : (c : Dev nD) → (b : Ref sig .tc) → Buf (Elt Ideal) ((c : Thread nD τ).loc b))

/-- The row of the array that row p of point t's block is. -/
def row1 (t : Fin cfg1.N) (p : Fin 2000) : Fin 50000 :=
  ⟨t.val * 2000 + p.val, by have := t.isLt; have hN : cfg1.N = 25 := N_1; have := p.isLt; omega⟩

/-! ## The input blocks as rows of the arrays -/

theorem blk1_0 (c : Dev nD) (t : Fin cfg1.N) (p : Fin 2000) (k : Fin 128) :
    (iblk1 V c 0 t : FVec Ideal S2000x128 .f32) (ix2 p k) = (V c main_v25_0 : FVec Ideal S50000x128 .f32) (ix2 (row1 t p) k) := by
  have e0 := (idx1 t).1
  have e1 := (idx1 t).2.1
  unfold iblk1
  rw [View.read_apply]
  show V c main_v25_0 _ = V c main_v25_0 _
  refine congrArg (V c main_v25_0) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega

theorem blk1_1 (c : Dev nD) (t : Fin cfg1.N) (p : Fin 2000) (k : Fin 128) :
    (iblk1 V c 1 t : FVec Ideal S2000x128 .f32) (ix2 p k) = (V c main_arg0 : FVec Ideal S50000x128 .f32) (ix2 (row1 t p) k) := by
  have e0 := (idx1 t).2.2.1
  have e1 := (idx1 t).2.2.2.1
  unfold iblk1
  rw [View.read_apply]
  show V c main_arg0 _ = V c main_arg0 _
  refine congrArg (V c main_arg0) (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 128 + 1 * k.val = k.val; rw [e1]; omega

theorem blk1_2 (c : Dev nD) (t : Fin cfg1.N) :
    (iblk1 V c 2 t : FVec Ideal S1x128 .f32) = (V c main_v27 : FVec Ideal S1x128 .f32) := by
  have e := (idx1_rows t).1
  funext j
  unfold iblk1
  rw [View.read_apply]
  show V c main_v27 _ = V c main_v27 _
  refine congrArg (V c main_v27) (funext fun a => Fin.ext ?_)
  match a with
  | ⟨0, _⟩ => show win1_2.index t (0 : Fin 2) * 1 + 1 * (j 0).val = (j 0).val; rw [e.1]; omega
  | ⟨1, _⟩ => show win1_2.index t (1 : Fin 2) * 128 + 1 * (j 1).val = (j 1).val; rw [e.2]; omega

theorem blk1_3 (c : Dev nD) (t : Fin cfg1.N) :
    (iblk1 V c 3 t : FVec Ideal S1x128 .f32) = (V c main_v31 : FVec Ideal S1x128 .f32) := by
  have e := (idx1_rows t).2.1
  funext j
  unfold iblk1
  rw [View.read_apply]
  show V c main_v31 _ = V c main_v31 _
  refine congrArg (V c main_v31) (funext fun a => Fin.ext ?_)
  match a with
  | ⟨0, _⟩ => show win1_3.index t (0 : Fin 2) * 1 + 1 * (j 0).val = (j 0).val; rw [e.1]; omega
  | ⟨1, _⟩ => show win1_3.index t (1 : Fin 2) * 128 + 1 * (j 1).val = (j 1).val; rw [e.2]; omega

theorem blk1_4 (c : Dev nD) (t : Fin cfg1.N) :
    (iblk1 V c 4 t : FVec Ideal S1x128 .f32) = (V c main_v32 : FVec Ideal S1x128 .f32) := by
  have e := (idx1_rows t).2.2.1
  funext j
  unfold iblk1
  rw [View.read_apply]
  show V c main_v32 _ = V c main_v32 _
  refine congrArg (V c main_v32) (funext fun a => Fin.ext ?_)
  match a with
  | ⟨0, _⟩ => show win1_4.index t (0 : Fin 2) * 1 + 1 * (j 0).val = (j 0).val; rw [e.1]; omega
  | ⟨1, _⟩ => show win1_4.index t (1 : Fin 2) * 128 + 1 * (j 1).val = (j 1).val; rw [e.2]; omega

theorem blk1_5 (c : Dev nD) (t : Fin cfg1.N) :
    (iblk1 V c 5 t : FVec Ideal S1x128 .f32) = (V c main_v33 : FVec Ideal S1x128 .f32) := by
  have e := (idx1_rows t).2.2.2
  funext j
  unfold iblk1
  rw [View.read_apply]
  show V c main_v33 _ = V c main_v33 _
  refine congrArg (V c main_v33) (funext fun a => Fin.ext ?_)
  match a with
  | ⟨0, _⟩ => show win1_5.index t (0 : Fin 2) * 1 + 1 * (j 0).val = (j 0).val; rw [e.1]; omega
  | ⟨1, _⟩ => show win1_5.index t (1 : Fin 2) * 128 + 1 * (j 1).val = (j 1).val; rw [e.2]; omega

/-! ## What a point writes back, and the whole array -/

/-- The normalising formula of the arrays the region finds. -/
def G1 (c : Dev nD) : FVec Ideal S50000x128 .f32 :=
  normAct (V c main_v25_0 : FVec Ideal S50000x128 .f32) (V c main_arg0 : FVec Ideal S50000x128 .f32)
    (V c main_v27 : FVec Ideal S1x128 .f32) (V c main_v31 : FVec Ideal S1x128 .f32) (V c main_v32 : FVec Ideal S1x128 .f32) (V c main_v33 : FVec Ideal S1x128 .f32)

/-- Point t writes back rows 2000 t … 2000 t + 1999 of the formula of the whole arrays. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  refine (congrArg ((cfg1.win 6).cut (grid1.coords t))
    (out1_eq (iblk1 V c 0 t) (iblk1 V c 1 t) (iblk1 V c 2 t) (iblk1 V c 3 t) (iblk1 V c 4 t) (iblk1 V c 5 t))).trans ?_
  have e0 := (idx1 t).2.2.2.2.1
  have e1 := (idx1 t).2.2.2.2.2
  funext j
  obtain ⟨p, q, rfl⟩ : ∃ (p : Fin 2000) (q : Fin 128), j = ix2 p q := ⟨j 0, j 1, eq_ix2 j⟩
  have hemb : ((cfg1.win 6).blk t).view.emb (ix2 p q) = (ix2 (row1 t p) q : S50000x128.Idx) := by
    funext a; apply Fin.ext
    match a with
    | ⟨0, _⟩ => show win1_6.index t (0 : Fin 2) * 2000 + 1 * p.val = t.val * 2000 + p.val; rw [e0]; omega
    | ⟨1, _⟩ => show win1_6.index t (1 : Fin 2) * 128 + 1 * q.val = q.val; rw [e1]; omega
  show normAct (iblk1 V c 0 t) (iblk1 V c 1 t) (iblk1 V c 2 t) (iblk1 V c 3 t) (iblk1 V c 4 t) (iblk1 V c 5 t) (ix2 p q)
    = G1 V c (((cfg1.win 6).blk t).view.emb (ix2 p q))
  rw [hemb]
  exact normAct_rows_1 _ _ _ _ _ _ _ _ _ _ _ _ (row1 t) (blk1_0 V c t) (blk1_1 V c t) (blk1_2 V c t) (blk1_3 V c t)
    (blk1_4 V c t) (blk1_5 V c t) p q

/-- An index of the output array is in point t's block iff each coordinate is in the block's range on its axis. -/
theorem mem_blk1 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v34).slice (win1_6.rect t)).set ↔ _
  rw [View.set_slice_whole, Rect.mem_set_unit]
  exact Iff.rfl

/-- Row r lies in the block of point r / 2000. -/
theorem cover1 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  let t : Fin cfg1.N := ⟨(i 0).val / 2000, by omega⟩
  have e0 := (idx1 t).2.2.2.2.1
  have e1 := (idx1 t).2.2.2.2.2
  refine ⟨t, flush1_6 t, ?_⟩
  rw [mem_blk1]
  intro a
  match a with
  | ⟨0, _⟩ =>
    show win1_6.index t (0 : Fin 2) * 2000 ≤ (i 0).val ∧ (i 0).val < win1_6.index t (0 : Fin 2) * 2000 + 2000
    rw [e0]; show (i 0).val / 2000 * 2000 ≤ (i 0).val ∧ (i 0).val < (i 0).val / 2000 * 2000 + 2000; omega
  | ⟨1, _⟩ =>
    show win1_6.index t (1 : Fin 2) * 128 ≤ (i 1).val ∧ (i 1).val < win1_6.index t (1 : Fin 2) * 128 + 128
    rw [e1]; omega

/-- THE OUTPUT ARRAY AFTER THE REGION is the normalising formula of the arrays the region found. -/
theorem final1 (c : Dev nD) : (dat1 (F := Ideal) V c).arrAt 6 cfg1.N
    = normAct (V c main_v25_0 : FVec Ideal S50000x128 .f32) (V c main_arg0 : FVec Ideal S50000x128 .f32)
        (V c main_v27 : FVec Ideal S1x128 .f32) (V c main_v31 : FVec Ideal S1x128 .f32) (V c main_v32 : FVec Ideal S1x128 .f32)
        (V c main_v33 : FVec Ideal S1x128 .f32) :=
  (dat1 V c).arrAt_eq_of_cover 6 (G1 V c) (fun t _ => flushed1_eq V c t) cover1

end Cert.KernelIdeal.HandVal

end
-- ==== Proof.KI.Val2H.lean ====
/-
  THE SECOND LINEAR LAYER'S REGION, READ AT ITS BLOCK OUTPUT: THE ARRAY OF H AFTER THE REGION IS THE LAYER OF THE ARRAYS
  THE REGION FOUND.

  Whatever kind of grid point the body is at (first, middle or last), its one store into the block output writes
  the whole buffer with the same value of the five input buffers; what it does besides to the two scratch rows and to
  the statistics outputs does not touch this buffer.  On the exact reals that value is, at entry (p, q) of a block of
  2000 rows, the sum over k of a (p, k) · wl (k, q), plus the sum over k of x (p, k) · wc (k, q), plus entry q of the
  one-row bias: the layer's formula on the block.  Point t's blocks of the two row-blocked operands are rows
  2000 t … 2000 t + 1999 of their arrays, the blocks of the weights and of the bias are the whole arrays, and the
  formula mentions only row p of the row-blocked operands; so what point t writes back is rows 2000 t … 2000 t + 1999
  of the layer applied to the whole arrays.  Row r lies in the block of point r / 2000, so the 25 blocks cover the
  output array, which therefore ends holding the layer of the whole arrays.
-/
import proofs.«126844_j8246337208554_1_alg».proof.Proof.KI.Reg2
import proofs.«126844_j8246337208554_1_alg».proof.Proof.SageSpec
import Idealize.ShloMosaic.Lib.Pipeline.Value
import Idealize.ShloMosaic.Lib.Tactic

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.Tactic Idealize.SL.Sem Idealize.ShloMosaic.ValueIdx
open Idealize.ShloMosaic.Pipeline (Dat)
open Cert.Sage Cert.MatOps Cert.LayerForms Cert.DenseStages

theorem zeros2_2 : (![0, 0] : Fin 2 → Nat) = fun _ => 0 := funext fun a => by fin_cases a <;> rfl

/-! ## The block output's buffer after the body, at each kind of point: the one stored value -/

section
variable {F : FTy → Type} [FloatOps F]

theorem out2_A_5_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 x1 : Vec F S2000x128 .f32) (x2 x3 : Vec F S128x128 .f32) (x4 : Vec F S1x128 .f32) :
    out2_A_5 c i arg1 harg1 arg2 harg2 arg3 harg3 arg4 harg4 arg5 harg5 arg6 harg6 arg7 harg7 arg8 harg8 arg9 harg9 arg10 harg10 hc0 hc1 x0 x1 x2 x3 x4 = k2_pay2 x0 x1 x2 x3 x4 := by
  unfold out2_A_5
  rw [View.read_writes_eq_canon _ _ _ (cover2_A_5 c i arg1 harg1 arg2 harg2 arg3 harg3 arg4 harg4 arg5 harg5 arg6 harg6 arg7 harg7 arg8 harg8 arg9 harg9 arg10 harg10 hc0 hc1 x0 x1 x2 x3 x4)]
  unfold kernelRun2_A
  dsimp only
  try sl_unfold_words
  rw [View.canon_unit_zero zeros2_2]
  simp only [View.readAt_eq_ld, harg1.read_unread, harg2.read_unread, harg3.read_unread, harg4.read_unread, harg5.read_unread,
    View.ld_unit_zero (S := S2000x128) zeros2_2, View.ld_unit_zero (S := S128x128) zeros2_2, View.ld_unit_zero (S := S1x128) zeros2_2]

theorem out2_B_5_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 x1 : Vec F S2000x128 .f32) (x2 x3 : Vec F S128x128 .f32) (x4 : Vec F S1x128 .f32) (xs0 xs1 : Vec F S1x128 .f32) :
    out2_B_5 c i arg1 harg1 arg2 harg2 arg3 harg3 arg4 harg4 arg5 harg5 arg6 harg6 arg7 harg7 arg8 harg8 arg9 harg9 arg10 harg10 hc0 hc1 x0 x1 x2 x3 x4 xs0 xs1 = k2_pay2 x0 x1 x2 x3 x4 := by
  unfold out2_B_5
  rw [View.read_writes_eq_canon _ _ _ (cover2_B_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_B
  dsimp only
  try sl_unfold_words
  rw [View.canon_unit_zero zeros2_2]
  simp only [View.readAt_eq_ld, harg1.read_unread, harg2.read_unread, harg3.read_unread, harg4.read_unread, harg5.read_unread,
    View.ld_unit_zero (S := S2000x128) zeros2_2, View.ld_unit_zero (S := S128x128) zeros2_2, View.ld_unit_zero (S := S1x128) zeros2_2]

theorem out2_C_5_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 : Vec F S2000x128 .f32) (x2 x3 : Vec F S128x128 .f32) (x4 : Vec F S1x128 .f32) (xs0 xs1 : Vec F S1x128 .f32) :
    out2_C_5 c i arg1 harg1 arg2 harg2 arg3 harg3 arg4 harg4 arg5 harg5 arg6 harg6 arg7 harg7 arg8 harg8 arg9 harg9 arg10 harg10 hc0 hc1 x0 x1 x2 x3 x4 xs0 xs1 = k2_pay2 x0 x1 x2 x3 x4 := by
  unfold out2_C_5
  rw [View.read_writes_eq_canon _ _ _ (cover2_C_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  try sl_unfold_words
  rw [View.canon_unit_zero zeros2_2]
  simp only [View.readAt_eq_ld, harg1.read_unread, harg2.read_unread, harg3.read_unread, harg4.read_unread, harg5.read_unread,
    View.ld_unit_zero (S := S2000x128) zeros2_2, View.ld_unit_zero (S := S128x128) zeros2_2, View.ld_unit_zero (S := S1x128) zeros2_2]

end

/-! ## The stored value on a block -/

/-- The product's dimension record is the plain one. -/
theorem dot2_eq : dot_S2000x128_S128x128_S2000x128_1_0_0_1_n_n
    = plainDot 2000 128 128 dot_S2000x128_S128x128_S2000x128_1_0_0_1_n_n_wf := rfl

/-- The stored value is the layer's formula on the five blocks. -/
theorem pay2_eq (x0 x1 : FVec Ideal S2000x128 .f32) (x2 x3 : FVec Ideal S128x128 .f32) (x4 : FVec Ideal S1x128 .f32) :
    k2_pay2 (F := Ideal) x0 x1 x2 x3 x4 = lin x0 x1 x2 x3 x4 := by
  funext j
  obtain ⟨p, q, rfl⟩ : ∃ (p : Fin 2000) (q : Fin 128), j = ix2 p q := ⟨j 0, j 1, eq_ix2 j⟩
  unfold k2_pay2
  rw [lin_apply]
  show (FloatOps.matmul dot_S2000x128_S128x128_S2000x128_1_0_0_1_n_n none
          (truncf .bf16 (shapeCast S2000x128 x0 shapeCasts_S2000x128_S2000x128) bitsLt_bf16_f32) (truncf .bf16 x2 bitsLt_bf16_f32)
          (constant (F := Ideal) S2000x128 .f32 0x00000000#32) (ix2 p q)
        + FloatOps.matmul dot_S2000x128_S128x128_S2000x128_1_0_0_1_n_n none
          (truncf .bf16 (shapeCast S2000x128 x1 shapeCasts_S2000x128_S2000x128) bitsLt_bf16_f32)
          (truncf .bf16 (shapeCast S128x128 x3 shapeCasts_S128x128_S128x128) bitsLt_bf16_f32)
          (constant (F := Ideal) S2000x128 .f32 0x00000000#32) (ix2 p q))
      + broadcastTo S2000x128 (shapeCast S1x128 x4 shapeCasts_S1x128_S1x128) broadcasts_S1x128_S2000x128 (ix2 p q) = _
  rw [dot2_eq, matmul_plain_apply _ none _ _ p q, matmul_plain_apply _ none _ _ p q,
    broadcastTo_1b_ab_apply _ broadcasts_S1x128_S2000x128 p q, shapeCast_self x0, shapeCast_self x1, shapeCast_self x3, shapeCast_self x4]
  rfl

/-! ## A block of rows of the layer is the layer of the block of rows -/

theorem lin_rows2 {M N K C : Nat} (A X : FVec Ideal ⟨2, ![N, K]⟩ .f32) (Wl Wc : FVec Ideal ⟨2, ![K, C]⟩ .f32)
    (b : FVec Ideal ⟨2, ![1, C]⟩ .f32) (a x : FVec Ideal ⟨2, ![M, K]⟩ .f32) (wl wc : FVec Ideal ⟨2, ![K, C]⟩ .f32)
    (b' : FVec Ideal ⟨2, ![1, C]⟩ .f32) (r : Fin M → Fin N)
    (ha : ∀ p k, a (ix2 p k) = A (ix2 (r p) k)) (hx : ∀ p k, x (ix2 p k) = X (ix2 (r p) k))
    (hwl : wl = Wl) (hwc : wc = Wc) (hb : b' = b) (p : Fin M) (q : Fin C) :
    lin a x wl wc b' (ix2 p q) = lin A X Wl Wc b (ix2 (r p) q) := by
  subst hwl hwc hb
  rw [lin_apply, lin_apply]
  simp only [ha, hx]

/-! ## The windows' index maps, decided over the 25 points -/

theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_5.index t (0 : Fin 2) = t.val ∧ win2_5.index t (1 : Fin 2) = 0 :=
  (by decide +kernel : ∀ t : Fin grid2.N, _)

theorem idx2_whole : ∀ t : Fin cfg2.N,
    win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

variable (V : (c : Dev nD) → (b : Ref sig .tc) → Buf (Elt Ideal) ((c : Thread nD τ).loc b))

/-- The row of the array that row p of point t's block is. -/
def row2 (t : Fin cfg2.N) (p : Fin 2000) : Fin 50000 :=
  ⟨t.val * 2000 + p.val, by have := t.isLt; have hN : cfg2.N = 25 := N_2; have := p.isLt; omega⟩

/-! ## The input blocks as rows of the arrays -/

theorem blk2_0 (c : Dev nD) (t : Fin cfg2.N) (p : Fin 2000) (k : Fin 128) :
    (iblk2 V c 0 t : FVec Ideal S2000x128 .f32) (ix2 p k) = (V c main_v46 : FVec Ideal S50000x128 .f32) (ix2 (row2 t p) k) := by
  have e0 := (idx2 t).1
  have e1 := (idx2 t).2.1
  unfold iblk2
  rw [View.read_apply]
  show V c main_v46 _ = V c main_v46 _
  refine congrArg (V c main_v46) (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 128 + 1 * k.val = k.val; rw [e1]; omega

theorem blk2_1 (c : Dev nD) (t : Fin cfg2.N) (p : Fin 2000) (k : Fin 128) :
    (iblk2 V c 1 t : FVec Ideal S2000x128 .f32) (ix2 p k) = (V c main_v34 : FVec Ideal S50000x128 .f32) (ix2 (row2 t p) k) := by
  have e0 := (idx2 t).2.2.1
  have e1 := (idx2 t).2.2.2.1
  unfold iblk2
  rw [View.read_apply]
  show V c main_v34 _ = V c main_v34 _
  refine congrArg (V c main_v34) (funext fun a => Fin.ext ?_)
  match a with
  | ⟨0, _⟩ => show win2_1.index t (0 : Fin 2) * 2000 + 1 * p.val = t.val * 2000 + p.val; rw [e0]; omega
  | ⟨1, _⟩ => show win2_1.index t (1 : Fin 2) * 128 + 1 * k.val = k.val; rw [e1]; omega

theorem blk2_2 (c : Dev nD) (t : Fin cfg2.N) :
    (iblk2 V c 2 t : FVec Ideal S128x128 .f32) = (V c main_arg7 : FVec Ideal S128x128 .f32) := by
  have e0 := (idx2_whole t).1
  have e1 := (idx2_whole t).2.1
  funext j
  unfold iblk2
  rw [View.read_apply]
  show V c main_arg7 _ = V c main_arg7 _
  refine congrArg (V c main_arg7) (funext fun a => Fin.ext ?_)
  match a with
  | ⟨0, _⟩ => show win2_2.index t (0 : Fin 2) * 128 + 1 * (j 0).val = (j 0).val; rw [e0]; omega
  | ⟨1, _⟩ => show win2_2.index t (1 : Fin 2) * 128 + 1 * (j 1).val = (j 1).val; rw [e1]; omega

theorem blk2_3 (c : Dev nD) (t : Fin cfg2.N) :
    (iblk2 V c 3 t : FVec Ideal S128x128 .f32) = (V c main_v10 : FVec Ideal S128x128 .f32) := by
  have e0 := (idx2_whole t).2.2.1
  have e1 := (idx2_whole t).2.2.2.1
  funext j
  unfold iblk2
  rw [View.read_apply]
  show V c main_v10 _ = V c main_v10 _
  refine congrArg (V c main_v10) (funext fun a => Fin.ext ?_)
  match a with
  | ⟨0, _⟩ => show win2_3.index t (0 : Fin 2) * 128 + 1 * (j 0).val = (j 0).val; rw [e0]; omega
  | ⟨1, _⟩ => show win2_3.index t (1 : Fin 2) * 128 + 1 * (j 1).val = (j 1).val; rw [e1]; omega

theorem blk2_4 (c : Dev nD) (t : Fin cfg2.N) :
    (iblk2 V c 4 t : FVec Ideal S1x128 .f32) = (V c main_v47 : FVec Ideal S1x128 .f32) := by
  have e0 := (idx2_whole t).2.2.2.2.1
  have e1 := (idx2_whole t).2.2.2.2.2
  funext j
  unfold iblk2
  rw [View.read_apply]
  show V c main_v47 _ = V c main_v47 _
  refine congrArg (V c main_v47) (funext fun a => Fin.ext ?_)
  match a with
  | ⟨0, _⟩ => show win2_4.index t (0 : Fin 2) * 1 + 1 * (j 0).val = (j 0).val; rw [e0]; omega
  | ⟨1, _⟩ => show win2_4.index t (1 : Fin 2) * 128 + 1 * (j 1).val = (j 1).val; rw [e1]; omega

/-! ## What a point writes back, and the whole array -/

/-- The layer of the arrays the region finds. -/
def G2 (c : Dev nD) : FVec Ideal S50000x128 .f32 :=
  lin (V c main_v46 : FVec Ideal S50000x128 .f32) (V c main_v34 : FVec Ideal S50000x128 .f32)
    (V c main_arg7 : FVec Ideal S128x128 .f32) (V c main_v10 : FVec Ideal S128x128 .f32) (V c main_v47 : FVec Ideal S1x128 .f32)

/-- The stored value of point t's input blocks, read at (p, q), is the layer of the whole arrays at row 2000 t + p. -/
theorem pay2_blocks_apply (c : Dev nD) (t : Fin cfg2.N) (p : Fin 2000) (q : Fin 128) :
    k2_pay2 (F := Ideal) (iblk2 V c 0 t) (iblk2 V c 1 t) (iblk2 V c 2 t) (iblk2 V c 3 t) (iblk2 V c 4 t) (ix2 p q) = G2 V c (ix2 (row2 t p) q) := by
  refine (congrFun (pay2_eq (iblk2 V c 0 t) (iblk2 V c 1 t) (iblk2 V c 2 t) (iblk2 V c 3 t) (iblk2 V c 4 t)) (ix2 p q)).trans ?_
  exact lin_rows2 _ _ _ _ _ _ _ _ _ _ (row2 t) (blk2_0 V c t) (blk2_1 V c t) (blk2_2 V c t) (blk2_3 V c t) (blk2_4 V c t) p q

/-- At every point the block output's buffer after the body is the layer's formula on the point's input blocks:
    at the first point, -/
theorem outs2_5_A (c : Dev nD) (t : Fin cfg2.N) (h0 : t.val % 25 = 0) (h1 : ¬t.val % 25 = 24) :
    (outsAt2 V c t.val t.isLt).1 = lin (iblk2 V c 0 t) (iblk2 V c 1 t) (iblk2 V c 2 t) (iblk2 V c 3 t) (iblk2 V c 4 t) := by
  rw [outsAt2_A V c t h0 h1]
  dsimp only
  refine (out2_A_5_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _)
    ((hcond2_0 t).mpr h0) (fun h => h1 ((hcond2_1 t).mp h)) (iblk2 V c 0 t) (iblk2 V c 1 t) (iblk2 V c 2 t) (iblk2 V c 3 t) (iblk2 V c 4 t)).trans ?_
  exact pay2_eq (iblk2 V c 0 t) (iblk2 V c 1 t) (iblk2 V c 2 t) (iblk2 V c 3 t) (iblk2 V c 4 t)

/-- at a middle point, -/
theorem outs2_5_B (c : Dev nD) (t : Fin cfg2.N) (h0 : ¬t.val % 25 = 0) (h1 : ¬t.val % 25 = 24) :
    (outsAt2 V c t.val t.isLt).1 = lin (iblk2 V c 0 t) (iblk2 V c 1 t) (iblk2 V c 2 t) (iblk2 V c 3 t) (iblk2 V c 4 t) := by
  rw [outsAt2_B V c t h0 h1]
  dsimp only
  refine (out2_B_5_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _)
    (fun h => h0 ((hcond2_0 t).mp h)) (fun h => h1 ((hcond2_1 t).mp h)) (iblk2 V c 0 t) (iblk2 V c 1 t) (iblk2 V c 2 t) (iblk2 V c 3 t) (iblk2 V c 4 t)
    (outsAt2 V c (t.val - 1) (Nat.lt_of_le_of_lt (Nat.sub_le _ _) t.isLt)).2.2.2.1 (outsAt2 V c (t.val - 1) (Nat.lt_of_le_of_lt (Nat.sub_le _ _) t.isLt)).2.2.2.2).trans ?_
  exact pay2_eq (iblk2 V c 0 t) (iblk2 V c 1 t) (iblk2 V c 2 t) (iblk2 V c 3 t) (iblk2 V c 4 t)

/-- at the last point. -/
theorem outs2_5_C (c : Dev nD) (t : Fin cfg2.N) (h0 : ¬t.val % 25 = 0) (h1 : t.val % 25 = 24) :
    (outsAt2 V c t.val t.isLt).1 = lin (iblk2 V c 0 t) (iblk2 V c 1 t) (iblk2 V c 2 t) (iblk2 V c 3 t) (iblk2 V c 4 t) := by
  rw [outsAt2_C V c t h0 h1]
  dsimp only
  refine (out2_C_5_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _)
    (fun h => h0 ((hcond2_0 t).mp h)) ((hcond2_1 t).mpr h1) (iblk2 V c 0 t) (iblk2 V c 1 t) (iblk2 V c 2 t) (iblk2 V c 3 t) (iblk2 V c 4 t)
    (outsAt2 V c (t.val - 1) (Nat.lt_of_le_of_lt (Nat.sub_le _ _) t.isLt)).2.2.2.1 (outsAt2 V c (t.val - 1) (Nat.lt_of_le_of_lt (Nat.sub_le _ _) t.isLt)).2.2.2.2).trans ?_
  exact pay2_eq (iblk2 V c 0 t) (iblk2 V c 1 t) (iblk2 V c 2 t) (iblk2 V c 3 t) (iblk2 V c 4 t)

theorem outs2_5 (c : Dev nD) (t : Fin cfg2.N) :
    (outsAt2 V c t.val t.isLt).1 = lin (iblk2 V c 0 t) (iblk2 V c 1 t) (iblk2 V c 2 t) (iblk2 V c 3 t) (iblk2 V c 4 t) := by
  by_cases h0 : t.val % 25 = 0
  · exact outs2_5_A V c t h0 (by omega)
  · by_cases h1 : t.val % 25 = 24
    · exact outs2_5_C V c t h0 h1
    · exact outs2_5_B V c t h0 h1

/-- Point t writes back rows 2000 t … 2000 t + 1999 of the layer of the whole arrays. -/
theorem flushed2_5_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  refine (congrArg ((cfg2.win 5).cut (grid2.coords t)) (outs2_5 V c t)).trans ?_
  have e0 := (idx2 t).2.2.2.2.1
  have e1 := (idx2 t).2.2.2.2.2
  funext j
  obtain ⟨p, q, rfl⟩ : ∃ (p : Fin 2000) (q : Fin 128), j = ix2 p q := ⟨j 0, j 1, eq_ix2 j⟩
  have hemb : ((cfg2.win 5).blk t).view.emb (ix2 p q) = (ix2 (row2 t p) q : S50000x128.Idx) := by
    funext a; apply Fin.ext
    match a with
    | ⟨0, _⟩ => show win2_5.index t (0 : Fin 2) * 2000 + 1 * p.val = t.val * 2000 + p.val; rw [e0]; omega
    | ⟨1, _⟩ => show win2_5.index t (1 : Fin 2) * 128 + 1 * q.val = q.val; rw [e1]; omega
  show lin (iblk2 V c 0 t) (iblk2 V c 1 t) (iblk2 V c 2 t) (iblk2 V c 3 t) (iblk2 V c 4 t) (ix2 p q)
    = G2 V c (((cfg2.win 5).blk t).view.emb (ix2 p q))
  rw [hemb]
  exact lin_rows2 _ _ _ _ _ _ _ _ _ _ (row2 t) (blk2_0 V c t) (blk2_1 V c t) (blk2_2 V c t) (blk2_3 V c t) (blk2_4 V c t) p q

/-- An index of the output array is in point t's block iff each coordinate is in the block's range on its axis. -/
theorem mem_blk2_5 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v48_0).slice (win2_5.rect t)).set ↔ _
  rw [View.set_slice_whole, Rect.mem_set_unit]
  exact Iff.rfl

/-- Row r lies in the block of point r / 2000. -/
theorem cover2_5 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  let t : Fin cfg2.N := ⟨(i 0).val / 2000, by omega⟩
  have e0 := (idx2 t).2.2.2.2.1
  have e1 := (idx2 t).2.2.2.2.2
  refine ⟨t, flush2_5 t, ?_⟩
  rw [mem_blk2_5]
  intro a
  match a with
  | ⟨0, _⟩ =>
    show win2_5.index t (0 : Fin 2) * 2000 ≤ (i 0).val ∧ (i 0).val < win2_5.index t (0 : Fin 2) * 2000 + 2000
    rw [e0]; show (i 0).val / 2000 * 2000 ≤ (i 0).val ∧ (i 0).val < (i 0).val / 2000 * 2000 + 2000; omega
  | ⟨1, _⟩ =>
    show win2_5.index t (1 : Fin 2) * 128 ≤ (i 1).val ∧ (i 1).val < win2_5.index t (1 : Fin 2) * 128 + 128
    rw [e1]; omega

/-- THE ARRAY OF H AFTER THE REGION is the layer of the arrays the region found. -/
theorem final2_5 (c : Dev nD) : (dat2 (F := Ideal) V c).arrAt 5 cfg2.N
    = lin (V c main_v46 : FVec Ideal S50000x128 .f32) (V c main_v34 : FVec Ideal S50000x128 .f32)
        (V c main_arg7 : FVec Ideal S128x128 .f32) (V c main_v10 : FVec Ideal S128x128 .f32) (V c main_v47 : FVec Ideal S1x128 .f32) :=
  (dat2 V c).arrAt_eq_of_cover 5 (G2 V c) (fun t _ => flushed2_5_eq V c t) cover2_5

end Cert.KernelIdeal.HandVal

end
-- ==== Proof.KI.Val2S.lean ====
/-
  THE SECOND LINEAR LAYER'S REGION, READ AT ITS TWO STATISTICS OUTPUTS: AFTER THE REGION THEY HOLD THE COLUMN SUMS AND THE
  COLUMN SUMS OF SQUARES OF THE LAYER OF THE ARRAYS THE REGION FOUND.

  The region walks over the 25 blocks of 2000 rows.  At each block it forms the block of H (the layer's formula on the
  block's rows) and adds, for every column q, the sum of H (p, q) over the block's rows p into entry q of one scratch
  row, and the sum of H (p, q)² into entry q of a second scratch row; before the first block it sets both rows to the
  pattern of zero, which denotes the number zero, and after the last block it copies the two rows into the two outputs,
  which it writes at no other block.  So after block n the first scratch row holds, at q, the sum over the blocks
  t ≤ n and their rows p of H (2000 t + p, q) — by induction on n, the first block adding to zero and each later one to
  what the block before left — and likewise the second row with squares.  Row r of the array is row r % 2000 of block
  r / 2000, so summing block by block and then over a block's rows is summing over all 50000 rows: after the last
  block the rows hold the column sums and the column sums of squares of H.  Addition of extended reals is commutative
  and associative, so no finiteness is needed.  The outputs are one-row arrays that are their own single block, written
  back at the last block only: they end holding exactly those two rows.
-/
import proofs.«126844_j8246337208554_1_alg».proof.Proof.KI.Val2H
import proofs.«126844_j8246337208554_1_alg».proof.Proof.KI.Val0S
import Idealize.ShloMosaic.Lib.ValueLayout
import Idealize.ShloMosaic.PureOps.Ideal.Laws

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.Tactic Idealize.SL.Sem Idealize.ShloMosaic.ValueIdx
open Idealize.ShloMosaic.Pipeline (Dat)
open Cert.Sage Cert.MatOps Cert.LayerForms Cert.DenseStages

/-! ## The stored values at an entry, on the exact reals -/

/-- The row the first scratch row is set to before the first block is zero everywhere. -/
theorem k2pay3_apply (z : Fin 1) (q : Fin 128) : k2_pay3 (F := Ideal) (ix2 z q) = 0 := by
  unfold k2_pay3
  rw [shapeCast_self]
  exact Ideal.ofBits_zero_f32

/-- So is the row the second scratch row is set to. -/
theorem k2pay4_apply (z : Fin 1) (q : Fin 128) : k2_pay4 (F := Ideal) (ix2 z q) = 0 := by
  unfold k2_pay4
  rw [shapeCast_self]
  exact Ideal.ofBits_zero_f32

/-- The first scratch row's new value: the old one plus the block's column sums. -/
theorem k2pay5_apply (x0 x1 : FVec Ideal S2000x128 .f32) (x2 x3 : FVec Ideal S128x128 .f32) (x4 v21 : FVec Ideal S1x128 .f32)
    (z : Fin 1) (q : Fin 128) :
    k2_pay5 (F := Ideal) x0 x1 x2 x3 x4 v21 (ix2 z q)
      = v21 (ix2 z q) + ∑ p : Fin 2000, k2_pay2 (F := Ideal) x0 x1 x2 x3 x4 (ix2 p q) := by
  unfold k2_pay5
  rw [shapeCast_self]
  exact congrArg (v21 (ix2 z q) + ·) (rowsum_cast (k2_pay2 (F := Ideal) x0 x1 x2 x3 x4) _ _ _ _ z q)

/-- The sum over the rows of a block as a vector: entry q is the sum of column q. -/
theorem rowsum_vec2 (H : FVec Ideal S2000x128 .f32) (hr : S2000x128.Reduces [0] S128) (hφ : FKind.Formats .f32)
    (hacc : (0x00000000#32 : BitVec 32) = 0x00000000#32) (q : Fin 128) :
    multiReduction (F := Ideal) .add [0] S128 H 0x00000000#32 hr hφ hacc (ix1 q) = ∑ p : Fin 2000, H (ix2 p q) := by
  refine (Ideal.multiReduction_add_single H 0x00000000#32 hr hφ hacc (ix1 q)).trans ?_
  refine Finset.sum_congr rfl fun p _ => congrArg H ?_
  funext a
  apply Fin.ext
  match a with
  | ⟨0, _⟩ => rfl
  | ⟨1, _⟩ => rfl

/-- The block's column sums of squares, as a vector. -/
theorem k2pay6_apply (x0 x1 : FVec Ideal S2000x128 .f32) (x2 x3 : FVec Ideal S128x128 .f32) (x4 : FVec Ideal S1x128 .f32)
    (q : Fin 128) :
    k2_pay6 (F := Ideal) x0 x1 x2 x3 x4 (ix1 q)
      = ∑ p : Fin 2000, k2_pay2 (F := Ideal) x0 x1 x2 x3 x4 (ix2 p q) * k2_pay2 (F := Ideal) x0 x1 x2 x3 x4 (ix2 p q) := by
  unfold k2_pay6
  exact rowsum_vec2 (mulf (k2_pay2 (F := Ideal) x0 x1 x2 x3 x4) (k2_pay2 (F := Ideal) x0 x1 x2 x3 x4)) _ _ _ q

/-- The second scratch row's new value: the old one plus the vector that is added, laid as one row. -/
theorem k2pay1_apply (v29 : FVec Ideal S1x128 .f32) (v31 : FVec Ideal S128 .f32) (z : Fin 1) (q : Fin 128) :
    k2_pay1 (F := Ideal) v29 v31 (ix2 z q) = v29 (ix2 z q) + v31 (ix1 q) := by
  unfold k2_pay1
  rw [shapeCast_self]
  show v29 (ix2 z q) + shapeCast S1x128 v31 shapeCasts_S128_S1x128 (ix2 z q) = _
  rw [shapeCast_a_1a_apply v31 shapeCasts_S128_S1x128 z q]

/-! ## What each kind of block leaves in the scratch rows and in the statistics outputs -/

section pieces

variable {F : FTy → Type} [FloatOps F]
variable (c : Dev nD) (i : grid2.Coords) (arg1 : Memref sig .tc .vmem S2000x128 .f32) (harg1 : arg1.IsWhole)
  (arg2 : Memref sig .tc .vmem S2000x128 .f32) (harg2 : arg2.IsWhole) (arg3 : Memref sig .tc .vmem S128x128 .f32) (harg3 : arg3.IsWhole)
  (arg4 : Memref sig .tc .vmem S128x128 .f32) (harg4 : arg4.IsWhole) (arg5 : Memref sig .tc .vmem S1x128 .f32) (harg5 : arg5.IsWhole)
  (arg6 : Memref sig .tc .vmem S2000x128 .f32) (harg6 : arg6.IsWhole) (arg7 : Memref sig .tc .vmem S1x128 .f32) (harg7 : arg7.IsWhole)
  (arg8 : Memref sig .tc .vmem S1x128 .f32) (harg8 : arg8.IsWhole) (arg9 : Memref sig .tc .vmem S1x128 .f32) (harg9 : arg9.IsWhole)
  (arg10 : Memref sig .tc .vmem S1x128 .f32) (harg10 : arg10.IsWhole)

/-- At the first block the first scratch row is set to the zero row and then the block's column sums are added. -/
theorem sout2_A_0_eq (hc0 : cond2_0 i) (hc1 : ¬cond2_1 i)
    (x0 x1 : Vec F S2000x128 .f32) (x2 x3 : Vec F S128x128 .f32) (x4 : Vec F S1x128 .f32) :
    sout2_A_0 c i arg1 harg1 arg2 harg2 arg3 harg3 arg4 harg4 arg5 harg5 arg6 harg6 arg7 harg7 arg8 harg8 arg9 harg9 arg10 harg10 hc0 hc1 x0 x1 x2 x3 x4
      = k2_pay5 x0 x1 x2 x3 x4 (k2_pay3 (F := F)) := by
  unfold sout2_A_0
  rw [View.read_writes_eq_canon _ _ _ (scover2_A_0 c i arg1 harg1 arg2 harg2 arg3 harg3 arg4 harg4 arg5 harg5 arg6 harg6 arg7 harg7 arg8 harg8 arg9 harg9 arg10 harg10 hc0 hc1 x0 x1 x2 x3 x4)]
  unfold kernelRun2_A
  dsimp only
  sl_unfold_words
  rw [View.canon_cons_unit_zero (S := S1x128) zeros2_2, View.readCov_unit_zero (S := S1x128) _ zeros2_2]
  simp only [View.readAt_eq_ld, harg1.read_unread, harg2.read_unread, harg3.read_unread, harg4.read_unread, harg5.read_unread,
    View.ld_unit_zero (S := S2000x128) zeros2_2, View.ld_unit_zero (S := S128x128) zeros2_2, View.ld_unit_zero (S := S1x128) zeros2_2]

/-- … and the second scratch row is set to the zero row and then the block's column sums of squares are added. -/
theorem sout2_A_1_eq (hc0 : cond2_0 i) (hc1 : ¬cond2_1 i)
    (x0 x1 : Vec F S2000x128 .f32) (x2 x3 : Vec F S128x128 .f32) (x4 : Vec F S1x128 .f32) :
    sout2_A_1 c i arg1 harg1 arg2 harg2 arg3 harg3 arg4 harg4 arg5 harg5 arg6 harg6 arg7 harg7 arg8 harg8 arg9 harg9 arg10 harg10 hc0 hc1 x0 x1 x2 x3 x4
      = k2_pay1 (k2_pay4 (F := F)) (k2_pay6 x0 x1 x2 x3 x4) := by
  unfold sout2_A_1
  rw [View.read_writes_eq_canon _ _ _ (scover2_A_1 c i arg1 harg1 arg2 harg2 arg3 harg3 arg4 harg4 arg5 harg5 arg6 harg6 arg7 harg7 arg8 harg8 arg9 harg9 arg10 harg10 hc0 hc1 x0 x1 x2 x3 x4)]
  unfold kernelRun2_A
  dsimp only
  sl_unfold_words
  rw [View.canon_cons_unit_zero (S := S1x128) zeros2_2, View.readCov_unit_zero (S := S1x128) _ zeros2_2]
  simp only [View.readAt_eq_ld, harg1.read_unread, harg2.read_unread, harg3.read_unread, harg4.read_unread, harg5.read_unread,
    View.ld_unit_zero (S := S2000x128) zeros2_2, View.ld_unit_zero (S := S128x128) zeros2_2, View.ld_unit_zero (S := S1x128) zeros2_2]

/-- At a middle block the block's column sums are added to what the first scratch row held. -/
theorem sout2_B_0_eq (hc0 : ¬cond2_0 i) (hc1 : ¬cond2_1 i)
    (x0 x1 : Vec F S2000x128 .f32) (x2 x3 : Vec F S128x128 .f32) (x4 xs0 xs1 : Vec F S1x128 .f32) :
    sout2_B_0 c i arg1 harg1 arg2 harg2 arg3 harg3 arg4 harg4 arg5 harg5 arg6 harg6 arg7 harg7 arg8 harg8 arg9 harg9 arg10 harg10 hc0 hc1 x0 x1 x2 x3 x4 xs0 xs1
      = k2_pay5 x0 x1 x2 x3 x4 xs0 := by
  unfold sout2_B_0
  rw [View.read_writes_eq_canon _ _ _ (scover2_B_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_B
  dsimp only
  try sl_unfold_words
  rw [View.canon_unit_zero zeros2_2]
  simp only [View.readAt_eq_ld, harg1.read_unread, harg2.read_unread, harg3.read_unread, harg4.read_unread, harg5.read_unread,
    harg9.read_unread, harg10.read_unread,
    View.ld_unit_zero (S := S2000x128) zeros2_2, View.ld_unit_zero (S := S128x128) zeros2_2, View.ld_unit_zero (S := S1x128) zeros2_2]

/-- … and the block's column sums of squares to what the second scratch row held. -/
theorem sout2_B_1_eq (hc0 : ¬cond2_0 i) (hc1 : ¬cond2_1 i)
    (x0 x1 : Vec F S2000x128 .f32) (x2 x3 : Vec F S128x128 .f32) (x4 xs0 xs1 : Vec F S1x128 .f32) :
    sout2_B_1 c i arg1 harg1 arg2 harg2 arg3 harg3 arg4 harg4 arg5 harg5 arg6 harg6 arg7 harg7 arg8 harg8 arg9 harg9 arg10 harg10 hc0 hc1 x0 x1 x2 x3 x4 xs0 xs1
      = k2_pay1 xs1 (k2_pay6 x0 x1 x2 x3 x4) := by
  unfold sout2_B_1
  rw [View.read_writes_eq_canon _ _ _ (scover2_B_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_B
  dsimp only
  try sl_unfold_words
  rw [View.canon_unit_zero zeros2_2]
  simp only [View.readAt_eq_ld, harg1.read_unread, harg2.read_unread, harg3.read_unread, harg4.read_unread, harg5.read_unread,
    harg9.read_unread, harg10.read_unread,
    View.ld_unit_zero (S := S2000x128) zeros2_2, View.ld_unit_zero (S := S128x128) zeros2_2, View.ld_unit_zero (S := S1x128) zeros2_2]

/-- At the last block the scratch rows are updated as at a middle block … -/
theorem sout2_C_0_eq (hc0 : ¬cond2_0 i) (hc1 : cond2_1 i)
    (x0 x1 : Vec F S2000x128 .f32) (x2 x3 : Vec F S128x128 .f32) (x4 xs0 xs1 : Vec F S1x128 .f32) :
    sout2_C_0 c i arg1 harg1 arg2 harg2 arg3 harg3 arg4 harg4 arg5 harg5 arg6 harg6 arg7 harg7 arg8 harg8 arg9 harg9 arg10 harg10 hc0 hc1 x0 x1 x2 x3 x4 xs0 xs1
      = k2_pay5 x0 x1 x2 x3 x4 xs0 := by
  unfold sout2_C_0
  rw [View.read_writes_eq_canon _ _ _ (scover2_C_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  try sl_unfold_words
  rw [View.canon_unit_zero zeros2_2]
  simp only [View.readAt_eq_ld, harg1.read_unread, harg2.read_unread, harg3.read_unread, harg4.read_unread, harg5.read_unread,
    harg9.read_unread, harg10.read_unread,
    View.ld_unit_zero (S := S2000x128) zeros2_2, View.ld_unit_zero (S := S128x128) zeros2_2, View.ld_unit_zero (S := S1x128) zeros2_2]

theorem sout2_C_1_eq (hc0 : ¬cond2_0 i) (hc1 : cond2_1 i)
    (x0 x1 : Vec F S2000x128 .f32) (x2 x3 : Vec F S128x128 .f32) (x4 xs0 xs1 : Vec F S1x128 .f32) :
    sout2_C_1 c i arg1 harg1 arg2 harg2 arg3 harg3 arg4 harg4 arg5 harg5 arg6 harg6 arg7 harg7 arg8 harg8 arg9 harg9 arg10 harg10 hc0 hc1 x0 x1 x2 x3 x4 xs0 xs1
      = k2_pay1 xs1 (k2_pay6 x0 x1 x2 x3 x4) := by
  unfold sout2_C_1
  rw [View.read_writes_eq_canon _ _ _ (scover2_C_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  try sl_unfold_words
  rw [View.canon_unit_zero zeros2_2]
  simp only [View.readAt_eq_ld, harg1.read_unread, harg2.read_unread, harg3.read_unread, harg4.read_unread, harg5.read_unread,
    harg9.read_unread, harg10.read_unread,
    View.ld_unit_zero (S := S2000x128) zeros2_2, View.ld_unit_zero (S := S128x128) zeros2_2, View.ld_unit_zero (S := S1x128) zeros2_2]

/-- … and then copied into the two statistics outputs: the column-sum output receives the first scratch row … -/
theorem out2_C_6_eq (hc0 : ¬cond2_0 i) (hc1 : cond2_1 i)
    (x0 x1 : Vec F S2000x128 .f32) (x2 x3 : Vec F S128x128 .f32) (x4 xs0 xs1 : Vec F S1x128 .f32) :
    out2_C_6 c i arg1 harg1 arg2 harg2 arg3 harg3 arg4 harg4 arg5 harg5 arg6 harg6 arg7 harg7 arg8 harg8 arg9 harg9 arg10 harg10 hc0 hc1 x0 x1 x2 x3 x4 xs0 xs1
      = k2_pay5 x0 x1 x2 x3 x4 xs0 := by
  unfold out2_C_6
  rw [View.read_writes_eq_canon _ _ _ (cover2_C_6 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  try sl_unfold_words
  rw [View.canon_unit_zero zeros2_2, View.readCov_unit_zero (S := S1x128) _ zeros2_2]
  simp only [View.readAt_eq_ld, harg1.read_unread, harg2.read_unread, harg3.read_unread, harg4.read_unread, harg5.read_unread,
    harg9.read_unread, harg10.read_unread,
    View.ld_unit_zero (S := S2000x128) zeros2_2, View.ld_unit_zero (S := S128x128) zeros2_2, View.ld_unit_zero (S := S1x128) zeros2_2]

/-- … and the sum-of-squares output the second. -/
theorem out2_C_7_eq (hc0 : ¬cond2_0 i) (hc1 : cond2_1 i)
    (x0 x1 : Vec F S2000x128 .f32) (x2 x3 : Vec F S128x128 .f32) (x4 xs0 xs1 : Vec F S1x128 .f32) :
    out2_C_7 c i arg1 harg1 arg2 harg2 arg3 harg3 arg4 harg4 arg5 harg5 arg6 harg6 arg7 harg7 arg8 harg8 arg9 harg9 arg10 harg10 hc0 hc1 x0 x1 x2 x3 x4 xs0 xs1
      = k2_pay1 xs1 (k2_pay6 x0 x1 x2 x3 x4) := by
  unfold out2_C_7
  rw [View.read_writes_eq_canon _ _ _ (cover2_C_7 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  try sl_unfold_words
  rw [View.canon_unit_zero zeros2_2, View.readCov_unit_zero (S := S1x128) _ zeros2_2]
  simp only [View.readAt_eq_ld, harg1.read_unread, harg2.read_unread, harg3.read_unread, harg4.read_unread, harg5.read_unread,
    harg9.read_unread, harg10.read_unread,
    View.ld_unit_zero (S := S2000x128) zeros2_2, View.ld_unit_zero (S := S128x128) zeros2_2, View.ld_unit_zero (S := S1x128) zeros2_2]

end pieces

/-! ## One block's contribution -/

variable (V : (c : Dev nD) → (b : Ref sig .tc) → Buf (Elt Ideal) ((c : Thread nD τ).loc b))

/-- Column q of the layer of the arrays the region finds, as a function of the row. -/
def colOf2 (c : Dev nD) (q : Fin 128) : Fin 50000 → EReal := fun r => G2 V c (ix2 r q)

/-- The square of that entry. -/
def colSqOf2 (c : Dev nD) (q : Fin 128) : Fin 50000 → EReal := fun r => G2 V c (ix2 r q) * G2 V c (ix2 r q)

/-- The column sums of block t's block of H are the sums of the layer's column over the block's rows. -/
theorem blk_sum2 (c : Dev nD) (t : Fin cfg2.N) (q : Fin 128) :
    ∑ p : Fin 2000, k2_pay2 (F := Ideal) (iblk2 V c 0 t) (iblk2 V c 1 t) (iblk2 V c 2 t) (iblk2 V c 3 t) (iblk2 V c 4 t) (ix2 p q)
      = blkSum (colOf2 V c q) t.val := by
  have ht : t.val < 25 := lt_of_lt_of_eq t.isLt N_2
  unfold blkSum
  rw [dif_pos ht]
  exact Finset.sum_congr rfl fun p _ => pay2_blocks_apply V c t p q

/-- Likewise the sums of squares. -/
theorem blk_sumsq2 (c : Dev nD) (t : Fin cfg2.N) (q : Fin 128) :
    ∑ p : Fin 2000, k2_pay2 (F := Ideal) (iblk2 V c 0 t) (iblk2 V c 1 t) (iblk2 V c 2 t) (iblk2 V c 3 t) (iblk2 V c 4 t) (ix2 p q)
        * k2_pay2 (F := Ideal) (iblk2 V c 0 t) (iblk2 V c 1 t) (iblk2 V c 2 t) (iblk2 V c 3 t) (iblk2 V c 4 t) (ix2 p q)
      = blkSum (colSqOf2 V c q) t.val := by
  have ht : t.val < 25 := lt_of_lt_of_eq t.isLt N_2
  unfold blkSum
  rw [dif_pos ht]
  exact Finset.sum_congr rfl fun p _ => congrArg₂ (· * ·) (pay2_blocks_apply V c t p q) (pay2_blocks_apply V c t p q)

/-! ## The scratch rows and the statistics outputs after block t, by the kind of block -/

/-- After the first block: zero plus the block's sums. -/
theorem scr2A_0 (c : Dev nD) (t : Fin cfg2.N) (h0 : t.val % 25 = 0) (h1 : ¬t.val % 25 = 24) :
    (outsAt2 V c t.val t.isLt).2.2.2.1
      = k2_pay5 (F := Ideal) (iblk2 V c 0 t) (iblk2 V c 1 t) (iblk2 V c 2 t) (iblk2 V c 3 t) (iblk2 V c 4 t) (k2_pay3 (F := Ideal)) := by
  rw [outsAt2_A V c t h0 h1]
  exact sout2_A_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t)

theorem scr2A_1 (c : Dev nD) (t : Fin cfg2.N) (h0 : t.val % 25 = 0) (h1 : ¬t.val % 25 = 24) :
    (outsAt2 V c t.val t.isLt).2.2.2.2
      = k2_pay1 (F := Ideal) (k2_pay4 (F := Ideal))
          (k2_pay6 (F := Ideal) (iblk2 V c 0 t) (iblk2 V c 1 t) (iblk2 V c 2 t) (iblk2 V c 3 t) (iblk2 V c 4 t)) := by
  rw [outsAt2_A V c t h0 h1]
  exact sout2_A_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t)

/-- After a middle block: what the block before left plus the block's sums. -/
theorem scr2B_0 (c : Dev nD) (t : Fin cfg2.N) (h0 : ¬t.val % 25 = 0) (h1 : ¬t.val % 25 = 24) :
    (outsAt2 V c t.val t.isLt).2.2.2.1
      = k2_pay5 (F := Ideal) (iblk2 V c 0 t) (iblk2 V c 1 t) (iblk2 V c 2 t) (iblk2 V c 3 t) (iblk2 V c 4 t)
          (outsAt2 V c (t.val - 1) (Nat.lt_of_le_of_lt (Nat.sub_le _ _) t.isLt)).2.2.2.1 := by
  rw [outsAt2_B V c t h0 h1]
  exact sout2_B_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2

theorem scr2B_1 (c : Dev nD) (t : Fin cfg2.N) (h0 : ¬t.val % 25 = 0) (h1 : ¬t.val % 25 = 24) :
    (outsAt2 V c t.val t.isLt).2.2.2.2
      = k2_pay1 (F := Ideal) (outsAt2 V c (t.val - 1) (Nat.lt_of_le_of_lt (Nat.sub_le _ _) t.isLt)).2.2.2.2
          (k2_pay6 (F := Ideal) (iblk2 V c 0 t) (iblk2 V c 1 t) (iblk2 V c 2 t) (iblk2 V c 3 t) (iblk2 V c 4 t)) := by
  rw [outsAt2_B V c t h0 h1]
  exact sout2_B_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2

/-- After the last block: the same, … -/
theorem scr2C_0 (c : Dev nD) (t : Fin cfg2.N) (h0 : ¬t.val % 25 = 0) (h1 : t.val % 25 = 24) :
    (outsAt2 V c t.val t.isLt).2.2.2.1
      = k2_pay5 (F := Ideal) (iblk2 V c 0 t) (iblk2 V c 1 t) (iblk2 V c 2 t) (iblk2 V c 3 t) (iblk2 V c 4 t)
          (outsAt2 V c (t.val - 1) (Nat.lt_of_le_of_lt (Nat.sub_le _ _) t.isLt)).2.2.2.1 := by
  rw [outsAt2_C V c t h0 h1]
  exact sout2_C_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2

theorem scr2C_1 (c : Dev nD) (t : Fin cfg2.N) (h0 : ¬t.val % 25 = 0) (h1 : t.val % 25 = 24) :
    (outsAt2 V c t.val t.isLt).2.2.2.2
      = k2_pay1 (F := Ideal) (outsAt2 V c (t.val - 1) (Nat.lt_of_le_of_lt (Nat.sub_le _ _) t.isLt)).2.2.2.2
          (k2_pay6 (F := Ideal) (iblk2 V c 0 t) (iblk2 V c 1 t) (iblk2 V c 2 t) (iblk2 V c 3 t) (iblk2 V c 4 t)) := by
  rw [outsAt2_C V c t h0 h1]
  exact sout2_C_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2

/-- … and the two statistics outputs' buffers are the two scratch rows as the last block leaves them. -/
theorem outs2_6 (c : Dev nD) (t : Fin cfg2.N) (h0 : ¬t.val % 25 = 0) (h1 : t.val % 25 = 24) :
    (outsAt2 V c t.val t.isLt).2.1 = (outsAt2 V c t.val t.isLt).2.2.2.1 := by
  rw [scr2C_0 V c t h0 h1, outsAt2_C V c t h0 h1]
  exact out2_C_6_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2

theorem outs2_7 (c : Dev nD) (t : Fin cfg2.N) (h0 : ¬t.val % 25 = 0) (h1 : t.val % 25 = 24) :
    (outsAt2 V c t.val t.isLt).2.2.1 = (outsAt2 V c t.val t.isLt).2.2.2.2 := by
  rw [scr2C_1 V c t h0 h1, outsAt2_C V c t h0 h1]
  exact out2_C_7_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2

/-! ## The scratch rows after each block -/

/-- After block t the first scratch row holds, at q, the sum over the blocks up to t of the blocks' sums of column q. -/
theorem scr2_0_eq (c : Dev nD) : ∀ (n : ℕ) (t : Fin cfg2.N), t.val = n → ∀ (z : Fin 1) (q : Fin 128),
    ((outsAt2 V c t.val t.isLt).2.2.2.1 : FVec Ideal S1x128 .f32) (ix2 z q)
      = ∑ s ∈ Finset.range (t.val + 1), blkSum (colOf2 V c q) s := by
  intro n
  induction n with
  | zero =>
    intro t ht z q
    have h0 : t.val % 25 = 0 := by omega
    have h1 : ¬t.val % 25 = 24 := by omega
    rw [scr2A_0 V c t h0 h1]
    refine (k2pay5_apply (iblk2 V c 0 t) (iblk2 V c 1 t) (iblk2 V c 2 t) (iblk2 V c 3 t) (iblk2 V c 4 t) (k2_pay3 (F := Ideal)) z q).trans ?_
    rw [k2pay3_apply z q, zero_add, blk_sum2 V c t q, ht, Finset.sum_range_succ, Finset.sum_range_zero, zero_add]
  | succ n ih =>
    intro t ht z q
    have hN : cfg2.N = 25 := N_2
    have htl := t.isLt
    have h0 : ¬t.val % 25 = 0 := by omega
    have ihp := ih ⟨t.val - 1, Nat.lt_of_le_of_lt (Nat.sub_le _ _) t.isLt⟩ (by show t.val - 1 = n; omega) z q
    have hs : ∑ s ∈ Finset.range (t.val - 1 + 1), blkSum (colOf2 V c q) s + blkSum (colOf2 V c q) t.val
        = ∑ s ∈ Finset.range (t.val + 1), blkSum (colOf2 V c q) s := by
      rw [show t.val - 1 + 1 = t.val from by omega, ← Finset.sum_range_succ]
    have hstep : k2_pay5 (F := Ideal) (iblk2 V c 0 t) (iblk2 V c 1 t) (iblk2 V c 2 t) (iblk2 V c 3 t) (iblk2 V c 4 t)
          (outsAt2 V c (t.val - 1) (Nat.lt_of_le_of_lt (Nat.sub_le _ _) t.isLt)).2.2.2.1 (ix2 z q)
        = ∑ s ∈ Finset.range (t.val + 1), blkSum (colOf2 V c q) s := by
      refine (k2pay5_apply (iblk2 V c 0 t) (iblk2 V c 1 t) (iblk2 V c 2 t) (iblk2 V c 3 t) (iblk2 V c 4 t)
        (outsAt2 V c (t.val - 1) (Nat.lt_of_le_of_lt (Nat.sub_le _ _) t.isLt)).2.2.2.1 z q).trans ?_
      rw [blk_sum2 V c t q]
      exact (congrArg (· + blkSum (colOf2 V c q) t.val) ihp).trans hs
    by_cases h1 : t.val % 25 = 24
    · rw [scr2C_0 V c t h0 h1]; exact hstep
    · rw [scr2B_0 V c t h0 h1]; exact hstep

/-- After block t the second scratch row holds, at q, the sum over the blocks up to t of the blocks' sums of squares of
    column q. -/
theorem scr2_1_eq (c : Dev nD) : ∀ (n : ℕ) (t : Fin cfg2.N), t.val = n → ∀ (z : Fin 1) (q : Fin 128),
    ((outsAt2 V c t.val t.isLt).2.2.2.2 : FVec Ideal S1x128 .f32) (ix2 z q)
      = ∑ s ∈ Finset.range (t.val + 1), blkSum (colSqOf2 V c q) s := by
  intro n
  induction n with
  | zero =>
    intro t ht z q
    have h0 : t.val % 25 = 0 := by omega
    have h1 : ¬t.val % 25 = 24 := by omega
    rw [scr2A_1 V c t h0 h1]
    refine (k2pay1_apply (k2_pay4 (F := Ideal))
      (k2_pay6 (F := Ideal) (iblk2 V c 0 t) (iblk2 V c 1 t) (iblk2 V c 2 t) (iblk2 V c 3 t) (iblk2 V c 4 t)) z q).trans ?_
    rw [k2pay4_apply z q, zero_add,
      k2pay6_apply (iblk2 V c 0 t) (iblk2 V c 1 t) (iblk2 V c 2 t) (iblk2 V c 3 t) (iblk2 V c 4 t) q,
      blk_sumsq2 V c t q, ht, Finset.sum_range_succ, Finset.sum_range_zero, zero_add]
  | succ n ih =>
    intro t ht z q
    have hN : cfg2.N = 25 := N_2
    have htl := t.isLt
    have h0 : ¬t.val % 25 = 0 := by omega
    have ihp := ih ⟨t.val - 1, Nat.lt_of_le_of_lt (Nat.sub_le _ _) t.isLt⟩ (by show t.val - 1 = n; omega) z q
    have hs : ∑ s ∈ Finset.range (t.val - 1 + 1), blkSum (colSqOf2 V c q) s + blkSum (colSqOf2 V c q) t.val
        = ∑ s ∈ Finset.range (t.val + 1), blkSum (colSqOf2 V c q) s := by
      rw [show t.val - 1 + 1 = t.val from by omega, ← Finset.sum_range_succ]
    have hb := (k2pay6_apply (iblk2 V c 0 t) (iblk2 V c 1 t) (iblk2 V c 2 t) (iblk2 V c 3 t) (iblk2 V c 4 t) q).trans
      (blk_sumsq2 V c t q)
    have hstep : k2_pay1 (F := Ideal) (outsAt2 V c (t.val - 1) (Nat.lt_of_le_of_lt (Nat.sub_le _ _) t.isLt)).2.2.2.2
          (k2_pay6 (F := Ideal) (iblk2 V c 0 t) (iblk2 V c 1 t) (iblk2 V c 2 t) (iblk2 V c 3 t) (iblk2 V c 4 t)) (ix2 z q)
        = ∑ s ∈ Finset.range (t.val + 1), blkSum (colSqOf2 V c q) s := by
      refine (k2pay1_apply (outsAt2 V c (t.val - 1) (Nat.lt_of_le_of_lt (Nat.sub_le _ _) t.isLt)).2.2.2.2
        (k2_pay6 (F := Ideal) (iblk2 V c 0 t) (iblk2 V c 1 t) (iblk2 V c 2 t) (iblk2 V c 3 t) (iblk2 V c 4 t)) z q).trans ?_
      rw [hb]
      exact (congrArg (· + blkSum (colSqOf2 V c q) t.val) ihp).trans hs
    by_cases h1 : t.val % 25 = 24
    · rw [scr2C_1 V c t h0 h1]; exact hstep
    · rw [scr2B_1 V c t h0 h1]; exact hstep

/-! ## The statistics outputs after the last block, and the arrays after the region -/

/-- After the last block the column-sum output's buffer holds the column sums of the layer of the whole arrays … -/
theorem stat2_6 (c : Dev nD) (t : Fin cfg2.N) (h1 : t.val % 25 = 24) :
    ((outsAt2 V c t.val t.isLt).2.1 : FVec Ideal S1x128 .f32) = colSum (G2 V c) := by
  have hN : cfg2.N = 25 := N_2
  have htl := t.isLt
  rw [outs2_6 V c t (by omega) h1]
  funext j
  obtain ⟨z, q, rfl⟩ : ∃ (z : Fin 1) (q : Fin 128), j = ix2 z q := ⟨j 0, j 1, eq_ix2 j⟩
  rw [scr2_0_eq V c t.val t rfl z q, colSum_apply, show t.val + 1 = 25 from by omega]
  exact sum_blkSum (colOf2 V c q)

/-- … and the sum-of-squares output's buffer the column sums of squares. -/
theorem stat2_7 (c : Dev nD) (t : Fin cfg2.N) (h1 : t.val % 25 = 24) :
    ((outsAt2 V c t.val t.isLt).2.2.1 : FVec Ideal S1x128 .f32) = colSumSq (G2 V c) := by
  have hN : cfg2.N = 25 := N_2
  have htl := t.isLt
  rw [outs2_7 V c t (by omega) h1]
  funext j
  obtain ⟨z, q, rfl⟩ : ∃ (z : Fin 1) (q : Fin 128), j = ix2 z q := ⟨j 0, j 1, eq_ix2 j⟩
  rw [scr2_1_eq V c t.val t rfl z q, colSumSq_apply, show t.val + 1 = 25 from by omega]
  exact sum_blkSum (colSqOf2 V c q)

/-- The two statistics windows have one block: the whole one-row array. -/
theorem idx2_stats : ∀ t : Fin cfg2.N,
    win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- Through a statistics window, a one-row buffer is cut to, and its array's block reads, the row itself. -/
theorem cut_read2_6 (t : Fin cfg2.N) (X : FVec Ideal S1x128 .f32) :
    (cfg2.win 6).cut (grid2.coords t) X = ((cfg2.win 6).blk t).view.read (Elt Ideal) X := by
  obtain ⟨e0, e1, -, -⟩ := idx2_stats t
  funext j
  obtain ⟨z, q, rfl⟩ : ∃ (z : Fin 1) (q : Fin 128), j = ix2 z q := ⟨j 0, j 1, eq_ix2 j⟩
  have hemb : ((cfg2.win 6).blk t).view.emb (ix2 z q) = (ix2 z q : S1x128.Idx) := by
    funext a; apply Fin.ext
    match a with
    | ⟨0, _⟩ => show win2_6.index t (0 : Fin 2) * 1 + 1 * z.val = z.val; rw [e0]; omega
    | ⟨1, _⟩ => show win2_6.index t (1 : Fin 2) * 128 + 1 * q.val = q.val; rw [e1]; omega
  show X (ix2 z q) = X (((cfg2.win 6).blk t).view.emb (ix2 z q))
  rw [hemb]

theorem cut_read2_7 (t : Fin cfg2.N) (X : FVec Ideal S1x128 .f32) :
    (cfg2.win 7).cut (grid2.coords t) X = ((cfg2.win 7).blk t).view.read (Elt Ideal) X := by
  obtain ⟨-, -, e0, e1⟩ := idx2_stats t
  funext j
  obtain ⟨z, q, rfl⟩ : ∃ (z : Fin 1) (q : Fin 128), j = ix2 z q := ⟨j 0, j 1, eq_ix2 j⟩
  have hemb : ((cfg2.win 7).blk t).view.emb (ix2 z q) = (ix2 z q : S1x128.Idx) := by
    funext a; apply Fin.ext
    match a with
    | ⟨0, _⟩ => show win2_7.index t (0 : Fin 2) * 1 + 1 * z.val = z.val; rw [e0]; omega
    | ⟨1, _⟩ => show win2_7.index t (1 : Fin 2) * 128 + 1 * q.val = q.val; rw [e1]; omega
  show X (ix2 z q) = X (((cfg2.win 7).blk t).view.emb (ix2 z q))
  rw [hemb]

/-- The last block writes back the column sums of the layer of the whole arrays. -/
theorem flushed2_6_eq (c : Dev nD) (t : Fin cfg2.N) (h1 : t.val % 25 = 24) :
    (dat2 V c).flushed 6 t = ((cfg2.win 6).blk t).view.read (Elt Ideal) (colSum (G2 V c)) := by
  show (cfg2.win 6).cut (grid2.coords t) ((dat2 V c).after 6 t) = _
  rw [after2_6]
  exact (congrArg ((cfg2.win 6).cut (grid2.coords t)) (stat2_6 V c t h1)).trans (cut_read2_6 t (colSum (G2 V c)))

/-- … and the column sums of squares. -/
theorem flushed2_7_eq (c : Dev nD) (t : Fin cfg2.N) (h1 : t.val % 25 = 24) :
    (dat2 V c).flushed 7 t = ((cfg2.win 7).blk t).view.read (Elt Ideal) (colSumSq (G2 V c)) := by
  show (cfg2.win 7).cut (grid2.coords t) ((dat2 V c).after 7 t) = _
  rw [after2_7]
  exact (congrArg ((cfg2.win 7).cut (grid2.coords t)) (stat2_7 V c t h1)).trans (cut_read2_7 t (colSumSq (G2 V c)))

/-- An index of a statistics output is in block t iff each coordinate is in the block's range on its axis. -/
theorem mem_blk2_6 (t : Fin cfg2.N) (i : S1x128.Idx) :
    i ∈ ((cfg2.win 6).blk t).view.set ↔ ∀ a : Fin 2, win2_6.index t a * S1x128.size a ≤ (i a).val ∧ (i a).val < win2_6.index t a * S1x128.size a + S1x128.size a := by
  show i ∈ ((View.whole main_v48_1).slice (win2_6.rect t)).set ↔ _
  rw [View.set_slice_whole, Rect.mem_set_unit]
  exact Iff.rfl

theorem mem_blk2_7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v48_2).slice (win2_7.rect t)).set ↔ _
  rw [View.set_slice_whole, Rect.mem_set_unit]
  exact Iff.rfl

/-- Every entry of the one-row output lies in the last block's block, the whole array. -/
theorem cover2_6 (i : S1x128.Idx) : ∃ t : Fin cfg2.N, (cfg2.win 6).flush t = true ∧ i ∈ ((cfg2.win 6).blk t).view.set := by
  have hi0 : (i 0).val < 1 := (i 0).isLt
  have hi1 : (i 1).val < 128 := (i 1).isLt
  have hN : cfg2.N = 25 := N_2
  let t : Fin cfg2.N := ⟨24, by omega⟩
  obtain ⟨e0, e1, -, -⟩ := idx2_stats t
  refine ⟨t, (flush2_6 t).mpr rfl, ?_⟩
  rw [mem_blk2_6]
  intro a
  match a with
  | ⟨0, _⟩ =>
    show win2_6.index t (0 : Fin 2) * 1 ≤ (i 0).val ∧ (i 0).val < win2_6.index t (0 : Fin 2) * 1 + 1
    rw [e0]; omega
  | ⟨1, _⟩ =>
    show win2_6.index t (1 : Fin 2) * 128 ≤ (i 1).val ∧ (i 1).val < win2_6.index t (1 : Fin 2) * 128 + 128
    rw [e1]; omega

theorem cover2_7 (i : S1x128.Idx) : ∃ t : Fin cfg2.N, (cfg2.win 7).flush t = true ∧ i ∈ ((cfg2.win 7).blk t).view.set := by
  have hi0 : (i 0).val < 1 := (i 0).isLt
  have hi1 : (i 1).val < 128 := (i 1).isLt
  have hN : cfg2.N = 25 := N_2
  let t : Fin cfg2.N := ⟨24, by omega⟩
  obtain ⟨-, -, e0, e1⟩ := idx2_stats t
  refine ⟨t, (flush2_7 t).mpr rfl, ?_⟩
  rw [mem_blk2_7]
  intro a
  match a with
  | ⟨0, _⟩ =>
    show win2_7.index t (0 : Fin 2) * 1 ≤ (i 0).val ∧ (i 0).val < win2_7.index t (0 : Fin 2) * 1 + 1
    rw [e0]; omega
  | ⟨1, _⟩ =>
    show win2_7.index t (1 : Fin 2) * 128 ≤ (i 1).val ∧ (i 1).val < win2_7.index t (1 : Fin 2) * 128 + 128
    rw [e1]; omega

/-- THE COLUMN-SUM OUTPUT AFTER THE REGION holds the column sums of the layer of the arrays the region found. -/
theorem final2_6 (c : Dev nD) : (dat2 (F := Ideal) V c).arrAt 6 cfg2.N
    = colSum (lin (V c main_v46 : FVec Ideal S50000x128 .f32) (V c main_v34 : FVec Ideal S50000x128 .f32)
        (V c main_arg7 : FVec Ideal S128x128 .f32) (V c main_v10 : FVec Ideal S128x128 .f32) (V c main_v47 : FVec Ideal S1x128 .f32)) :=
  (dat2 V c).arrAt_eq_of_cover 6 (colSum (G2 V c)) (fun t hf => flushed2_6_eq V c t ((flush2_6 t).mp hf)) cover2_6

/-- THE SUM-OF-SQUARES OUTPUT AFTER THE REGION holds the column sums of squares of that layer. -/
theorem final2_7 (c : Dev nD) : (dat2 (F := Ideal) V c).arrAt 7 cfg2.N
    = colSumSq (lin (V c main_v46 : FVec Ideal S50000x128 .f32) (V c main_v34 : FVec Ideal S50000x128 .f32)
        (V c main_arg7 : FVec Ideal S128x128 .f32) (V c main_v10 : FVec Ideal S128x128 .f32) (V c main_v47 : FVec Ideal S1x128 .f32)) :=
  (dat2 V c).arrAt_eq_of_cover 7 (colSumSq (G2 V c)) (fun t hf => flushed2_7_eq V c t ((flush2_7 t).mp hf)) cover2_7

end Cert.KernelIdeal.HandVal

end
-- ==== Proof.KI.Val3.lean ====
/-
  THE SECOND NORMALISING LAYER'S REGION, READ: THE OUTPUT ARRAY AFTER THE REGION IS THE NORMALISED, SHIFTED AND CUT-OFF
  ARRAY OF THE ARRAYS IT FOUND.

  On the exact reals the body's one stored value is, at entry (p, q) of a block of 2000 rows, the larger of zero and
  (((h (p, q) − m (q)) · (v (q) + ε)^(-1/2)) · g (q) + b (q)) + x (p, q): every operation is entry by entry, the four
  one-row arrays are laid along the rows, and recasting an array onto its own shape changes nothing.  That is the
  normalising formula on the block.  Point t's blocks of the two row-blocked operands are rows 2000 t … 2000 t + 1999
  of their arrays, the blocks of the one-row arrays are the whole arrays, and the formula mentions only row p of the
  row-blocked operands; so what point t writes back is rows 2000 t … 2000 t + 1999 of the formula applied to the
  whole arrays.  Row r lies in the block of point r / 2000, so the 25 blocks cover the output array, which therefore
  ends holding the formula of the whole arrays.
-/
import proofs.«126844_j8246337208554_1_alg».proof.Proof.KI.Reg3
import proofs.«126844_j8246337208554_1_alg».proof.Proof.SageSpec
import Idealize.ShloMosaic.Lib.Pipeline.Value

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Sage

theorem zeros2_3 : (![0, 0] : Fin 2 → Nat) = fun _ => 0 := funext fun a => by fin_cases a <;> rfl

/-! ## The body's stored value on a block -/

/-- The stored value is the normalising formula on the six blocks (the body reads them in the order linear output,
    means, variances, scale, shift, layer input). -/
theorem pay3_eq (x0 x1 : FVec Ideal S2000x128 .f32) (x2 x3 x4 x5 : FVec Ideal S1x128 .f32) :
    k3_pay1 (F := Ideal) x0 x2 x3 x4 x5 x1 = normAct x0 x1 x2 x3 x4 x5 := by
  funext j
  obtain ⟨p, q, rfl⟩ : ∃ (p : Fin 2000) (q : Fin 128), j = ix2 p q := ⟨j 0, j 1, eq_ix2 j⟩
  unfold k3_pay1
  rw [normAct_apply]
  simp only [shapeCast_self]
  simp only [maximumf_apply, addf_apply, mulf_apply, subf_apply]
  rw [broadcastTo_1b_ab_apply x2 broadcasts_S1x128_S2000x128 p q, broadcastTo_1b_ab_apply x4 broadcasts_S1x128_S2000x128 p q,
    broadcastTo_1b_ab_apply x5 broadcasts_S1x128_S2000x128 p q, broadcastTo_1b_ab_apply _ broadcasts_S1x128_S2000x128 p q]
  rfl

/-- The output buffer after the body is the normalising formula on the six input buffers. -/
theorem out3_eq (x0 x1 : FVec Ideal S2000x128 .f32) (x2 x3 x4 x5 : FVec Ideal S1x128 .f32) :
    out3_6 (F := Ideal) x0 x1 x2 x3 x4 x5 = normAct x0 x1 x2 x3 x4 x5 := by
  unfold out3_6
  rw [View.canon_unit_zero zeros2_3]
  simp only [View.ld_unit_zero (S := S2000x128) zeros2_3, View.ld_unit_zero (S := S1x128) zeros2_3]
  exact pay3_eq x0 x1 x2 x3 x4 x5

/-! ## A block of rows of the formula is the formula of the block of rows -/

theorem normAct_rows_3 {M N C : Nat} (H X : FVec Ideal ⟨2, ![N, C]⟩ .f32) (mu var g bt : FVec Ideal ⟨2, ![1, C]⟩ .f32)
    (h x : FVec Ideal ⟨2, ![M, C]⟩ .f32) (mu' var' g' bt' : FVec Ideal ⟨2, ![1, C]⟩ .f32) (r : Fin M → Fin N)
    (hh : ∀ p k, h (ix2 p k) = H (ix2 (r p) k)) (hx : ∀ p k, x (ix2 p k) = X (ix2 (r p) k))
    (hmu : mu' = mu) (hvar : var' = var) (hg : g' = g) (hbt : bt' = bt) (p : Fin M) (q : Fin C) :
    normAct h x mu' var' g' bt' (ix2 p q) = normAct H X mu var g bt (ix2 (r p) q) := by
  subst hmu hvar hg hbt
  rw [normAct_apply, normAct_apply, hh, hx]

/-! ## The windows' index maps, decided over the 25 points -/

theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_6.index t (0 : Fin 2) = t.val ∧ win3_6.index t (1 : Fin 2) = 0 :=
  (by decide +kernel : ∀ t : Fin grid3.N, _)

theorem idx3_rows : ∀ t : Fin cfg3.N,
    (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0) :=
  (by decide +kernel : ∀ t : Fin grid3.N, _)

variable (V : (c : Dev nD) → (b : Ref sig .tc) → Buf (Elt Ideal) ((c : Thread nD τ).loc b))

/-- The row of the array that row p of point t's block is. -/
def row3 (t : Fin cfg3.N) (p : Fin 2000) : Fin 50000 :=
  ⟨t.val * 2000 + p.val, by have := t.isLt; have hN : cfg3.N = 25 := N_3; have := p.isLt; omega⟩

/-! ## The input blocks as rows of the arrays -/

theorem blk3_0 (c : Dev nD) (t : Fin cfg3.N) (p : Fin 2000) (k : Fin 128) :
    (iblk3 V c 0 t : FVec Ideal S2000x128 .f32) (ix2 p k) = (V c main_v48_0 : FVec Ideal S50000x128 .f32) (ix2 (row3 t p) k) := by
  have e0 := (idx3 t).1
  have e1 := (idx3 t).2.1
  unfold iblk3
  rw [View.read_apply]
  show V c main_v48_0 _ = V c main_v48_0 _
  refine congrArg (V c main_v48_0) (funext fun a => Fin.ext ?_)
  match a with
  | ⟨0, _⟩ => show win3_0.index t (0 : Fin 2) * 2000 + 1 * p.val = t.val * 2000 + p.val; rw [e0]; omega
  | ⟨1, _⟩ => show win3_0.index t (1 : Fin 2) * 128 + 1 * k.val = k.val; rw [e1]; omega

theorem blk3_1 (c : Dev nD) (t : Fin cfg3.N) (p : Fin 2000) (k : Fin 128) :
    (iblk3 V c 1 t : FVec Ideal S2000x128 .f32) (ix2 p k) = (V c main_v34 : FVec Ideal S50000x128 .f32) (ix2 (row3 t p) k) := by
  have e0 := (idx3 t).2.2.1
  have e1 := (idx3 t).2.2.2.1
  unfold iblk3
  rw [View.read_apply]
  show V c main_v34 _ = V c main_v34 _
  refine congrArg (V c main_v34) (funext fun a => Fin.ext ?_)
  match a with
  | ⟨0, _⟩ => show win3_1.index t (0 : Fin 2) * 2000 + 1 * p.val = t.val * 2000 + p.val; rw [e0]; omega
  | ⟨1, _⟩ => show win3_1.index t (1 : Fin 2) * 128 + 1 * k.val = k.val; rw [e1]; omega

theorem blk3_2 (c : Dev nD) (t : Fin cfg3.N) :
    (iblk3 V c 2 t : FVec Ideal S1x128 .f32) = (V c main_v50 : FVec Ideal S1x128 .f32) := by
  have e := (idx3_rows t).1
  funext j
  unfold iblk3
  rw [View.read_apply]
  show V c main_v50 _ = V c main_v50 _
  refine congrArg (V c main_v50) (funext fun a => Fin.ext ?_)
  match a with
  | ⟨0, _⟩ => show win3_2.index t (0 : Fin 2) * 1 + 1 * (j 0).val = (j 0).val; rw [e.1]; omega
  | ⟨1, _⟩ => show win3_2.index t (1 : Fin 2) * 128 + 1 * (j 1).val = (j 1).val; rw [e.2]; omega

theorem blk3_3 (c : Dev nD) (t : Fin cfg3.N) :
    (iblk3 V c 3 t : FVec Ideal S1x128 .f32) = (V c main_v54 : FVec Ideal S1x128 .f32) := by
  have e := (idx3_rows t).2.1
  funext j
  unfold iblk3
  rw [View.read_apply]
  show V c main_v54 _ = V c main_v54 _
  refine congrArg (V c main_v54) (funext fun a => Fin.ext ?_)
  match a with
  | ⟨0, _⟩ => show win3_3.index t (0 : Fin 2) * 1 + 1 * (j 0).val = (j 0).val; rw [e.1]; omega
  | ⟨1, _⟩ => show win3_3.index t (1 : Fin 2) * 128 + 1 * (j 1).val = (j 1).val; rw [e.2]; omega

theorem blk3_4 (c : Dev nD) (t : Fin cfg3.N) :
    (iblk3 V c 4 t : FVec Ideal S1x128 .f32) = (V c main_v55 : FVec Ideal S1x128 .f32) := by
  have e := (idx3_rows t).2.2.1
  funext j
  unfold iblk3
  rw [View.read_apply]
  show V c main_v55 _ = V c main_v55 _
  refine congrArg (V c main_v55) (funext fun a => Fin.ext ?_)
  match a with
  | ⟨0, _⟩ => show win3_4.index t (0 : Fin 2) * 1 + 1 * (j 0).val = (j 0).val; rw [e.1]; omega
  | ⟨1, _⟩ => show win3_4.index t (1 : Fin 2) * 128 + 1 * (j 1).val = (j 1).val; rw [e.2]; omega

theorem blk3_5 (c : Dev nD) (t : Fin cfg3.N) :
    (iblk3 V c 5 t : FVec Ideal S1x128 .f32) = (V c main_v56 : FVec Ideal S1x128 .f32) := by
  have e := (idx3_rows t).2.2.2
  funext j
  unfold iblk3
  rw [View.read_apply]
  show V c main_v56 _ = V c main_v56 _
  refine congrArg (V c main_v56) (funext fun a => Fin.ext ?_)
  match a with
  | ⟨0, _⟩ => show win3_5.index t (0 : Fin 2) * 1 + 1 * (j 0).val = (j 0).val; rw [e.1]; omega
  | ⟨1, _⟩ => show win3_5.index t (1 : Fin 2) * 128 + 1 * (j 1).val = (j 1).val; rw [e.2]; omega

/-! ## What a point writes back, and the whole array -/

/-- The normalising formula of the arrays the region finds. -/
def G3 (c : Dev nD) : FVec Ideal S50000x128 .f32 :=
  normAct (V c main_v48_0 : FVec Ideal S50000x128 .f32) (V c main_v34 : FVec Ideal S50000x128 .f32)
    (V c main_v50 : FVec Ideal S1x128 .f32) (V c main_v54 : FVec Ideal S1x128 .f32) (V c main_v55 : FVec Ideal S1x128 .f32) (V c main_v56 : FVec Ideal S1x128 .f32)

/-- Point t writes back rows 2000 t … 2000 t + 1999 of the formula of the whole arrays. -/
theorem flushed3_eq (c : Dev nD) (t : Fin cfg3.N) :
    (dat3 V c).flushed 6 t = ((cfg3.win 6).blk t).view.read (Elt Ideal) (G3 V c) := by
  show (cfg3.win 6).cut (grid3.coords t) ((dat3 V c).after 6 t) = _
  rw [after3_6]
  refine (congrArg ((cfg3.win 6).cut (grid3.coords t))
    (out3_eq (iblk3 V c 0 t) (iblk3 V c 1 t) (iblk3 V c 2 t) (iblk3 V c 3 t) (iblk3 V c 4 t) (iblk3 V c 5 t))).trans ?_
  have e0 := (idx3 t).2.2.2.2.1
  have e1 := (idx3 t).2.2.2.2.2
  funext j
  obtain ⟨p, q, rfl⟩ : ∃ (p : Fin 2000) (q : Fin 128), j = ix2 p q := ⟨j 0, j 1, eq_ix2 j⟩
  have hemb : ((cfg3.win 6).blk t).view.emb (ix2 p q) = (ix2 (row3 t p) q : S50000x128.Idx) := by
    funext a; apply Fin.ext
    match a with
    | ⟨0, _⟩ => show win3_6.index t (0 : Fin 2) * 2000 + 1 * p.val = t.val * 2000 + p.val; rw [e0]; omega
    | ⟨1, _⟩ => show win3_6.index t (1 : Fin 2) * 128 + 1 * q.val = q.val; rw [e1]; omega
  show normAct (iblk3 V c 0 t) (iblk3 V c 1 t) (iblk3 V c 2 t) (iblk3 V c 3 t) (iblk3 V c 4 t) (iblk3 V c 5 t) (ix2 p q)
    = G3 V c (((cfg3.win 6).blk t).view.emb (ix2 p q))
  rw [hemb]
  exact normAct_rows_3 _ _ _ _ _ _ _ _ _ _ _ _ (row3 t) (blk3_0 V c t) (blk3_1 V c t) (blk3_2 V c t) (blk3_3 V c t)
    (blk3_4 V c t) (blk3_5 V c t) p q

/-- An index of the output array is in point t's block iff each coordinate is in the block's range on its axis. -/
theorem mem_blk3 (t : Fin cfg3.N) (i : S50000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v57).slice (win3_6.rect t)).set ↔ _
  rw [View.set_slice_whole, Rect.mem_set_unit]
  exact Iff.rfl

/-- Row r lies in the block of point r / 2000. -/
theorem cover3 (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 25 := N_3
  let t : Fin cfg3.N := ⟨(i 0).val / 2000, by omega⟩
  have e0 := (idx3 t).2.2.2.2.1
  have e1 := (idx3 t).2.2.2.2.2
  refine ⟨t, flush3_6 t, ?_⟩
  rw [mem_blk3]
  intro a
  match a with
  | ⟨0, _⟩ =>
    show win3_6.index t (0 : Fin 2) * 2000 ≤ (i 0).val ∧ (i 0).val < win3_6.index t (0 : Fin 2) * 2000 + 2000
    rw [e0]; show (i 0).val / 2000 * 2000 ≤ (i 0).val ∧ (i 0).val < (i 0).val / 2000 * 2000 + 2000; omega
  | ⟨1, _⟩ =>
    show win3_6.index t (1 : Fin 2) * 128 ≤ (i 1).val ∧ (i 1).val < win3_6.index t (1 : Fin 2) * 128 + 128
    rw [e1]; omega

/-- THE OUTPUT ARRAY AFTER THE REGION is the normalising formula of the arrays the region found. -/
theorem final3 (c : Dev nD) : (dat3 (F := Ideal) V c).arrAt 6 cfg3.N
    = normAct (V c main_v48_0 : FVec Ideal S50000x128 .f32) (V c main_v34 : FVec Ideal S50000x128 .f32)
        (V c main_v50 : FVec Ideal S1x128 .f32) (V c main_v54 : FVec Ideal S1x128 .f32) (V c main_v55 : FVec Ideal S1x128 .f32)
        (V c main_v56 : FVec Ideal S1x128 .f32) :=
  (dat3 V c).arrAt_eq_of_cover 6 (G3 V c) (fun t _ => flushed3_eq V c t) cover3

end Cert.KernelIdeal.HandVal

end
-- ==== Proof.KI.Val4.lean ====
/-
  THE LAST LINEAR LAYER'S REGION, READ: THE OUTPUT ARRAY AFTER THE REGION IS THE LAYER OF THE ARRAYS IT FOUND.

  On the exact reals the body's one stored value is, entry (p, q) of a block of 2000 rows, the sum over k of
  a (p, k) · wl (k, q), plus the sum over k of x (p, k) · wc (k, q), plus entry q of the one-row bias: narrowing a
  number to sixteen bits changes nothing there, a matrix product into zeros is the plain sum, and a one-row array
  broadcast down the rows reads its only row.  That is the layer's formula on the block.  Point t's blocks of the two
  row-blocked operands are rows 2000 t … 2000 t + 1999 of their arrays, the blocks of the weights and of the bias are
  the whole arrays, and the formula mentions only row p of the row-blocked operands; so what point t writes back is
  rows 2000 t … 2000 t + 1999 of the layer applied to the whole arrays.  Row r lies in the block of point r / 2000,
  so the 25 blocks cover the output array, which therefore ends holding the layer of the whole arrays.
-/
import proofs.«126844_j8246337208554_1_alg».proof.Proof.KI.Reg4
import proofs.«126844_j8246337208554_1_alg».proof.Proof.SageSpec
import Idealize.ShloMosaic.Lib.Pipeline.Value

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Sage Cert.MatOps Cert.LayerForms Cert.DenseStages

theorem zeros2 : (![0, 0] : Fin 2 → Nat) = fun _ => 0 := funext fun a => by fin_cases a <;> rfl

/-! ## The body's stored value on a block -/

/-- The product's dimension record is the plain one. -/
theorem dot4_eq : dot_S2000x128_S128x64_S2000x64_1_0_0_1_n_n
    = plainDot 2000 128 64 dot_S2000x128_S128x64_S2000x64_1_0_0_1_n_n_wf := rfl

/-- The stored value is the layer's formula on the five blocks. -/
theorem pay4_eq (x0 x1 : FVec Ideal S2000x128 .f32) (x2 x3 : FVec Ideal S128x64 .f32) (x4 : FVec Ideal S1x64 .f32) :
    k4_pay1 (F := Ideal) x0 x1 x2 x3 x4 = lin x0 x1 x2 x3 x4 := by
  funext j
  obtain ⟨p, q, rfl⟩ : ∃ (p : Fin 2000) (q : Fin 64), j = ix2 p q := ⟨j 0, j 1, eq_ix2 j⟩
  unfold k4_pay1
  rw [lin_apply]
  show (FloatOps.matmul dot_S2000x128_S128x64_S2000x64_1_0_0_1_n_n none
          (truncf .bf16 (shapeCast S2000x128 x0 shapeCasts_S2000x128_S2000x128) bitsLt_bf16_f32) (truncf .bf16 x2 bitsLt_bf16_f32)
          (constant (F := Ideal) S2000x64 .f32 0x00000000#32) (ix2 p q)
        + FloatOps.matmul dot_S2000x128_S128x64_S2000x64_1_0_0_1_n_n none
          (truncf .bf16 (shapeCast S2000x128 x1 shapeCasts_S2000x128_S2000x128) bitsLt_bf16_f32)
          (truncf .bf16 (shapeCast S128x64 x3 shapeCasts_S128x64_S128x64) bitsLt_bf16_f32)
          (constant (F := Ideal) S2000x64 .f32 0x00000000#32) (ix2 p q))
      + broadcastTo S2000x64 (shapeCast S1x64 x4 shapeCasts_S1x64_S1x64) broadcasts_S1x64_S2000x64 (ix2 p q) = _
  rw [dot4_eq, matmul_plain_apply _ none _ _ p q, matmul_plain_apply _ none _ _ p q,
    broadcastTo_1b_ab_apply _ broadcasts_S1x64_S2000x64 p q, shapeCast_self x0, shapeCast_self x1, shapeCast_self x3,
    shapeCast_self x4]
  rfl

/-- The output buffer after the body is the layer's formula on the five input buffers. -/
theorem out4_eq (x0 x1 : FVec Ideal S2000x128 .f32) (x2 x3 : FVec Ideal S128x64 .f32) (x4 : FVec Ideal S1x64 .f32) :
    out4_5 (F := Ideal) x0 x1 x2 x3 x4 = lin x0 x1 x2 x3 x4 := by
  unfold out4_5
  rw [View.canon_unit_zero zeros2]
  simp only [View.ld_unit_zero (S := S2000x128) zeros2, View.ld_unit_zero (S := S128x64) zeros2, View.ld_unit_zero (S := S1x64) zeros2]
  exact pay4_eq x0 x1 x2 x3 x4

/-! ## A block of rows of the layer is the layer of the block of rows -/

theorem lin_rows {M N K C : Nat} (A X : FVec Ideal ⟨2, ![N, K]⟩ .f32) (Wl Wc : FVec Ideal ⟨2, ![K, C]⟩ .f32)
    (b : FVec Ideal ⟨2, ![1, C]⟩ .f32) (a x : FVec Ideal ⟨2, ![M, K]⟩ .f32) (wl wc : FVec Ideal ⟨2, ![K, C]⟩ .f32)
    (b' : FVec Ideal ⟨2, ![1, C]⟩ .f32) (r : Fin M → Fin N)
    (ha : ∀ p k, a (ix2 p k) = A (ix2 (r p) k)) (hx : ∀ p k, x (ix2 p k) = X (ix2 (r p) k))
    (hwl : wl = Wl) (hwc : wc = Wc) (hb : b' = b) (p : Fin M) (q : Fin C) :
    lin a x wl wc b' (ix2 p q) = lin A X Wl Wc b (ix2 (r p) q) := by
  subst hwl hwc hb
  rw [lin_apply, lin_apply]
  simp only [ha, hx]

/-! ## The windows' index maps, decided over the 25 points -/

theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

variable (V : (c : Dev nD) → (b : Ref sig .tc) → Buf (Elt Ideal) ((c : Thread nD τ).loc b))

/-- The row of the array that row p of point t's block is. -/
def row4 (t : Fin cfg4.N) (p : Fin 2000) : Fin 50000 :=
  ⟨t.val * 2000 + p.val, by have := t.isLt; have hN : cfg4.N = 25 := N_4; have := p.isLt; omega⟩

/-! ## The input blocks as rows of the arrays -/

theorem blk4_0 (c : Dev nD) (t : Fin cfg4.N) (p : Fin 2000) (k : Fin 128) :
    (iblk4 V c 0 t : FVec Ideal S2000x128 .f32) (ix2 p k) = (V c main_v69 : FVec Ideal S50000x128 .f32) (ix2 (row4 t p) k) := by
  obtain ⟨e0, e1, -⟩ := idx4 t
  unfold iblk4
  rw [View.read_apply]
  show V c main_v69 _ = V c main_v69 _
  refine congrArg (V c main_v69) (funext fun a => Fin.ext ?_)
  match a with
  | ⟨0, _⟩ => show win4_0.index t (0 : Fin 2) * 2000 + 1 * p.val = t.val * 2000 + p.val; rw [e0]; omega
  | ⟨1, _⟩ => show win4_0.index t (1 : Fin 2) * 128 + 1 * k.val = k.val; rw [e1]; omega

theorem blk4_1 (c : Dev nD) (t : Fin cfg4.N) (p : Fin 2000) (k : Fin 128) :
    (iblk4 V c 1 t : FVec Ideal S2000x128 .f32) (ix2 p k) = (V c main_v57 : FVec Ideal S50000x128 .f32) (ix2 (row4 t p) k) := by
  obtain ⟨-, -, e0, e1, -⟩ := idx4 t
  unfold iblk4
  rw [View.read_apply]
  show V c main_v57 _ = V c main_v57 _
  refine congrArg (V c main_v57) (funext fun a => Fin.ext ?_)
  match a with
  | ⟨0, _⟩ => show win4_1.index t (0 : Fin 2) * 2000 + 1 * p.val = t.val * 2000 + p.val; rw [e0]; omega
  | ⟨1, _⟩ => show win4_1.index t (1 : Fin 2) * 128 + 1 * k.val = k.val; rw [e1]; omega

theorem blk4_2 (c : Dev nD) (t : Fin cfg4.N) :
    (iblk4 V c 2 t : FVec Ideal S128x64 .f32) = (V c main_arg11 : FVec Ideal S128x64 .f32) := by
  obtain ⟨-, -, -, -, e0, e1, -⟩ := idx4 t
  funext j
  unfold iblk4
  rw [View.read_apply]
  show V c main_arg11 _ = V c main_arg11 _
  refine congrArg (V c main_arg11) (funext fun a => Fin.ext ?_)
  match a with
  | ⟨0, _⟩ => show win4_2.index t (0 : Fin 2) * 128 + 1 * (j 0).val = (j 0).val; rw [e0]; omega
  | ⟨1, _⟩ => show win4_2.index t (1 : Fin 2) * 64 + 1 * (j 1).val = (j 1).val; rw [e1]; omega

theorem blk4_3 (c : Dev nD) (t : Fin cfg4.N) :
    (iblk4 V c 3 t : FVec Ideal S128x64 .f32) = (V c main_v11 : FVec Ideal S128x64 .f32) := by
  obtain ⟨-, -, -, -, -, -, e0, e1, -⟩ := idx4 t
  funext j
  unfold iblk4
  rw [View.read_apply]
  show V c main_v11 _ = V c main_v11 _
  refine congrArg (V c main_v11) (funext fun a => Fin.ext ?_)
  match a with
  | ⟨0, _⟩ => show win4_3.index t (0 : Fin 2) * 128 + 1 * (j 0).val = (j 0).val; rw [e0]; omega
  | ⟨1, _⟩ => show win4_3.index t (1 : Fin 2) * 64 + 1 * (j 1).val = (j 1).val; rw [e1]; omega

theorem blk4_4 (c : Dev nD) (t : Fin cfg4.N) :
    (iblk4 V c 4 t : FVec Ideal S1x64 .f32) = (V c main_v70 : FVec Ideal S1x64 .f32) := by
  obtain ⟨-, -, -, -, -, -, -, -, e0, e1, -⟩ := idx4 t
  funext j
  unfold iblk4
  rw [View.read_apply]
  show V c main_v70 _ = V c main_v70 _
  refine congrArg (V c main_v70) (funext fun a => Fin.ext ?_)
  match a with
  | ⟨0, _⟩ => show win4_4.index t (0 : Fin 2) * 1 + 1 * (j 0).val = (j 0).val; rw [e0]; omega
  | ⟨1, _⟩ => show win4_4.index t (1 : Fin 2) * 64 + 1 * (j 1).val = (j 1).val; rw [e1]; omega

/-! ## What a point writes back, and the whole array -/

/-- The layer of the arrays the region finds. -/
def G4 (c : Dev nD) : FVec Ideal S50000x64 .f32 :=
  lin (V c main_v69 : FVec Ideal S50000x128 .f32) (V c main_v57 : FVec Ideal S50000x128 .f32)
    (V c main_arg11 : FVec Ideal S128x64 .f32) (V c main_v11 : FVec Ideal S128x64 .f32) (V c main_v70 : FVec Ideal S1x64 .f32)

/-- Point t writes back rows 2000 t … 2000 t + 1999 of the layer of the whole arrays. -/
theorem flushed4_eq (c : Dev nD) (t : Fin cfg4.N) :
    (dat4 V c).flushed 5 t = ((cfg4.win 5).blk t).view.read (Elt Ideal) (G4 V c) := by
  show (cfg4.win 5).cut (grid4.coords t) ((dat4 V c).after 5 t) = _
  rw [after4_5]
  refine (congrArg ((cfg4.win 5).cut (grid4.coords t))
    (out4_eq (iblk4 V c 0 t) (iblk4 V c 1 t) (iblk4 V c 2 t) (iblk4 V c 3 t) (iblk4 V c 4 t))).trans ?_
  obtain ⟨-, -, -, -, -, -, -, -, -, -, e0, e1⟩ := idx4 t
  funext j
  obtain ⟨p, q, rfl⟩ : ∃ (p : Fin 2000) (q : Fin 64), j = ix2 p q := ⟨j 0, j 1, eq_ix2 j⟩
  have hemb : ((cfg4.win 5).blk t).view.emb (ix2 p q) = (ix2 (row4 t p) q : S50000x64.Idx) := by
    funext a; apply Fin.ext
    match a with
    | ⟨0, _⟩ => show win4_5.index t (0 : Fin 2) * 2000 + 1 * p.val = t.val * 2000 + p.val; rw [e0]; omega
    | ⟨1, _⟩ => show win4_5.index t (1 : Fin 2) * 64 + 1 * q.val = q.val; rw [e1]; omega
  show lin (iblk4 V c 0 t) (iblk4 V c 1 t) (iblk4 V c 2 t) (iblk4 V c 3 t) (iblk4 V c 4 t) (ix2 p q)
    = G4 V c (((cfg4.win 5).blk t).view.emb (ix2 p q))
  rw [hemb]
  exact lin_rows _ _ _ _ _ _ _ _ _ _ (row4 t) (blk4_0 V c t) (blk4_1 V c t) (blk4_2 V c t) (blk4_3 V c t) (blk4_4 V c t) p q

/-- An index of the output array is in point t's block iff each coordinate is in the block's range on its axis. -/
theorem mem_blk4 (t : Fin cfg4.N) (i : S50000x64.Idx) :
    i ∈ ((cfg4.win 5).blk t).view.set ↔ ∀ a : Fin 2, win4_5.index t a * S2000x64.size a ≤ (i a).val ∧ (i a).val < win4_5.index t a * S2000x64.size a + S2000x64.size a := by
  show i ∈ ((View.whole main_v71).slice (win4_5.rect t)).set ↔ _
  rw [View.set_slice_whole, Rect.mem_set_unit]
  exact Iff.rfl

/-- Row r lies in the block of point r / 2000. -/
theorem cover4 (i : S50000x64.Idx) : ∃ t : Fin cfg4.N, (cfg4.win 5).flush t = true ∧ i ∈ ((cfg4.win 5).blk t).view.set := by
  have hi0 : (i 0).val < 50000 := (i 0).isLt
  have hi1 : (i 1).val < 64 := (i 1).isLt
  have hN : cfg4.N = 25 := N_4
  let t : Fin cfg4.N := ⟨(i 0).val / 2000, by omega⟩
  obtain ⟨-, -, -, -, -, -, -, -, -, -, e0, e1⟩ := idx4 t
  refine ⟨t, flush4_5 t, ?_⟩
  rw [mem_blk4]
  intro a
  match a with
  | ⟨0, _⟩ =>
    show win4_5.index t (0 : Fin 2) * 2000 ≤ (i 0).val ∧ (i 0).val < win4_5.index t (0 : Fin 2) * 2000 + 2000
    rw [e0]; show (i 0).val / 2000 * 2000 ≤ (i 0).val ∧ (i 0).val < (i 0).val / 2000 * 2000 + 2000; omega
  | ⟨1, _⟩ =>
    show win4_5.index t (1 : Fin 2) * 64 ≤ (i 1).val ∧ (i 1).val < win4_5.index t (1 : Fin 2) * 64 + 64
    rw [e1]; omega

/-- THE OUTPUT ARRAY AFTER THE REGION is the layer of the arrays the region found. -/
theorem final4 (c : Dev nD) : (dat4 (F := Ideal) V c).arrAt 5 cfg4.N
    = lin (V c main_v69 : FVec Ideal S50000x128 .f32) (V c main_v57 : FVec Ideal S50000x128 .f32)
        (V c main_arg11 : FVec Ideal S128x64 .f32) (V c main_v11 : FVec Ideal S128x64 .f32) (V c main_v70 : FVec Ideal S1x64 .f32) :=
  (dat4 V c).arrAt_eq_of_cover 5 (G4 V c) (fun t _ => flushed4_eq V c t) cover4

end Cert.KernelIdeal.HandVal

end
-- ==== Proof.LibReal.lean ====
/-
  Extended reals that are real numbers. An entry of a finite input is one (its absolute value lies below +infinity);
  sums, differences, products, finite sums and quotients by a nonzero real of such entries are again real, and so is the
  value of any f32 pattern whose exponent field is not all ones. What an algebraic law that needs finiteness is applied
  to is first shown to be of this kind.
-/
import Idealize.ShloMosaic.PureOps.Ideal
import Mathlib.Algebra.BigOperators.Group.Finset.Basic

namespace Idealize.ShloMosaic.RealEntries

open Idealize.ShloMosaic

/-- The extended real `a` is a real number. -/
def IsReal (a : EReal) : Prop := ∃ r : ℝ, a = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- A quotient by a nonzero real. -/
theorem IsReal.div_coe {a : EReal} (ha : IsReal a) {y : ℝ} (hy : y ≠ 0) : IsReal (Ideal.div a (y : EReal)) := by
  rw [Ideal.div_coe hy]; exact ha.mul (IsReal.coe _)

/-- An f32 pattern whose exponent field is not all ones denotes a real number. -/
theorem isReal_ofBits_f32 (b : BitVec 32) (h : (b.extractLsb' 23 8).toNat ≠ 2 ^ 8 - 1) : IsReal (Ideal.ofBits .f32 b) := by
  show IsReal (Ideal.ieee 8 23 b)
  unfold Ideal.ieee
  dsimp only
  rw [if_neg h]
  split_ifs <;> exact ⟨_, rfl⟩

/-- An extended real whose absolute value lies below +infinity is a real number. -/
theorem isReal_of_abs_lt_top {a : EReal} (h : max a (-a) < ⊤) : IsReal a := by
  induction a using EReal.rec with
  | bot => simp at h
  | coe r => exact ⟨r, rfl⟩
  | top => simp at h

end Idealize.ShloMosaic.RealEntries
-- ==== Proof.BridgeLaws.lean ====
/-
  THE LAWS OF REAL ARITHMETIC THAT JOIN TWO SPELLINGS OF A MEAN-AGGREGATING, BATCH-NORMALISED GRAPH LAYER,
  on the extended reals, over abstract finite index types.

  The extended reals add commutatively and associatively, but multiplication distributes over addition only away
  from the infinities; each law below therefore asks that the entries it distributes over are real numbers.

  * A quotient by a nonzero real d is the product with 1 / d; the larger of a real degree and one is such a d.
  * x · (a + b) = x · a + x · b inside a finite sum, so that two products of the same features with two weight
    arrays are one product with the sum of the weights; the bias may be added first or last.
  * The mean of the squared deviations from the mean is the mean of the squares less the square of the mean, when
    the divisor is the number of terms. The first form shows the variance is a nonnegative real, so that adding a
    positive constant and taking the inverse square root stays among the real numbers.
  * The two float patterns that occur as numbers: 0x47435000 is fifty thousand, 0x3727C5AC is a positive real.
-/
import proofs.«126844_j8246337208554_1_alg».proof.Proof.LibReal
import Mathlib.Tactic

open scoped BigOperators

namespace Cert.Bridge.Laws

open Idealize.ShloMosaic Idealize.ShloMosaic.RealEntries

/-! ## Sums of real numbers inside the extended reals -/

/-- A finite sum of real numbers, each read as an extended real, is their real sum read as an extended real. -/
theorem coe_sum {ι : Type*} (s : Finset ι) (f : ι → ℝ) :
    (∑ i ∈ s, (f i : EReal)) = ((∑ i ∈ s, f i : ℝ) : EReal) := by
  classical
  induction s using Finset.induction_on with
  | empty => rw [Finset.sum_empty, Finset.sum_empty]; rfl
  | insert a s ha ih => rw [Finset.sum_insert ha, Finset.sum_insert ha, ih, EReal.coe_add]

/-! ## A quotient by a real that is at least one -/

/-- s / d = s · (1 / d) for a nonzero real d, whatever the extended real s. -/
theorem div_eq_mul_one_div (s : EReal) {y : ℝ} (hy : y ≠ 0) :
    Ideal.div s (y : EReal) = s * Ideal.div 1 (y : EReal) := by
  rw [Ideal.div_coe hy, Ideal.div_coe hy, one_mul]

/-- The larger of a real number and one is a real number, and it is not zero. -/
theorem max_one_real {d : EReal} (hd : IsReal d) : ∃ y : ℝ, y ≠ 0 ∧ max d 1 = (y : EReal) := by
  obtain ⟨r, rfl⟩ := hd
  rcases le_total r 1 with h | h
  · exact ⟨1, one_ne_zero, by rw [max_eq_right (by exact_mod_cast h)]; rfl⟩
  · refine ⟨r, fun h0 => ?_, max_eq_left (by exact_mod_cast h)⟩
    rw [h0] at h; exact absurd h (by norm_num)

/-- Dividing by the larger of a real degree and one is multiplying by its inverse, and that inverse is a real number. -/
theorem div_max_one (s : EReal) {d : EReal} (hd : IsReal d) :
    Ideal.div s (max d 1) = s * Ideal.div 1 (max d 1) ∧ IsReal (Ideal.div 1 (max d 1)) := by
  obtain ⟨y, hy, e⟩ := max_one_real hd
  rw [e]
  exact ⟨div_eq_mul_one_div s hy, IsReal.one.div_coe hy⟩

/-! ## The linear stage: x · (a + b) = x · a + x · b inside a finite sum -/

/-- Multiplication distributes over addition for real numbers read as extended reals. -/
theorem mul_add_real {x a b : EReal} (hx : IsReal x) (ha : IsReal a) (hb : IsReal b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- ((Σ A·Wl + b) + Σ X·Wr) + Σ X·Ws = (Σ A·Wl + Σ X·(Wr + Ws)) + b when X, Wr and Ws are real. -/
theorem lin_law {κ : Type*} [Fintype κ] (A X Wl Wr Ws : κ → EReal) (b : EReal)
    (hX : ∀ k, IsReal (X k)) (hWr : ∀ k, IsReal (Wr k)) (hWs : ∀ k, IsReal (Ws k)) :
    (((∑ k, A k * Wl k) + b) + ∑ k, X k * Wr k) + ∑ k, X k * Ws k
      = ((∑ k, A k * Wl k) + ∑ k, X k * (Wr k + Ws k)) + b := by
  have h : ∑ k, X k * (Wr k + Ws k) = (∑ k, X k * Wr k) + ∑ k, X k * Ws k := by
    rw [← Finset.sum_add_distrib]
    exact Finset.sum_congr rfl fun k _ => mul_add_real (hX k) (hWr k) (hWs k)
  rw [h]
  abel

/-! ## The variance: the mean of the squared deviations is the mean of the squares less the squared mean -/

/-- Over the reals, with n the number of terms. -/
theorem var_real {ι : Type*} [Fintype ι] (h : ι → ℝ) (n : ℝ) (hn : n = Fintype.card ι) (hn0 : n ≠ 0) :
    (∑ p, (h p - (∑ p, h p) * (1 / n)) * (h p - (∑ p, h p) * (1 / n))) * (1 / n)
      = (∑ p, h p * h p) * (1 / n) - ((∑ p, h p) * (1 / n)) * ((∑ p, h p) * (1 / n)) := by
  have e : ∀ p, (h p - (∑ p, h p) * (1 / n)) * (h p - (∑ p, h p) * (1 / n))
      = h p * h p - 2 * ((∑ p, h p) * (1 / n)) * h p + ((∑ p, h p) * (1 / n)) * ((∑ p, h p) * (1 / n)) := fun p => by ring
  simp only [e]
  rw [Finset.sum_add_distrib, Finset.sum_sub_distrib, ← Finset.mul_sum, Finset.sum_const, Finset.card_univ, nsmul_eq_mul, ← hn]
  field_simp
  ring

/-- The variance law on the extended reals, for real entries; n is the number of terms. -/
theorem var_law {ι : Type*} [Fintype ι] (H : ι → EReal) (hH : ∀ p, IsReal (H p)) (n : ℝ)
    (hn : n = Fintype.card ι) (hn0 : n ≠ 0) :
    Ideal.div (∑ p, (H p - Ideal.div (∑ p, H p) (n : EReal)) * (H p - Ideal.div (∑ p, H p) (n : EReal))) (n : EReal)
      = Ideal.div (∑ p, H p * H p) (n : EReal)
          - Ideal.div (∑ p, H p) (n : EReal) * Ideal.div (∑ p, H p) (n : EReal) := by
  choose h hh using hH
  obtain rfl : H = fun p => (h p : EReal) := funext hh
  simp only [Ideal.div_coe hn0, coe_sum, ← EReal.coe_mul, ← EReal.coe_sub]
  exact congrArg _ (var_real h n hn hn0)

/-- The mean of the squared deviations from any real number is a nonnegative real number. -/
theorem var_nonneg {ι : Type*} [Fintype ι] (H : ι → EReal) (hH : ∀ p, IsReal (H p)) {M : EReal} (hM : IsReal M)
    {n : ℝ} (hn0 : 0 < n) :
    ∃ v : ℝ, 0 ≤ v ∧ Ideal.div (∑ p, (H p - M) * (H p - M)) (n : EReal) = (v : EReal) := by
  choose h hh using hH
  obtain rfl : H = fun p => (h p : EReal) := funext hh
  obtain ⟨m, rfl⟩ := hM
  refine ⟨(∑ p, (h p - m) * (h p - m)) * (1 / n), ?_, ?_⟩
  · exact mul_nonneg (Finset.sum_nonneg fun p _ => mul_self_nonneg _) (by positivity)
  · simp only [Ideal.div_coe (ne_of_gt hn0), coe_sum, ← EReal.coe_mul, ← EReal.coe_sub]

/-- The inverse square root of a nonnegative real plus a positive real is a real number. -/
theorem isReal_rsqrt_add {v e : ℝ} (hv : 0 ≤ v) (he : 0 < e) : IsReal (Ideal.rsqrt ((v : EReal) + (e : EReal))) := by
  rw [← EReal.coe_add, Ideal.rsqrt_coe, if_neg (by linarith), if_neg (by linarith)]
  exact IsReal.coe _

/-- The small constant added to the variance (float pattern 0x3727C5AC) is a positive real number. -/
theorem eps_pos : ∃ e : ℝ, 0 < e ∧ Ideal.ofBits .f32 0x3727C5AC#32 = (e : EReal) := by
  show ∃ e : ℝ, 0 < e ∧ Ideal.ieee 8 23 (0x3727C5AC#32 : BitVec 32) = (e : EReal)
  unfold Ideal.ieee
  dsimp only
  rw [if_neg (by decide), if_neg (by decide)]
  refine ⟨_, ?_, rfl⟩
  rw [if_neg (by decide)]
  positivity

/-- The float pattern 0x47435000 is the number fifty thousand. -/
theorem fifty_thousand : Ideal.ofBits .f32 0x47435000#32 = ((50000 : ℝ) : EReal) := by
  simp [Ideal.ofBits, Ideal.ieee, -EReal.coe_mul]; norm_num

end Cert.Bridge.Laws
-- ==== Proof.BridgeStages.lean ====
/-
  THE REFERENCE'S HOST SPELLING OF EACH STAGE OF A GRAPH LAYER IS THE STAGE ITSELF, entry by entry on the extended
  reals, for arrays of any extents.

  * Real entries stay real through a gather (each result entry is an operand entry), through an accumulating
    scatter (each result entry is an operand entry plus a finite sum of update entries) and through a constant.
  * The neighbourhood mean: dividing row p of the summed messages by the degree of p cut off below at one equals
    multiplying it by the inverse of that degree, the degree being a real number.
  * The linear stage: ((A·Wl + b) + X·Wr) + X·Ws, the bias laid along one row and then down the rows, equals
    A·Wl + X·(Wr + Ws) + b with the bias recast as a row, for real X, Wr, Ws.
  * Normalisation: the column mean, the inverse deviation, the scale and the shift, each laid along a row and down
    the rows, give at (p, q) the vector's entry q; the host's expression is then the stage of the same vectors.
  * The host's sum over fifty thousand rows started from zero is the sum over the rows.
-/
import proofs.«126844_j8246337208554_1_alg».proof.Proof.SageSpec
import proofs.«126844_j8246337208554_1_alg».proof.Proof.BridgeLaws

noncomputable section

open scoped BigOperators

namespace Cert.Bridge

open Idealize.ShloMosaic Idealize.ShloMosaic.ValueIdx Idealize.ShloMosaic.RealEntries
open Cert.LayerForms Cert.DenseStages Cert.MatOps Cert.Sage Cert.Bridge.Laws

/-! ## Real entries through the host's gather, accumulating scatter and constants -/

/-- Every entry of a gather is an entry of its operand. -/
theorem isReal_gather {s si t : Shape} {w : Nat} (d : GatherDims s si t) (x : FVec Ideal s .f32) (idx : IVec si w)
    (hx : ∀ i, IsReal (x i)) (j : t.Idx) : IsReal (Host.gather d x idx j) := hx _

/-- An entry of an accumulating scatter is the operand's entry plus a finite sum of update entries. -/
theorem isReal_scatterAdd {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd (F := Ideal) d x idx upd i) := by
  unfold Host.scatterAdd
  rw [Ideal.hostScatterAdd_def]
  unfold Ideal.hostScatterAdd
  exact (hx i).add (IsReal.sum _ _ fun j _ => hu j)

/-- A float pattern laid along a whole array reads that pattern everywhere. -/
theorem bcast_const_apply {t : Shape} (h : (⟨0, ![]⟩ : Shape).BroadcastsInDim t ![]) (b : BitVec 32) (i : t.Idx) :
    broadcastInDim t ![] h (constant (F := Ideal) ⟨0, ![]⟩ .f32 b) i = Ideal.ofBits .f32 b := by
  rw [broadcastInDim_apply ![] h _ i ix0 (fun a => a.elim0)]
  rfl

/-- The larger of two real numbers is a real number. -/
theorem IsReal.max' {a b : EReal} (ha : IsReal a) (hb : IsReal b) : IsReal (max a b) := by
  rcases le_total a b with h | h
  · rw [max_eq_right h]; exact hb
  · rw [max_eq_left h]; exact ha

/-! ## The neighbourhood mean: a quotient by the degree against a product with its inverse -/

/-- Dividing every row by its degree cut off below at one is multiplying it by the inverse of that degree. -/
theorem agg_law {N C : Nat} (S : FVec Ideal ⟨2, ![N, C]⟩ .f32) (deg ones : FVec Ideal ⟨1, ![N]⟩ .f32)
    (hdeg : ∀ i, IsReal (deg i)) (hones : ∀ i, ones i = 1)
    (h1 : (⟨1, ![N]⟩ : Shape).BroadcastsInDim ⟨2, ![N, 1]⟩ ![0])
    (h2 : (⟨2, ![N, 1]⟩ : Shape).BroadcastsInDim ⟨2, ![N, C]⟩ ![0, 1]) :
    Host.divf (F := Ideal) S (broadcastInDim ⟨2, ![N, C]⟩ ![0, 1] h2 (broadcastInDim ⟨2, ![N, 1]⟩ ![0] h1 (maximumf deg ones)))
      = mulf S (broadcastInDim ⟨2, ![N, C]⟩ ![0, 1] h2
          (broadcastInDim ⟨2, ![N, 1]⟩ ![0] h1 (Host.divf (F := Ideal) ones (maximumf deg ones)))) := by
  funext i
  obtain ⟨p, q, rfl⟩ : ∃ (p : Fin N) (q : Fin C), i = ix2 p q := ⟨i 0, i 1, eq_ix2 i⟩
  show Ideal.div (S (ix2 p q))
        (broadcastInDim ⟨2, ![N, C]⟩ ![0, 1] h2 (broadcastInDim ⟨2, ![N, 1]⟩ ![0] h1 (maximumf deg ones)) (ix2 p q))
      = S (ix2 p q) * broadcastInDim ⟨2, ![N, C]⟩ ![0, 1] h2
          (broadcastInDim ⟨2, ![N, 1]⟩ ![0] h1 (Host.divf (F := Ideal) ones (maximumf deg ones))) (ix2 p q)
  rw [column_then_across _ h1 h2 p q, column_then_across _ h1 h2 p q]
  show Ideal.div (S (ix2 p q)) (max (deg (ix1 p)) (ones (ix1 p)))
      = S (ix2 p q) * Ideal.div (ones (ix1 p)) (max (deg (ix1 p)) (ones (ix1 p)))
  rw [hones]
  exact (div_max_one _ (hdeg _)).1

/-- The neighbourhood means of real features are real. -/
theorem agg_real {N C : Nat} (S : FVec Ideal ⟨2, ![N, C]⟩ .f32) (deg ones : FVec Ideal ⟨1, ![N]⟩ .f32)
    (hS : ∀ i, IsReal (S i)) (hdeg : ∀ i, IsReal (deg i)) (hones : ∀ i, ones i = 1)
    (h1 : (⟨1, ![N]⟩ : Shape).BroadcastsInDim ⟨2, ![N, 1]⟩ ![0])
    (h2 : (⟨2, ![N, 1]⟩ : Shape).BroadcastsInDim ⟨2, ![N, C]⟩ ![0, 1]) (i : (⟨2, ![N, C]⟩ : Shape).Idx) :
    IsReal (mulf S (broadcastInDim ⟨2, ![N, C]⟩ ![0, 1] h2
          (broadcastInDim ⟨2, ![N, 1]⟩ ![0] h1 (Host.divf (F := Ideal) ones (maximumf deg ones)))) i) := by
  obtain ⟨p, q, rfl⟩ : ∃ (p : Fin N) (q : Fin C), i = ix2 p q := ⟨i 0, i 1, eq_ix2 i⟩
  show IsReal (S (ix2 p q) * broadcastInDim ⟨2, ![N, C]⟩ ![0, 1] h2
          (broadcastInDim ⟨2, ![N, 1]⟩ ![0] h1 (Host.divf (F := Ideal) ones (maximumf deg ones))) (ix2 p q))
  rw [column_then_across _ h1 h2 p q]
  show IsReal (S (ix2 p q) * Ideal.div (ones (ix1 p)) (max (deg (ix1 p)) (ones (ix1 p))))
  rw [hones]
  exact (hS _).mul (div_max_one 0 (hdeg _)).2

/-! ## The linear stage -/

/-- Three products and a bias laid along the rows, added in the order ((A·Wl + b) + X·Wr) + X·Ws, are the stage
    A·Wl + X·(Wr + Ws) + b of the bias recast as a row, when the features and the two weight arrays are real. -/
theorem ref_lin {N K C : Nat} (d : DotDims ⟨2, ![N, K]⟩ ⟨2, ![K, C]⟩ ⟨2, ![N, C]⟩)
    (wf : DotDims.WF ⟨2, ![N, K]⟩ ⟨2, ![K, C]⟩ ⟨2, ![N, C]⟩ [1] [0] [0] [1] [] []) (hd : d = plainDot N K C wf)
    (A X : FVec Ideal ⟨2, ![N, K]⟩ .f32) (Wl Wr Ws : FVec Ideal ⟨2, ![K, C]⟩ .f32) (bv : FVec Ideal ⟨1, ![C]⟩ .f32)
    (hb1 : (⟨1, ![C]⟩ : Shape).BroadcastsInDim ⟨2, ![1, C]⟩ ![1])
    (hb2 : (⟨2, ![1, C]⟩ : Shape).BroadcastsInDim ⟨2, ![N, C]⟩ ![0, 1])
    (cb : (⟨1, ![C]⟩ : Shape).ShapeCasts ⟨2, ![1, C]⟩)
    (hX : ∀ i, IsReal (X i)) (hWr : ∀ i, IsReal (Wr i)) (hWs : ∀ i, IsReal (Ws i)) :
    addf (addf (addf (Host.dotGeneral d none A Wl)
            (broadcastInDim ⟨2, ![N, C]⟩ ![0, 1] hb2 (broadcastInDim ⟨2, ![1, C]⟩ ![1] hb1 bv)))
          (Host.dotGeneral d none X Wr)) (Host.dotGeneral d none X Ws)
      = lin A X Wl (addf Wr Ws) (shapeCast ⟨2, ![1, C]⟩ bv cb) := by
  rw [dotGeneral_eq_dense d wf hd A Wl, dotGeneral_eq_dense d wf hd X Wr, dotGeneral_eq_dense d wf hd X Ws]
  funext i
  obtain ⟨p, q, rfl⟩ : ∃ (p : Fin N) (q : Fin C), i = ix2 p q := ⟨i 0, i 1, eq_ix2 i⟩
  show ((dense A Wl (ix2 p q)
          + broadcastInDim ⟨2, ![N, C]⟩ ![0, 1] hb2 (broadcastInDim ⟨2, ![1, C]⟩ ![1] hb1 bv) (ix2 p q))
        + dense X Wr (ix2 p q)) + dense X Ws (ix2 p q) = _
  rw [row_then_down bv hb1 hb2 p q, lin_apply, shapeCast_a_1a_apply bv cb (0 : Fin 1) q, dense_apply, dense_apply,
    dense_apply]
  exact lin_law (fun k => A (ix2 p k)) (fun k => X (ix2 p k)) (fun k => Wl (ix2 k q)) (fun k => Wr (ix2 k q))
    (fun k => Ws (ix2 k q)) (bv (ix1 q)) (fun k => hX _) (fun k => hWr _) (fun k => hWs _)

/-- The linear stage of real arrays is real. -/
theorem lin_real {N K C : Nat} (A X : FVec Ideal ⟨2, ![N, K]⟩ .f32) (Wl Wc : FVec Ideal ⟨2, ![K, C]⟩ .f32)
    (b : FVec Ideal ⟨2, ![1, C]⟩ .f32) (hA : ∀ i, IsReal (A i)) (hX : ∀ i, IsReal (X i)) (hWl : ∀ i, IsReal (Wl i))
    (hWc : ∀ i, IsReal (Wc i)) (hb : ∀ i, IsReal (b i)) (i : (⟨2, ![N, C]⟩ : Shape).Idx) : IsReal (lin A X Wl Wc b i) := by
  obtain ⟨p, q, rfl⟩ : ∃ (p : Fin N) (q : Fin C), i = ix2 p q := ⟨i 0, i 1, eq_ix2 i⟩
  rw [lin_apply]
  exact ((IsReal.sum _ _ fun k _ => (hA _).mul (hWl _)).add (IsReal.sum _ _ fun k _ => (hX _).mul (hWc _))).add (hb _)

/-! ## Normalise, scale, shift, add the layer's input, cut off below at zero -/

/-- The host lays each of the column mean, the inverse deviation, the scale and the shift first along one row and
    then down all rows; entry (p, q) of each is the vector's entry q, so the host's expression is the stage of the
    same four vectors written as one-row arrays. -/
theorem ref_normAct {N C : Nat} (H X : FVec Ideal ⟨2, ![N, C]⟩ .f32) (mu var epsv g bt : FVec Ideal ⟨1, ![C]⟩ .f32)
    (mu' var' g' bt' : FVec Ideal ⟨2, ![1, C]⟩ .f32)
    (hmu : ∀ q : Fin C, mu (ix1 q) = mu' (ix2 (0 : Fin 1) q))
    (hvar : ∀ q : Fin C, var (ix1 q) = var' (ix2 (0 : Fin 1) q))
    (hg : ∀ q : Fin C, g (ix1 q) = g' (ix2 (0 : Fin 1) q))
    (hbt : ∀ q : Fin C, bt (ix1 q) = bt' (ix2 (0 : Fin 1) q))
    (heps : ∀ q : Fin C, epsv (ix1 q) = eps)
    (hb1 : (⟨1, ![C]⟩ : Shape).BroadcastsInDim ⟨2, ![1, C]⟩ ![1])
    (hb2 : (⟨2, ![1, C]⟩ : Shape).BroadcastsInDim ⟨2, ![N, C]⟩ ![0, 1])
    (h0 : (⟨0, ![]⟩ : Shape).BroadcastsInDim ⟨2, ![N, C]⟩ ![]) :
    maximumf
        (addf (addf (mulf (mulf
              (subf H (broadcastInDim ⟨2, ![N, C]⟩ ![0, 1] hb2 (broadcastInDim ⟨2, ![1, C]⟩ ![1] hb1 mu)))
              (broadcastInDim ⟨2, ![N, C]⟩ ![0, 1] hb2 (broadcastInDim ⟨2, ![1, C]⟩ ![1] hb1 (Host.rsqrt (F := Ideal) (addf var epsv)))))
            (broadcastInDim ⟨2, ![N, C]⟩ ![0, 1] hb2 (broadcastInDim ⟨2, ![1, C]⟩ ![1] hb1 g)))
          (broadcastInDim ⟨2, ![N, C]⟩ ![0, 1] hb2 (broadcastInDim ⟨2, ![1, C]⟩ ![1] hb1 bt))) X)
        (broadcastInDim ⟨2, ![N, C]⟩ ![] h0 (constant (F := Ideal) ⟨0, ![]⟩ .f32 0x00000000#32))
      = normAct H X mu' var' g' bt' := by
  rw [host_relu _ h0]
  funext i
  obtain ⟨p, q, rfl⟩ : ∃ (p : Fin N) (q : Fin C), i = ix2 p q := ⟨i 0, i 1, eq_ix2 i⟩
  show max (((((H (ix2 p q) - broadcastInDim ⟨2, ![N, C]⟩ ![0, 1] hb2 (broadcastInDim ⟨2, ![1, C]⟩ ![1] hb1 mu) (ix2 p q))
            * broadcastInDim ⟨2, ![N, C]⟩ ![0, 1] hb2 (broadcastInDim ⟨2, ![1, C]⟩ ![1] hb1 (Host.rsqrt (F := Ideal) (addf var epsv))) (ix2 p q))
          * broadcastInDim ⟨2, ![N, C]⟩ ![0, 1] hb2 (broadcastInDim ⟨2, ![1, C]⟩ ![1] hb1 g) (ix2 p q))
        + broadcastInDim ⟨2, ![N, C]⟩ ![0, 1] hb2 (broadcastInDim ⟨2, ![1, C]⟩ ![1] hb1 bt) (ix2 p q)) + X (ix2 p q)) (Ideal.ofBits .f32 0x00000000#32) = _
  rw [row_then_down mu hb1 hb2 p q, row_then_down (Host.rsqrt (F := Ideal) (addf var epsv)) hb1 hb2 p q,
    row_then_down g hb1 hb2 p q, row_then_down bt hb1 hb2 p q, normAct_apply, ← hmu q, ← hvar q, ← hg q, ← hbt q]
  show max (((((H (ix2 p q) - mu (ix1 q)) * Ideal.rsqrt (var (ix1 q) + epsv (ix1 q))) * g (ix1 q)) + bt (ix1 q))
      + X (ix2 p q)) (Ideal.ofBits .f32 0x00000000#32) = _
  rw [heps q]

/-- The stage's result is real when its arguments are and the variance is a nonnegative real. -/
theorem normAct_real {N C : Nat} (H X : FVec Ideal ⟨2, ![N, C]⟩ .f32) (mu var g bt : FVec Ideal ⟨2, ![1, C]⟩ .f32)
    (hH : ∀ i, IsReal (H i)) (hX : ∀ i, IsReal (X i)) (hmu : ∀ i, IsReal (mu i)) (hg : ∀ i, IsReal (g i))
    (hbt : ∀ i, IsReal (bt i))
    (hvar : ∀ q : Fin C, ∃ v : ℝ, 0 ≤ v ∧ var (ix2 (0 : Fin 1) q) = (v : EReal)) (i : (⟨2, ![N, C]⟩ : Shape).Idx) :
    IsReal (normAct H X mu var g bt i) := by
  obtain ⟨p, q, rfl⟩ : ∃ (p : Fin N) (q : Fin C), i = ix2 p q := ⟨i 0, i 1, eq_ix2 i⟩
  rw [normAct_apply]
  obtain ⟨v, hv, ev⟩ := hvar q
  obtain ⟨e, he, ee⟩ := eps_pos
  have hr : IsReal (Ideal.rsqrt (var (ix2 (0 : Fin 1) q) + eps)) := by
    rw [ev]
    show IsReal (Ideal.rsqrt ((v : EReal) + Ideal.ofBits .f32 0x3727C5AC#32))
    rw [ee]
    exact isReal_rsqrt_add hv he
  exact IsReal.max' ((((((hH _).sub (hmu _)).mul hr).mul (hg _)).add (hbt _)).add (hX _))
    (by rw [Ideal.ofBits_zero_f32]; exact IsReal.zero)

/-! ## The column sums of an array of fifty thousand rows -/

/-- The host's sum over the rows, started from zero, is at column q the sum over the fifty thousand rows. -/
theorem reduceAdd_col (H : FVec Ideal ⟨2, ![50000, 128]⟩ .f32)
    (hred : (⟨2, ![50000, 128]⟩ : Shape).ReducesTo [0] ⟨1, ![128]⟩) (hS : 0 < (⟨0, ![]⟩ : Shape).numel) (q : Fin 128) :
    Host.reduceAdd (F := Ideal) H (constant (F := Ideal) ⟨0, ![]⟩ .f32 0x00000000#32) hred hS (ix1 q)
      = ∑ p : Fin 50000, H (ix2 p q) := by
  simp only [Host.reduceAdd, Ideal.hostReduceAdd_def]
  rw [Ideal.hostReduceAdd_single hred (by decide)]
  show Ideal.ofBits .f32 0x00000000#32 + _ = _
  rw [Ideal.ofBits_zero_f32, zero_add]
  refine Finset.sum_congr rfl fun k _ => ?_
  exact congrArg H (funext fun a => Fin.ext (by match a with | ⟨0, _⟩ => rfl | ⟨1, _⟩ => rfl))

end Cert.Bridge

end
-- ==== Proof.BridgeAgg.lean ====
/-
  THE NEIGHBOURHOOD MEANS ARE THE SAME IN BOTH PROGRAMS.

  Both gather the rows of the features at the edges' sources (a negative source wrapped around once), add them up at
  the edges' targets, and count in the same way the edges arriving at each node. One program divides each summed
  row by that count cut off below at one; the other multiplies it by the inverse of the same number. The count is
  zero plus a finite sum of ones, hence a real number; the larger of it and one is then a nonzero real, for which a
  quotient is the product with the inverse. Nothing is asked of the features. The summed messages and the count are
  carried as whole arrays, the same on both sides, and are never opened; for real features they are real, each entry
  being an entry of the operand plus a finite sum of entries of the updates.
-/
import proofs.«126844_j8246337208554_1_alg».proof.Proof.KerTerm
import proofs.«126844_j8246337208554_1_alg».proof.Proof.RefRead
import proofs.«126844_j8246337208554_1_alg».proof.Proof.BridgeStages

noncomputable section

open scoped BigOperators

namespace Cert.Bridge

open Idealize.ShloMosaic Idealize.ShloMosaic.ValueIdx Idealize.ShloMosaic.RealEntries
open Cert.LayerForms Cert.DenseStages Cert.MatOps Cert.Sage Cert.Bridge.Laws
open Cert.KernelIdeal Cert.KernelIdeal.Gen Cert.KernelIdeal.Spec

/-! ## The pieces both programs share -/

/-- The summed messages: the rows of the features gathered at the edges' wrapped sources, added up at the targets. -/
def msgSum (X : FVec Ideal S50000x128 .f32) (row col : IVec S800000 32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 row)
    (Host.gather gather_S50000x128_S800000x1_S800000x128_1_0_n_n_0_1_1128 X (srcIdx col))

/-- The number of edges arriving at each node: ones added up at the targets. -/
def degree (row : IVec S800000 32) : FVec Ideal S50000 .f32 :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 row)
    (broadcastInDim S800000 ![] bcast_S_S800000 (constant (F := Ideal) S_ .f32 0x3F800000#32))

/-- One at every node. -/
def onesN : FVec Ideal S50000 .f32 :=
  broadcastInDim S50000 ![] bcast_S_S50000 (constant (F := Ideal) S_ .f32 0x3F800000#32)

theorem onesN_apply (i : S50000.Idx) : onesN i = 1 := by
  unfold onesN
  rw [bcast_const_apply, one_f32]

/-- The degree is a real number: zero plus a finite sum of ones. -/
theorem degree_real (row : IVec S800000 32) (i : S50000.Idx) : IsReal (degree row i) := by
  unfold degree
  refine isReal_scatterAdd _ _ _ _ (fun i => ?_) (fun j => ?_) i
  · rw [bcast_const_apply, Ideal.ofBits_zero_f32]; exact IsReal.zero
  · rw [bcast_const_apply, one_f32]; exact IsReal.one

/-- The summed messages of real features are real. -/
theorem msgSum_real (X : FVec Ideal S50000x128 .f32) (hX : ∀ i, IsReal (X i)) (row col : IVec S800000 32)
    (i : S50000x128.Idx) : IsReal (msgSum X row col i) := by
  unfold msgSum
  refine isReal_scatterAdd _ _ _ _ (fun i => ?_) (fun j => isReal_gather _ X _ hX j) i
  rw [bcast_const_apply, Ideal.ofBits_zero_f32]; exact IsReal.zero

/-- The kernel program's neighbourhood means: the summed messages times the inverse degree. -/
theorem aggK_eq (X : FVec Ideal S50000x128 .f32) (row col : IVec S800000 32) :
    aggK X row col = mulf (msgSum X row col)
      (broadcastInDim S50000x128 ![0, 1] bcast_S50000x1_S50000x128_0_1
        (broadcastInDim S50000x1 ![0] bcast_S50000_S50000x1_0
          (Host.divf (F := Ideal) onesN (maximumf (degree row) onesN)))) := rfl

/-- The neighbourhood means of real features are real. -/
theorem aggK_real (X : FVec Ideal S50000x128 .f32) (hX : ∀ i, IsReal (X i)) (row col : IVec S800000 32)
    (i : S50000x128.Idx) : IsReal (aggK X row col i) := by
  rw [aggK_eq]
  exact agg_real (msgSum X row col) (degree row) onesN (msgSum_real X hX row col) (degree_real row) onesN_apply
    bcast_S50000_S50000x1_0 bcast_S50000x1_S50000x128_0_1 i

/-! ## The reference's neighbourhood means -/

/-- The reference divides the same summed messages by the degree cut off below at one, laid along the columns. -/
theorem refAgg_eq (X : FVec Ideal S50000x128 .f32) (row col : IVec S800000 32) :
    Cert.ReferenceIdeal.Read.val_main_v18 (F := Ideal) X row col
      = Host.divf (F := Ideal) (msgSum X row col)
          (broadcastInDim S50000x128 ![0, 1] bcast_S50000x1_S50000x128_0_1
            (broadcastInDim S50000x1 ![0] bcast_S50000_S50000x1_0 (maximumf (degree row) onesN))) := rfl

/-- Both programs compute the same neighbourhood means, whatever the features. -/
theorem agg_eq (X : FVec Ideal S50000x128 .f32) (row col : IVec S800000 32) :
    Cert.ReferenceIdeal.Read.val_main_v18 (F := Ideal) X row col = aggK X row col := by
  rw [refAgg_eq, aggK_eq]
  exact agg_law (msgSum X row col) (degree row) onesN (degree_real row) onesN_apply bcast_S50000_S50000x1_0
    bcast_S50000x1_S50000x128_0_1

end Cert.Bridge

end
-- ==== Proof.BridgeMoments.lean ====
/-
  THE COLUMN MEAN AND VARIANCE OF AN ARRAY OF FIFTY THOUSAND ROWS, in the two spellings.

  One program sums each column over the rows, divides by fifty thousand, lays that mean down the rows, subtracts,
  squares, sums again and divides again: the mean of the squared deviations. The other keeps the column sums and the
  column sums of squares as one-row arrays and forms the mean of the squares less the square of the mean. For an
  array of real numbers the two are equal, the divisor being the number of rows; read in the first form the variance
  is a nonnegative real number.
-/
import proofs.«126844_j8246337208554_1_alg».proof.Proof.KerTerm
import proofs.«126844_j8246337208554_1_alg».proof.Proof.BridgeStages

noncomputable section

open scoped BigOperators

namespace Cert.Bridge

open Idealize.ShloMosaic Idealize.ShloMosaic.ValueIdx Idealize.ShloMosaic.RealEntries
open Cert.LayerForms Cert.DenseStages Cert.MatOps Cert.Sage Cert.Bridge.Laws
open Cert.KernelIdeal Cert.KernelIdeal.Gen Cert.KernelIdeal.Spec

/-! ## The column mean and variance of an array of fifty thousand rows -/

/-- A row of column sums divided by the number of nodes reads, at column q, the sum divided by fifty thousand. -/
theorem meanOf_apply (s : FVec Ideal S1x128 .f32) (q : Fin 128) :
    meanOf s (ix2 (0 : Fin 1) q) = Ideal.div (s (ix2 (0 : Fin 1) q)) ((50000 : ℝ) : EReal) := by
  show Ideal.div (s (ix2 (0 : Fin 1) q))
      (broadcastInDim S1x128 ![] bcast_S_S1x128 (constant (F := Ideal) S_ .f32 0x47435000#32) (ix2 (0 : Fin 1) q)) = _
  rw [bcast_const_apply, fifty_thousand]

/-- The column means of a real array are real. -/
theorem meanOf_colSum_real (H : FVec Ideal ⟨2, ![50000, 128]⟩ .f32) (hH : ∀ i, IsReal (H i))
    (i : (⟨2, ![1, 128]⟩ : Shape).Idx) : IsReal (meanOf (colSum H) i) := by
  obtain ⟨z, q, rfl⟩ : ∃ (z : Fin 1) (q : Fin 128), i = ix2 z q := ⟨i 0, i 1, eq_ix2 i⟩
  obtain rfl : z = 0 := Subsingleton.elim _ _
  rw [meanOf_apply, colSum_apply]
  exact (IsReal.sum _ _ fun p _ => hH _).div_coe (by norm_num)

/-- The host's column mean — the sum over the rows divided by fifty thousand, as a vector — is the mean of the
    column sums kept as one row. -/
theorem ref_mean (H : FVec Ideal ⟨2, ![50000, 128]⟩ .f32)
    (hred : (⟨2, ![50000, 128]⟩ : Shape).ReducesTo [0] ⟨1, ![128]⟩) (hS : 0 < (⟨0, ![]⟩ : Shape).numel)
    (hb : (⟨0, ![]⟩ : Shape).BroadcastsInDim ⟨1, ![128]⟩ ![]) (q : Fin 128) :
    Host.divf (F := Ideal)
        (Host.reduceAdd (F := Ideal) H (constant (F := Ideal) ⟨0, ![]⟩ .f32 0x00000000#32) hred hS)
        (broadcastInDim ⟨1, ![128]⟩ ![] hb (constant (F := Ideal) ⟨0, ![]⟩ .f32 0x47435000#32)) (ix1 q)
      = meanOf (colSum H) (ix2 (0 : Fin 1) q) := by
  rw [meanOf_apply, colSum_apply]
  show Ideal.div (Host.reduceAdd (F := Ideal) H (constant (F := Ideal) ⟨0, ![]⟩ .f32 0x00000000#32) hred hS (ix1 q))
      (broadcastInDim ⟨1, ![128]⟩ ![] hb (constant (F := Ideal) ⟨0, ![]⟩ .f32 0x47435000#32) (ix1 q)) = _
  rw [reduceAdd_col, bcast_const_apply, fifty_thousand]

/-- The host's column variance — the mean of the squared deviations from the column mean laid down the rows — is
    the mean of the squares less the square of the mean, for a real array. -/
theorem ref_var (H : FVec Ideal ⟨2, ![50000, 128]⟩ .f32) (hH : ∀ i, IsReal (H i)) (mean : FVec Ideal ⟨1, ![128]⟩ .f32)
    (hmean : ∀ q : Fin 128, mean (ix1 q) = meanOf (colSum H) (ix2 (0 : Fin 1) q))
    (hred : (⟨2, ![50000, 128]⟩ : Shape).ReducesTo [0] ⟨1, ![128]⟩) (hS : 0 < (⟨0, ![]⟩ : Shape).numel)
    (hb : (⟨0, ![]⟩ : Shape).BroadcastsInDim ⟨1, ![128]⟩ ![])
    (hb1 : (⟨1, ![128]⟩ : Shape).BroadcastsInDim ⟨2, ![1, 128]⟩ ![1])
    (hb2 : (⟨2, ![1, 128]⟩ : Shape).BroadcastsInDim ⟨2, ![50000, 128]⟩ ![0, 1]) (q : Fin 128) :
    Host.divf (F := Ideal)
        (Host.reduceAdd (F := Ideal) (mulf (subf H (broadcastInDim ⟨2, ![50000, 128]⟩ ![0, 1] hb2 (broadcastInDim ⟨2, ![1, 128]⟩ ![1] hb1 mean))) (subf H (broadcastInDim ⟨2, ![50000, 128]⟩ ![0, 1] hb2 (broadcastInDim ⟨2, ![1, 128]⟩ ![1] hb1 mean))))
          (constant (F := Ideal) ⟨0, ![]⟩ .f32 0x00000000#32) hred hS)
        (broadcastInDim ⟨1, ![128]⟩ ![] hb (constant (F := Ideal) ⟨0, ![]⟩ .f32 0x47435000#32)) (ix1 q)
      = varOf (colSumSq H) (meanOf (colSum H)) (ix2 (0 : Fin 1) q) := by
  show Ideal.div
      (Host.reduceAdd (F := Ideal) (mulf (subf H (broadcastInDim ⟨2, ![50000, 128]⟩ ![0, 1] hb2 (broadcastInDim ⟨2, ![1, 128]⟩ ![1] hb1 mean))) (subf H (broadcastInDim ⟨2, ![50000, 128]⟩ ![0, 1] hb2 (broadcastInDim ⟨2, ![1, 128]⟩ ![1] hb1 mean))))
        (constant (F := Ideal) ⟨0, ![]⟩ .f32 0x00000000#32) hred hS (ix1 q))
      (broadcastInDim ⟨1, ![128]⟩ ![] hb (constant (F := Ideal) ⟨0, ![]⟩ .f32 0x47435000#32) (ix1 q))
    = meanOf (colSumSq H) (ix2 (0 : Fin 1) q)
        - meanOf (colSum H) (ix2 (0 : Fin 1) q) * meanOf (colSum H) (ix2 (0 : Fin 1) q)
  rw [reduceAdd_col, bcast_const_apply, fifty_thousand, meanOf_apply, meanOf_apply, colSumSq_apply, colSum_apply]
  have e : ∀ p : Fin 50000, (mulf (subf H (broadcastInDim ⟨2, ![50000, 128]⟩ ![0, 1] hb2 (broadcastInDim ⟨2, ![1, 128]⟩ ![1] hb1 mean))) (subf H (broadcastInDim ⟨2, ![50000, 128]⟩ ![0, 1] hb2 (broadcastInDim ⟨2, ![1, 128]⟩ ![1] hb1 mean)))) (ix2 p q)
      = (H (ix2 p q) - Ideal.div (∑ p : Fin 50000, H (ix2 p q)) ((50000 : ℝ) : EReal))
        * (H (ix2 p q) - Ideal.div (∑ p : Fin 50000, H (ix2 p q)) ((50000 : ℝ) : EReal)) := fun p => by
    show (H (ix2 p q) - broadcastInDim ⟨2, ![50000, 128]⟩ ![0, 1] hb2 (broadcastInDim ⟨2, ![1, 128]⟩ ![1] hb1 mean) (ix2 p q)) * (H (ix2 p q) - broadcastInDim ⟨2, ![50000, 128]⟩ ![0, 1] hb2 (broadcastInDim ⟨2, ![1, 128]⟩ ![1] hb1 mean) (ix2 p q)) = _
    rw [row_then_down mean hb1 hb2 p q, hmean q, meanOf_apply, colSum_apply]
  rw [Finset.sum_congr rfl fun p _ => e p]
  exact var_law (fun p : Fin 50000 => H (ix2 p q)) (fun p => hH _) 50000 (by simp) (by norm_num)

/-- The column variance of a real array is a nonnegative real. -/
theorem varOf_nonneg (H : FVec Ideal ⟨2, ![50000, 128]⟩ .f32) (hH : ∀ i, IsReal (H i)) (q : Fin 128) :
    ∃ v : ℝ, 0 ≤ v ∧ varOf (colSumSq H) (meanOf (colSum H)) (ix2 (0 : Fin 1) q) = (v : EReal) := by
  have hM : IsReal (Ideal.div (∑ p : Fin 50000, H (ix2 p q)) ((50000 : ℝ) : EReal)) :=
    (IsReal.sum _ _ fun p _ => hH _).div_coe (by norm_num)
  obtain ⟨v, hv, e⟩ := var_nonneg (fun p : Fin 50000 => H (ix2 p q)) (fun p => hH _) hM (n := 50000) (by norm_num)
  refine ⟨v, hv, ?_⟩
  show meanOf (colSumSq H) (ix2 (0 : Fin 1) q)
      - meanOf (colSum H) (ix2 (0 : Fin 1) q) * meanOf (colSum H) (ix2 (0 : Fin 1) q) = _
  rw [meanOf_apply, meanOf_apply, colSumSq_apply, colSum_apply, ← e]
  exact (var_law (fun p : Fin 50000 => H (ix2 p q)) (fun p => hH _) 50000 (by simp) (by norm_num)).symm

end Cert.Bridge

end
-- ==== Proof.BridgeLayer.lean ====
/-
  ONE NORMALISING LAYER: the reference's run of it is the kernel program's, on real arguments.

  The reference's layer is a tail — column mean, column variance as the mean of the squared deviations, normalise,
  scale, shift, add the layer's input, cut off below at zero — applied to its linear stage
  ((A·Wl + b) + X·Wr) + X·Ws of the neighbourhood means A and the features X. The linear stage is the kernel
  program's A·Wl + X·(Wr + Ws) + b because X, Wr, Ws are real and A is the same array in both programs. Its result
  is an array of real numbers, and for such an array the tail is the kernel program's normalising stage at the
  kernel program's mean and variance (the mean of the squares less the square of the mean). The layer's result is
  again an array of real numbers — the variance is a nonnegative real, the added constant a positive one, so the
  inverse square root is real — which is what the next layer needs.
-/
import proofs.«126844_j8246337208554_1_alg».proof.Proof.BridgeAgg
import proofs.«126844_j8246337208554_1_alg».proof.Proof.BridgeMoments

noncomputable section

open scoped BigOperators

namespace Cert.Bridge

open Idealize.ShloMosaic Idealize.ShloMosaic.ValueIdx Idealize.ShloMosaic.RealEntries
open Cert.LayerForms Cert.DenseStages Cert.MatOps Cert.Sage Cert.Bridge.Laws
open Cert.KernelIdeal Cert.KernelIdeal.Gen Cert.KernelIdeal.Spec

/-! ## The reference's normalising tail as a function of the linear stage's result -/

/-- A vector laid along one row and then down all rows, as the reference lays it. -/
def rowsR (v : FVec Ideal S128 .f32) : FVec Ideal S50000x128 .f32 :=
  broadcastInDim S50000x128 ![0, 1] Cert.ReferenceIdeal.Gen.bcast_S1x128_S50000x128_0_1
    (broadcastInDim S1x128 ![1] Cert.ReferenceIdeal.Gen.bcast_S128_S1x128_1 v)

/-- The reference's column mean. -/
def refMean (V : FVec Ideal S50000x128 .f32) : FVec Ideal S128 .f32 :=
  Host.divf (F := Ideal) (Host.reduceAdd (F := Ideal) V (constant (F := Ideal) S_ .f32 0x00000000#32) Cert.ReferenceIdeal.Gen.reducesTo_S50000x128_S128_d0 Cert.ReferenceIdeal.Gen.h_S_) (broadcastInDim S128 ![] Cert.ReferenceIdeal.Gen.bcast_S_S128 (constant (F := Ideal) S_ .f32 0x47435000#32))

/-- The reference's column variance: the mean of the squared deviations from the column mean. -/
def refVar (V : FVec Ideal S50000x128 .f32) : FVec Ideal S128 .f32 :=
  Host.divf (F := Ideal)
    (Host.reduceAdd (F := Ideal) (mulf (subf V (rowsR (refMean V))) (subf V (rowsR (refMean V)))) (constant (F := Ideal) S_ .f32 0x00000000#32) Cert.ReferenceIdeal.Gen.reducesTo_S50000x128_S128_d0 Cert.ReferenceIdeal.Gen.h_S_)
    (broadcastInDim S128 ![] Cert.ReferenceIdeal.Gen.bcast_S_S128 (constant (F := Ideal) S_ .f32 0x47435000#32))

/-- The reference's normalisation, scale, shift, residual and cut-off. -/
def refTail (V X : FVec Ideal S50000x128 .f32) (g bt : FVec Ideal S128 .f32) : FVec Ideal S50000x128 .f32 :=
  maximumf
    (addf (addf (mulf (mulf (subf V (rowsR (refMean V)))
            (rowsR (Host.rsqrt (F := Ideal) (addf (refVar V) (broadcastInDim S128 ![] Cert.ReferenceIdeal.Gen.bcast_S_S128 (constant (F := Ideal) S_ .f32 0x3727C5AC#32))))))
          (rowsR g)) (rowsR bt)) X)
    (broadcastInDim S50000x128 ![] Cert.ReferenceIdeal.Gen.bcast_S_S50000x128 (constant (F := Ideal) S_ .f32 0x00000000#32))

/-- A vector recast as a one-row array is real when the vector is. -/
theorem row128_real (v : FVec Ideal S128 .f32) (hv : ∀ i, IsReal (v i)) (i : S1x128.Idx) : IsReal (row128 v i) := by
  obtain ⟨z, q, rfl⟩ : ∃ (z : Fin 1) (q : Fin 128), i = ix2 z q := ⟨i 0, i 1, eq_ix2 i⟩
  unfold row128
  rw [shapeCast_a_1a_apply v shapeCasts_S128_S1x128 z q]
  exact hv _

theorem row64_real (v : FVec Ideal S64 .f32) (hv : ∀ i, IsReal (v i)) (i : S1x64.Idx) : IsReal (row64 v i) := by
  obtain ⟨z, q, rfl⟩ : ∃ (z : Fin 1) (q : Fin 64), i = ix2 z q := ⟨i 0, i 1, eq_ix2 i⟩
  unfold row64
  rw [shapeCast_a_1a_apply v shapeCasts_S64_S1x64 z q]
  exact hv _

/-- For a real array the reference's tail is the normalising stage at the kernel program's mean and variance. -/
theorem refTail_eq (V X : FVec Ideal S50000x128 .f32) (g bt : FVec Ideal S128 .f32) (hV : ∀ i, IsReal (V i)) :
    refTail V X g bt
      = normAct V X (meanOf (colSum V)) (varOf (colSumSq V) (meanOf (colSum V))) (row128 g) (row128 bt) := by
  unfold refTail rowsR
  exact ref_normAct V X (refMean V) (refVar V) (broadcastInDim S128 ![] Cert.ReferenceIdeal.Gen.bcast_S_S128 (constant (F := Ideal) S_ .f32 0x3727C5AC#32)) g bt
    (meanOf (colSum V)) (varOf (colSumSq V) (meanOf (colSum V))) (row128 g) (row128 bt)
    (fun q => ref_mean V _ _ _ q)
    (fun q => ref_var V hV (refMean V) (fun q => ref_mean V _ _ _ q) _ _ _ _ _ q)
    (fun q => (shapeCast_a_1a_apply g shapeCasts_S128_S1x128 (0 : Fin 1) q).symm)
    (fun q => (shapeCast_a_1a_apply bt shapeCasts_S128_S1x128 (0 : Fin 1) q).symm)
    (fun q => bcast_const_apply Cert.ReferenceIdeal.Gen.bcast_S_S128 0x3727C5AC#32 (ix1 q)) _ _ _

/-! ## One normalising layer -/

/-- The reference's linear stage is the kernel program's, for real features and weights. -/
theorem refLin_eq (X : FVec Ideal S50000x128 .f32) (row col : IVec S800000 32) (Wl : FVec Ideal S128x128 .f32)
    (bl : FVec Ideal S128 .f32) (Wr Ws : FVec Ideal S128x128 .f32)
    (hX : ∀ i, IsReal (X i)) (hWr : ∀ i, IsReal (Wr i)) (hWs : ∀ i, IsReal (Ws i)) :
    Cert.ReferenceIdeal.Read.val_main_v26 (F := Ideal) X row col Wl bl Wr Ws
      = lin (aggK X row col) X Wl (addf Wr Ws) (row128 bl) := by
  show addf (addf (addf (Host.dotGeneral Cert.ReferenceIdeal.dot_S50000x128_S128x128_S50000x128_1_0_0_1_n_n none (Cert.ReferenceIdeal.Read.val_main_v18 (F := Ideal) X row col) Wl)
          (broadcastInDim S50000x128 ![0, 1] Cert.ReferenceIdeal.Gen.bcast_S1x128_S50000x128_0_1
            (broadcastInDim S1x128 ![1] Cert.ReferenceIdeal.Gen.bcast_S128_S1x128_1 bl)))
        (Host.dotGeneral Cert.ReferenceIdeal.dot_S50000x128_S128x128_S50000x128_1_0_0_1_n_n none X Wr)) (Host.dotGeneral Cert.ReferenceIdeal.dot_S50000x128_S128x128_S50000x128_1_0_0_1_n_n none X Ws) = _
  rw [agg_eq]
  exact ref_lin _ Cert.ReferenceIdeal.Gen.dot_S50000x128_S128x128_S50000x128_1_0_0_1_n_n_wf rfl (aggK X row col) X Wl Wr Ws bl _ _
    shapeCasts_S128_S1x128 hX hWr hWs

/-- The reference's layer is its tail applied to its linear stage. -/
theorem refLayer_eq (X : FVec Ideal S50000x128 .f32) (row col : IVec S800000 32) (Wl : FVec Ideal S128x128 .f32)
    (bl : FVec Ideal S128 .f32) (Wr Ws : FVec Ideal S128x128 .f32) (g bt : FVec Ideal S128 .f32) :
    Cert.ReferenceIdeal.Read.val_main_v53 (F := Ideal) X row col Wl bl Wr Ws g bt
      = refTail (Cert.ReferenceIdeal.Read.val_main_v26 (F := Ideal) X row col Wl bl Wr Ws) X g bt := rfl

/-- The kernel program's linear stage of real arrays is real. -/
theorem linK_real (X : FVec Ideal S50000x128 .f32) (row col : IVec S800000 32) (Wl Wc : FVec Ideal S128x128 .f32)
    (bl : FVec Ideal S128 .f32) (hX : ∀ i, IsReal (X i)) (hWl : ∀ i, IsReal (Wl i)) (hWc : ∀ i, IsReal (Wc i))
    (hbl : ∀ i, IsReal (bl i)) (i : S50000x128.Idx) : IsReal (lin (aggK X row col) X Wl Wc (row128 bl) i) :=
  lin_real (aggK X row col) X Wl Wc (row128 bl) (aggK_real X hX row col) hX hWl hWc (row128_real bl hbl) i

/-- One normalising layer: the reference's run of it is the kernel program's, for real arguments. -/
theorem layer_eq (X : FVec Ideal S50000x128 .f32) (row col : IVec S800000 32) (Wl : FVec Ideal S128x128 .f32)
    (bl : FVec Ideal S128 .f32) (Wr Ws : FVec Ideal S128x128 .f32) (g bt : FVec Ideal S128 .f32)
    (hX : ∀ i, IsReal (X i)) (hWl : ∀ i, IsReal (Wl i)) (hbl : ∀ i, IsReal (bl i)) (hWr : ∀ i, IsReal (Wr i))
    (hWs : ∀ i, IsReal (Ws i)) :
    Cert.ReferenceIdeal.Read.val_main_v53 (F := Ideal) X row col Wl bl Wr Ws g bt = layerK X row col Wl (addf Wr Ws) bl g bt := by
  rw [refLayer_eq, refLin_eq X row col Wl bl Wr Ws hX hWr hWs]
  exact refTail_eq _ X g bt
    (linK_real X row col Wl (addf Wr Ws) bl hX hWl (fun i => (hWr i).add (hWs i)) hbl)

/-- The layer's result is real, so the next layer's laws apply to it. -/
theorem layerK_real (X : FVec Ideal S50000x128 .f32) (row col : IVec S800000 32) (Wl Wc : FVec Ideal S128x128 .f32)
    (bl g bt : FVec Ideal S128 .f32) (hX : ∀ i, IsReal (X i)) (hWl : ∀ i, IsReal (Wl i)) (hWc : ∀ i, IsReal (Wc i))
    (hbl : ∀ i, IsReal (bl i)) (hg : ∀ i, IsReal (g i)) (hbt : ∀ i, IsReal (bt i)) (i : S50000x128.Idx) :
    IsReal (layerK X row col Wl Wc bl g bt i) := by
  unfold layerK
  have hH := linK_real X row col Wl Wc bl hX hWl hWc hbl
  exact normAct_real _ X _ _ _ _ hH hX (meanOf_colSum_real _ hH) (row128_real g hg) (row128_real bt hbt)
    (varOf_nonneg _ hH) i

end Cert.Bridge

end
-- ==== Proof.BridgeRef.lean ====
/-
  THE BRIDGE: ON REAL ARGUMENTS THE KERNEL PROGRAM'S RESULT TERM IS THE REFERENCE'S.

  The reference runs the same normalising layer twice and then the linear stage alone onto sixty-four columns; its
  second stretch of operations is its first with other names for the same constants, so its second layer is its
  first layer's function applied to the first layer's result. Each layer is the kernel program's layer on real
  arguments, and each layer's result is again an array of real numbers; the last stage is the kernel program's last
  stage because the features and the two weight arrays it distributes over are real and the neighbourhood means are
  the same array in both programs. The integer arguments, the edges' targets and sources, are arbitrary.
-/
import proofs.«126844_j8246337208554_1_alg».proof.Proof.BridgeLayer

noncomputable section

open scoped BigOperators

namespace Cert.Bridge

open Idealize.ShloMosaic Idealize.ShloMosaic.ValueIdx Idealize.ShloMosaic.RealEntries
open Cert.LayerForms Cert.DenseStages Cert.MatOps Cert.Sage Cert.Bridge.Laws
open Cert.KernelIdeal Cert.KernelIdeal.Gen Cert.KernelIdeal.Spec

/-! ## The last stage and the whole network -/

/-- The reference's last stage: the neighbourhood means and the linear stage alone, onto sixty-four columns. -/
def refOut (Y : FVec Ideal S50000x128 .f32) (row col : IVec S800000 32) (Wl : FVec Ideal S128x64 .f32)
    (bl : FVec Ideal S64 .f32) (Wr Ws : FVec Ideal S128x64 .f32) : FVec Ideal S50000x64 .f32 :=
  addf (addf (addf (Host.dotGeneral (φ₁ := .f32) Cert.ReferenceIdeal.dot_S50000x128_S128x64_S50000x64_1_0_0_1_n_n none (Cert.ReferenceIdeal.Read.val_main_v18 (F := Ideal) Y row col) Wl)
        (broadcastInDim S50000x64 ![0, 1] Cert.ReferenceIdeal.Gen.bcast_S1x64_S50000x64_0_1
          (broadcastInDim S1x64 ![1] Cert.ReferenceIdeal.Gen.bcast_S64_S1x64_1 bl)))
      (Host.dotGeneral Cert.ReferenceIdeal.dot_S50000x128_S128x64_S50000x64_1_0_0_1_n_n none Y Wr)) (Host.dotGeneral Cert.ReferenceIdeal.dot_S50000x128_S128x64_S50000x64_1_0_0_1_n_n none Y Ws)

/-- It is the kernel program's last stage, for real features and weights. -/
theorem refOut_eq (Y : FVec Ideal S50000x128 .f32) (row col : IVec S800000 32) (Wl : FVec Ideal S128x64 .f32)
    (bl : FVec Ideal S64 .f32) (Wr Ws : FVec Ideal S128x64 .f32)
    (hY : ∀ i, IsReal (Y i)) (hWr : ∀ i, IsReal (Wr i)) (hWs : ∀ i, IsReal (Ws i)) :
    refOut Y row col Wl bl Wr Ws = lin (aggK Y row col) Y Wl (addf Wr Ws) (row64 bl) := by
  unfold refOut
  rw [agg_eq]
  exact ref_lin _ Cert.ReferenceIdeal.Gen.dot_S50000x128_S128x64_S50000x64_1_0_0_1_n_n_wf rfl (aggK Y row col) Y Wl Wr Ws bl _ _
    shapeCasts_S64_S1x64 hY hWr hWs

/-- The reference's second layer is its first layer's function applied to the first layer's result: the two
    stretches of the program differ only in the names of their constants. -/
theorem ref_second (x : FVec Ideal S50000x128 .f32) (row col : IVec S800000 32)
    (Wl0 : FVec Ideal S128x128 .f32) (bl0 : FVec Ideal S128 .f32) (Wr0 Ws0 : FVec Ideal S128x128 .f32)
    (Wl1 : FVec Ideal S128x128 .f32) (bl1 : FVec Ideal S128 .f32) (Wr1 Ws1 : FVec Ideal S128x128 .f32)
    (g0 b0 g1 b1 : FVec Ideal S128 .f32) :
    Cert.ReferenceIdeal.Read.val_main_v107 (F := Ideal) x row col Wl0 bl0 Wr0 Ws0 Wl1 bl1 Wr1 Ws1 g0 b0 g1 b1
      = Cert.ReferenceIdeal.Read.val_main_v53 (F := Ideal) (Cert.ReferenceIdeal.Read.val_main_v53 (F := Ideal) x row col Wl0 bl0 Wr0 Ws0 g0 b0)
          row col Wl1 bl1 Wr1 Ws1 g1 b1 := rfl

/-- The reference's result is its last stage applied to the second layer's result. -/
theorem ref_third (x : FVec Ideal S50000x128 .f32) (row col : IVec S800000 32)
    (Wl0 : FVec Ideal S128x128 .f32) (bl0 : FVec Ideal S128 .f32) (Wr0 Ws0 : FVec Ideal S128x128 .f32)
    (Wl1 : FVec Ideal S128x128 .f32) (bl1 : FVec Ideal S128 .f32) (Wr1 Ws1 : FVec Ideal S128x128 .f32)
    (Wl2 : FVec Ideal S128x64 .f32) (bl2 : FVec Ideal S64 .f32) (Wr2 Ws2 : FVec Ideal S128x64 .f32)
    (g0 b0 g1 b1 : FVec Ideal S128 .f32) :
    Cert.ReferenceIdeal.Read.val_main_v134 (F := Ideal) x row col Wl0 bl0 Wr0 Ws0 Wl1 bl1 Wr1 Ws1 Wl2 bl2 Wr2 Ws2 g0 b0 g1 b1
      = refOut (Cert.ReferenceIdeal.Read.val_main_v107 (F := Ideal) x row col Wl0 bl0 Wr0 Ws0 Wl1 bl1 Wr1 Ws1 g0 b0 g1 b1) row col Wl2 bl2 Wr2 Ws2 := rfl

/-- THE BRIDGE: on real arguments the kernel program's result term is the reference's. -/
theorem kerTerm_eq_ref (x : FVec Ideal S50000x128 .f32) (row col : IVec S800000 32)
    (Wl0 : FVec Ideal S128x128 .f32) (bl0 : FVec Ideal S128 .f32) (Wr0 Ws0 : FVec Ideal S128x128 .f32)
    (Wl1 : FVec Ideal S128x128 .f32) (bl1 : FVec Ideal S128 .f32) (Wr1 Ws1 : FVec Ideal S128x128 .f32)
    (Wl2 : FVec Ideal S128x64 .f32) (bl2 : FVec Ideal S64 .f32) (Wr2 Ws2 : FVec Ideal S128x64 .f32)
    (g0 b0 g1 b1 : FVec Ideal S128 .f32)
    (hx : ∀ i, IsReal (x i))
    (hWl0 : ∀ i, IsReal (Wl0 i)) (hbl0 : ∀ i, IsReal (bl0 i)) (hWr0 : ∀ i, IsReal (Wr0 i)) (hWs0 : ∀ i, IsReal (Ws0 i))
    (hWl1 : ∀ i, IsReal (Wl1 i)) (hbl1 : ∀ i, IsReal (bl1 i)) (hWr1 : ∀ i, IsReal (Wr1 i)) (hWs1 : ∀ i, IsReal (Ws1 i))
    (hWl2 : ∀ i, IsReal (Wl2 i)) (hbl2 : ∀ i, IsReal (bl2 i)) (hWr2 : ∀ i, IsReal (Wr2 i)) (hWs2 : ∀ i, IsReal (Ws2 i))
    (hg0 : ∀ i, IsReal (g0 i)) (hb0 : ∀ i, IsReal (b0 i)) (hg1 : ∀ i, IsReal (g1 i)) (hb1 : ∀ i, IsReal (b1 i)) :
    kerTerm x row col Wl0 bl0 Wr0 Ws0 Wl1 bl1 Wr1 Ws1 Wl2 bl2 Wr2 Ws2 g0 b0 g1 b1 = Cert.ReferenceIdeal.Read.val_main_v134 (F := Ideal) x row col Wl0 bl0 Wr0 Ws0 Wl1 bl1 Wr1 Ws1 Wl2 bl2 Wr2 Ws2 g0 b0 g1 b1 := by
  have h1 := layer_eq x row col Wl0 bl0 Wr0 Ws0 g0 b0 hx hWl0 hbl0 hWr0 hWs0
  have r1 := layerK_real x row col Wl0 (addf Wr0 Ws0) bl0 g0 b0 hx hWl0 (fun i => (hWr0 i).add (hWs0 i)) hbl0 hg0 hb0
  have h2 := layer_eq (layerK x row col Wl0 (addf Wr0 Ws0) bl0 g0 b0) row col Wl1 bl1 Wr1 Ws1 g1 b1 r1 hWl1 hbl1 hWr1 hWs1
  have r2 := layerK_real (layerK x row col Wl0 (addf Wr0 Ws0) bl0 g0 b0) row col Wl1 (addf Wr1 Ws1) bl1 g1 b1 r1 hWl1 (fun i => (hWr1 i).add (hWs1 i)) hbl1
    hg1 hb1
  rw [ref_third, ref_second, h1, h2]
  exact (refOut_eq _ row col Wl2 bl2 Wr2 Ws2 r2 hWr2 hWs2).symm

end Cert.Bridge

end
-- ==== Proof.PreReal.lean ====
/-
  Finite inputs are real numbers.

  The precondition says of each of the seventeen floating-point arguments that every entry x satisfies |x| < +infinity:
  the absolute values are compared, entry by entry, with the f32 word whose exponent field is all ones and whose fraction
  is zero, the comparisons are combined by "and" over all axes starting from "true", and the seventeen results are again
  combined by "and".  Read in the extended reals, |x| is the larger of x and -x and the word denotes the top element, so
  an entry that passes is neither of the two infinities: it is the image of a real number.  A conjunction of bits is one
  exactly when each bit is one, and an "and" over all entries that came out one met a one at every entry; so the single
  bit of the precondition yields, for each float argument, that all its entries are real.
-/
import proofs.«126844_j8246337208554_1_alg».proof.Pre_finite_inputs
import proofs.«126844_j8246337208554_1_alg».proof.Proof.LibReal
import Idealize.ShloMosaic.Lib.ReduceAll
import Idealize.ShloMosaic.Lib.ValueIdx

noncomputable section

namespace Cert.PreReal

open Idealize.ShloMosaic Idealize.ShloMosaic.RealEntries

/-- A scalar's shape has exactly one index. -/
instance : Subsingleton (⟨0, ![]⟩ : Shape).Idx := ⟨fun a b => funext fun d => d.elim0⟩

/-- The f32 word 0x7F800000 (sign 0, exponent all ones, fraction 0) denotes +infinity. -/
theorem ofBits_inf : Ideal.ofBits .f32 0x7F800000#32 = (⊤ : EReal) := by
  simp [Ideal.ofBits, Ideal.ieee]

/-- An entry whose absolute value compares strictly below the word of +infinity is a real number. -/
theorem isReal_of_lt_inf (x : Ideal .f32)
    (h : FloatOps.cmpf .olt (FloatOps.hostAbsf x) (FloatOps.ofBits (F := Ideal) .f32 0x7F800000#32) = 1#1) : IsReal x := by
  change BitVec.ofBool (decide (max x (-x) < Ideal.ofBits .f32 0x7F800000#32)) = 1#1 at h
  rw [ofBits_inf] at h
  refine isReal_of_abs_lt_top ?_
  by_contra hn
  rw [decide_eq_false hn] at h
  exact absurd h (by decide)

/-- "Every entry of `a` is below +infinity in absolute value", spelt as the comparison of |a| with the broadcast word of
    +infinity combined by "and" over all axes from "true": if that bit is one, every entry of `a` is a real number.
    Generic in the shape of `a` and in the proofs of the two shape relations. -/
theorem all_real {s : Shape} {axes : List (Fin s.rank)} (a : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (h : Host.reduce IntOp.andi
          (cmpf .olt (Host.absf a) (broadcastInDim s ![] hb (constant (F := Ideal) (⟨0, ![]⟩ : Shape) .f32 0x7F800000#32)))
          (constantI (⟨0, ![]⟩ : Shape) 1 1#1) hr hu ValueIdx.ix0 = 1#1) :
    ∀ i, IsReal (a i) := fun i =>
  isReal_of_lt_inf (a i) (Host.reduce_andi_all _ _ hr hu ValueIdx.ix0 h i)

open Cert.Pre_finite_inputs in
/-- The precondition decoded: where the finiteness predicate of the nineteen arguments is one, every entry of each of the
    seventeen float arguments (all but the two integer edge lists) is a real number.  It holds for whatever proof of the
    predicate's shape relations is in scope. -/
theorem real_of_pre [Cert.Pre_finite_inputs.Facts]
    (a0 : FVec Ideal S50000x128 .f32) (a1 a2 : IVec S800000 32) (a3 : FVec Ideal S128x128 .f32) (a4 : FVec Ideal S128 .f32)
    (a5 a6 a7 : FVec Ideal S128x128 .f32) (a8 : FVec Ideal S128 .f32) (a9 a10 : FVec Ideal S128x128 .f32)
    (a11 : FVec Ideal S128x64 .f32) (a12 : FVec Ideal S64 .f32) (a13 a14 : FVec Ideal S128x64 .f32)
    (a15 a16 a17 a18 : FVec Ideal S128 .f32)
    (h : Cert.Pre_finite_inputs.fn (F := Ideal) a0 a1 a2 a3 a4 a5 a6 a7 a8 a9 a10 a11 a12 a13 a14 a15 a16 a17 a18 = (fun _ => 1#1)) :
    (∀ i, IsReal (a0 i)) ∧ (∀ i, IsReal (a3 i)) ∧ (∀ i, IsReal (a4 i)) ∧ (∀ i, IsReal (a5 i)) ∧ (∀ i, IsReal (a6 i)) ∧
    (∀ i, IsReal (a7 i)) ∧ (∀ i, IsReal (a8 i)) ∧ (∀ i, IsReal (a9 i)) ∧ (∀ i, IsReal (a10 i)) ∧ (∀ i, IsReal (a11 i)) ∧
    (∀ i, IsReal (a12 i)) ∧ (∀ i, IsReal (a13 i)) ∧ (∀ i, IsReal (a14 i)) ∧ (∀ i, IsReal (a15 i)) ∧ (∀ i, IsReal (a16 i)) ∧
    (∀ i, IsReal (a17 i)) ∧ (∀ i, IsReal (a18 i)) := by
  -- the predicate's one bit, with the chain of its parts opened one after the other
  have e := congrFun h ValueIdx.ix0
  unfold Cert.Pre_finite_inputs.fn at e
  dsimp only at e
  unfold Cert.Pre_finite_inputs.fn_part1 at e
  dsimp only at e
  unfold Cert.Pre_finite_inputs.fn_part2 at e
  dsimp only at e
  unfold Cert.Pre_finite_inputs.fn_part3 at e
  dsimp only at e
  unfold Cert.Pre_finite_inputs.fn_part4 at e
  dsimp only [andi] at e
  -- a conjunction of bits is one exactly when each is
  simp only [IntOp.andi_eq_one] at e
  obtain ⟨⟨⟨⟨⟨⟨⟨⟨⟨⟨⟨⟨⟨⟨⟨⟨h0, h3⟩, h4⟩, h5⟩, h6⟩, h7⟩, h8⟩, h9⟩, h10⟩, h11⟩, h12⟩, h13⟩, h14⟩, h15⟩, h16⟩, h17⟩, h18⟩ := e
  exact ⟨all_real a0 _ _ _ h0, all_real a3 _ _ _ h3, all_real a4 _ _ _ h4, all_real a5 _ _ _ h5, all_real a6 _ _ _ h6,
    all_real a7 _ _ _ h7, all_real a8 _ _ _ h8, all_real a9 _ _ _ h9, all_real a10 _ _ _ h10, all_real a11 _ _ _ h11,
    all_real a12 _ _ _ h12, all_real a13 _ _ _ h13, all_real a14 _ _ _ h14, all_real a15 _ _ _ h15, all_real a16 _ _ _ h16,
    all_real a17 _ _ _ h17, all_real a18 _ _ _ h18⟩

open Cert.Pre_finite_inputs in
/-- The same with the nineteen arrays read off the hypothesis. -/
theorem real_of_pre' [Cert.Pre_finite_inputs.Facts]
    {a0 : FVec Ideal S50000x128 .f32} {a1 a2 : IVec S800000 32} {a3 : FVec Ideal S128x128 .f32} {a4 : FVec Ideal S128 .f32}
    {a5 a6 a7 : FVec Ideal S128x128 .f32} {a8 : FVec Ideal S128 .f32} {a9 a10 : FVec Ideal S128x128 .f32}
    {a11 : FVec Ideal S128x64 .f32} {a12 : FVec Ideal S64 .f32} {a13 a14 : FVec Ideal S128x64 .f32}
    {a15 a16 a17 a18 : FVec Ideal S128 .f32}
    (h : Cert.Pre_finite_inputs.fn (F := Ideal) a0 a1 a2 a3 a4 a5 a6 a7 a8 a9 a10 a11 a12 a13 a14 a15 a16 a17 a18 = (fun _ => 1#1)) :
    (∀ i, IsReal (a0 i)) ∧ (∀ i, IsReal (a3 i)) ∧ (∀ i, IsReal (a4 i)) ∧ (∀ i, IsReal (a5 i)) ∧ (∀ i, IsReal (a6 i)) ∧
    (∀ i, IsReal (a7 i)) ∧ (∀ i, IsReal (a8 i)) ∧ (∀ i, IsReal (a9 i)) ∧ (∀ i, IsReal (a10 i)) ∧ (∀ i, IsReal (a11 i)) ∧
    (∀ i, IsReal (a12 i)) ∧ (∀ i, IsReal (a13 i)) ∧ (∀ i, IsReal (a14 i)) ∧ (∀ i, IsReal (a15 i)) ∧ (∀ i, IsReal (a16 i)) ∧
    (∀ i, IsReal (a17 i)) ∧ (∀ i, IsReal (a18 i)) :=
  real_of_pre a0 a1 a2 a3 a4 a5 a6 a7 a8 a9 a10 a11 a12 a13 a14 a15 a16 a17 a18 h

end Cert.PreReal

end
-- ==== Proof.lean ====
/-
  A three-layer mean-aggregating graph network with batch normalisation after the first two layers, on 50000 nodes and
  800000 edges: the device program (five kernel regions among host stretches) against the plain host program.

  FRAMES.  Each kernel region's body is run at a symbolic grid point (three kinds of point for the two regions that
  accumulate column statistics in scratch rows: the first, a middle, the last), which gives every region its proof data
  and body obligation; the run is assembled from the host stretches and the five regions, and every final memory holds
  each unscoped buffer at the fold of @main through the launch memory.  No stretch and no region writes an argument.
  The host program's frame is its run with the result dropped.

  VALUES.  At the exact-real instance each region's output arrays are whole-array functions of the arrays the region
  finds: the linear stage A · Wl + X · Wc + b, its column sums and column sums of squares (the sums over the 25 blocks
  of the blocks' sums), and the normalising stage.  Reading the fold back through the host stretches gives the result
  as one term of the arguments.  That term equals the host program's result when every float argument is finite:
  dividing a row sum by the in-degree d ≥ 1 is multiplying by 1/d; X · (Wr + Ws) = X · Wr + X · Ws over the reals; and
  the mean of the squares less the square of the mean is the mean of the squared deviations.  The finiteness comes
  from the precondition, entry by entry.
-/
import proofs.«126844_j8246337208554_1_alg».proof.Defs
import proofs.«126844_j8246337208554_1_alg».proof.Proof.Gen.Kernel
import proofs.«126844_j8246337208554_1_alg».proof.Proof.Gen.KernelIdeal
import proofs.«126844_j8246337208554_1_alg».proof.Proof.Gen.ReferenceIdeal
import proofs.«126844_j8246337208554_1_alg».proof.Proof.Gen.Pre_finite_inputs
import proofs.«126844_j8246337208554_1_alg».proof.Proof.K.Records
import proofs.«126844_j8246337208554_1_alg».proof.Proof.KI.Records
import proofs.«126844_j8246337208554_1_alg».proof.Proof.KI.HostRead
import proofs.«126844_j8246337208554_1_alg».proof.Proof.KI.Val0H
import proofs.«126844_j8246337208554_1_alg».proof.Proof.KI.Val0S
import proofs.«126844_j8246337208554_1_alg».proof.Proof.KI.Val1
import proofs.«126844_j8246337208554_1_alg».proof.Proof.KI.Val2H
import proofs.«126844_j8246337208554_1_alg».proof.Proof.KI.Val2S
import proofs.«126844_j8246337208554_1_alg».proof.Proof.KI.Val3
import proofs.«126844_j8246337208554_1_alg».proof.Proof.KI.Val4
import proofs.«126844_j8246337208554_1_alg».proof.Proof.RefRead
import proofs.«126844_j8246337208554_1_alg».proof.Proof.BridgeRef
import proofs.«126844_j8246337208554_1_alg».proof.Proof.PreReal
import Idealize.ShloMosaic.Adequacy
import Idealize.ShloMosaic.Init

set_option maxRecDepth 16384

noncomputable section

namespace Cert.Proof

open Idealize.ShloMosaic Idealize.ShloMosaic.TcCoe Idealize.SL.Sem

/-- The word-level program runs to the end and leaves its arguments as launched. -/
theorem frame_k : Cert.frame_Kernel := fun m ρ _ =>
  Cert.Kernel.Hand.frame_all Cert.Kernel.Hand.rec0 Cert.Kernel.Hand.rec1 Cert.Kernel.Hand.rec2 Cert.Kernel.Hand.rec3 Cert.Kernel.Hand.rec4 m ρ

/-- So does the idealized program. -/
theorem frame_ki : Cert.frame_KernelIdeal := fun m ρ _ =>
  Cert.KernelIdeal.Hand.frame_all Cert.KernelIdeal.Hand.rec0 Cert.KernelIdeal.Hand.rec1 Cert.KernelIdeal.Hand.rec2 Cert.KernelIdeal.Hand.rec3 Cert.KernelIdeal.Hand.rec4 m ρ

/-- The host program's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- What each region leaves in its output arrays, as whole-array functions of what it finds: the linear stage with its
    column sums and column sums of squares (regions 0 and 2), the normalising stage (regions 1 and 3), the last linear
    stage (region 4). -/
theorem regionValues : Cert.KernelIdeal.HandVal.RegionValues Cert.KernelIdeal.Hand.rec0 Cert.KernelIdeal.Hand.rec1 Cert.KernelIdeal.Hand.rec2 Cert.KernelIdeal.Hand.rec3 Cert.KernelIdeal.Hand.rec4 :=
  ⟨fun V c => Cert.KernelIdeal.HandVal.final0_5 V c, fun V c => Cert.KernelIdeal.HandVal.final0_6 V c, fun V c => Cert.KernelIdeal.HandVal.final0_7 V c,
    fun V c => Cert.KernelIdeal.HandVal.final1 V c,
    fun V c => Cert.KernelIdeal.HandVal.final2_5 V c, fun V c => Cert.KernelIdeal.HandVal.final2_6 V c, fun V c => Cert.KernelIdeal.HandVal.final2_7 V c,
    fun V c => Cert.KernelIdeal.HandVal.final3 V c, fun V c => Cert.KernelIdeal.HandVal.final4 V c⟩

/-- What the assembled run gives on a core: the result at the device program's term, every argument as launched. -/
theorem kernel_post (m : (ℓ : Loc Cert.KernelIdeal.nD Cert.KernelIdeal.τ Cert.KernelIdeal.sig) → Buf (Elt Ideal) ℓ)
    (mem : (ℓ : Loc Cert.KernelIdeal.nD Cert.KernelIdeal.τ Cert.KernelIdeal.sig) → Buf (Elt Ideal) ℓ) (c : Dev Cert.KernelIdeal.nD)
    (h : ∀ b ∈ Pipeline.ucRefs Cert.KernelIdeal.τ Cert.KernelIdeal.sig,
      mem ((c : Thread Cert.KernelIdeal.nD Cert.KernelIdeal.τ).1, b) = Cert.KernelIdeal.Hand.W10 Cert.KernelIdeal.Hand.rec0 Cert.KernelIdeal.Hand.rec1 Cert.KernelIdeal.Hand.rec2 Cert.KernelIdeal.Hand.rec3 Cert.KernelIdeal.Hand.rec4 m c b) :
    mem ((c.tc : Thread Cert.KernelIdeal.nD Cert.KernelIdeal.τ).loc Cert.KernelIdeal.main_v71)
        = Cert.KernelIdeal.Spec.kerTerm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))
      ∧ mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ mem ((c.tc : Thread Cert.KernelIdeal.nD Cert.KernelIdeal.τ).loc Cert.KernelIdeal.main_arg18) = m ((c.tc : Thread Cert.KernelIdeal.nD Cert.KernelIdeal.τ).loc Cert.KernelIdeal.main_arg18) :=
  ⟨(h _ (Cert.KernelIdeal.Hand.mem_uc Cert.KernelIdeal.main_v71 (by decide))).trans
      (Cert.KernelIdeal.HandVal.result_eq_kerTerm_of Cert.KernelIdeal.Hand.rec0 Cert.KernelIdeal.Hand.rec1 Cert.KernelIdeal.Hand.rec2 Cert.KernelIdeal.Hand.rec3 Cert.KernelIdeal.Hand.rec4 m regionValues c),
    (h _ (Cert.KernelIdeal.Hand.mem_uc Cert.KernelIdeal.main_arg0 (by decide))).trans (Cert.KernelIdeal.Hand.W10_main_arg0 Cert.KernelIdeal.Hand.rec0 Cert.KernelIdeal.Hand.rec1 Cert.KernelIdeal.Hand.rec2 Cert.KernelIdeal.Hand.rec3 Cert.KernelIdeal.Hand.rec4 m c),
    (h _ (Cert.KernelIdeal.Hand.mem_uc Cert.KernelIdeal.main_arg1 (by decide))).trans (Cert.KernelIdeal.Hand.W10_main_arg1 Cert.KernelIdeal.Hand.rec0 Cert.KernelIdeal.Hand.rec1 Cert.KernelIdeal.Hand.rec2 Cert.KernelIdeal.Hand.rec3 Cert.KernelIdeal.Hand.rec4 m c),
    (h _ (Cert.KernelIdeal.Hand.mem_uc Cert.KernelIdeal.main_arg2 (by decide))).trans (Cert.KernelIdeal.Hand.W10_main_arg2 Cert.KernelIdeal.Hand.rec0 Cert.KernelIdeal.Hand.rec1 Cert.KernelIdeal.Hand.rec2 Cert.KernelIdeal.Hand.rec3 Cert.KernelIdeal.Hand.rec4 m c),
    (h _ (Cert.KernelIdeal.Hand.mem_uc Cert.KernelIdeal.main_arg3 (by decide))).trans (Cert.KernelIdeal.Hand.W10_main_arg3 Cert.KernelIdeal.Hand.rec0 Cert.KernelIdeal.Hand.rec1 Cert.KernelIdeal.Hand.rec2 Cert.KernelIdeal.Hand.rec3 Cert.KernelIdeal.Hand.rec4 m c),
    (h _ (Cert.KernelIdeal.Hand.mem_uc Cert.KernelIdeal.main_arg4 (by decide))).trans (Cert.KernelIdeal.Hand.W10_main_arg4 Cert.KernelIdeal.Hand.rec0 Cert.KernelIdeal.Hand.rec1 Cert.KernelIdeal.Hand.rec2 Cert.KernelIdeal.Hand.rec3 Cert.KernelIdeal.Hand.rec4 m c),
    (h _ (Cert.KernelIdeal.Hand.mem_uc Cert.KernelIdeal.main_arg5 (by decide))).trans (Cert.KernelIdeal.Hand.W10_main_arg5 Cert.KernelIdeal.Hand.rec0 Cert.KernelIdeal.Hand.rec1 Cert.KernelIdeal.Hand.rec2 Cert.KernelIdeal.Hand.rec3 Cert.KernelIdeal.Hand.rec4 m c),
    (h _ (Cert.KernelIdeal.Hand.mem_uc Cert.KernelIdeal.main_arg6 (by decide))).trans (Cert.KernelIdeal.Hand.W10_main_arg6 Cert.KernelIdeal.Hand.rec0 Cert.KernelIdeal.Hand.rec1 Cert.KernelIdeal.Hand.rec2 Cert.KernelIdeal.Hand.rec3 Cert.KernelIdeal.Hand.rec4 m c),
    (h _ (Cert.KernelIdeal.Hand.mem_uc Cert.KernelIdeal.main_arg7 (by decide))).trans (Cert.KernelIdeal.Hand.W10_main_arg7 Cert.KernelIdeal.Hand.rec0 Cert.KernelIdeal.Hand.rec1 Cert.KernelIdeal.Hand.rec2 Cert.KernelIdeal.Hand.rec3 Cert.KernelIdeal.Hand.rec4 m c),
    (h _ (Cert.KernelIdeal.Hand.mem_uc Cert.KernelIdeal.main_arg8 (by decide))).trans (Cert.KernelIdeal.Hand.W10_main_arg8 Cert.KernelIdeal.Hand.rec0 Cert.KernelIdeal.Hand.rec1 Cert.KernelIdeal.Hand.rec2 Cert.KernelIdeal.Hand.rec3 Cert.KernelIdeal.Hand.rec4 m c),
    (h _ (Cert.KernelIdeal.Hand.mem_uc Cert.KernelIdeal.main_arg9 (by decide))).trans (Cert.KernelIdeal.Hand.W10_main_arg9 Cert.KernelIdeal.Hand.rec0 Cert.KernelIdeal.Hand.rec1 Cert.KernelIdeal.Hand.rec2 Cert.KernelIdeal.Hand.rec3 Cert.KernelIdeal.Hand.rec4 m c),
    (h _ (Cert.KernelIdeal.Hand.mem_uc Cert.KernelIdeal.main_arg10 (by decide))).trans (Cert.KernelIdeal.Hand.W10_main_arg10 Cert.KernelIdeal.Hand.rec0 Cert.KernelIdeal.Hand.rec1 Cert.KernelIdeal.Hand.rec2 Cert.KernelIdeal.Hand.rec3 Cert.KernelIdeal.Hand.rec4 m c),
    (h _ (Cert.KernelIdeal.Hand.mem_uc Cert.KernelIdeal.main_arg11 (by decide))).trans (Cert.KernelIdeal.Hand.W10_main_arg11 Cert.KernelIdeal.Hand.rec0 Cert.KernelIdeal.Hand.rec1 Cert.KernelIdeal.Hand.rec2 Cert.KernelIdeal.Hand.rec3 Cert.KernelIdeal.Hand.rec4 m c),
    (h _ (Cert.KernelIdeal.Hand.mem_uc Cert.KernelIdeal.main_arg12 (by decide))).trans (Cert.KernelIdeal.Hand.W10_main_arg12 Cert.KernelIdeal.Hand.rec0 Cert.KernelIdeal.Hand.rec1 Cert.KernelIdeal.Hand.rec2 Cert.KernelIdeal.Hand.rec3 Cert.KernelIdeal.Hand.rec4 m c),
    (h _ (Cert.KernelIdeal.Hand.mem_uc Cert.KernelIdeal.main_arg13 (by decide))).trans (Cert.KernelIdeal.Hand.W10_main_arg13 Cert.KernelIdeal.Hand.rec0 Cert.KernelIdeal.Hand.rec1 Cert.KernelIdeal.Hand.rec2 Cert.KernelIdeal.Hand.rec3 Cert.KernelIdeal.Hand.rec4 m c),
    (h _ (Cert.KernelIdeal.Hand.mem_uc Cert.KernelIdeal.main_arg14 (by decide))).trans (Cert.KernelIdeal.Hand.W10_main_arg14 Cert.KernelIdeal.Hand.rec0 Cert.KernelIdeal.Hand.rec1 Cert.KernelIdeal.Hand.rec2 Cert.KernelIdeal.Hand.rec3 Cert.KernelIdeal.Hand.rec4 m c),
    (h _ (Cert.KernelIdeal.Hand.mem_uc Cert.KernelIdeal.main_arg15 (by decide))).trans (Cert.KernelIdeal.Hand.W10_main_arg15 Cert.KernelIdeal.Hand.rec0 Cert.KernelIdeal.Hand.rec1 Cert.KernelIdeal.Hand.rec2 Cert.KernelIdeal.Hand.rec3 Cert.KernelIdeal.Hand.rec4 m c),
    (h _ (Cert.KernelIdeal.Hand.mem_uc Cert.KernelIdeal.main_arg16 (by decide))).trans (Cert.KernelIdeal.Hand.W10_main_arg16 Cert.KernelIdeal.Hand.rec0 Cert.KernelIdeal.Hand.rec1 Cert.KernelIdeal.Hand.rec2 Cert.KernelIdeal.Hand.rec3 Cert.KernelIdeal.Hand.rec4 m c),
    (h _ (Cert.KernelIdeal.Hand.mem_uc Cert.KernelIdeal.main_arg17 (by decide))).trans (Cert.KernelIdeal.Hand.W10_main_arg17 Cert.KernelIdeal.Hand.rec0 Cert.KernelIdeal.Hand.rec1 Cert.KernelIdeal.Hand.rec2 Cert.KernelIdeal.Hand.rec3 Cert.KernelIdeal.Hand.rec4 m c),
    (h _ (Cert.KernelIdeal.Hand.mem_uc Cert.KernelIdeal.main_arg18 (by decide))).trans (Cert.KernelIdeal.Hand.W10_main_arg18 Cert.KernelIdeal.Hand.rec0 Cert.KernelIdeal.Hand.rec1 Cert.KernelIdeal.Hand.rec2 Cert.KernelIdeal.Hand.rec3 Cert.KernelIdeal.Hand.rec4 m c)⟩

set_option maxHeartbeats 4000000 in
/-- From memories agreeing on the arguments, of which the precondition holds, both idealized programs end with the same
    result: the device program's term equals the host program's because every float argument is finite. -/
theorem algebraic : Cert.algebraic_KernelIdeal_ReferenceIdeal := by
  intro m ρ m' ρ' hpre hagree
  refine ⟨fun c => Cert.KernelIdeal.Spec.kerTerm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono (fun r h c => kernel_post m r.2.mem c (h c))
      (Cert.KernelIdeal.Hand.run_all Cert.KernelIdeal.Hand.rec0 Cert.KernelIdeal.Hand.rec1 Cert.KernelIdeal.Hand.rec2 Cert.KernelIdeal.Hand.rec3 Cert.KernelIdeal.Hand.rec4 m ρ)
  · refine (θ_run Cert.ReferenceIdeal.defs _ _).mono (fun r h c => ⟨?_, (h c).2⟩)
      (Cert.ReferenceIdeal.Value.run (F := Ideal) m' ρ')
    obtain ⟨h0, h3, h4, h5, h6, h7, h8, h9, h10, h11, h12, h13, h14, h15, h16, h17, h18⟩ := Cert.PreReal.real_of_pre' (hpre c)
    rw [(h c).1, Cert.ReferenceIdeal.Read.val_main_v134_eq]
    obtain ⟨e0, e1, e2, e3, e4, e5, e6, e7, e8, e9, e10, e11, e12, e13, e14, e15, e16, e17, e18⟩ := hagree c
    rw [e0, e1, e2, e3, e4, e5, e6, e7, e8, e9, e10, e11, e12, e13, e14, e15, e16, e17, e18]
    exact (Cert.Bridge.kerTerm_eq_ref _ _ _ _ _ _ _ _ _ _ _ _ _ _ _ _ _ _ _ h0 h3 h4 h5 h6 h7 h8 h9 h10 h11 h12 h13 h14 h15 h16 h17 h18).symm

/-- Everything the certificate claims. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
